-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩
abbrev S4096 : Shape := ⟨1, ![4096]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  reducesTo_S4096x1024_S4096_d1 : S4096x1024.ReducesTo [1] S4096
  bcast_S_S4096 : S_.BroadcastsInDim S4096 (![] : Fin 0 → Fin S4096.rank)
  reducesTo_S4096_S_d0 : S4096.ReducesTo [0] S_

variable [Facts]

def fn_part1 {F : FTy → Type} [FloatOps F] (main_v14 : IVec S_ 1) (main_v15 : FVec F S4096x1024 .f32) (main_cst_5 : FVec F S_ .f32) : IVec S_ 1 :=
  let main_v16 : FVec F S4096 .f32 := (fun x v => Host.reduceAdd x v reducesTo_S4096x1024_S4096_d1 h_S_) main_v15 main_cst_5
  let main_cst_6 : FVec F S_ .f32 := constant S_ .f32 0x00000000#32
  let main_v17 : FVec F S4096 .f32 := broadcastInDim S4096 ![] bcast_S_S4096 main_cst_6
  let main_v18 : IVec S4096 1 := cmpf .ogt main_v16 main_v17
  let main_c_7 : IVec S_ 1 := constantI S_ 1 1#1
  let main_v19 : IVec S_ 1 := (fun x v => Host.reduce IntOp.andi x v reducesTo_S4096_S_d0 h_S_) main_v18 main_c_7
  let main_v20 : IVec S_ 1 := andi main_v14 main_v19
  main_v20

def fn {F : FTy → Type} [FloatOps F] (main_arg0 : FVec F S4096x1024 .f32) (main_arg1 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := mulf main_arg0 main_arg0
  let main_cst_2 : FVec F S_ .f32 := constant S_ .f32 0x00000000#32
  let main_v10 : FVec F S4096 .f32 := (fun x v => Host.reduceAdd x v reducesTo_S4096x1024_S4096_d1 h_S_) main_v9 main_cst_2
  let main_cst_3 : FVec F S_ .f32 := constant S_ .f32 0x00000000#32
  let main_v11 : FVec F S4096 .f32 := broadcastInDim S4096 ![] bcast_S_S4096 main_cst_3
  let main_v12 : IVec S4096 1 := cmpf .ogt main_v10 main_v11
  let main_c_4 : IVec S_ 1 := constantI S_ 1 1#1
  let main_v13 : IVec S_ 1 := (fun x v => Host.reduce IntOp.andi x v reducesTo_S4096_S_d0 h_S_) main_v12 main_c_4
  let main_v14 : IVec S_ 1 := andi main_v8 main_v13
  let main_v15 : FVec F S4096x1024 .f32 := mulf main_arg1 main_arg1
  let main_cst_5 : FVec F S_ .f32 := constant S_ .f32 0x00000000#32
  fn_part1 (F := F) main_v14 main_v15 main_cst_5
-- ==== Kernel.lean ====
abbrev S4096x1024 : Shape := ⟨2, ![4096, 1024]⟩
abbrev S4096x1 : Shape := ⟨2, ![4096, 1]⟩
abbrev S1024x1024 : Shape := ⟨2, ![1024, 1024]⟩
abbrev S1024x1 : Shape := ⟨2, ![1024, 1]⟩
abbrev S1024 : Shape := ⟨1, ![1024]⟩
abbrev S_ : Shape := ⟨0, ![]⟩

abbrev nBuf : Space → Nat
  | .hbm => 10
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S4096x1, .f32⟩
  | .hbm, ⟨5, _⟩ => ⟨S4096x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1, .f32⟩
  | .local _ .vmem, ⟨9, _⟩ => ⟨S1024x1, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | .local _ .vmem, ⟨18, _⟩ => ⟨S1024x1, .f32⟩
  | .local _ .vmem, ⟨19, _⟩ => ⟨S1024x1, .f32⟩
  | .local _ .vmem, ⟨20, _⟩ => ⟨S1024x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 4], ![false, false]⟩

def k1_cond4 (i : grid1.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_9 : BitVec 32 := 0#32
  let v22 : BitVec 1 := Scalar.cmpi .ne v21 c0_i32_9
  v22

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  inb_S1024x1_S1024x1_0_0 : ∀ a, (![0, 0] : Fin 2 → Nat) a + S1024x1.size a ≤ S1024x1.size a
  h_S1024x1 : 0 < S1024x1.numel
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S1024x1_S1024x1 : S1024x1.ShapeCasts S1024x1
  shapeCasts_S1024x1024_S1024x1024 : S1024x1024.ShapeCasts S1024x1024
  iota_S1024x1024_d0_w32 : S1024x1024.Iotas .tc 32 [0]
  iota_S1024x1024_d1_w32 : S1024x1024.Iotas .tc 32 [1]
  reducesTo_S4096x1_S_d0_1 : S4096x1.ReducesTo [0, 1] S_
  h_S_ : 0 < S_.numel
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .f32 = 32 ∨ (Rect.block (s := S4096x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x1024.size a
  hwx0_2 : ∀ i : grid0.Coords, EltTy.bits .bf16 = 32 ∨ (Rect.block (s := S4096x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .bf16 = 32 ∨ (Rect.block (s := S4096x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .bf16 = 32 ∨ (Rect.block (s := S4096x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x1024.size a
  hwx1_1 : ∀ i : grid1.Coords, EltTy.bits .bf16 = 32 ∨ (Rect.block (s := S4096x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S4096x1.size a
  hwx1_2 : ∀ i : grid1.Coords, EltTy.bits .f32 = 32 ∨ (Rect.block (s := S4096x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S4096x1.size a
  hwx1_3 : ∀ i : grid1.Coords, EltTy.bits .f32 = 32 ∨ (Rect.block (s := S4096x1) S1024x1.size (cc1_transform_3 i) (hinb1_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond4 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .i32⟩
  | .hbm, ⟨27, _⟩ => ⟨S4096x4096, .i32⟩
  | .hbm, ⟨28, _⟩ => ⟨S_, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S4096x4096, .i1⟩
  | .hbm, ⟨33, _⟩ => ⟨S4096x1, .f32⟩
  | .hbm, ⟨34, _⟩ => ⟨S4096x4096, .f32⟩
  | .hbm, ⟨35, _⟩ => ⟨S4096x4096, .i1⟩
  | .hbm, ⟨36, _⟩ => ⟨S4096x4096, .i1⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x4096, .f32⟩
  | .hbm, ⟨41, _⟩ => ⟨S4096x4096, .i1⟩
  | .hbm, ⟨42, _⟩ => ⟨S4096x4096, .i1⟩
  | .hbm, ⟨43, _⟩ => ⟨S4096x4096, .i32⟩
  | .hbm, ⟨44, _⟩ => ⟨S_, .i32⟩
  | .hbm, ⟨45, _⟩ => ⟨S4096, .i32⟩
  | .hbm, ⟨46, _⟩ => ⟨S_, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S_, .i32⟩
  | .hbm, ⟨53, _⟩ => ⟨S4096, .i32⟩
  | .hbm, ⟨54, _⟩ => ⟨S4096, .i32⟩
  | .hbm, ⟨55, _⟩ => ⟨S4096, .f32⟩
  | .hbm, ⟨56, _⟩ => ⟨S4096, .f32⟩
  | .hbm, ⟨57, _⟩ => ⟨S_, .f32⟩
  | .hbm, ⟨58, _⟩ => ⟨S_, .f32⟩
  | .hbm, ⟨59, _⟩ => ⟨S4096x4096, .f32⟩
  | .hbm, ⟨60, _⟩ => ⟨S4096x4096, .f32⟩
  | .hbm, ⟨61, _⟩ => ⟨S_, .f32⟩
  | .hbm, ⟨62, _⟩ => ⟨S4096, .f32⟩
  | .hbm, ⟨63, _⟩ => ⟨S_, .i32⟩
  | .hbm, ⟨64, _⟩ => ⟨S4096, .i32⟩
  | .hbm, ⟨65, _⟩ => ⟨S4096, .i1⟩
  | .hbm, ⟨66, _⟩ => ⟨S4096, .f32⟩
  | .hbm, ⟨67, _⟩ => ⟨S4096, .f32⟩
  | .hbm, ⟨68, _⟩ => ⟨S_, .f32⟩
  | .hbm, ⟨69, _⟩ => ⟨S4096, .f32⟩
  | .hbm, ⟨70, _⟩ => ⟨S4096, .f32⟩
  | .hbm, ⟨71, _⟩ => ⟨S_, .f32⟩
  | .hbm, ⟨72, _⟩ => ⟨S4096, .f32⟩
  | .hbm, ⟨73, _⟩ => ⟨S4096, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_3 : Ref sig .tc := ⟨.hbm, 44, rfl⟩
abbrev main_v29 : Ref sig .tc := ⟨.hbm, 45, rfl⟩
abbrev main_cst_4 : Ref sig .tc := ⟨.hbm, 46, rfl⟩
abbrev main_call2_v0 : Ref sig .tc := ⟨.hbm, 47, rfl⟩
abbrev main_call2_v1 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_call3_v0 : Ref sig .tc := ⟨.hbm, 58, rfl⟩
abbrev main_call3_v1 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_c_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_v43 : Ref sig .tc := ⟨.hbm, 70, rfl⟩
abbrev main_call5_cst : Ref sig .tc := ⟨.hbm, 71, rfl⟩
abbrev main_call5_v0 : Ref sig .tc := ⟨.hbm, 72, rfl⟩
abbrev main_v44 : Ref sig .tc := ⟨.hbm, 73, rfl⟩
abbrev main_cst_11 : Ref sig .tc := ⟨.hbm, 74, rfl⟩
abbrev main_v45 : Ref sig .tc := ⟨.hbm, 75, rfl⟩
abbrev main_cst_12 : Ref sig .tc := ⟨.hbm, 76, rfl⟩
abbrev main_v46 : Ref sig .tc := ⟨.hbm, 77, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  bcast_S_S4096 : S_.BroadcastsInDim S4096 (![] : Fin 0 → Fin S4096.rank)
  bcast_S_S4096x4096 : S_.BroadcastsInDim S4096x4096 (![] : Fin 0 → Fin S4096x4096.rank)
  bcast_S4096x1_S4096x4096_0_1 : S4096x1.BroadcastsInDim S4096x4096 (![0, 1] : Fin 2 → Fin S4096x4096.rank)
  bcast_S_S4096x1 : S_.BroadcastsInDim S4096x1 (![] : Fin 0 → Fin S4096x1.rank)
  natLt_1_32 : 1 < 32
  reducesTo_S4096x4096_S4096_d1 : S4096x4096.ReducesTo [1] S4096
  reducesTo_S4096_S_d0 : S4096.ReducesTo [0] S_
  dot_S4096x1024_S4096x1024_S4096x4096_1_1_0_0_n_n_wf : DotDims.WF S4096x1024 S4096x1024 S4096x4096 [1] [1] [0] [0] [] []

variable [Facts₀]

def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf

class Facts : Prop extends Facts₀ where

variable [Facts]
-- ==== Proof.KBConds1.lean ====
import proofs.«132504_j386547057031_2_alg».proof.Proof.Gen.Kernel.Launch
import proofs.«132504_j386547057031_2_alg».proof.Proof.Gen.Kernel.Skeleton
import proofs.«132504_j386547057031_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second region's branch conditions over its 4 × 4 grid

The body of the second kernel runs at the points `(i, j)`, `j` innermost. It resets its three running
columns when `j = 0`, treats the block on the diagonal (`j = i`) and the blocks off it (`j ≠ i`) by two
separate branches, and writes the row losses when `j = 3`. -/

/-- `j = 0`: the running sum, count and minimum are reset. -/
abbrev cond1_1 (i : grid1.Coords) : Prop :=
  (Scalar.cmpi .ne (Scalar.extui (Scalar.cmpi .eq (BitVec.ofNat 32 (i 1).val) 0#32)) 0#32) = 1#1
/-- `j = i`: the block meets the diagonal. -/
abbrev cond1_2 (i : grid1.Coords) : Prop :=
  (Scalar.cmpi .ne (Scalar.extui (Scalar.cmpi .eq (BitVec.ofNat 32 (i 1).val) (BitVec.ofNat 32 (i 0).val))) 0#32) = 1#1
/-- `j ≠ i`: the block lies off the diagonal. -/
abbrev cond1_3 (i : grid1.Coords) : Prop :=
  (Scalar.cmpi .ne (Scalar.extui (Scalar.cmpi .ne (BitVec.ofNat 32 (i 1).val) (BitVec.ofNat 32 (i 0).val))) 0#32) = 1#1
/-- `j = 3`: the last block of the row; the losses are written. -/
abbrev cond1_4 (i : grid1.Coords) : Prop := k1_cond4 i = 1#1

theorem hcond1_1 : ∀ t : Fin cfg1.N, cond1_1 (grid1.coords t) ↔ t.val % 4 = 0 :=
  (by decide +kernel : ∀ t : Fin grid1.N, cond1_1 (grid1.coords t) ↔ t.val % 4 = 0)
theorem hcond1_2 : ∀ t : Fin cfg1.N, cond1_2 (grid1.coords t) ↔ t.val % 4 = t.val / 4 :=
  (by decide +kernel : ∀ t : Fin grid1.N, cond1_2 (grid1.coords t) ↔ t.val % 4 = t.val / 4)
theorem hcond1_3 : ∀ t : Fin cfg1.N, cond1_3 (grid1.coords t) ↔ t.val % 4 ≠ t.val / 4 :=
  (by decide +kernel : ∀ t : Fin grid1.N, cond1_3 (grid1.coords t) ↔ t.val % 4 ≠ t.val / 4)
theorem hcond1_4 : ∀ t : Fin cfg1.N, cond1_4 (grid1.coords t) ↔ t.val % 4 = 3 :=
  (by decide +kernel : ∀ t : Fin grid1.N, cond1_4 (grid1.coords t) ↔ t.val % 4 = 3)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last block of a row the loss window is idle and is not written back. -/
theorem idleAt1_3 : ∀ t : Fin cfg1.N, ¬cond1_4 (grid1.coords t) → cfg1.idle 3 (grid1.coords t) = true := by decide +kernel
theorem noFlush1_3 : ∀ t : Fin cfg1.N, ¬cond1_4 (grid1.coords t) → (cfg1.win 3).flush t = false := by decide +kernel
/-- At the last block of a row it is live. -/
theorem liveAt1_3 : ∀ t : Fin cfg1.N, cond1_4 (grid1.coords t) → cfg1.idle 3 (grid1.coords t) = false := by decide +kernel

/-! ## The staging and scratch memrefs -/

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
/-- The three running columns: sum, count, minimum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1 .f32 := scM1_2.view
abbrev VO1_3 : View sig .tc .vmem S1024x1 .f32 := (Memref.whole cc1_stg3_0 : Memref sig .tc .vmem S1024x1 .f32).view

end Cert.Kernel.Gen

end
-- ==== Proof.KBRun1A.lean ====
/-
  The second kernel's body run in one case of its four branch conditions — the first point of all (row block 0, column block 0): the scratch columns are reset and the block meets the diagonal.
  On whole staging buffers holding the point's three input blocks, and the three scratch columns holding what the point
  before left (anything where the point resets them), the body runs to its end, faults nowhere, keeps the inputs, and
  leaves in each scratch column (and, where it writes the losses, in the output's buffer) the list of its stores,
  found by running it; off the last block of a row the output's buffer is handed back untouched.
-/
import proofs.«132504_j386547057031_2_alg».proof.Proof.KBConds1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : cond1_2 i) (hc3 : ¬cond1_3 i) (hc4 : ¬cond1_4 i)
    (x0 x1 : Vec F S1024x1024 .bf16) (x2 : Vec F S1024x1 .f32) :
    Σ' (LS0 : List (View.Piece (Elt F) S1024x1 .f32)) (LS1 : List (View.Piece (Elt F) S1024x1 .f32)), { LS2 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__triplet_kernel i arg2 harg2 arg3 harg3 arg4 harg4 arg5 harg5 arg6 harg6 arg7 harg7 arg8 harg8) K } := by
  refine ⟨?_, ?_, ?_, fun xi3 E K => ?run⟩
  case run =>
    simp only [cc1__triplet_kernel_eq_skeleton, k1_part1_eq_skeleton]; unfold cc1__triplet_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Gen

end
-- ==== Proof.KBRun1B.lean ====
/-
  The second kernel's body run in one case of its four branch conditions — a block off the diagonal that is neither the first nor the last of its row of blocks.
  On whole staging buffers holding the point's three input blocks, and the three scratch columns holding what the point
  before left (anything where the point resets them), the body runs to its end, faults nowhere, keeps the inputs, and
  leaves in each scratch column (and, where it writes the losses, in the output's buffer) the list of its stores,
  found by running it; off the last block of a row the output's buffer is handed back untouched.
-/
import proofs.«132504_j386547057031_2_alg».proof.Proof.KBConds1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : ¬cond1_4 i)
    (x0 x1 : Vec F S1024x1024 .bf16) (x2 : Vec F S1024x1 .f32) (xs0 xs1 xs2 : Vec F S1024x1 .f32) :
    Σ' (LS0 : List (View.Piece (Elt F) S1024x1 .f32)) (LS1 : List (View.Piece (Elt F) S1024x1 .f32)), { LS2 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__triplet_kernel i arg2 harg2 arg3 harg3 arg4 harg4 arg5 harg5 arg6 harg6 arg7 harg7 arg8 harg8) K } := by
  refine ⟨?_, ?_, ?_, fun xi3 E K => ?run⟩
  case run =>
    simp only [cc1__triplet_kernel_eq_skeleton, k1_part1_eq_skeleton]; unfold cc1__triplet_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Gen

end
-- ==== Proof.KBRun1C.lean ====
/-
  The second kernel's body run in one case of its four branch conditions — the last block of a row of blocks, off the diagonal: the rows' losses are written.
  On whole staging buffers holding the point's three input blocks, and the three scratch columns holding what the point
  before left (anything where the point resets them), the body runs to its end, faults nowhere, keeps the inputs, and
  leaves in each scratch column (and, where it writes the losses, in the output's buffer) the list of its stores,
  found by running it; off the last block of a row the output's buffer is handed back untouched.
-/
import proofs.«132504_j386547057031_2_alg».proof.Proof.KBConds1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : cond1_4 i)
    (x0 x1 : Vec F S1024x1024 .bf16) (x2 : Vec F S1024x1 .f32) (xs0 xs1 xs2 : Vec F S1024x1 .f32) :
    Σ' (L3 : List (View.Piece (Elt F) S1024x1 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__triplet_kernel i arg2 harg2 arg3 harg3 arg4 harg4 arg5 harg5 arg6 harg6 arg7 harg7 arg8 harg8) K } := by
  refine ⟨?_, ?_, ?_, ?_, fun E K => ?run⟩
  case run =>
    simp only [cc1__triplet_kernel_eq_skeleton, k1_part1_eq_skeleton]; unfold cc1__triplet_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Gen

end
-- ==== Proof.KBRun1D.lean ====
/-
  The second kernel's body run in one case of its four branch conditions — the first block of a row of blocks, off the diagonal: the scratch columns are reset.
  On whole staging buffers holding the point's three input blocks, and the three scratch columns holding what the point
  before left (anything where the point resets them), the body runs to its end, faults nowhere, keeps the inputs, and
  leaves in each scratch column (and, where it writes the losses, in the output's buffer) the list of its stores,
  found by running it; off the last block of a row the output's buffer is handed back untouched.
-/
import proofs.«132504_j386547057031_2_alg».proof.Proof.KBConds1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_D (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : ¬cond1_2 i) (hc3 : cond1_3 i) (hc4 : ¬cond1_4 i)
    (x0 x1 : Vec F S1024x1024 .bf16) (x2 : Vec F S1024x1 .f32) :
    Σ' (LS0 : List (View.Piece (Elt F) S1024x1 .f32)) (LS1 : List (View.Piece (Elt F) S1024x1 .f32)), { LS2 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__triplet_kernel i arg2 harg2 arg3 harg3 arg4 harg4 arg5 harg5 arg6 harg6 arg7 harg7 arg8 harg8) K } := by
  refine ⟨?_, ?_, ?_, fun xi3 E K => ?run⟩
  case run =>
    simp only [cc1__triplet_kernel_eq_skeleton, k1_part1_eq_skeleton]; unfold cc1__triplet_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Gen

end
-- ==== Proof.KBRun1E.lean ====
/-
  The second kernel's body run in one case of its four branch conditions — a block on the diagonal that is neither the first nor the last of its row of blocks.
  On whole staging buffers holding the point's three input blocks, and the three scratch columns holding what the point
  before left (anything where the point resets them), the body runs to its end, faults nowhere, keeps the inputs, and
  leaves in each scratch column (and, where it writes the losses, in the output's buffer) the list of its stores,
  found by running it; off the last block of a row the output's buffer is handed back untouched.
-/
import proofs.«132504_j386547057031_2_alg».proof.Proof.KBConds1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_E (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : ¬cond1_4 i)
    (x0 x1 : Vec F S1024x1024 .bf16) (x2 : Vec F S1024x1 .f32) (xs0 xs1 xs2 : Vec F S1024x1 .f32) :
    Σ' (LS0 : List (View.Piece (Elt F) S1024x1 .f32)) (LS1 : List (View.Piece (Elt F) S1024x1 .f32)), { LS2 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__triplet_kernel i arg2 harg2 arg3 harg3 arg4 harg4 arg5 harg5 arg6 harg6 arg7 harg7 arg8 harg8) K } := by
  refine ⟨?_, ?_, ?_, fun xi3 E K => ?run⟩
  case run =>
    simp only [cc1__triplet_kernel_eq_skeleton, k1_part1_eq_skeleton]; unfold cc1__triplet_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Gen

end
-- ==== Proof.KBRun1F.lean ====
/-
  The second kernel's body run in one case of its four branch conditions — the last block of the last row of blocks, on the diagonal: the rows' losses are written.
  On whole staging buffers holding the point's three input blocks, and the three scratch columns holding what the point
  before left (anything where the point resets them), the body runs to its end, faults nowhere, keeps the inputs, and
  leaves in each scratch column (and, where it writes the losses, in the output's buffer) the list of its stores,
  found by running it; off the last block of a row the output's buffer is handed back untouched.
-/
import proofs.«132504_j386547057031_2_alg».proof.Proof.KBConds1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_F (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : cond1_4 i)
    (x0 x1 : Vec F S1024x1024 .bf16) (x2 : Vec F S1024x1 .f32) (xs0 xs1 xs2 : Vec F S1024x1 .f32) :
    Σ' (L3 : List (View.Piece (Elt F) S1024x1 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__triplet_kernel i arg2 harg2 arg3 harg3 arg4 harg4 arg5 harg5 arg6 harg6 arg7 harg7 arg8 harg8) K } := by
  refine ⟨?_, ?_, ?_, ?_, fun E K => ?run⟩
  case run =>
    simp only [cc1__triplet_kernel_eq_skeleton, k1_part1_eq_skeleton]; unfold cc1__triplet_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Gen

end
-- ==== Proof.KBRegion1.lean ====
import proofs.«132504_j386547057031_2_alg».proof.Proof.KBRun1A
import proofs.«132504_j386547057031_2_alg».proof.Proof.KBRun1B
import proofs.«132504_j386547057031_2_alg».proof.Proof.KBRun1C
import proofs.«132504_j386547057031_2_alg».proof.Proof.KBRun1D
import proofs.«132504_j386547057031_2_alg».proof.Proof.KBRun1E
import proofs.«132504_j386547057031_2_alg».proof.Proof.KBRun1F
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region: the row losses accumulated block by block

For every row block `i` the kernel walks the four column blocks `j = 0 … 3`, keeping in three scratch
columns the running sum of semi-hard negative distances, their count, and the running minimum of the
off-diagonal distances; at `j = 3` it writes the rows' losses. What the scratch columns hold after a
point is stated by recursion on the point. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the three scratch columns (and, at the last block, in the loss window) -/

theorem scover1_A_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : cond1_2 i) (hc3 : ¬cond1_3 i) (hc4 : ¬cond1_4 i) (x0 x1 : Vec F S1024x1024 .bf16) (x2 : Vec F S1024x1 .f32) (y : S1024x1.Idx) : ∃ pc ∈ (kernelRun1_A c i arg2 harg2 arg3 harg3 arg4 harg4 arg5 harg5 arg6 harg6 arg7 harg7 arg8 harg8 hc1 hc2 hc3 hc4 x0 x1 x2).1, y ∈ pc.1.set :=
  View.cover_of_tiledL (kernelRun1_A c i arg2 harg2 arg3 harg3 arg4 harg4 arg5 harg5 arg6 harg6 arg7 harg7 arg8 harg8 hc1 hc2 hc3 hc4 x0 x1 x2).1 S1024x1.size (by sl_kernel_rfl) y
def sout1_A_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : cond1_2 i) (hc3 : ¬cond1_3 i) (hc4 : ¬cond1_4 i) (x0 x1 : Vec F S1024x1024 .bf16) (x2 : Vec F S1024x1 .f32) : Vec F S1024x1 .f32 := View.canon (kernelRun1_A c i arg2 harg2 arg3 harg3 arg4 harg4 arg5 harg5 arg6 harg6 arg7 harg7 arg8 harg8 hc1 hc2 hc3 hc4 x0 x1 x2).1

theorem scover1_A_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : cond1_2 i) (hc3 : ¬cond1_3 i) (hc4 : ¬cond1_4 i) (x0 x1 : Vec F S1024x1024 .bf16) (x2 : Vec F S1024x1 .f32) (y : S1024x1.Idx) : ∃ pc ∈ (kernelRun1_A c i arg2 harg2 arg3 harg3 arg4 harg4 arg5 harg5 arg6 harg6 arg7 harg7 arg8 harg8 hc1 hc2 hc3 hc4 x0 x1 x2).2.1, y ∈ pc.1.set :=
  View.cover_of_tiledL (kernelRun1_A c i arg2 harg2 arg3 harg3 arg4 harg4 arg5 harg5 arg6 harg6 arg7 harg7 arg8 harg8 hc1 hc2 hc3 hc4 x0 x1 x2).2.1 S1024x1.size (by sl_kernel_rfl) y
def sout1_A_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : cond1_2 i) (hc3 : ¬cond1_3 i) (hc4 : ¬cond1_4 i) (x0 x1 : Vec F S1024x1024 .bf16) (x2 : Vec F S1024x1 .f32) : Vec F S1024x1 .f32 := View.canon (kernelRun1_A c i arg2 harg2 arg3 harg3 arg4 harg4 arg5 harg5 arg6 harg6 arg7 harg7 arg8 harg8 hc1 hc2 hc3 hc4 x0 x1 x2).2.1

theorem scover1_A_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : cond1_2 i) (hc3 : ¬cond1_3 i) (hc4 : ¬cond1_4 i) (x0 x1 : Vec F S1024x1024 .bf16) (x2 : Vec F S1024x1 .f32) (y : S1024x1.Idx) : ∃ pc ∈ (kernelRun1_A c i arg2 harg2 arg3 harg3 arg4 harg4 arg5 harg5 arg6 harg6 arg7 harg7 arg8 harg8 hc1 hc2 hc3 hc4 x0 x1 x2).2.2.1, y ∈ pc.1.set :=
  View.cover_of_tiledL (kernelRun1_A c i arg2 harg2 arg3 harg3 arg4 harg4 arg5 harg5 arg6 harg6 arg7 harg7 arg8 harg8 hc1 hc2 hc3 hc4 x0 x1 x2).2.2.1 S1024x1.size (by sl_kernel_rfl) y
def sout1_A_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : cond1_2 i) (hc3 : ¬cond1_3 i) (hc4 : ¬cond1_4 i) (x0 x1 : Vec F S1024x1024 .bf16) (x2 : Vec F S1024x1 .f32) : Vec F S1024x1 .f32 := View.canon (kernelRun1_A c i arg2 harg2 arg3 harg3 arg4 harg4 arg5 harg5 arg6 harg6 arg7 harg7 arg8 harg8 hc1 hc2 hc3 hc4 x0 x1 x2).2.2.1

theorem scover1_B_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : ¬cond1_4 i) (x0 x1 : Vec F S1024x1024 .bf16) (x2 : Vec F S1024x1 .f32) (xs0 xs1 xs2 : Vec F S1024x1 .f32) (y : S1024x1.Idx) : ∃ pc ∈ (kernelRun1_B c i arg2 harg2 arg3 harg3 arg4 harg4 arg5 harg5 arg6 harg6 arg7 harg7 arg8 harg8 hc1 hc2 hc3 hc4 x0 x1 x2 xs0 xs1 xs2).1, y ∈ pc.1.set :=
  View.cover_of_tiledL (kernelRun1_B c i arg2 harg2 arg3 harg3 arg4 harg4 arg5 harg5 arg6 harg6 arg7 harg7 arg8 harg8 hc1 hc2 hc3 hc4 x0 x1 x2 xs0 xs1 xs2).1 S1024x1.size (by sl_kernel_rfl) y
def sout1_B_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : ¬cond1_4 i) (x0 x1 : Vec F S1024x1024 .bf16) (x2 : Vec F S1024x1 .f32) (xs0 xs1 xs2 : Vec F S1024x1 .f32) : Vec F S1024x1 .f32 := View.canon (kernelRun1_B c i arg2 harg2 arg3 harg3 arg4 harg4 arg5 harg5 arg6 harg6 arg7 harg7 arg8 harg8 hc1 hc2 hc3 hc4 x0 x1 x2 xs0 xs1 xs2).1

theorem scover1_B_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : ¬cond1_4 i) (x0 x1 : Vec F S1024x1024 .bf16) (x2 : Vec F S1024x1 .f32) (xs0 xs1 xs2 : Vec F S1024x1 .f32) (y : S1024x1.Idx) : ∃ pc ∈ (kernelRun1_B c i arg2 harg2 arg3 harg3 arg4 harg4 arg5 harg5 arg6 harg6 arg7 harg7 arg8 harg8 hc1 hc2 hc3 hc4 x0 x1 x2 xs0 xs1 xs2).2.1, y ∈ pc.1.set :=
  View.cover_of_tiledL (kernelRun1_B c i arg2 harg2 arg3 harg3 arg4 harg4 arg5 harg5 arg6 harg6 arg7 harg7 arg8 harg8 hc1 hc2 hc3 hc4 x0 x1 x2 xs0 xs1 xs2).2.1 S1024x1.size (by sl_kernel_rfl) y
def sout1_B_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : ¬cond1_4 i) (x0 x1 : Vec F S1024x1024 .bf16) (x2 : Vec F S1024x1 .f32) (xs0 xs1 xs2 : Vec F S1024x1 .f32) : Vec F S1024x1 .f32 := View.canon (kernelRun1_B c i arg2 harg2 arg3 harg3 arg4 harg4 arg5 harg5 arg6 harg6 arg7 harg7 arg8 harg8 hc1 hc2 hc3 hc4 x0 x1 x2 xs0 xs1 xs2).2.1

theorem scover1_B_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : ¬cond1_4 i) (x0 x1 : Vec F S1024x1024 .bf16) (x2 : Vec F S1024x1 .f32) (xs0 xs1 xs2 : Vec F S1024x1 .f32) (y : S1024x1.Idx) : ∃ pc ∈ (kernelRun1_B c i arg2 harg2 arg3 harg3 arg4 harg4 arg5 harg5 arg6 harg6 arg7 harg7 arg8 harg8 hc1 hc2 hc3 hc4 x0 x1 x2 xs0 xs1 xs2).2.2.1, y ∈ pc.1.set :=
  View.cover_of_tiledL (kernelRun1_B c i arg2 harg2 arg3 harg3 arg4 harg4 arg5 harg5 arg6 harg6 arg7 harg7 arg8 harg8 hc1 hc2 hc3 hc4 x0 x1 x2 xs0 xs1 xs2).2.2.1 S1024x1.size (by sl_kernel_rfl) y
def sout1_B_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : ¬cond1_4 i) (x0 x1 : Vec F S1024x1024 .bf16) (x2 : Vec F S1024x1 .f32) (xs0 xs1 xs2 : Vec F S1024x1 .f32) : Vec F S1024x1 .f32 := View.canon (kernelRun1_B c i arg2 harg2 arg3 harg3 arg4 harg4 arg5 harg5 arg6 harg6 arg7 harg7 arg8 harg8 hc1 hc2 hc3 hc4 x0 x1 x2 xs0 xs1 xs2).2.2.1

theorem scover1_C_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : cond1_4 i) (x0 x1 : Vec F S1024x1024 .bf16) (x2 : Vec F S1024x1 .f32) (xs0 xs1 xs2 : Vec F S1024x1 .f32) (y : S1024x1.Idx) : ∃ pc ∈ (kernelRun1_C c i arg2 harg2 arg3 harg3 arg4 harg4 arg5 harg5 arg6 harg6 arg7 harg7 arg8 harg8 hc1 hc2 hc3 hc4 x0 x1 x2 xs0 xs1 xs2).2.1, y ∈ pc.1.set :=
  View.cover_of_tiledL (kernelRun1_C c i arg2 harg2 arg3 harg3 arg4 harg4 arg5 harg5 arg6 harg6 arg7 harg7 arg8 harg8 hc1 hc2 hc3 hc4 x0 x1 x2 xs0 xs1 xs2).2.1 S1024x1.size (by sl_kernel_rfl) y
def sout1_C_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : cond1_4 i) (x0 x1 : Vec F S1024x1024 .bf16) (x2 : Vec F S1024x1 .f32) (xs0 xs1 xs2 : Vec F S1024x1 .f32) : Vec F S1024x1 .f32 := View.canon (kernelRun1_C c i arg2 harg2 arg3 harg3 arg4 harg4 arg5 harg5 arg6 harg6 arg7 harg7 arg8 harg8 hc1 hc2 hc3 hc4 x0 x1 x2 xs0 xs1 xs2).2.1

theorem scover1_C_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : cond1_4 i) (x0 x1 : Vec F S1024x1024 .bf16) (x2 : Vec F S1024x1 .f32) (xs0 xs1 xs2 : Vec F S1024x1 .f32) (y : S1024x1.Idx) : ∃ pc ∈ (kernelRun1_C c i arg2 harg2 arg3 harg3 arg4 harg4 arg5 harg5 arg6 harg6 arg7 harg7 arg8 harg8 hc1 hc2 hc3 hc4 x0 x1 x2 xs0 xs1 xs2).2.2.1, y ∈ pc.1.set :=
  View.cover_of_tiledL (kernelRun1_C c i arg2 harg2 arg3 harg3 arg4 harg4 arg5 harg5 arg6 harg6 arg7 harg7 arg8 harg8 hc1 hc2 hc3 hc4 x0 x1 x2 xs0 xs1 xs2).2.2.1 S1024x1.size (by sl_kernel_rfl) y
def sout1_C_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : cond1_4 i) (x0 x1 : Vec F S1024x1024 .bf16) (x2 : Vec F S1024x1 .f32) (xs0 xs1 xs2 : Vec F S1024x1 .f32) : Vec F S1024x1 .f32 := View.canon (kernelRun1_C c i arg2 harg2 arg3 harg3 arg4 harg4 arg5 harg5 arg6 harg6 arg7 harg7 arg8 harg8 hc1 hc2 hc3 hc4 x0 x1 x2 xs0 xs1 xs2).2.2.1

theorem scover1_C_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : cond1_4 i) (x0 x1 : Vec F S1024x1024 .bf16) (x2 : Vec F S1024x1 .f32) (xs0 xs1 xs2 : Vec F S1024x1 .f32) (y : S1024x1.Idx) : ∃ pc ∈ (kernelRun1_C c i arg2 harg2 arg3 harg3 arg4 harg4 arg5 harg5 arg6 harg6 arg7 harg7 arg8 harg8 hc1 hc2 hc3 hc4 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc1 hc2 hc3 hc4 x0 x1 x2 xs0 xs1 xs2).2.2.2.1 S1024x1.size (by sl_kernel_rfl) y
def sout1_C_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : cond1_4 i) (x0 x1 : Vec F S1024x1024 .bf16) (x2 : Vec F S1024x1 .f32) (xs0 xs1 xs2 : Vec F S1024x1 .f32) : Vec F S1024x1 .f32 := View.canon (kernelRun1_C c i arg2 harg2 arg3 harg3 arg4 harg4 arg5 harg5 arg6 harg6 arg7 harg7 arg8 harg8 hc1 hc2 hc3 hc4 x0 x1 x2 xs0 xs1 xs2).2.2.2.1

theorem cover1_C_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : cond1_4 i) (x0 x1 : Vec F S1024x1024 .bf16) (x2 : Vec F S1024x1 .f32) (xs0 xs1 xs2 : Vec F S1024x1 .f32) (y : S1024x1.Idx) : ∃ pc ∈ (kernelRun1_C c i arg2 harg2 arg3 harg3 arg4 harg4 arg5 harg5 arg6 harg6 arg7 harg7 arg8 harg8 hc1 hc2 hc3 hc4 x0 x1 x2 xs0 xs1 xs2).1, y ∈ pc.1.set :=
  View.cover_of_tiledL (kernelRun1_C c i arg2 harg2 arg3 harg3 arg4 harg4 arg5 harg5 arg6 harg6 arg7 harg7 arg8 harg8 hc1 hc2 hc3 hc4 x0 x1 x2 xs0 xs1 xs2).1 S1024x1.size (by sl_kernel_rfl) y
def out1_C_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : cond1_4 i) (x0 x1 : Vec F S1024x1024 .bf16) (x2 : Vec F S1024x1 .f32) (xs0 xs1 xs2 : Vec F S1024x1 .f32) : Vec F S1024x1 .f32 := View.canon (kernelRun1_C c i arg2 harg2 arg3 harg3 arg4 harg4 arg5 harg5 arg6 harg6 arg7 harg7 arg8 harg8 hc1 hc2 hc3 hc4 x0 x1 x2 xs0 xs1 xs2).1

theorem scover1_D_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : ¬cond1_2 i) (hc3 : cond1_3 i) (hc4 : ¬cond1_4 i) (x0 x1 : Vec F S1024x1024 .bf16) (x2 : Vec F S1024x1 .f32) (y : S1024x1.Idx) : ∃ pc ∈ (kernelRun1_D c i arg2 harg2 arg3 harg3 arg4 harg4 arg5 harg5 arg6 harg6 arg7 harg7 arg8 harg8 hc1 hc2 hc3 hc4 x0 x1 x2).1, y ∈ pc.1.set :=
  View.cover_of_tiledL (kernelRun1_D c i arg2 harg2 arg3 harg3 arg4 harg4 arg5 harg5 arg6 harg6 arg7 harg7 arg8 harg8 hc1 hc2 hc3 hc4 x0 x1 x2).1 S1024x1.size (by sl_kernel_rfl) y
def sout1_D_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : ¬cond1_2 i) (hc3 : cond1_3 i) (hc4 : ¬cond1_4 i) (x0 x1 : Vec F S1024x1024 .bf16) (x2 : Vec F S1024x1 .f32) : Vec F S1024x1 .f32 := View.canon (kernelRun1_D c i arg2 harg2 arg3 harg3 arg4 harg4 arg5 harg5 arg6 harg6 arg7 harg7 arg8 harg8 hc1 hc2 hc3 hc4 x0 x1 x2).1

theorem scover1_D_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : ¬cond1_2 i) (hc3 : cond1_3 i) (hc4 : ¬cond1_4 i) (x0 x1 : Vec F S1024x1024 .bf16) (x2 : Vec F S1024x1 .f32) (y : S1024x1.Idx) : ∃ pc ∈ (kernelRun1_D c i arg2 harg2 arg3 harg3 arg4 harg4 arg5 harg5 arg6 harg6 arg7 harg7 arg8 harg8 hc1 hc2 hc3 hc4 x0 x1 x2).2.1, y ∈ pc.1.set :=
  View.cover_of_tiledL (kernelRun1_D c i arg2 harg2 arg3 harg3 arg4 harg4 arg5 harg5 arg6 harg6 arg7 harg7 arg8 harg8 hc1 hc2 hc3 hc4 x0 x1 x2).2.1 S1024x1.size (by sl_kernel_rfl) y
def sout1_D_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : ¬cond1_2 i) (hc3 : cond1_3 i) (hc4 : ¬cond1_4 i) (x0 x1 : Vec F S1024x1024 .bf16) (x2 : Vec F S1024x1 .f32) : Vec F S1024x1 .f32 := View.canon (kernelRun1_D c i arg2 harg2 arg3 harg3 arg4 harg4 arg5 harg5 arg6 harg6 arg7 harg7 arg8 harg8 hc1 hc2 hc3 hc4 x0 x1 x2).2.1

theorem scover1_D_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : ¬cond1_2 i) (hc3 : cond1_3 i) (hc4 : ¬cond1_4 i) (x0 x1 : Vec F S1024x1024 .bf16) (x2 : Vec F S1024x1 .f32) (y : S1024x1.Idx) : ∃ pc ∈ (kernelRun1_D c i arg2 harg2 arg3 harg3 arg4 harg4 arg5 harg5 arg6 harg6 arg7 harg7 arg8 harg8 hc1 hc2 hc3 hc4 x0 x1 x2).2.2.1, y ∈ pc.1.set :=
  View.cover_of_tiledL (kernelRun1_D c i arg2 harg2 arg3 harg3 arg4 harg4 arg5 harg5 arg6 harg6 arg7 harg7 arg8 harg8 hc1 hc2 hc3 hc4 x0 x1 x2).2.2.1 S1024x1.size (by sl_kernel_rfl) y
def sout1_D_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : ¬cond1_2 i) (hc3 : cond1_3 i) (hc4 : ¬cond1_4 i) (x0 x1 : Vec F S1024x1024 .bf16) (x2 : Vec F S1024x1 .f32) : Vec F S1024x1 .f32 := View.canon (kernelRun1_D c i arg2 harg2 arg3 harg3 arg4 harg4 arg5 harg5 arg6 harg6 arg7 harg7 arg8 harg8 hc1 hc2 hc3 hc4 x0 x1 x2).2.2.1

theorem scover1_E_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : ¬cond1_4 i) (x0 x1 : Vec F S1024x1024 .bf16) (x2 : Vec F S1024x1 .f32) (xs0 xs1 xs2 : Vec F S1024x1 .f32) (y : S1024x1.Idx) : ∃ pc ∈ (kernelRun1_E c i arg2 harg2 arg3 harg3 arg4 harg4 arg5 harg5 arg6 harg6 arg7 harg7 arg8 harg8 hc1 hc2 hc3 hc4 x0 x1 x2 xs0 xs1 xs2).1, y ∈ pc.1.set :=
  View.cover_of_tiledL (kernelRun1_E c i arg2 harg2 arg3 harg3 arg4 harg4 arg5 harg5 arg6 harg6 arg7 harg7 arg8 harg8 hc1 hc2 hc3 hc4 x0 x1 x2 xs0 xs1 xs2).1 S1024x1.size (by sl_kernel_rfl) y
def sout1_E_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : ¬cond1_4 i) (x0 x1 : Vec F S1024x1024 .bf16) (x2 : Vec F S1024x1 .f32) (xs0 xs1 xs2 : Vec F S1024x1 .f32) : Vec F S1024x1 .f32 := View.canon (kernelRun1_E c i arg2 harg2 arg3 harg3 arg4 harg4 arg5 harg5 arg6 harg6 arg7 harg7 arg8 harg8 hc1 hc2 hc3 hc4 x0 x1 x2 xs0 xs1 xs2).1

theorem scover1_E_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : ¬cond1_4 i) (x0 x1 : Vec F S1024x1024 .bf16) (x2 : Vec F S1024x1 .f32) (xs0 xs1 xs2 : Vec F S1024x1 .f32) (y : S1024x1.Idx) : ∃ pc ∈ (kernelRun1_E c i arg2 harg2 arg3 harg3 arg4 harg4 arg5 harg5 arg6 harg6 arg7 harg7 arg8 harg8 hc1 hc2 hc3 hc4 x0 x1 x2 xs0 xs1 xs2).2.1, y ∈ pc.1.set :=
  View.cover_of_tiledL (kernelRun1_E c i arg2 harg2 arg3 harg3 arg4 harg4 arg5 harg5 arg6 harg6 arg7 harg7 arg8 harg8 hc1 hc2 hc3 hc4 x0 x1 x2 xs0 xs1 xs2).2.1 S1024x1.size (by sl_kernel_rfl) y
def sout1_E_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : ¬cond1_4 i) (x0 x1 : Vec F S1024x1024 .bf16) (x2 : Vec F S1024x1 .f32) (xs0 xs1 xs2 : Vec F S1024x1 .f32) : Vec F S1024x1 .f32 := View.canon (kernelRun1_E c i arg2 harg2 arg3 harg3 arg4 harg4 arg5 harg5 arg6 harg6 arg7 harg7 arg8 harg8 hc1 hc2 hc3 hc4 x0 x1 x2 xs0 xs1 xs2).2.1

theorem scover1_E_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : ¬cond1_4 i) (x0 x1 : Vec F S1024x1024 .bf16) (x2 : Vec F S1024x1 .f32) (xs0 xs1 xs2 : Vec F S1024x1 .f32) (y : S1024x1.Idx) : ∃ pc ∈ (kernelRun1_E c i arg2 harg2 arg3 harg3 arg4 harg4 arg5 harg5 arg6 harg6 arg7 harg7 arg8 harg8 hc1 hc2 hc3 hc4 x0 x1 x2 xs0 xs1 xs2).2.2.1, y ∈ pc.1.set :=
  View.cover_of_tiledL (kernelRun1_E c i arg2 harg2 arg3 harg3 arg4 harg4 arg5 harg5 arg6 harg6 arg7 harg7 arg8 harg8 hc1 hc2 hc3 hc4 x0 x1 x2 xs0 xs1 xs2).2.2.1 S1024x1.size (by sl_kernel_rfl) y
def sout1_E_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : ¬cond1_4 i) (x0 x1 : Vec F S1024x1024 .bf16) (x2 : Vec F S1024x1 .f32) (xs0 xs1 xs2 : Vec F S1024x1 .f32) : Vec F S1024x1 .f32 := View.canon (kernelRun1_E c i arg2 harg2 arg3 harg3 arg4 harg4 arg5 harg5 arg6 harg6 arg7 harg7 arg8 harg8 hc1 hc2 hc3 hc4 x0 x1 x2 xs0 xs1 xs2).2.2.1

theorem scover1_F_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : cond1_4 i) (x0 x1 : Vec F S1024x1024 .bf16) (x2 : Vec F S1024x1 .f32) (xs0 xs1 xs2 : Vec F S1024x1 .f32) (y : S1024x1.Idx) : ∃ pc ∈ (kernelRun1_F c i arg2 harg2 arg3 harg3 arg4 harg4 arg5 harg5 arg6 harg6 arg7 harg7 arg8 harg8 hc1 hc2 hc3 hc4 x0 x1 x2 xs0 xs1 xs2).2.1, y ∈ pc.1.set :=
  View.cover_of_tiledL (kernelRun1_F c i arg2 harg2 arg3 harg3 arg4 harg4 arg5 harg5 arg6 harg6 arg7 harg7 arg8 harg8 hc1 hc2 hc3 hc4 x0 x1 x2 xs0 xs1 xs2).2.1 S1024x1.size (by sl_kernel_rfl) y
def sout1_F_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : cond1_4 i) (x0 x1 : Vec F S1024x1024 .bf16) (x2 : Vec F S1024x1 .f32) (xs0 xs1 xs2 : Vec F S1024x1 .f32) : Vec F S1024x1 .f32 := View.canon (kernelRun1_F c i arg2 harg2 arg3 harg3 arg4 harg4 arg5 harg5 arg6 harg6 arg7 harg7 arg8 harg8 hc1 hc2 hc3 hc4 x0 x1 x2 xs0 xs1 xs2).2.1

theorem scover1_F_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : cond1_4 i) (x0 x1 : Vec F S1024x1024 .bf16) (x2 : Vec F S1024x1 .f32) (xs0 xs1 xs2 : Vec F S1024x1 .f32) (y : S1024x1.Idx) : ∃ pc ∈ (kernelRun1_F c i arg2 harg2 arg3 harg3 arg4 harg4 arg5 harg5 arg6 harg6 arg7 harg7 arg8 harg8 hc1 hc2 hc3 hc4 x0 x1 x2 xs0 xs1 xs2).2.2.1, y ∈ pc.1.set :=
  View.cover_of_tiledL (kernelRun1_F c i arg2 harg2 arg3 harg3 arg4 harg4 arg5 harg5 arg6 harg6 arg7 harg7 arg8 harg8 hc1 hc2 hc3 hc4 x0 x1 x2 xs0 xs1 xs2).2.2.1 S1024x1.size (by sl_kernel_rfl) y
def sout1_F_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : cond1_4 i) (x0 x1 : Vec F S1024x1024 .bf16) (x2 : Vec F S1024x1 .f32) (xs0 xs1 xs2 : Vec F S1024x1 .f32) : Vec F S1024x1 .f32 := View.canon (kernelRun1_F c i arg2 harg2 arg3 harg3 arg4 harg4 arg5 harg5 arg6 harg6 arg7 harg7 arg8 harg8 hc1 hc2 hc3 hc4 x0 x1 x2 xs0 xs1 xs2).2.2.1

theorem scover1_F_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : cond1_4 i) (x0 x1 : Vec F S1024x1024 .bf16) (x2 : Vec F S1024x1 .f32) (xs0 xs1 xs2 : Vec F S1024x1 .f32) (y : S1024x1.Idx) : ∃ pc ∈ (kernelRun1_F c i arg2 harg2 arg3 harg3 arg4 harg4 arg5 harg5 arg6 harg6 arg7 harg7 arg8 harg8 hc1 hc2 hc3 hc4 x0 x1 x2 xs0 xs1 xs2).2.2.2.1, y ∈ pc.1.set :=
  View.cover_of_tiledL (kernelRun1_F c i arg2 harg2 arg3 harg3 arg4 harg4 arg5 harg5 arg6 harg6 arg7 harg7 arg8 harg8 hc1 hc2 hc3 hc4 x0 x1 x2 xs0 xs1 xs2).2.2.2.1 S1024x1.size (by sl_kernel_rfl) y
def sout1_F_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : cond1_4 i) (x0 x1 : Vec F S1024x1024 .bf16) (x2 : Vec F S1024x1 .f32) (xs0 xs1 xs2 : Vec F S1024x1 .f32) : Vec F S1024x1 .f32 := View.canon (kernelRun1_F c i arg2 harg2 arg3 harg3 arg4 harg4 arg5 harg5 arg6 harg6 arg7 harg7 arg8 harg8 hc1 hc2 hc3 hc4 x0 x1 x2 xs0 xs1 xs2).2.2.2.1

theorem cover1_F_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : cond1_4 i) (x0 x1 : Vec F S1024x1024 .bf16) (x2 : Vec F S1024x1 .f32) (xs0 xs1 xs2 : Vec F S1024x1 .f32) (y : S1024x1.Idx) : ∃ pc ∈ (kernelRun1_F c i arg2 harg2 arg3 harg3 arg4 harg4 arg5 harg5 arg6 harg6 arg7 harg7 arg8 harg8 hc1 hc2 hc3 hc4 x0 x1 x2 xs0 xs1 xs2).1, y ∈ pc.1.set :=
  View.cover_of_tiledL (kernelRun1_F c i arg2 harg2 arg3 harg3 arg4 harg4 arg5 harg5 arg6 harg6 arg7 harg7 arg8 harg8 hc1 hc2 hc3 hc4 x0 x1 x2 xs0 xs1 xs2).1 S1024x1.size (by sl_kernel_rfl) y
def out1_F_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : cond1_4 i) (x0 x1 : Vec F S1024x1024 .bf16) (x2 : Vec F S1024x1 .f32) (xs0 xs1 xs2 : Vec F S1024x1 .f32) : Vec F S1024x1 .f32 := View.canon (kernelRun1_F c i arg2 harg2 arg3 harg3 arg4 harg4 arg5 harg5 arg6 harg6 arg7 harg7 arg8 harg8 hc1 hc2 hc3 hc4 x0 x1 x2 xs0 xs1 xs2).1

/-! ## The scratch columns point by point -/

/-- The three scratch columns. -/
abbrev St (F : FTy → Type) [FloatOps F] : Type := Vec F S1024x1 .f32 × Vec F S1024x1 .f32 × Vec F S1024x1 .f32

/-- What point `t` leaves — the three scratch columns and the loss window's buffer — given what the point
    before left in the scratch columns (unused where the point resets them). Off the last block of a row the
    loss window's component is a placeholder nothing reads. -/
def stepAt (c : Dev nD) (t : Fin cfg1.N) (s : St F) : St F × Vec F S1024x1 .f32 :=
  if h1 : t.val % 4 = 0 then
    if h2 : t.val % 4 = t.val / 4 then
      have h4 : ¬ t.val % 4 = 3 := by omega
      ((sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_1 t).mpr h1) ((hcond1_2 t).mpr h2) (fun h => (hcond1_3 t).mp h h2) (fun h => h4 ((hcond1_4 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_1 t).mpr h1) ((hcond1_2 t).mpr h2) (fun h => (hcond1_3 t).mp h h2) (fun h => h4 ((hcond1_4 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_1 t).mpr h1) ((hcond1_2 t).mpr h2) (fun h => (hcond1_3 t).mp h h2) (fun h => h4 ((hcond1_4 t).mp h)) (iblk1 V c 0 t) (iblk1 V c 1 t) (iblk1 V c 2 t)), s.1)
    else
      have h4 : ¬ t.val % 4 = 3 := by omega
      ((sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_1 t).mpr h1) (fun h => h2 ((hcond1_2 t).mp h)) ((hcond1_3 t).mpr h2) (fun h => h4 ((hcond1_4 t).mp h)) (iblk1 V c 0 t) (iblk1 V c 1 t) (iblk1 V c 2 t), sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_1 t).mpr h1) (fun h => h2 ((hcond1_2 t).mp h)) ((hcond1_3 t).mpr h2) (fun h => h4 ((hcond1_4 t).mp h)) (iblk1 V c 0 t) (iblk1 V c 1 t) (iblk1 V c 2 t), sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_1 t).mpr h1) (fun h => h2 ((hcond1_2 t).mp h)) ((hcond1_3 t).mpr h2) (fun h => h4 ((hcond1_4 t).mp h)) (iblk1 V c 0 t) (iblk1 V c 1 t) (iblk1 V c 2 t)), s.1)
  else if h4 : t.val % 4 = 3 then
    if h2 : t.val % 4 = t.val / 4 then
      ((sout1_F_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) ((hcond1_2 t).mpr h2) (fun h => (hcond1_3 t).mp h h2) ((hcond1_4 t).mpr h4) (iblk1 V c 0 t) (iblk1 V c 1 t) (iblk1 V c 2 t) s.1 s.2.1 s.2.2, sout1_F_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) ((hcond1_2 t).mpr h2) (fun h => (hcond1_3 t).mp h h2) ((hcond1_4 t).mpr h4) (iblk1 V c 0 t) (iblk1 V c 1 t) (iblk1 V c 2 t) s.1 s.2.1 s.2.2, sout1_F_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) ((hcond1_2 t).mpr h2) (fun h => (hcond1_3 t).mp h h2) ((hcond1_4 t).mpr h4) (iblk1 V c 0 t) (iblk1 V c 1 t) (iblk1 V c 2 t) s.1 s.2.1 s.2.2), out1_F_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) ((hcond1_2 t).mpr h2) (fun h => (hcond1_3 t).mp h h2) ((hcond1_4 t).mpr h4) (iblk1 V c 0 t) (iblk1 V c 1 t) (iblk1 V c 2 t) s.1 s.2.1 s.2.2)
    else
      ((sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) (fun h => h2 ((hcond1_2 t).mp h)) ((hcond1_3 t).mpr h2) ((hcond1_4 t).mpr h4) (iblk1 V c 0 t) (iblk1 V c 1 t) (iblk1 V c 2 t) s.1 s.2.1 s.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) (fun h => h2 ((hcond1_2 t).mp h)) ((hcond1_3 t).mpr h2) ((hcond1_4 t).mpr h4) (iblk1 V c 0 t) (iblk1 V c 1 t) (iblk1 V c 2 t) s.1 s.2.1 s.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) (fun h => h2 ((hcond1_2 t).mp h)) ((hcond1_3 t).mpr h2) ((hcond1_4 t).mpr h4) (iblk1 V c 0 t) (iblk1 V c 1 t) (iblk1 V c 2 t) s.1 s.2.1 s.2.2), out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) (fun h => h2 ((hcond1_2 t).mp h)) ((hcond1_3 t).mpr h2) ((hcond1_4 t).mpr h4) (iblk1 V c 0 t) (iblk1 V c 1 t) (iblk1 V c 2 t) s.1 s.2.1 s.2.2)
  else
    if h2 : t.val % 4 = t.val / 4 then
      ((sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) ((hcond1_2 t).mpr h2) (fun h => (hcond1_3 t).mp h h2) (fun h => h4 ((hcond1_4 t).mp h)) (iblk1 V c 0 t) (iblk1 V c 1 t) (iblk1 V c 2 t) s.1 s.2.1 s.2.2, sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) ((hcond1_2 t).mpr h2) (fun h => (hcond1_3 t).mp h h2) (fun h => h4 ((hcond1_4 t).mp h)) (iblk1 V c 0 t) (iblk1 V c 1 t) (iblk1 V c 2 t) s.1 s.2.1 s.2.2, sout1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) ((hcond1_2 t).mpr h2) (fun h => (hcond1_3 t).mp h h2) (fun h => h4 ((hcond1_4 t).mp h)) (iblk1 V c 0 t) (iblk1 V c 1 t) (iblk1 V c 2 t) s.1 s.2.1 s.2.2), s.1)
    else
      ((sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) (fun h => h2 ((hcond1_2 t).mp h)) ((hcond1_3 t).mpr h2) (fun h => h4 ((hcond1_4 t).mp h)) (iblk1 V c 0 t) (iblk1 V c 1 t) (iblk1 V c 2 t) s.1 s.2.1 s.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) (fun h => h2 ((hcond1_2 t).mp h)) ((hcond1_3 t).mpr h2) (fun h => h4 ((hcond1_4 t).mp h)) (iblk1 V c 0 t) (iblk1 V c 1 t) (iblk1 V c 2 t) s.1 s.2.1 s.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) (fun h => h2 ((hcond1_2 t).mp h)) ((hcond1_3 t).mpr h2) (fun h => h4 ((hcond1_4 t).mp h)) (iblk1 V c 0 t) (iblk1 V c 1 t) (iblk1 V c 2 t) s.1 s.2.1 s.2.2), s.1)

/-- The scratch columns and the loss window's buffer after the body at position `n`. -/
def sAt1 (c : Dev nD) : (n : ℕ) → n < cfg1.N → St F × Vec F S1024x1 .f32
  | 0, hn => stepAt V c ⟨0, hn⟩ (k1_pay1, k1_pay1, k1_pay1)
  | n + 1, hn => stepAt V c ⟨n + 1, hn⟩ (sAt1 c n (Nat.lt_of_succ_lt hn)).1

theorem sAt1_zero (c : Dev nD) (t : Fin cfg1.N) (hz : t.val = 0) :
    sAt1 V c t.val t.isLt = stepAt V c t (k1_pay1, k1_pay1, k1_pay1) := by
  obtain ⟨n, hn⟩ := t
  cases n with
  | zero => rfl
  | succ n => exact absurd hz (Nat.succ_ne_zero n)

theorem sAt1_pos (c : Dev nD) (t : Fin cfg1.N) (hz : t.val ≠ 0) :
    sAt1 V c t.val t.isLt = stepAt V c t (sAt1 V c (t.val - 1) (Nat.lt_of_le_of_lt (Nat.sub_le _ _) t.isLt)).1 := by
  obtain ⟨n, hn⟩ := t
  cases n with
  | zero => exact absurd rfl hz
  | succ n => rfl

/-- The region invariant before position `n`: before the first point every scoped buffer that is no staging
    buffer of this region at anything; afterwards the three scratch columns at what the point before left, the
    other such buffers at anything; the generator register at some state throughout. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare (sAt1 V c n hn).1.1 ∗ owns (c : Thread nD τ) scM1_1 fullShare (sAt1 V c n hn).1.2.1 ∗ owns (c : Thread nD τ) scM1_2 fullShare (sAt1 V c n hn).1.2.2) ∗ (∃ r, prngReg c r))

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare (sAt1 V c n hn).1.1 ∗ owns (c : Thread nD τ) scM1_1 fullShare (sAt1 V c n hn).1.2.1 ∗ owns (c : Thread nD τ) scM1_2 fullShare (sAt1 V c n hn).1.2.2) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare (sAt1 V c (n - 1) (by omega)).1.1 ∗ owns (c : Thread nD τ) scM1_1 fullShare (sAt1 V c (n - 1) (by omega)).1.2.1 ∗ owns (c : Thread nD τ) scM1_2 fullShare (sAt1 V c (n - 1) (by omega)).1.2.2) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (sAt1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (sAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Gen

end
-- ==== Proof.KBBody1.lean ====
import proofs.«132504_j386547057031_2_alg».proof.Proof.KBRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulation, case by case -/

theorem sAt1_A (c : Dev nD) (t : Fin cfg1.N) (h1 : t.val % 4 = 0) (h2 : t.val % 4 = t.val / 4) (h4 : ¬ t.val % 4 = 3) :
    sAt1 V c t.val t.isLt = ((sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_1 t).mpr h1) ((hcond1_2 t).mpr h2) (fun h => (hcond1_3 t).mp h h2) (fun h => h4 ((hcond1_4 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_1 t).mpr h1) ((hcond1_2 t).mpr h2) (fun h => (hcond1_3 t).mp h h2) (fun h => h4 ((hcond1_4 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_1 t).mpr h1) ((hcond1_2 t).mpr h2) (fun h => (hcond1_3 t).mp h h2) (fun h => h4 ((hcond1_4 t).mp h)) (iblk1 V c 0 t) (iblk1 V c 1 t) (iblk1 V c 2 t)), (((k1_pay1, k1_pay1, k1_pay1) : St F)).1) := by
  rw [sAt1_zero V c t (by have hN : t.val < 16 := lt_of_lt_of_eq t.isLt (show cfg1.N = 16 from N_1); omega)]
  unfold stepAt
  rw [dif_pos h1, dif_pos h2]

theorem sAt1_B (c : Dev nD) (t : Fin cfg1.N) (h1 : ¬ t.val % 4 = 0) (h2 : ¬ t.val % 4 = t.val / 4) (h4 : ¬ t.val % 4 = 3) :
    sAt1 V c t.val t.isLt = ((sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) (fun h => h2 ((hcond1_2 t).mp h)) ((hcond1_3 t).mpr h2) (fun h => h4 ((hcond1_4 t).mp h)) (iblk1 V c 0 t) (iblk1 V c 1 t) (iblk1 V c 2 t) ((sAt1 V c (t.val - 1) (Nat.lt_of_le_of_lt (Nat.sub_le _ _) t.isLt)).1).1 ((sAt1 V c (t.val - 1) (Nat.lt_of_le_of_lt (Nat.sub_le _ _) t.isLt)).1).2.1 ((sAt1 V c (t.val - 1) (Nat.lt_of_le_of_lt (Nat.sub_le _ _) t.isLt)).1).2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) (fun h => h2 ((hcond1_2 t).mp h)) ((hcond1_3 t).mpr h2) (fun h => h4 ((hcond1_4 t).mp h)) (iblk1 V c 0 t) (iblk1 V c 1 t) (iblk1 V c 2 t) ((sAt1 V c (t.val - 1) (Nat.lt_of_le_of_lt (Nat.sub_le _ _) t.isLt)).1).1 ((sAt1 V c (t.val - 1) (Nat.lt_of_le_of_lt (Nat.sub_le _ _) t.isLt)).1).2.1 ((sAt1 V c (t.val - 1) (Nat.lt_of_le_of_lt (Nat.sub_le _ _) t.isLt)).1).2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) (fun h => h2 ((hcond1_2 t).mp h)) ((hcond1_3 t).mpr h2) (fun h => h4 ((hcond1_4 t).mp h)) (iblk1 V c 0 t) (iblk1 V c 1 t) (iblk1 V c 2 t) ((sAt1 V c (t.val - 1) (Nat.lt_of_le_of_lt (Nat.sub_le _ _) t.isLt)).1).1 ((sAt1 V c (t.val - 1) (Nat.lt_of_le_of_lt (Nat.sub_le _ _) t.isLt)).1).2.1 ((sAt1 V c (t.val - 1) (Nat.lt_of_le_of_lt (Nat.sub_le _ _) t.isLt)).1).2.2), ((sAt1 V c (t.val - 1) (Nat.lt_of_le_of_lt (Nat.sub_le _ _) t.isLt)).1).1) := by
  rw [sAt1_pos V c t (by intro hz; rw [hz] at h1 h2; exact h1 (by decide))]
  unfold stepAt
  rw [dif_neg h1, dif_neg h4, dif_neg h2]

theorem sAt1_C (c : Dev nD) (t : Fin cfg1.N) (h1 : ¬ t.val % 4 = 0) (h2 : ¬ t.val % 4 = t.val / 4) (h4 : t.val % 4 = 3) :
    sAt1 V c t.val t.isLt = ((sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) (fun h => h2 ((hcond1_2 t).mp h)) ((hcond1_3 t).mpr h2) ((hcond1_4 t).mpr h4) (iblk1 V c 0 t) (iblk1 V c 1 t) (iblk1 V c 2 t) ((sAt1 V c (t.val - 1) (Nat.lt_of_le_of_lt (Nat.sub_le _ _) t.isLt)).1).1 ((sAt1 V c (t.val - 1) (Nat.lt_of_le_of_lt (Nat.sub_le _ _) t.isLt)).1).2.1 ((sAt1 V c (t.val - 1) (Nat.lt_of_le_of_lt (Nat.sub_le _ _) t.isLt)).1).2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) (fun h => h2 ((hcond1_2 t).mp h)) ((hcond1_3 t).mpr h2) ((hcond1_4 t).mpr h4) (iblk1 V c 0 t) (iblk1 V c 1 t) (iblk1 V c 2 t) ((sAt1 V c (t.val - 1) (Nat.lt_of_le_of_lt (Nat.sub_le _ _) t.isLt)).1).1 ((sAt1 V c (t.val - 1) (Nat.lt_of_le_of_lt (Nat.sub_le _ _) t.isLt)).1).2.1 ((sAt1 V c (t.val - 1) (Nat.lt_of_le_of_lt (Nat.sub_le _ _) t.isLt)).1).2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) (fun h => h2 ((hcond1_2 t).mp h)) ((hcond1_3 t).mpr h2) ((hcond1_4 t).mpr h4) (iblk1 V c 0 t) (iblk1 V c 1 t) (iblk1 V c 2 t) ((sAt1 V c (t.val - 1) (Nat.lt_of_le_of_lt (Nat.sub_le _ _) t.isLt)).1).1 ((sAt1 V c (t.val - 1) (Nat.lt_of_le_of_lt (Nat.sub_le _ _) t.isLt)).1).2.1 ((sAt1 V c (t.val - 1) (Nat.lt_of_le_of_lt (Nat.sub_le _ _) t.isLt)).1).2.2), out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) (fun h => h2 ((hcond1_2 t).mp h)) ((hcond1_3 t).mpr h2) ((hcond1_4 t).mpr h4) (iblk1 V c 0 t) (iblk1 V c 1 t) (iblk1 V c 2 t) ((sAt1 V c (t.val - 1) (Nat.lt_of_le_of_lt (Nat.sub_le _ _) t.isLt)).1).1 ((sAt1 V c (t.val - 1) (Nat.lt_of_le_of_lt (Nat.sub_le _ _) t.isLt)).1).2.1 ((sAt1 V c (t.val - 1) (Nat.lt_of_le_of_lt (Nat.sub_le _ _) t.isLt)).1).2.2) := by
  rw [sAt1_pos V c t (by intro hz; rw [hz] at h1 h2; exact h1 (by decide))]
  unfold stepAt
  rw [dif_neg h1, dif_pos h4, dif_neg h2]

theorem sAt1_D (c : Dev nD) (t : Fin cfg1.N) (h1 : t.val % 4 = 0) (h2 : ¬ t.val % 4 = t.val / 4) (h4 : ¬ t.val % 4 = 3) :
    sAt1 V c t.val t.isLt = ((sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_1 t).mpr h1) (fun h => h2 ((hcond1_2 t).mp h)) ((hcond1_3 t).mpr h2) (fun h => h4 ((hcond1_4 t).mp h)) (iblk1 V c 0 t) (iblk1 V c 1 t) (iblk1 V c 2 t), sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_1 t).mpr h1) (fun h => h2 ((hcond1_2 t).mp h)) ((hcond1_3 t).mpr h2) (fun h => h4 ((hcond1_4 t).mp h)) (iblk1 V c 0 t) (iblk1 V c 1 t) (iblk1 V c 2 t), sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_1 t).mpr h1) (fun h => h2 ((hcond1_2 t).mp h)) ((hcond1_3 t).mpr h2) (fun h => h4 ((hcond1_4 t).mp h)) (iblk1 V c 0 t) (iblk1 V c 1 t) (iblk1 V c 2 t)), ((sAt1 V c (t.val - 1) (Nat.lt_of_le_of_lt (Nat.sub_le _ _) t.isLt)).1).1) := by
  rw [sAt1_pos V c t (by intro hz; rw [hz] at h1 h2; exact h2 (by decide))]
  unfold stepAt
  rw [dif_pos h1, dif_neg h2]

theorem sAt1_E (c : Dev nD) (t : Fin cfg1.N) (h1 : ¬ t.val % 4 = 0) (h2 : t.val % 4 = t.val / 4) (h4 : ¬ t.val % 4 = 3) :
    sAt1 V c t.val t.isLt = ((sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) ((hcond1_2 t).mpr h2) (fun h => (hcond1_3 t).mp h h2) (fun h => h4 ((hcond1_4 t).mp h)) (iblk1 V c 0 t) (iblk1 V c 1 t) (iblk1 V c 2 t) ((sAt1 V c (t.val - 1) (Nat.lt_of_le_of_lt (Nat.sub_le _ _) t.isLt)).1).1 ((sAt1 V c (t.val - 1) (Nat.lt_of_le_of_lt (Nat.sub_le _ _) t.isLt)).1).2.1 ((sAt1 V c (t.val - 1) (Nat.lt_of_le_of_lt (Nat.sub_le _ _) t.isLt)).1).2.2, sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) ((hcond1_2 t).mpr h2) (fun h => (hcond1_3 t).mp h h2) (fun h => h4 ((hcond1_4 t).mp h)) (iblk1 V c 0 t) (iblk1 V c 1 t) (iblk1 V c 2 t) ((sAt1 V c (t.val - 1) (Nat.lt_of_le_of_lt (Nat.sub_le _ _) t.isLt)).1).1 ((sAt1 V c (t.val - 1) (Nat.lt_of_le_of_lt (Nat.sub_le _ _) t.isLt)).1).2.1 ((sAt1 V c (t.val - 1) (Nat.lt_of_le_of_lt (Nat.sub_le _ _) t.isLt)).1).2.2, sout1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) ((hcond1_2 t).mpr h2) (fun h => (hcond1_3 t).mp h h2) (fun h => h4 ((hcond1_4 t).mp h)) (iblk1 V c 0 t) (iblk1 V c 1 t) (iblk1 V c 2 t) ((sAt1 V c (t.val - 1) (Nat.lt_of_le_of_lt (Nat.sub_le _ _) t.isLt)).1).1 ((sAt1 V c (t.val - 1) (Nat.lt_of_le_of_lt (Nat.sub_le _ _) t.isLt)).1).2.1 ((sAt1 V c (t.val - 1) (Nat.lt_of_le_of_lt (Nat.sub_le _ _) t.isLt)).1).2.2), ((sAt1 V c (t.val - 1) (Nat.lt_of_le_of_lt (Nat.sub_le _ _) t.isLt)).1).1) := by
  rw [sAt1_pos V c t (by intro hz; rw [hz] at h1 h2; exact h1 (by decide))]
  unfold stepAt
  rw [dif_neg h1, dif_neg h4, dif_pos h2]

theorem sAt1_F (c : Dev nD) (t : Fin cfg1.N) (h1 : ¬ t.val % 4 = 0) (h2 : t.val % 4 = t.val / 4) (h4 : t.val % 4 = 3) :
    sAt1 V c t.val t.isLt = ((sout1_F_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) ((hcond1_2 t).mpr h2) (fun h => (hcond1_3 t).mp h h2) ((hcond1_4 t).mpr h4) (iblk1 V c 0 t) (iblk1 V c 1 t) (iblk1 V c 2 t) ((sAt1 V c (t.val - 1) (Nat.lt_of_le_of_lt (Nat.sub_le _ _) t.isLt)).1).1 ((sAt1 V c (t.val - 1) (Nat.lt_of_le_of_lt (Nat.sub_le _ _) t.isLt)).1).2.1 ((sAt1 V c (t.val - 1) (Nat.lt_of_le_of_lt (Nat.sub_le _ _) t.isLt)).1).2.2, sout1_F_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) ((hcond1_2 t).mpr h2) (fun h => (hcond1_3 t).mp h h2) ((hcond1_4 t).mpr h4) (iblk1 V c 0 t) (iblk1 V c 1 t) (iblk1 V c 2 t) ((sAt1 V c (t.val - 1) (Nat.lt_of_le_of_lt (Nat.sub_le _ _) t.isLt)).1).1 ((sAt1 V c (t.val - 1) (Nat.lt_of_le_of_lt (Nat.sub_le _ _) t.isLt)).1).2.1 ((sAt1 V c (t.val - 1) (Nat.lt_of_le_of_lt (Nat.sub_le _ _) t.isLt)).1).2.2, sout1_F_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) ((hcond1_2 t).mpr h2) (fun h => (hcond1_3 t).mp h h2) ((hcond1_4 t).mpr h4) (iblk1 V c 0 t) (iblk1 V c 1 t) (iblk1 V c 2 t) ((sAt1 V c (t.val - 1) (Nat.lt_of_le_of_lt (Nat.sub_le _ _) t.isLt)).1).1 ((sAt1 V c (t.val - 1) (Nat.lt_of_le_of_lt (Nat.sub_le _ _) t.isLt)).1).2.1 ((sAt1 V c (t.val - 1) (Nat.lt_of_le_of_lt (Nat.sub_le _ _) t.isLt)).1).2.2), out1_F_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) ((hcond1_2 t).mpr h2) (fun h => (hcond1_3 t).mp h h2) ((hcond1_4 t).mpr h4) (iblk1 V c 0 t) (iblk1 V c 1 t) (iblk1 V c 2 t) ((sAt1 V c (t.val - 1) (Nat.lt_of_le_of_lt (Nat.sub_le _ _) t.isLt)).1).1 ((sAt1 V c (t.val - 1) (Nat.lt_of_le_of_lt (Nat.sub_le _ _) t.isLt)).1).2.1 ((sAt1 V c (t.val - 1) (Nat.lt_of_le_of_lt (Nat.sub_le _ _) t.isLt)).1).2.2) := by
  rw [sAt1_pos V c t (by intro hz; rw [hz] at h1 h2; exact h1 (by decide))]
  unfold stepAt
  rw [dif_neg h1, dif_pos h4, dif_pos h2]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: which of the six cases the point is in is decided by its position; the scratch columns
    enter at what the point before left (at anything at the first point, and wherever the point resets them) and
    leave at this point's contents; the loss window is handed back untouched off the last block of a row. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h1 : t.val % 4 = 0
  · have h4 : ¬ t.val % 4 = 3 := by omega
    by_cases h2 : t.val % 4 = t.val / 4
    · have hz : t.val = 0 := by omega
      rw [Dat.leavesExact_idle (dat1 V c) 3 t (idleAt1_3 t (fun h => h4 ((hcond1_4 t).mp h))) (noFlush1_3 t (fun h => h4 ((hcond1_4 t).mp h)))]
      rw [sAt1_A V c t h1 h2 h4]
      dsimp only
      unfold sout1_A_0 sout1_A_1 sout1_A_2
      rw [PhiS1_castSucc V c t, PhiS1_zero V c _ _ hz, PhiA1_eq]
      iintro ⟨⟨⟨Hr1, Hr2, Hr3, Hr4, Hr5, Hr6, Hr7, Hr8, Hr9, Hr10, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_1 t).mpr h1) ((hcond1_2 t).mpr h2) (fun h => (hcond1_3 t).mp h h2) (fun h => h4 ((hcond1_4 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hr1 Hr2 Hr3 Hr4 Hr5 Hr6 Hr7 Hr8 Hr9 Hr10 HS0 HS1 HS2 Hg]
      · isplitl [Hr1 Hr2 Hr3 Hr4 Hr5 Hr6 Hr7 Hr8 Hr9 Hr10 HS0 HS1 HS2]
        · isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          isplitl [Hr10]; · iexact Hr10
          isplitl [HS0]
          · unfold owns; iexists _; isplitr
            swap; · iexact HS0
            ipureintro; exact View.read_writes_eq_canon _ _ _ (scover1_A_0 c _ _ _ _ _ _ _ _ _ _ _ _ _ _ _ _ _ _ _ _ _ _)
          isplitl [HS1]
          · unfold owns; iexists _; isplitr
            swap; · iexact HS1
            ipureintro; exact View.read_writes_eq_canon _ _ _ (scover1_A_1 c _ _ _ _ _ _ _ _ _ _ _ _ _ _ _ _ _ _ _ _ _ _)
          unfold owns; iexists _; isplitr
          swap; · iexact HS2
          ipureintro; exact View.read_writes_eq_canon _ _ _ (scover1_A_2 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · have hz : t.val ≠ 0 := by intro hz; rw [hz] at h2; exact h2 (by decide)
      rw [Dat.leavesExact_idle (dat1 V c) 3 t (idleAt1_3 t (fun h => h4 ((hcond1_4 t).mp h))) (noFlush1_3 t (fun h => h4 ((hcond1_4 t).mp h)))]
      rw [sAt1_D V c t h1 h2 h4]
      dsimp only
      unfold sout1_D_0 sout1_D_1 sout1_D_2
      rw [PhiS1_castSucc V c t, PhiS1_pos V c _ _ hz]
      iintro ⟨⟨⟨Hr1, Hr2, Hr3, Hr4, Hr5, Hr6, Hr7, Hr8, Hr9, Hr10, HS0, HS1, HS2⟩, Hg⟩, Ho, ⟨%d0, H0⟩, ⟨%d1, H1⟩, ⟨%d2, H2⟩, ⟨%d3, H3⟩⟩
      iapply ((kernelRun1_D c (grid1.coords t) _ _ _ _ _ _ _ _ _ _ _ _ _ _ ((hcond1_1 t).mpr h1) (fun h => h2 ((hcond1_2 t).mp h)) ((hcond1_3 t).mpr h2) (fun h => h4 ((hcond1_4 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [Hr1 Hr2 Hr3 Hr4 Hr5 Hr6 Hr7 Hr8 Hr9 Hr10 HS0 HS1 HS2 Hg]
      · isplitl [Hr1 Hr2 Hr3 Hr4 Hr5 Hr6 Hr7 Hr8 Hr9 Hr10 HS0 HS1 HS2]
        · isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          isplitl [Hr10]; · iexact Hr10
          isplitl [HS0]
          · unfold owns; iexists _; isplitr
            swap; · iexact HS0
            ipureintro; exact View.read_writes_eq_canon _ _ _ (scover1_D_0 c _ _ _ _ _ _ _ _ _ _ _ _ _ _ _ _ _ _ _ _ _ _)
          isplitl [HS1]
          · unfold owns; iexists _; isplitr
            swap; · iexact HS1
            ipureintro; exact View.read_writes_eq_canon _ _ _ (scover1_D_1 c _ _ _ _ _ _ _ _ _ _ _ _ _ _ _ _ _ _ _ _ _ _)
          unfold owns; iexists _; isplitr
          swap; · iexact HS2
          ipureintro; exact View.read_writes_eq_canon _ _ _ (scover1_D_2 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by intro hz; rw [hz] at h1; exact h1 (by decide)
    by_cases h4 : t.val % 4 = 3
    · by_cases h2 : t.val % 4 = t.val / 4
      ·
        rw [show (dat1 V c).leavesExact 3 t = owns (c : Thread nD τ) (ms1_3 t) fullShare ((dat1 V c).after 3 t) from by
          unfold Dat.leavesExact; rw [liveAt1_3 t ((hcond1_4 t).mpr h4)], after1_3]
        rw [sAt1_F V c t h1 h2 h4]
        dsimp only
        unfold sout1_F_0 sout1_F_1 sout1_F_2 out1_F_3
        rw [PhiS1_castSucc V c t, PhiS1_pos V c _ _ hz]
        iintro ⟨⟨⟨Hr1, Hr2, Hr3, Hr4, Hr5, Hr6, Hr7, Hr8, Hr9, Hr10, HS0, HS1, HS2⟩, Hg⟩, Ho, ⟨%d0, H0⟩, ⟨%d1, H1⟩, ⟨%d2, H2⟩, ⟨%d3, H3⟩⟩
        iapply ((kernelRun1_F c (grid1.coords t) _ _ _ _ _ _ _ _ _ _ _ _ _ _ (fun h => h1 ((hcond1_1 t).mp h)) ((hcond1_2 t).mpr h2) (fun h => (hcond1_3 t).mp h h2) ((hcond1_4 t).mpr h4) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [Hr1 Hr2 Hr3 Hr4 Hr5 Hr6 Hr7 Hr8 Hr9 Hr10 HS0 HS1 HS2 Hg]
        · isplitl [Hr1 Hr2 Hr3 Hr4 Hr5 Hr6 Hr7 Hr8 Hr9 Hr10 HS0 HS1 HS2]
          · isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            isplitl [Hr10]; · iexact Hr10
            isplitl [HS0]
            · unfold owns; iexists _; isplitr
              swap; · iexact HS0
              ipureintro; exact View.read_writes_eq_canon _ _ _ (scover1_F_0 c _ _ _ _ _ _ _ _ _ _ _ _ _ _ _ _ _ _ _ _ _ _ _ _ _)
            isplitl [HS1]
            · unfold owns; iexists _; isplitr
              swap; · iexact HS1
              ipureintro; exact View.read_writes_eq_canon _ _ _ (scover1_F_1 c _ _ _ _ _ _ _ _ _ _ _ _ _ _ _ _ _ _ _ _ _ _ _ _ _)
            unfold owns; iexists _; isplitr
            swap; · iexact HS2
            ipureintro; exact View.read_writes_eq_canon _ _ _ (scover1_F_2 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_eq_canon _ _ _ (cover1_F_3 c _ _ _ _ _ _ _ _ _ _ _ _ _ _ _ _ _ _ _ _ _ _ _ _ _)
      ·
        rw [show (dat1 V c).leavesExact 3 t = owns (c : Thread nD τ) (ms1_3 t) fullShare ((dat1 V c).after 3 t) from by
          unfold Dat.leavesExact; rw [liveAt1_3 t ((hcond1_4 t).mpr h4)], after1_3]
        rw [sAt1_C V c t h1 h2 h4]
        dsimp only
        unfold sout1_C_0 sout1_C_1 sout1_C_2 out1_C_3
        rw [PhiS1_castSucc V c t, PhiS1_pos V c _ _ hz]
        iintro ⟨⟨⟨Hr1, Hr2, Hr3, Hr4, Hr5, Hr6, Hr7, Hr8, Hr9, Hr10, HS0, HS1, HS2⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h1 ((hcond1_1 t).mp h)) (fun h => h2 ((hcond1_2 t).mp h)) ((hcond1_3 t).mpr h2) ((hcond1_4 t).mpr h4) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [Hr1 Hr2 Hr3 Hr4 Hr5 Hr6 Hr7 Hr8 Hr9 Hr10 HS0 HS1 HS2 Hg]
        · isplitl [Hr1 Hr2 Hr3 Hr4 Hr5 Hr6 Hr7 Hr8 Hr9 Hr10 HS0 HS1 HS2]
          · isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            isplitl [Hr10]; · iexact Hr10
            isplitl [HS0]
            · unfold owns; iexists _; isplitr
              swap; · iexact HS0
              ipureintro; exact View.read_writes_eq_canon _ _ _ (scover1_C_0 c _ _ _ _ _ _ _ _ _ _ _ _ _ _ _ _ _ _ _ _ _ _ _ _ _)
            isplitl [HS1]
            · unfold owns; iexists _; isplitr
              swap; · iexact HS1
              ipureintro; exact View.read_writes_eq_canon _ _ _ (scover1_C_1 c _ _ _ _ _ _ _ _ _ _ _ _ _ _ _ _ _ _ _ _ _ _ _ _ _)
            unfold owns; iexists _; isplitr
            swap; · iexact HS2
            ipureintro; exact View.read_writes_eq_canon _ _ _ (scover1_C_2 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_eq_canon _ _ _ (cover1_C_3 c _ _ _ _ _ _ _ _ _ _ _ _ _ _ _ _ _ _ _ _ _ _ _ _ _)
    · by_cases h2 : t.val % 4 = t.val / 4
      ·
        rw [Dat.leavesExact_idle (dat1 V c) 3 t (idleAt1_3 t (fun h => h4 ((hcond1_4 t).mp h))) (noFlush1_3 t (fun h => h4 ((hcond1_4 t).mp h)))]
        rw [sAt1_E V c t h1 h2 h4]
        dsimp only
        unfold sout1_E_0 sout1_E_1 sout1_E_2
        rw [PhiS1_castSucc V c t, PhiS1_pos V c _ _ hz]
        iintro ⟨⟨⟨Hr1, Hr2, Hr3, Hr4, Hr5, Hr6, Hr7, Hr8, Hr9, Hr10, HS0, HS1, HS2⟩, Hg⟩, Ho, ⟨%d0, H0⟩, ⟨%d1, H1⟩, ⟨%d2, H2⟩, ⟨%d3, H3⟩⟩
        iapply ((kernelRun1_E c (grid1.coords t) _ _ _ _ _ _ _ _ _ _ _ _ _ _ (fun h => h1 ((hcond1_1 t).mp h)) ((hcond1_2 t).mpr h2) (fun h => (hcond1_3 t).mp h h2) (fun h => h4 ((hcond1_4 t).mp h)) (iblk1 V c 0 t) (iblk1 V c 1 t) (iblk1 V c 2 t) _ _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [Hr1 Hr2 Hr3 Hr4 Hr5 Hr6 Hr7 Hr8 Hr9 Hr10 HS0 HS1 HS2 Hg]
        · isplitl [Hr1 Hr2 Hr3 Hr4 Hr5 Hr6 Hr7 Hr8 Hr9 Hr10 HS0 HS1 HS2]
          · isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            isplitl [Hr10]; · iexact Hr10
            isplitl [HS0]
            · unfold owns; iexists _; isplitr
              swap; · iexact HS0
              ipureintro; exact View.read_writes_eq_canon _ _ _ (scover1_E_0 c _ _ _ _ _ _ _ _ _ _ _ _ _ _ _ _ _ _ _ _ _ _ _ _ _)
            isplitl [HS1]
            · unfold owns; iexists _; isplitr
              swap; · iexact HS1
              ipureintro; exact View.read_writes_eq_canon _ _ _ (scover1_E_1 c _ _ _ _ _ _ _ _ _ _ _ _ _ _ _ _ _ _ _ _ _ _ _ _ _)
            unfold owns; iexists _; isplitr
            swap; · iexact HS2
            ipureintro; exact View.read_writes_eq_canon _ _ _ (scover1_E_2 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      ·
        rw [Dat.leavesExact_idle (dat1 V c) 3 t (idleAt1_3 t (fun h => h4 ((hcond1_4 t).mp h))) (noFlush1_3 t (fun h => h4 ((hcond1_4 t).mp h)))]
        rw [sAt1_B V c t h1 h2 h4]
        dsimp only
        unfold sout1_B_0 sout1_B_1 sout1_B_2
        rw [PhiS1_castSucc V c t, PhiS1_pos V c _ _ hz]
        iintro ⟨⟨⟨Hr1, Hr2, Hr3, Hr4, Hr5, Hr6, Hr7, Hr8, Hr9, Hr10, HS0, HS1, HS2⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h1 ((hcond1_1 t).mp h)) (fun h => h2 ((hcond1_2 t).mp h)) ((hcond1_3 t).mpr h2) (fun h => h4 ((hcond1_4 t).mp h)) (iblk1 V c 0 t) (iblk1 V c 1 t) (iblk1 V c 2 t) _ _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [Hr1 Hr2 Hr3 Hr4 Hr5 Hr6 Hr7 Hr8 Hr9 Hr10 HS0 HS1 HS2 Hg]
        · isplitl [Hr1 Hr2 Hr3 Hr4 Hr5 Hr6 Hr7 Hr8 Hr9 Hr10 HS0 HS1 HS2]
          · isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            isplitl [Hr10]; · iexact Hr10
            isplitl [HS0]
            · unfold owns; iexists _; isplitr
              swap; · iexact HS0
              ipureintro; exact View.read_writes_eq_canon _ _ _ (scover1_B_0 c _ _ _ _ _ _ _ _ _ _ _ _ _ _ _ _ _ _ _ _ _ _ _ _ _)
            isplitl [HS1]
            · unfold owns; iexists _; isplitr
              swap; · iexact HS1
              ipureintro; exact View.read_writes_eq_canon _ _ _ (scover1_B_1 c _ _ _ _ _ _ _ _ _ _ _ _ _ _ _ _ _ _ _ _ _ _ _ _ _)
            unfold owns; iexists _; isplitr
            swap; · iexact HS2
            ipureintro; exact View.read_writes_eq_canon _ _ _ (scover1_B_2 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point the invariant gives the scoped rest back: the scratch columns' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hr1, Hr2, Hr3, Hr4, Hr5, Hr6, Hr7, Hr8, Hr9, Hr10, HS0, HS1, HS2⟩, Hg⟩
  isplitl [Hr1 Hr2 Hr3 Hr4 Hr5 Hr6 Hr7 Hr8 Hr9 Hr10 HS0 HS1 HS2]
  · isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi_out1 V c _ (by rw [Fin.val_last]; have : cfg1.N = 16 := N_1; omega)

end Cert.Kernel.Gen

end
-- ==== Proof.KBRegion0.lean ====
/-
  The first kernel region (a grid of four points; five windows: the two f32 inputs in blocks of 1024 rows,
  the two bf16 row-scaled outputs in the same blocks, and the f32 column of positive distances in blocks of
  1024 entries), at ANY float instance, stated at a parameter `V`: the buffer contents when the region is
  entered.

  Per window its block at a point, read off the array as the region finds it; what the body leaves in each
  output's staging buffer (the body stores each output once, through the one rectangle that is the whole
  buffer, so the buffer ends as that store's payload); the body's triple; the pipeline's proof data (inputs
  left in place, each output at the payload of the two input blocks); and the body obligation at every point.
-/
import proofs.«132504_j386547057031_2_alg».proof.Proof.Gen.Kernel.Launch
import proofs.«132504_j386547057031_2_alg».proof.Proof.Gen.Kernel.Skeleton
import proofs.«132504_j386547057031_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per
-- coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's current staging buffer holds its block at every point, for any proof data whose
    array is `V`'s and whose body leaves the block in place: the window is uncut, never idle, and fetched
    at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the second input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_0 : Rect S1024x1024 := Rect.unit (s := S1024x1024) ![0, 0] S1024x1024.size inb_S1024x1024_S1024x1024_0_0
abbrev r0_1 : Rect S1024x1 := Rect.unit (s := S1024x1) ![0, 0] S1024x1.size inb_S1024x1_S1024x1_0_0

/-! ## What the body leaves in each output window's buffer -/

/-- The first output's staging buffer after the body: its one store, the first input's block with every
    row scaled by the reciprocal square root of its squared length, narrowed to bf16. -/
def out0_2 (x0 : Vec F S1024x1024 .f32) : Vec F S1024x1024 .bf16 :=
  View.canon [⟨r0_0, k0_pay4 (View.ld x0 r0_0)⟩]

/-- The store is the whole buffer, so it covers it. -/
theorem cover0_2 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-- The second output's staging buffer after the body: the second input's block, scaled row by row and
    narrowed likewise. -/
def out0_3 (x1 : Vec F S1024x1024 .f32) : Vec F S1024x1024 .bf16 :=
  View.canon [⟨r0_0, k0_pay5 (View.ld x1 r0_0)⟩]

theorem cover0_3 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-- The third output's staging buffer after the body: the column whose entry `r` is one minus the inner
    product of the two scaled rows `r`. -/
def out0_4 (x0 x1 : Vec F S1024x1024 .f32) : Vec F S1024x1 .f32 :=
  View.canon [⟨r0_1, k0_pay3 (View.ld x0 r0_0) (View.ld x1 r0_0)⟩]

theorem cover0_4 (p0 : Vec F S1024x1 .f32) (y : S1024x1.Idx) :
    ∃ pc ∈ ([⟨r0_1, p0⟩] : List (View.Piece (Elt F) S1024x1 .f32)), y ∈ pc.1.set :=
  View.cover_of_tiled [⟨r0_1, p0⟩] S1024x1.size (by rfl) y

/-! ## The body's triple -/

set_option maxHeartbeats 1000000 in
/-- The kernel body on whole staging memrefs, the inputs' at read contents `x0`, `x1` and the outputs' at
    anything, runs to the continuation holding the inputs' as they were and each output's at its payload of
    the inputs'. -/
theorem sound_kernel0 (c : Dev nD) (E : Set ℕ) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole)
    (x0 : Vec F S1024x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (out0_2 x0) ∗ owns (c : Thread nD τ) arg4 fullShare (out0_3 x1) ∗ owns (c : Thread nD τ) arg5 fullShare (out0_4 x0 x1)) -∗ K ⟨⟩))
      ⊢ wp frame (wpE (defs₀ (F := F)) Variants.none c none) E (cc0__prologue_kernel i arg1 harg1 arg2 harg2 arg3 harg3 arg4 harg4 arg5 harg5) K := by
  simp only [cc0__prologue_kernel_eq_skeleton]; unfold cc0__prologue_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of the region's pipeline on core `c`: the arrays as the region finds them (`V`); after
    the body at point `t` each input's buffer at its block and each output's at its payload of the two input
    blocks; the invariant "the scoped rest and the generator register, untouched"; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
    | ⟨4, _⟩ => out0_4 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]
theorem after0_4 (c : Dev nD) (t : Fin cfg0.N) : (dat0 V c).after 4 t = out0_4 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the
    invariant and the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Gen

end
-- ==== Proof.KBRun.lean ====
import proofs.«132504_j386547057031_2_alg».proof.Proof.KBBody1
import proofs.«132504_j386547057031_2_alg».proof.Proof.KBRegion0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program

`@main` is the first region, the second region, then four host operations (the sum of the row losses and its
quotient by the number of rows). The buffers' contents at each boundary are a fold from the launch memory: a region
leaves its arrays at what its write-backs fold to and every other buffer as entered. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- The same read at the TensorCore's references (what the first region's proof data take). -/
abbrev V0 : (c : Dev nD) → (b : Ref sig .tc) → Buf (Elt F) ((c : Thread nD τ).loc b) := fun c b => W0 m ρ c b
/-- At the first region's exit. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At the second region's exit. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the four host operations. -/
abbrev W3 : Dev nD → Valuation τ sig (Elt F) := fun c => StableHlo.after hostOps2 (W2 m ρ c)

/-! ### The arguments end as launched -/

theorem hostOps2_keeps (c : Dev nD) (b : Ref sig .tc) (hb : b ≠ main_cst ∧ b ≠ main_v2 ∧ b ≠ main_cst_0 ∧ b ≠ main_v3) :
    W3 m ρ c (Proc.devRef .tc b) = W2 m ρ c (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne hb.1, StableHlo.devRef_ne_of_ne hb.2.1, StableHlo.devRef_ne_of_ne hb.2.2.1, StableHlo.devRef_ne_of_ne hb.2.2.2⟩))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := hostOps2_keeps m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := hostOps2_keeps m ρ c main_arg1 (by decide)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

/-- The result: the four host operations applied to what the second region left in its output array. -/
theorem W3_main_v3 (c : Dev nD) : W3 m ρ c (Proc.devRef .tc main_v3)
    = Host.divf (Host.reduceAdd ((dat1 (V1 m ρ) c).arrAt 3 cfg1.N) (constant S_ .f32 0x00000000#32) reducesTo_S4096x1_S_d0_1 h_S_) (constant S_ .f32 0x45800000#32) := by
  rw [← W2_arr m ρ c 3]
  show StableHlo.after hostOps2 (W2 m ρ c) (Proc.devRef .tc main_v3) = _
  generalize W2 m ρ c = Wv
  after_results

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-- The second region's scoped rest and the generator register, regrouped as the region's exit takes them. -/
theorem scopedRest_back1 (c : Dev nD) : (Pipeline.ΦA spec1 c : sProp 𝕄)
    ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

/-- After the host operations: the buffers and the generator register on one side, nothing owed on the other. -/
theorem tail_exit (c : Dev nD) : (iprop(StableHlo.held (c : Thread nD τ) (Pipeline.ucRefs τ sig) (W3 m ρ c) ∗ R c) : sProp 𝕄)
    ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- Region 0 over the thread state: entered from every unscoped buffer at `W0`, left at `W1`. Its arrays are
    split out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`. Its arrays are
    split out of the unscoped buffers and put back at the exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (hout1 (V1 m ρ) c).trans (scopedRest_back1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh' (W2 m ρ)) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and in
    every final state each unscoped buffer holds what the fold gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => tail_exit m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m ρ c),
     (h c _ (mem_uc main_arg1 (by decide))).trans (W3_main_arg1 m ρ c)⟩) (run_all m ρ)

/-- The run with the result named: the host's mean of what the second region left in its output array. -/
theorem run_value : θ_run defs (onTc (τ := τ) (main (F := F))) ⟨m, fun _ => 0, ρ⟩ (fun r => ∀ c : Dev nD,
      r.2.mem ((c.tc : Thread nD τ).loc main_v3)
        = Host.divf (Host.reduceAdd ((dat1 (V1 m ρ) c).arrAt 3 cfg1.N) (constant S_ .f32 0x00000000#32) reducesTo_S4096x1_S_d0_1 h_S_) (constant S_ .f32 0x45800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v3 (by decide))).trans (W3_main_v3 m ρ c),
     (h c _ (mem_uc main_arg0 (by decide))).trans (W3_main_arg0 m ρ c),
     (h c _ (mem_uc main_arg1 (by decide))).trans (W3_main_arg1 m ρ c)⟩) (run_all m ρ)

end Cert.Kernel.Gen

end
-- ==== Proof.KIConds1.lean ====
import proofs.«132504_j386547057031_2_alg».proof.Proof.Gen.KernelIdeal.Launch
import proofs.«132504_j386547057031_2_alg».proof.Proof.Gen.KernelIdeal.Skeleton
import proofs.«132504_j386547057031_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The second region's branch conditions over its 4 × 4 grid

The body of the second kernel runs at the points `(i, j)`, `j` innermost. It resets its three running
columns when `j = 0`, treats the block on the diagonal (`j = i`) and the blocks off it (`j ≠ i`) by two
separate branches, and writes the row losses when `j = 3`. -/

/-- `j = 0`: the running sum, count and minimum are reset. -/
abbrev cond1_1 (i : grid1.Coords) : Prop :=
  (Scalar.cmpi .ne (Scalar.extui (Scalar.cmpi .eq (BitVec.ofNat 32 (i 1).val) 0#32)) 0#32) = 1#1
/-- `j = i`: the block meets the diagonal. -/
abbrev cond1_2 (i : grid1.Coords) : Prop :=
  (Scalar.cmpi .ne (Scalar.extui (Scalar.cmpi .eq (BitVec.ofNat 32 (i 1).val) (BitVec.ofNat 32 (i 0).val))) 0#32) = 1#1
/-- `j ≠ i`: the block lies off the diagonal. -/
abbrev cond1_3 (i : grid1.Coords) : Prop :=
  (Scalar.cmpi .ne (Scalar.extui (Scalar.cmpi .ne (BitVec.ofNat 32 (i 1).val) (BitVec.ofNat 32 (i 0).val))) 0#32) = 1#1
/-- `j = 3`: the last block of the row; the losses are written. -/
abbrev cond1_4 (i : grid1.Coords) : Prop := k1_cond4 i = 1#1

theorem hcond1_1 : ∀ t : Fin cfg1.N, cond1_1 (grid1.coords t) ↔ t.val % 4 = 0 :=
  (by decide +kernel : ∀ t : Fin grid1.N, cond1_1 (grid1.coords t) ↔ t.val % 4 = 0)
theorem hcond1_2 : ∀ t : Fin cfg1.N, cond1_2 (grid1.coords t) ↔ t.val % 4 = t.val / 4 :=
  (by decide +kernel : ∀ t : Fin grid1.N, cond1_2 (grid1.coords t) ↔ t.val % 4 = t.val / 4)
theorem hcond1_3 : ∀ t : Fin cfg1.N, cond1_3 (grid1.coords t) ↔ t.val % 4 ≠ t.val / 4 :=
  (by decide +kernel : ∀ t : Fin grid1.N, cond1_3 (grid1.coords t) ↔ t.val % 4 ≠ t.val / 4)
theorem hcond1_4 : ∀ t : Fin cfg1.N, cond1_4 (grid1.coords t) ↔ t.val % 4 = 3 :=
  (by decide +kernel : ∀ t : Fin grid1.N, cond1_4 (grid1.coords t) ↔ t.val % 4 = 3)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last block of a row the loss window is idle and is not written back. -/
theorem idleAt1_3 : ∀ t : Fin cfg1.N, ¬cond1_4 (grid1.coords t) → cfg1.idle 3 (grid1.coords t) = true := by decide +kernel
theorem noFlush1_3 : ∀ t : Fin cfg1.N, ¬cond1_4 (grid1.coords t) → (cfg1.win 3).flush t = false := by decide +kernel
/-- At the last block of a row it is live. -/
theorem liveAt1_3 : ∀ t : Fin cfg1.N, cond1_4 (grid1.coords t) → cfg1.idle 3 (grid1.coords t) = false := by decide +kernel

/-! ## The staging and scratch memrefs -/

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
/-- The three running columns: sum, count, minimum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1 .f32 := scM1_2.view
abbrev VO1_3 : View sig .tc .vmem S1024x1 .f32 := (Memref.whole cc1_stg3_0 : Memref sig .tc .vmem S1024x1 .f32).view

end Cert.KernelIdeal.Gen

end
-- ==== Proof.KIRun1A.lean ====
/-
  The second kernel's body run in one case of its four branch conditions — the first point of all (row block 0, column block 0): the scratch columns are reset and the block meets the diagonal.
  On whole staging buffers holding the point's three input blocks, and the three scratch columns holding what the point
  before left (anything where the point resets them), the body runs to its end, faults nowhere, keeps the inputs, and
  leaves in each scratch column (and, where it writes the losses, in the output's buffer) the list of its stores,
  found by running it; off the last block of a row the output's buffer is handed back untouched.
-/
import proofs.«132504_j386547057031_2_alg».proof.Proof.KIConds1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : cond1_2 i) (hc3 : ¬cond1_3 i) (hc4 : ¬cond1_4 i)
    (x0 x1 : Vec F S1024x1024 .bf16) (x2 : Vec F S1024x1 .f32) :
    Σ' (LS0 : List (View.Piece (Elt F) S1024x1 .f32)) (LS1 : List (View.Piece (Elt F) S1024x1 .f32)), { LS2 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__triplet_kernel i arg2 harg2 arg3 harg3 arg4 harg4 arg5 harg5 arg6 harg6 arg7 harg7 arg8 harg8) K } := by
  refine ⟨?_, ?_, ?_, fun xi3 E K => ?run⟩
  case run =>
    simp only [cc1__triplet_kernel_eq_skeleton, k1_part1_eq_skeleton]; unfold cc1__triplet_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Gen

end
-- ==== Proof.KIRun1B.lean ====
/-
  The second kernel's body run in one case of its four branch conditions — a block off the diagonal that is neither the first nor the last of its row of blocks.
  On whole staging buffers holding the point's three input blocks, and the three scratch columns holding what the point
  before left (anything where the point resets them), the body runs to its end, faults nowhere, keeps the inputs, and
  leaves in each scratch column (and, where it writes the losses, in the output's buffer) the list of its stores,
  found by running it; off the last block of a row the output's buffer is handed back untouched.
-/
import proofs.«132504_j386547057031_2_alg».proof.Proof.KIConds1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : ¬cond1_4 i)
    (x0 x1 : Vec F S1024x1024 .bf16) (x2 : Vec F S1024x1 .f32) (xs0 xs1 xs2 : Vec F S1024x1 .f32) :
    Σ' (LS0 : List (View.Piece (Elt F) S1024x1 .f32)) (LS1 : List (View.Piece (Elt F) S1024x1 .f32)), { LS2 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__triplet_kernel i arg2 harg2 arg3 harg3 arg4 harg4 arg5 harg5 arg6 harg6 arg7 harg7 arg8 harg8) K } := by
  refine ⟨?_, ?_, ?_, fun xi3 E K => ?run⟩
  case run =>
    simp only [cc1__triplet_kernel_eq_skeleton, k1_part1_eq_skeleton]; unfold cc1__triplet_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Gen

end
-- ==== Proof.KIRun1C.lean ====
/-
  The second kernel's body run in one case of its four branch conditions — the last block of a row of blocks, off the diagonal: the rows' losses are written.
  On whole staging buffers holding the point's three input blocks, and the three scratch columns holding what the point
  before left (anything where the point resets them), the body runs to its end, faults nowhere, keeps the inputs, and
  leaves in each scratch column (and, where it writes the losses, in the output's buffer) the list of its stores,
  found by running it; off the last block of a row the output's buffer is handed back untouched.
-/
import proofs.«132504_j386547057031_2_alg».proof.Proof.KIConds1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : cond1_4 i)
    (x0 x1 : Vec F S1024x1024 .bf16) (x2 : Vec F S1024x1 .f32) (xs0 xs1 xs2 : Vec F S1024x1 .f32) :
    Σ' (L3 : List (View.Piece (Elt F) S1024x1 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__triplet_kernel i arg2 harg2 arg3 harg3 arg4 harg4 arg5 harg5 arg6 harg6 arg7 harg7 arg8 harg8) K } := by
  refine ⟨?_, ?_, ?_, ?_, fun E K => ?run⟩
  case run =>
    simp only [cc1__triplet_kernel_eq_skeleton, k1_part1_eq_skeleton]; unfold cc1__triplet_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Gen

end
-- ==== Proof.KIRun1D.lean ====
/-
  The second kernel's body run in one case of its four branch conditions — the first block of a row of blocks, off the diagonal: the scratch columns are reset.
  On whole staging buffers holding the point's three input blocks, and the three scratch columns holding what the point
  before left (anything where the point resets them), the body runs to its end, faults nowhere, keeps the inputs, and
  leaves in each scratch column (and, where it writes the losses, in the output's buffer) the list of its stores,
  found by running it; off the last block of a row the output's buffer is handed back untouched.
-/
import proofs.«132504_j386547057031_2_alg».proof.Proof.KIConds1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_D (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : ¬cond1_2 i) (hc3 : cond1_3 i) (hc4 : ¬cond1_4 i)
    (x0 x1 : Vec F S1024x1024 .bf16) (x2 : Vec F S1024x1 .f32) :
    Σ' (LS0 : List (View.Piece (Elt F) S1024x1 .f32)) (LS1 : List (View.Piece (Elt F) S1024x1 .f32)), { LS2 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__triplet_kernel i arg2 harg2 arg3 harg3 arg4 harg4 arg5 harg5 arg6 harg6 arg7 harg7 arg8 harg8) K } := by
  refine ⟨?_, ?_, ?_, fun xi3 E K => ?run⟩
  case run =>
    simp only [cc1__triplet_kernel_eq_skeleton, k1_part1_eq_skeleton]; unfold cc1__triplet_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Gen

end
-- ==== Proof.KIRun1E.lean ====
/-
  The second kernel's body run in one case of its four branch conditions — a block on the diagonal that is neither the first nor the last of its row of blocks.
  On whole staging buffers holding the point's three input blocks, and the three scratch columns holding what the point
  before left (anything where the point resets them), the body runs to its end, faults nowhere, keeps the inputs, and
  leaves in each scratch column (and, where it writes the losses, in the output's buffer) the list of its stores,
  found by running it; off the last block of a row the output's buffer is handed back untouched.
-/
import proofs.«132504_j386547057031_2_alg».proof.Proof.KIConds1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_E (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : ¬cond1_4 i)
    (x0 x1 : Vec F S1024x1024 .bf16) (x2 : Vec F S1024x1 .f32) (xs0 xs1 xs2 : Vec F S1024x1 .f32) :
    Σ' (LS0 : List (View.Piece (Elt F) S1024x1 .f32)) (LS1 : List (View.Piece (Elt F) S1024x1 .f32)), { LS2 : List (View.Piece (Elt F) S1024x1 .f32) //
      ∀ (xi3 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__triplet_kernel i arg2 harg2 arg3 harg3 arg4 harg4 arg5 harg5 arg6 harg6 arg7 harg7 arg8 harg8) K } := by
  refine ⟨?_, ?_, ?_, fun xi3 E K => ?run⟩
  case run =>
    simp only [cc1__triplet_kernel_eq_skeleton, k1_part1_eq_skeleton]; unfold cc1__triplet_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Gen

end
-- ==== Proof.KIRun1F.lean ====
/-
  The second kernel's body run in one case of its four branch conditions — the last block of the last row of blocks, on the diagonal: the rows' losses are written.
  On whole staging buffers holding the point's three input blocks, and the three scratch columns holding what the point
  before left (anything where the point resets them), the body runs to its end, faults nowhere, keeps the inputs, and
  leaves in each scratch column (and, where it writes the losses, in the output's buffer) the list of its stores,
  found by running it; off the last block of a row the output's buffer is handed back untouched.
-/
import proofs.«132504_j386547057031_2_alg».proof.Proof.KIConds1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_F (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : cond1_4 i)
    (x0 x1 : Vec F S1024x1024 .bf16) (x2 : Vec F S1024x1 .f32) (xs0 xs1 xs2 : Vec F S1024x1 .f32) :
    Σ' (L3 : List (View.Piece (Elt F) S1024x1 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__triplet_kernel i arg2 harg2 arg3 harg3 arg4 harg4 arg5 harg5 arg6 harg6 arg7 harg7 arg8 harg8) K } := by
  refine ⟨?_, ?_, ?_, ?_, fun E K => ?run⟩
  case run =>
    simp only [cc1__triplet_kernel_eq_skeleton, k1_part1_eq_skeleton]; unfold cc1__triplet_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Gen

end
-- ==== Proof.KIRegion1.lean ====
import proofs.«132504_j386547057031_2_alg».proof.Proof.KIRun1A
import proofs.«132504_j386547057031_2_alg».proof.Proof.KIRun1B
import proofs.«132504_j386547057031_2_alg».proof.Proof.KIRun1C
import proofs.«132504_j386547057031_2_alg».proof.Proof.KIRun1D
import proofs.«132504_j386547057031_2_alg».proof.Proof.KIRun1E
import proofs.«132504_j386547057031_2_alg».proof.Proof.KIRun1F
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second region: the row losses accumulated block by block

For every row block `i` the kernel walks the four column blocks `j = 0 … 3`, keeping in three scratch
columns the running sum of semi-hard negative distances, their count, and the running minimum of the
off-diagonal distances; at `j = 3` it writes the rows' losses. What the scratch columns hold after a
point is stated by recursion on the point. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the three scratch columns (and, at the last block, in the loss window) -/

theorem scover1_A_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : cond1_2 i) (hc3 : ¬cond1_3 i) (hc4 : ¬cond1_4 i) (x0 x1 : Vec F S1024x1024 .bf16) (x2 : Vec F S1024x1 .f32) (y : S1024x1.Idx) : ∃ pc ∈ (kernelRun1_A c i arg2 harg2 arg3 harg3 arg4 harg4 arg5 harg5 arg6 harg6 arg7 harg7 arg8 harg8 hc1 hc2 hc3 hc4 x0 x1 x2).1, y ∈ pc.1.set :=
  View.cover_of_tiledL (kernelRun1_A c i arg2 harg2 arg3 harg3 arg4 harg4 arg5 harg5 arg6 harg6 arg7 harg7 arg8 harg8 hc1 hc2 hc3 hc4 x0 x1 x2).1 S1024x1.size (by sl_kernel_rfl) y
def sout1_A_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : cond1_2 i) (hc3 : ¬cond1_3 i) (hc4 : ¬cond1_4 i) (x0 x1 : Vec F S1024x1024 .bf16) (x2 : Vec F S1024x1 .f32) : Vec F S1024x1 .f32 := View.canon (kernelRun1_A c i arg2 harg2 arg3 harg3 arg4 harg4 arg5 harg5 arg6 harg6 arg7 harg7 arg8 harg8 hc1 hc2 hc3 hc4 x0 x1 x2).1

theorem scover1_A_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : cond1_2 i) (hc3 : ¬cond1_3 i) (hc4 : ¬cond1_4 i) (x0 x1 : Vec F S1024x1024 .bf16) (x2 : Vec F S1024x1 .f32) (y : S1024x1.Idx) : ∃ pc ∈ (kernelRun1_A c i arg2 harg2 arg3 harg3 arg4 harg4 arg5 harg5 arg6 harg6 arg7 harg7 arg8 harg8 hc1 hc2 hc3 hc4 x0 x1 x2).2.1, y ∈ pc.1.set :=
  View.cover_of_tiledL (kernelRun1_A c i arg2 harg2 arg3 harg3 arg4 harg4 arg5 harg5 arg6 harg6 arg7 harg7 arg8 harg8 hc1 hc2 hc3 hc4 x0 x1 x2).2.1 S1024x1.size (by sl_kernel_rfl) y
def sout1_A_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : cond1_2 i) (hc3 : ¬cond1_3 i) (hc4 : ¬cond1_4 i) (x0 x1 : Vec F S1024x1024 .bf16) (x2 : Vec F S1024x1 .f32) : Vec F S1024x1 .f32 := View.canon (kernelRun1_A c i arg2 harg2 arg3 harg3 arg4 harg4 arg5 harg5 arg6 harg6 arg7 harg7 arg8 harg8 hc1 hc2 hc3 hc4 x0 x1 x2).2.1

theorem scover1_A_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : cond1_2 i) (hc3 : ¬cond1_3 i) (hc4 : ¬cond1_4 i) (x0 x1 : Vec F S1024x1024 .bf16) (x2 : Vec F S1024x1 .f32) (y : S1024x1.Idx) : ∃ pc ∈ (kernelRun1_A c i arg2 harg2 arg3 harg3 arg4 harg4 arg5 harg5 arg6 harg6 arg7 harg7 arg8 harg8 hc1 hc2 hc3 hc4 x0 x1 x2).2.2.1, y ∈ pc.1.set :=
  View.cover_of_tiledL (kernelRun1_A c i arg2 harg2 arg3 harg3 arg4 harg4 arg5 harg5 arg6 harg6 arg7 harg7 arg8 harg8 hc1 hc2 hc3 hc4 x0 x1 x2).2.2.1 S1024x1.size (by sl_kernel_rfl) y
def sout1_A_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : cond1_2 i) (hc3 : ¬cond1_3 i) (hc4 : ¬cond1_4 i) (x0 x1 : Vec F S1024x1024 .bf16) (x2 : Vec F S1024x1 .f32) : Vec F S1024x1 .f32 := View.canon (kernelRun1_A c i arg2 harg2 arg3 harg3 arg4 harg4 arg5 harg5 arg6 harg6 arg7 harg7 arg8 harg8 hc1 hc2 hc3 hc4 x0 x1 x2).2.2.1

theorem scover1_B_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : ¬cond1_4 i) (x0 x1 : Vec F S1024x1024 .bf16) (x2 : Vec F S1024x1 .f32) (xs0 xs1 xs2 : Vec F S1024x1 .f32) (y : S1024x1.Idx) : ∃ pc ∈ (kernelRun1_B c i arg2 harg2 arg3 harg3 arg4 harg4 arg5 harg5 arg6 harg6 arg7 harg7 arg8 harg8 hc1 hc2 hc3 hc4 x0 x1 x2 xs0 xs1 xs2).1, y ∈ pc.1.set :=
  View.cover_of_tiledL (kernelRun1_B c i arg2 harg2 arg3 harg3 arg4 harg4 arg5 harg5 arg6 harg6 arg7 harg7 arg8 harg8 hc1 hc2 hc3 hc4 x0 x1 x2 xs0 xs1 xs2).1 S1024x1.size (by sl_kernel_rfl) y
def sout1_B_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : ¬cond1_4 i) (x0 x1 : Vec F S1024x1024 .bf16) (x2 : Vec F S1024x1 .f32) (xs0 xs1 xs2 : Vec F S1024x1 .f32) : Vec F S1024x1 .f32 := View.canon (kernelRun1_B c i arg2 harg2 arg3 harg3 arg4 harg4 arg5 harg5 arg6 harg6 arg7 harg7 arg8 harg8 hc1 hc2 hc3 hc4 x0 x1 x2 xs0 xs1 xs2).1

theorem scover1_B_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : ¬cond1_4 i) (x0 x1 : Vec F S1024x1024 .bf16) (x2 : Vec F S1024x1 .f32) (xs0 xs1 xs2 : Vec F S1024x1 .f32) (y : S1024x1.Idx) : ∃ pc ∈ (kernelRun1_B c i arg2 harg2 arg3 harg3 arg4 harg4 arg5 harg5 arg6 harg6 arg7 harg7 arg8 harg8 hc1 hc2 hc3 hc4 x0 x1 x2 xs0 xs1 xs2).2.1, y ∈ pc.1.set :=
  View.cover_of_tiledL (kernelRun1_B c i arg2 harg2 arg3 harg3 arg4 harg4 arg5 harg5 arg6 harg6 arg7 harg7 arg8 harg8 hc1 hc2 hc3 hc4 x0 x1 x2 xs0 xs1 xs2).2.1 S1024x1.size (by sl_kernel_rfl) y
def sout1_B_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : ¬cond1_4 i) (x0 x1 : Vec F S1024x1024 .bf16) (x2 : Vec F S1024x1 .f32) (xs0 xs1 xs2 : Vec F S1024x1 .f32) : Vec F S1024x1 .f32 := View.canon (kernelRun1_B c i arg2 harg2 arg3 harg3 arg4 harg4 arg5 harg5 arg6 harg6 arg7 harg7 arg8 harg8 hc1 hc2 hc3 hc4 x0 x1 x2 xs0 xs1 xs2).2.1

theorem scover1_B_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : ¬cond1_4 i) (x0 x1 : Vec F S1024x1024 .bf16) (x2 : Vec F S1024x1 .f32) (xs0 xs1 xs2 : Vec F S1024x1 .f32) (y : S1024x1.Idx) : ∃ pc ∈ (kernelRun1_B c i arg2 harg2 arg3 harg3 arg4 harg4 arg5 harg5 arg6 harg6 arg7 harg7 arg8 harg8 hc1 hc2 hc3 hc4 x0 x1 x2 xs0 xs1 xs2).2.2.1, y ∈ pc.1.set :=
  View.cover_of_tiledL (kernelRun1_B c i arg2 harg2 arg3 harg3 arg4 harg4 arg5 harg5 arg6 harg6 arg7 harg7 arg8 harg8 hc1 hc2 hc3 hc4 x0 x1 x2 xs0 xs1 xs2).2.2.1 S1024x1.size (by sl_kernel_rfl) y
def sout1_B_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : ¬cond1_4 i) (x0 x1 : Vec F S1024x1024 .bf16) (x2 : Vec F S1024x1 .f32) (xs0 xs1 xs2 : Vec F S1024x1 .f32) : Vec F S1024x1 .f32 := View.canon (kernelRun1_B c i arg2 harg2 arg3 harg3 arg4 harg4 arg5 harg5 arg6 harg6 arg7 harg7 arg8 harg8 hc1 hc2 hc3 hc4 x0 x1 x2 xs0 xs1 xs2).2.2.1

theorem scover1_C_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : cond1_4 i) (x0 x1 : Vec F S1024x1024 .bf16) (x2 : Vec F S1024x1 .f32) (xs0 xs1 xs2 : Vec F S1024x1 .f32) (y : S1024x1.Idx) : ∃ pc ∈ (kernelRun1_C c i arg2 harg2 arg3 harg3 arg4 harg4 arg5 harg5 arg6 harg6 arg7 harg7 arg8 harg8 hc1 hc2 hc3 hc4 x0 x1 x2 xs0 xs1 xs2).2.1, y ∈ pc.1.set :=
  View.cover_of_tiledL (kernelRun1_C c i arg2 harg2 arg3 harg3 arg4 harg4 arg5 harg5 arg6 harg6 arg7 harg7 arg8 harg8 hc1 hc2 hc3 hc4 x0 x1 x2 xs0 xs1 xs2).2.1 S1024x1.size (by sl_kernel_rfl) y
def sout1_C_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : cond1_4 i) (x0 x1 : Vec F S1024x1024 .bf16) (x2 : Vec F S1024x1 .f32) (xs0 xs1 xs2 : Vec F S1024x1 .f32) : Vec F S1024x1 .f32 := View.canon (kernelRun1_C c i arg2 harg2 arg3 harg3 arg4 harg4 arg5 harg5 arg6 harg6 arg7 harg7 arg8 harg8 hc1 hc2 hc3 hc4 x0 x1 x2 xs0 xs1 xs2).2.1

theorem scover1_C_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : cond1_4 i) (x0 x1 : Vec F S1024x1024 .bf16) (x2 : Vec F S1024x1 .f32) (xs0 xs1 xs2 : Vec F S1024x1 .f32) (y : S1024x1.Idx) : ∃ pc ∈ (kernelRun1_C c i arg2 harg2 arg3 harg3 arg4 harg4 arg5 harg5 arg6 harg6 arg7 harg7 arg8 harg8 hc1 hc2 hc3 hc4 x0 x1 x2 xs0 xs1 xs2).2.2.1, y ∈ pc.1.set :=
  View.cover_of_tiledL (kernelRun1_C c i arg2 harg2 arg3 harg3 arg4 harg4 arg5 harg5 arg6 harg6 arg7 harg7 arg8 harg8 hc1 hc2 hc3 hc4 x0 x1 x2 xs0 xs1 xs2).2.2.1 S1024x1.size (by sl_kernel_rfl) y
def sout1_C_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : cond1_4 i) (x0 x1 : Vec F S1024x1024 .bf16) (x2 : Vec F S1024x1 .f32) (xs0 xs1 xs2 : Vec F S1024x1 .f32) : Vec F S1024x1 .f32 := View.canon (kernelRun1_C c i arg2 harg2 arg3 harg3 arg4 harg4 arg5 harg5 arg6 harg6 arg7 harg7 arg8 harg8 hc1 hc2 hc3 hc4 x0 x1 x2 xs0 xs1 xs2).2.2.1

theorem scover1_C_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : cond1_4 i) (x0 x1 : Vec F S1024x1024 .bf16) (x2 : Vec F S1024x1 .f32) (xs0 xs1 xs2 : Vec F S1024x1 .f32) (y : S1024x1.Idx) : ∃ pc ∈ (kernelRun1_C c i arg2 harg2 arg3 harg3 arg4 harg4 arg5 harg5 arg6 harg6 arg7 harg7 arg8 harg8 hc1 hc2 hc3 hc4 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc1 hc2 hc3 hc4 x0 x1 x2 xs0 xs1 xs2).2.2.2.1 S1024x1.size (by sl_kernel_rfl) y
def sout1_C_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : cond1_4 i) (x0 x1 : Vec F S1024x1024 .bf16) (x2 : Vec F S1024x1 .f32) (xs0 xs1 xs2 : Vec F S1024x1 .f32) : Vec F S1024x1 .f32 := View.canon (kernelRun1_C c i arg2 harg2 arg3 harg3 arg4 harg4 arg5 harg5 arg6 harg6 arg7 harg7 arg8 harg8 hc1 hc2 hc3 hc4 x0 x1 x2 xs0 xs1 xs2).2.2.2.1

theorem cover1_C_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : cond1_4 i) (x0 x1 : Vec F S1024x1024 .bf16) (x2 : Vec F S1024x1 .f32) (xs0 xs1 xs2 : Vec F S1024x1 .f32) (y : S1024x1.Idx) : ∃ pc ∈ (kernelRun1_C c i arg2 harg2 arg3 harg3 arg4 harg4 arg5 harg5 arg6 harg6 arg7 harg7 arg8 harg8 hc1 hc2 hc3 hc4 x0 x1 x2 xs0 xs1 xs2).1, y ∈ pc.1.set :=
  View.cover_of_tiledL (kernelRun1_C c i arg2 harg2 arg3 harg3 arg4 harg4 arg5 harg5 arg6 harg6 arg7 harg7 arg8 harg8 hc1 hc2 hc3 hc4 x0 x1 x2 xs0 xs1 xs2).1 S1024x1.size (by sl_kernel_rfl) y
def out1_C_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : cond1_4 i) (x0 x1 : Vec F S1024x1024 .bf16) (x2 : Vec F S1024x1 .f32) (xs0 xs1 xs2 : Vec F S1024x1 .f32) : Vec F S1024x1 .f32 := View.canon (kernelRun1_C c i arg2 harg2 arg3 harg3 arg4 harg4 arg5 harg5 arg6 harg6 arg7 harg7 arg8 harg8 hc1 hc2 hc3 hc4 x0 x1 x2 xs0 xs1 xs2).1

theorem scover1_D_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : ¬cond1_2 i) (hc3 : cond1_3 i) (hc4 : ¬cond1_4 i) (x0 x1 : Vec F S1024x1024 .bf16) (x2 : Vec F S1024x1 .f32) (y : S1024x1.Idx) : ∃ pc ∈ (kernelRun1_D c i arg2 harg2 arg3 harg3 arg4 harg4 arg5 harg5 arg6 harg6 arg7 harg7 arg8 harg8 hc1 hc2 hc3 hc4 x0 x1 x2).1, y ∈ pc.1.set :=
  View.cover_of_tiledL (kernelRun1_D c i arg2 harg2 arg3 harg3 arg4 harg4 arg5 harg5 arg6 harg6 arg7 harg7 arg8 harg8 hc1 hc2 hc3 hc4 x0 x1 x2).1 S1024x1.size (by sl_kernel_rfl) y
def sout1_D_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : ¬cond1_2 i) (hc3 : cond1_3 i) (hc4 : ¬cond1_4 i) (x0 x1 : Vec F S1024x1024 .bf16) (x2 : Vec F S1024x1 .f32) : Vec F S1024x1 .f32 := View.canon (kernelRun1_D c i arg2 harg2 arg3 harg3 arg4 harg4 arg5 harg5 arg6 harg6 arg7 harg7 arg8 harg8 hc1 hc2 hc3 hc4 x0 x1 x2).1

theorem scover1_D_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : ¬cond1_2 i) (hc3 : cond1_3 i) (hc4 : ¬cond1_4 i) (x0 x1 : Vec F S1024x1024 .bf16) (x2 : Vec F S1024x1 .f32) (y : S1024x1.Idx) : ∃ pc ∈ (kernelRun1_D c i arg2 harg2 arg3 harg3 arg4 harg4 arg5 harg5 arg6 harg6 arg7 harg7 arg8 harg8 hc1 hc2 hc3 hc4 x0 x1 x2).2.1, y ∈ pc.1.set :=
  View.cover_of_tiledL (kernelRun1_D c i arg2 harg2 arg3 harg3 arg4 harg4 arg5 harg5 arg6 harg6 arg7 harg7 arg8 harg8 hc1 hc2 hc3 hc4 x0 x1 x2).2.1 S1024x1.size (by sl_kernel_rfl) y
def sout1_D_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : ¬cond1_2 i) (hc3 : cond1_3 i) (hc4 : ¬cond1_4 i) (x0 x1 : Vec F S1024x1024 .bf16) (x2 : Vec F S1024x1 .f32) : Vec F S1024x1 .f32 := View.canon (kernelRun1_D c i arg2 harg2 arg3 harg3 arg4 harg4 arg5 harg5 arg6 harg6 arg7 harg7 arg8 harg8 hc1 hc2 hc3 hc4 x0 x1 x2).2.1

theorem scover1_D_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : ¬cond1_2 i) (hc3 : cond1_3 i) (hc4 : ¬cond1_4 i) (x0 x1 : Vec F S1024x1024 .bf16) (x2 : Vec F S1024x1 .f32) (y : S1024x1.Idx) : ∃ pc ∈ (kernelRun1_D c i arg2 harg2 arg3 harg3 arg4 harg4 arg5 harg5 arg6 harg6 arg7 harg7 arg8 harg8 hc1 hc2 hc3 hc4 x0 x1 x2).2.2.1, y ∈ pc.1.set :=
  View.cover_of_tiledL (kernelRun1_D c i arg2 harg2 arg3 harg3 arg4 harg4 arg5 harg5 arg6 harg6 arg7 harg7 arg8 harg8 hc1 hc2 hc3 hc4 x0 x1 x2).2.2.1 S1024x1.size (by sl_kernel_rfl) y
def sout1_D_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : ¬cond1_2 i) (hc3 : cond1_3 i) (hc4 : ¬cond1_4 i) (x0 x1 : Vec F S1024x1024 .bf16) (x2 : Vec F S1024x1 .f32) : Vec F S1024x1 .f32 := View.canon (kernelRun1_D c i arg2 harg2 arg3 harg3 arg4 harg4 arg5 harg5 arg6 harg6 arg7 harg7 arg8 harg8 hc1 hc2 hc3 hc4 x0 x1 x2).2.2.1

theorem scover1_E_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : ¬cond1_4 i) (x0 x1 : Vec F S1024x1024 .bf16) (x2 : Vec F S1024x1 .f32) (xs0 xs1 xs2 : Vec F S1024x1 .f32) (y : S1024x1.Idx) : ∃ pc ∈ (kernelRun1_E c i arg2 harg2 arg3 harg3 arg4 harg4 arg5 harg5 arg6 harg6 arg7 harg7 arg8 harg8 hc1 hc2 hc3 hc4 x0 x1 x2 xs0 xs1 xs2).1, y ∈ pc.1.set :=
  View.cover_of_tiledL (kernelRun1_E c i arg2 harg2 arg3 harg3 arg4 harg4 arg5 harg5 arg6 harg6 arg7 harg7 arg8 harg8 hc1 hc2 hc3 hc4 x0 x1 x2 xs0 xs1 xs2).1 S1024x1.size (by sl_kernel_rfl) y
def sout1_E_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : ¬cond1_4 i) (x0 x1 : Vec F S1024x1024 .bf16) (x2 : Vec F S1024x1 .f32) (xs0 xs1 xs2 : Vec F S1024x1 .f32) : Vec F S1024x1 .f32 := View.canon (kernelRun1_E c i arg2 harg2 arg3 harg3 arg4 harg4 arg5 harg5 arg6 harg6 arg7 harg7 arg8 harg8 hc1 hc2 hc3 hc4 x0 x1 x2 xs0 xs1 xs2).1

theorem scover1_E_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : ¬cond1_4 i) (x0 x1 : Vec F S1024x1024 .bf16) (x2 : Vec F S1024x1 .f32) (xs0 xs1 xs2 : Vec F S1024x1 .f32) (y : S1024x1.Idx) : ∃ pc ∈ (kernelRun1_E c i arg2 harg2 arg3 harg3 arg4 harg4 arg5 harg5 arg6 harg6 arg7 harg7 arg8 harg8 hc1 hc2 hc3 hc4 x0 x1 x2 xs0 xs1 xs2).2.1, y ∈ pc.1.set :=
  View.cover_of_tiledL (kernelRun1_E c i arg2 harg2 arg3 harg3 arg4 harg4 arg5 harg5 arg6 harg6 arg7 harg7 arg8 harg8 hc1 hc2 hc3 hc4 x0 x1 x2 xs0 xs1 xs2).2.1 S1024x1.size (by sl_kernel_rfl) y
def sout1_E_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : ¬cond1_4 i) (x0 x1 : Vec F S1024x1024 .bf16) (x2 : Vec F S1024x1 .f32) (xs0 xs1 xs2 : Vec F S1024x1 .f32) : Vec F S1024x1 .f32 := View.canon (kernelRun1_E c i arg2 harg2 arg3 harg3 arg4 harg4 arg5 harg5 arg6 harg6 arg7 harg7 arg8 harg8 hc1 hc2 hc3 hc4 x0 x1 x2 xs0 xs1 xs2).2.1

theorem scover1_E_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : ¬cond1_4 i) (x0 x1 : Vec F S1024x1024 .bf16) (x2 : Vec F S1024x1 .f32) (xs0 xs1 xs2 : Vec F S1024x1 .f32) (y : S1024x1.Idx) : ∃ pc ∈ (kernelRun1_E c i arg2 harg2 arg3 harg3 arg4 harg4 arg5 harg5 arg6 harg6 arg7 harg7 arg8 harg8 hc1 hc2 hc3 hc4 x0 x1 x2 xs0 xs1 xs2).2.2.1, y ∈ pc.1.set :=
  View.cover_of_tiledL (kernelRun1_E c i arg2 harg2 arg3 harg3 arg4 harg4 arg5 harg5 arg6 harg6 arg7 harg7 arg8 harg8 hc1 hc2 hc3 hc4 x0 x1 x2 xs0 xs1 xs2).2.2.1 S1024x1.size (by sl_kernel_rfl) y
def sout1_E_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : ¬cond1_4 i) (x0 x1 : Vec F S1024x1024 .bf16) (x2 : Vec F S1024x1 .f32) (xs0 xs1 xs2 : Vec F S1024x1 .f32) : Vec F S1024x1 .f32 := View.canon (kernelRun1_E c i arg2 harg2 arg3 harg3 arg4 harg4 arg5 harg5 arg6 harg6 arg7 harg7 arg8 harg8 hc1 hc2 hc3 hc4 x0 x1 x2 xs0 xs1 xs2).2.2.1

theorem scover1_F_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : cond1_4 i) (x0 x1 : Vec F S1024x1024 .bf16) (x2 : Vec F S1024x1 .f32) (xs0 xs1 xs2 : Vec F S1024x1 .f32) (y : S1024x1.Idx) : ∃ pc ∈ (kernelRun1_F c i arg2 harg2 arg3 harg3 arg4 harg4 arg5 harg5 arg6 harg6 arg7 harg7 arg8 harg8 hc1 hc2 hc3 hc4 x0 x1 x2 xs0 xs1 xs2).2.1, y ∈ pc.1.set :=
  View.cover_of_tiledL (kernelRun1_F c i arg2 harg2 arg3 harg3 arg4 harg4 arg5 harg5 arg6 harg6 arg7 harg7 arg8 harg8 hc1 hc2 hc3 hc4 x0 x1 x2 xs0 xs1 xs2).2.1 S1024x1.size (by sl_kernel_rfl) y
def sout1_F_0 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : cond1_4 i) (x0 x1 : Vec F S1024x1024 .bf16) (x2 : Vec F S1024x1 .f32) (xs0 xs1 xs2 : Vec F S1024x1 .f32) : Vec F S1024x1 .f32 := View.canon (kernelRun1_F c i arg2 harg2 arg3 harg3 arg4 harg4 arg5 harg5 arg6 harg6 arg7 harg7 arg8 harg8 hc1 hc2 hc3 hc4 x0 x1 x2 xs0 xs1 xs2).2.1

theorem scover1_F_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : cond1_4 i) (x0 x1 : Vec F S1024x1024 .bf16) (x2 : Vec F S1024x1 .f32) (xs0 xs1 xs2 : Vec F S1024x1 .f32) (y : S1024x1.Idx) : ∃ pc ∈ (kernelRun1_F c i arg2 harg2 arg3 harg3 arg4 harg4 arg5 harg5 arg6 harg6 arg7 harg7 arg8 harg8 hc1 hc2 hc3 hc4 x0 x1 x2 xs0 xs1 xs2).2.2.1, y ∈ pc.1.set :=
  View.cover_of_tiledL (kernelRun1_F c i arg2 harg2 arg3 harg3 arg4 harg4 arg5 harg5 arg6 harg6 arg7 harg7 arg8 harg8 hc1 hc2 hc3 hc4 x0 x1 x2 xs0 xs1 xs2).2.2.1 S1024x1.size (by sl_kernel_rfl) y
def sout1_F_1 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : cond1_4 i) (x0 x1 : Vec F S1024x1024 .bf16) (x2 : Vec F S1024x1 .f32) (xs0 xs1 xs2 : Vec F S1024x1 .f32) : Vec F S1024x1 .f32 := View.canon (kernelRun1_F c i arg2 harg2 arg3 harg3 arg4 harg4 arg5 harg5 arg6 harg6 arg7 harg7 arg8 harg8 hc1 hc2 hc3 hc4 x0 x1 x2 xs0 xs1 xs2).2.2.1

theorem scover1_F_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : cond1_4 i) (x0 x1 : Vec F S1024x1024 .bf16) (x2 : Vec F S1024x1 .f32) (xs0 xs1 xs2 : Vec F S1024x1 .f32) (y : S1024x1.Idx) : ∃ pc ∈ (kernelRun1_F c i arg2 harg2 arg3 harg3 arg4 harg4 arg5 harg5 arg6 harg6 arg7 harg7 arg8 harg8 hc1 hc2 hc3 hc4 x0 x1 x2 xs0 xs1 xs2).2.2.2.1, y ∈ pc.1.set :=
  View.cover_of_tiledL (kernelRun1_F c i arg2 harg2 arg3 harg3 arg4 harg4 arg5 harg5 arg6 harg6 arg7 harg7 arg8 harg8 hc1 hc2 hc3 hc4 x0 x1 x2 xs0 xs1 xs2).2.2.2.1 S1024x1.size (by sl_kernel_rfl) y
def sout1_F_2 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : cond1_4 i) (x0 x1 : Vec F S1024x1024 .bf16) (x2 : Vec F S1024x1 .f32) (xs0 xs1 xs2 : Vec F S1024x1 .f32) : Vec F S1024x1 .f32 := View.canon (kernelRun1_F c i arg2 harg2 arg3 harg3 arg4 harg4 arg5 harg5 arg6 harg6 arg7 harg7 arg8 harg8 hc1 hc2 hc3 hc4 x0 x1 x2 xs0 xs1 xs2).2.2.2.1

theorem cover1_F_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : cond1_4 i) (x0 x1 : Vec F S1024x1024 .bf16) (x2 : Vec F S1024x1 .f32) (xs0 xs1 xs2 : Vec F S1024x1 .f32) (y : S1024x1.Idx) : ∃ pc ∈ (kernelRun1_F c i arg2 harg2 arg3 harg3 arg4 harg4 arg5 harg5 arg6 harg6 arg7 harg7 arg8 harg8 hc1 hc2 hc3 hc4 x0 x1 x2 xs0 xs1 xs2).1, y ∈ pc.1.set :=
  View.cover_of_tiledL (kernelRun1_F c i arg2 harg2 arg3 harg3 arg4 harg4 arg5 harg5 arg6 harg6 arg7 harg7 arg8 harg8 hc1 hc2 hc3 hc4 x0 x1 x2 xs0 xs1 xs2).1 S1024x1.size (by sl_kernel_rfl) y
def out1_F_3 (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : cond1_4 i) (x0 x1 : Vec F S1024x1024 .bf16) (x2 : Vec F S1024x1 .f32) (xs0 xs1 xs2 : Vec F S1024x1 .f32) : Vec F S1024x1 .f32 := View.canon (kernelRun1_F c i arg2 harg2 arg3 harg3 arg4 harg4 arg5 harg5 arg6 harg6 arg7 harg7 arg8 harg8 hc1 hc2 hc3 hc4 x0 x1 x2 xs0 xs1 xs2).1

/-! ## The scratch columns point by point -/

/-- The three scratch columns. -/
abbrev St (F : FTy → Type) [FloatOps F] : Type := Vec F S1024x1 .f32 × Vec F S1024x1 .f32 × Vec F S1024x1 .f32

/-- What point `t` leaves — the three scratch columns and the loss window's buffer — given what the point
    before left in the scratch columns (unused where the point resets them). Off the last block of a row the
    loss window's component is a placeholder nothing reads. -/
def stepAt (c : Dev nD) (t : Fin cfg1.N) (s : St F) : St F × Vec F S1024x1 .f32 :=
  if h1 : t.val % 4 = 0 then
    if h2 : t.val % 4 = t.val / 4 then
      have h4 : ¬ t.val % 4 = 3 := by omega
      ((sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_1 t).mpr h1) ((hcond1_2 t).mpr h2) (fun h => (hcond1_3 t).mp h h2) (fun h => h4 ((hcond1_4 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_1 t).mpr h1) ((hcond1_2 t).mpr h2) (fun h => (hcond1_3 t).mp h h2) (fun h => h4 ((hcond1_4 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_1 t).mpr h1) ((hcond1_2 t).mpr h2) (fun h => (hcond1_3 t).mp h h2) (fun h => h4 ((hcond1_4 t).mp h)) (iblk1 V c 0 t) (iblk1 V c 1 t) (iblk1 V c 2 t)), s.1)
    else
      have h4 : ¬ t.val % 4 = 3 := by omega
      ((sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_1 t).mpr h1) (fun h => h2 ((hcond1_2 t).mp h)) ((hcond1_3 t).mpr h2) (fun h => h4 ((hcond1_4 t).mp h)) (iblk1 V c 0 t) (iblk1 V c 1 t) (iblk1 V c 2 t), sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_1 t).mpr h1) (fun h => h2 ((hcond1_2 t).mp h)) ((hcond1_3 t).mpr h2) (fun h => h4 ((hcond1_4 t).mp h)) (iblk1 V c 0 t) (iblk1 V c 1 t) (iblk1 V c 2 t), sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_1 t).mpr h1) (fun h => h2 ((hcond1_2 t).mp h)) ((hcond1_3 t).mpr h2) (fun h => h4 ((hcond1_4 t).mp h)) (iblk1 V c 0 t) (iblk1 V c 1 t) (iblk1 V c 2 t)), s.1)
  else if h4 : t.val % 4 = 3 then
    if h2 : t.val % 4 = t.val / 4 then
      ((sout1_F_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) ((hcond1_2 t).mpr h2) (fun h => (hcond1_3 t).mp h h2) ((hcond1_4 t).mpr h4) (iblk1 V c 0 t) (iblk1 V c 1 t) (iblk1 V c 2 t) s.1 s.2.1 s.2.2, sout1_F_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) ((hcond1_2 t).mpr h2) (fun h => (hcond1_3 t).mp h h2) ((hcond1_4 t).mpr h4) (iblk1 V c 0 t) (iblk1 V c 1 t) (iblk1 V c 2 t) s.1 s.2.1 s.2.2, sout1_F_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) ((hcond1_2 t).mpr h2) (fun h => (hcond1_3 t).mp h h2) ((hcond1_4 t).mpr h4) (iblk1 V c 0 t) (iblk1 V c 1 t) (iblk1 V c 2 t) s.1 s.2.1 s.2.2), out1_F_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) ((hcond1_2 t).mpr h2) (fun h => (hcond1_3 t).mp h h2) ((hcond1_4 t).mpr h4) (iblk1 V c 0 t) (iblk1 V c 1 t) (iblk1 V c 2 t) s.1 s.2.1 s.2.2)
    else
      ((sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) (fun h => h2 ((hcond1_2 t).mp h)) ((hcond1_3 t).mpr h2) ((hcond1_4 t).mpr h4) (iblk1 V c 0 t) (iblk1 V c 1 t) (iblk1 V c 2 t) s.1 s.2.1 s.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) (fun h => h2 ((hcond1_2 t).mp h)) ((hcond1_3 t).mpr h2) ((hcond1_4 t).mpr h4) (iblk1 V c 0 t) (iblk1 V c 1 t) (iblk1 V c 2 t) s.1 s.2.1 s.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) (fun h => h2 ((hcond1_2 t).mp h)) ((hcond1_3 t).mpr h2) ((hcond1_4 t).mpr h4) (iblk1 V c 0 t) (iblk1 V c 1 t) (iblk1 V c 2 t) s.1 s.2.1 s.2.2), out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) (fun h => h2 ((hcond1_2 t).mp h)) ((hcond1_3 t).mpr h2) ((hcond1_4 t).mpr h4) (iblk1 V c 0 t) (iblk1 V c 1 t) (iblk1 V c 2 t) s.1 s.2.1 s.2.2)
  else
    if h2 : t.val % 4 = t.val / 4 then
      ((sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) ((hcond1_2 t).mpr h2) (fun h => (hcond1_3 t).mp h h2) (fun h => h4 ((hcond1_4 t).mp h)) (iblk1 V c 0 t) (iblk1 V c 1 t) (iblk1 V c 2 t) s.1 s.2.1 s.2.2, sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) ((hcond1_2 t).mpr h2) (fun h => (hcond1_3 t).mp h h2) (fun h => h4 ((hcond1_4 t).mp h)) (iblk1 V c 0 t) (iblk1 V c 1 t) (iblk1 V c 2 t) s.1 s.2.1 s.2.2, sout1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) ((hcond1_2 t).mpr h2) (fun h => (hcond1_3 t).mp h h2) (fun h => h4 ((hcond1_4 t).mp h)) (iblk1 V c 0 t) (iblk1 V c 1 t) (iblk1 V c 2 t) s.1 s.2.1 s.2.2), s.1)
    else
      ((sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) (fun h => h2 ((hcond1_2 t).mp h)) ((hcond1_3 t).mpr h2) (fun h => h4 ((hcond1_4 t).mp h)) (iblk1 V c 0 t) (iblk1 V c 1 t) (iblk1 V c 2 t) s.1 s.2.1 s.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) (fun h => h2 ((hcond1_2 t).mp h)) ((hcond1_3 t).mpr h2) (fun h => h4 ((hcond1_4 t).mp h)) (iblk1 V c 0 t) (iblk1 V c 1 t) (iblk1 V c 2 t) s.1 s.2.1 s.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) (fun h => h2 ((hcond1_2 t).mp h)) ((hcond1_3 t).mpr h2) (fun h => h4 ((hcond1_4 t).mp h)) (iblk1 V c 0 t) (iblk1 V c 1 t) (iblk1 V c 2 t) s.1 s.2.1 s.2.2), s.1)

/-- The scratch columns and the loss window's buffer after the body at position `n`. -/
def sAt1 (c : Dev nD) : (n : ℕ) → n < cfg1.N → St F × Vec F S1024x1 .f32
  | 0, hn => stepAt V c ⟨0, hn⟩ (k1_pay1, k1_pay1, k1_pay1)
  | n + 1, hn => stepAt V c ⟨n + 1, hn⟩ (sAt1 c n (Nat.lt_of_succ_lt hn)).1

theorem sAt1_zero (c : Dev nD) (t : Fin cfg1.N) (hz : t.val = 0) :
    sAt1 V c t.val t.isLt = stepAt V c t (k1_pay1, k1_pay1, k1_pay1) := by
  obtain ⟨n, hn⟩ := t
  cases n with
  | zero => rfl
  | succ n => exact absurd hz (Nat.succ_ne_zero n)

theorem sAt1_pos (c : Dev nD) (t : Fin cfg1.N) (hz : t.val ≠ 0) :
    sAt1 V c t.val t.isLt = stepAt V c t (sAt1 V c (t.val - 1) (Nat.lt_of_le_of_lt (Nat.sub_le _ _) t.isLt)).1 := by
  obtain ⟨n, hn⟩ := t
  cases n with
  | zero => exact absurd rfl hz
  | succ n => rfl

/-- The region invariant before position `n`: before the first point every scoped buffer that is no staging
    buffer of this region at anything; afterwards the three scratch columns at what the point before left, the
    other such buffers at anything; the generator register at some state throughout. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare (sAt1 V c n hn).1.1 ∗ owns (c : Thread nD τ) scM1_1 fullShare (sAt1 V c n hn).1.2.1 ∗ owns (c : Thread nD τ) scM1_2 fullShare (sAt1 V c n hn).1.2.2) ∗ (∃ r, prngReg c r))

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare (sAt1 V c n hn).1.1 ∗ owns (c : Thread nD τ) scM1_1 fullShare (sAt1 V c n hn).1.2.1 ∗ owns (c : Thread nD τ) scM1_2 fullShare (sAt1 V c n hn).1.2.2) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ owns (c : Thread nD τ) scM1_0 fullShare (sAt1 V c (n - 1) (by omega)).1.1 ∗ owns (c : Thread nD τ) scM1_1 fullShare (sAt1 V c (n - 1) (by omega)).1.2.1 ∗ owns (c : Thread nD τ) scM1_2 fullShare (sAt1 V c (n - 1) (by omega)).1.2.2) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (sAt1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (sAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Gen

end
-- ==== Proof.KIBody1.lean ====
import proofs.«132504_j386547057031_2_alg».proof.Proof.KIRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulation, case by case -/

theorem sAt1_A (c : Dev nD) (t : Fin cfg1.N) (h1 : t.val % 4 = 0) (h2 : t.val % 4 = t.val / 4) (h4 : ¬ t.val % 4 = 3) :
    sAt1 V c t.val t.isLt = ((sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_1 t).mpr h1) ((hcond1_2 t).mpr h2) (fun h => (hcond1_3 t).mp h h2) (fun h => h4 ((hcond1_4 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_1 t).mpr h1) ((hcond1_2 t).mpr h2) (fun h => (hcond1_3 t).mp h h2) (fun h => h4 ((hcond1_4 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_1 t).mpr h1) ((hcond1_2 t).mpr h2) (fun h => (hcond1_3 t).mp h h2) (fun h => h4 ((hcond1_4 t).mp h)) (iblk1 V c 0 t) (iblk1 V c 1 t) (iblk1 V c 2 t)), (((k1_pay1, k1_pay1, k1_pay1) : St F)).1) := by
  rw [sAt1_zero V c t (by have hN : t.val < 16 := lt_of_lt_of_eq t.isLt (show cfg1.N = 16 from N_1); omega)]
  unfold stepAt
  rw [dif_pos h1, dif_pos h2]

theorem sAt1_B (c : Dev nD) (t : Fin cfg1.N) (h1 : ¬ t.val % 4 = 0) (h2 : ¬ t.val % 4 = t.val / 4) (h4 : ¬ t.val % 4 = 3) :
    sAt1 V c t.val t.isLt = ((sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) (fun h => h2 ((hcond1_2 t).mp h)) ((hcond1_3 t).mpr h2) (fun h => h4 ((hcond1_4 t).mp h)) (iblk1 V c 0 t) (iblk1 V c 1 t) (iblk1 V c 2 t) ((sAt1 V c (t.val - 1) (Nat.lt_of_le_of_lt (Nat.sub_le _ _) t.isLt)).1).1 ((sAt1 V c (t.val - 1) (Nat.lt_of_le_of_lt (Nat.sub_le _ _) t.isLt)).1).2.1 ((sAt1 V c (t.val - 1) (Nat.lt_of_le_of_lt (Nat.sub_le _ _) t.isLt)).1).2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) (fun h => h2 ((hcond1_2 t).mp h)) ((hcond1_3 t).mpr h2) (fun h => h4 ((hcond1_4 t).mp h)) (iblk1 V c 0 t) (iblk1 V c 1 t) (iblk1 V c 2 t) ((sAt1 V c (t.val - 1) (Nat.lt_of_le_of_lt (Nat.sub_le _ _) t.isLt)).1).1 ((sAt1 V c (t.val - 1) (Nat.lt_of_le_of_lt (Nat.sub_le _ _) t.isLt)).1).2.1 ((sAt1 V c (t.val - 1) (Nat.lt_of_le_of_lt (Nat.sub_le _ _) t.isLt)).1).2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) (fun h => h2 ((hcond1_2 t).mp h)) ((hcond1_3 t).mpr h2) (fun h => h4 ((hcond1_4 t).mp h)) (iblk1 V c 0 t) (iblk1 V c 1 t) (iblk1 V c 2 t) ((sAt1 V c (t.val - 1) (Nat.lt_of_le_of_lt (Nat.sub_le _ _) t.isLt)).1).1 ((sAt1 V c (t.val - 1) (Nat.lt_of_le_of_lt (Nat.sub_le _ _) t.isLt)).1).2.1 ((sAt1 V c (t.val - 1) (Nat.lt_of_le_of_lt (Nat.sub_le _ _) t.isLt)).1).2.2), ((sAt1 V c (t.val - 1) (Nat.lt_of_le_of_lt (Nat.sub_le _ _) t.isLt)).1).1) := by
  rw [sAt1_pos V c t (by intro hz; rw [hz] at h1 h2; exact h1 (by decide))]
  unfold stepAt
  rw [dif_neg h1, dif_neg h4, dif_neg h2]

theorem sAt1_C (c : Dev nD) (t : Fin cfg1.N) (h1 : ¬ t.val % 4 = 0) (h2 : ¬ t.val % 4 = t.val / 4) (h4 : t.val % 4 = 3) :
    sAt1 V c t.val t.isLt = ((sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) (fun h => h2 ((hcond1_2 t).mp h)) ((hcond1_3 t).mpr h2) ((hcond1_4 t).mpr h4) (iblk1 V c 0 t) (iblk1 V c 1 t) (iblk1 V c 2 t) ((sAt1 V c (t.val - 1) (Nat.lt_of_le_of_lt (Nat.sub_le _ _) t.isLt)).1).1 ((sAt1 V c (t.val - 1) (Nat.lt_of_le_of_lt (Nat.sub_le _ _) t.isLt)).1).2.1 ((sAt1 V c (t.val - 1) (Nat.lt_of_le_of_lt (Nat.sub_le _ _) t.isLt)).1).2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) (fun h => h2 ((hcond1_2 t).mp h)) ((hcond1_3 t).mpr h2) ((hcond1_4 t).mpr h4) (iblk1 V c 0 t) (iblk1 V c 1 t) (iblk1 V c 2 t) ((sAt1 V c (t.val - 1) (Nat.lt_of_le_of_lt (Nat.sub_le _ _) t.isLt)).1).1 ((sAt1 V c (t.val - 1) (Nat.lt_of_le_of_lt (Nat.sub_le _ _) t.isLt)).1).2.1 ((sAt1 V c (t.val - 1) (Nat.lt_of_le_of_lt (Nat.sub_le _ _) t.isLt)).1).2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) (fun h => h2 ((hcond1_2 t).mp h)) ((hcond1_3 t).mpr h2) ((hcond1_4 t).mpr h4) (iblk1 V c 0 t) (iblk1 V c 1 t) (iblk1 V c 2 t) ((sAt1 V c (t.val - 1) (Nat.lt_of_le_of_lt (Nat.sub_le _ _) t.isLt)).1).1 ((sAt1 V c (t.val - 1) (Nat.lt_of_le_of_lt (Nat.sub_le _ _) t.isLt)).1).2.1 ((sAt1 V c (t.val - 1) (Nat.lt_of_le_of_lt (Nat.sub_le _ _) t.isLt)).1).2.2), out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) (fun h => h2 ((hcond1_2 t).mp h)) ((hcond1_3 t).mpr h2) ((hcond1_4 t).mpr h4) (iblk1 V c 0 t) (iblk1 V c 1 t) (iblk1 V c 2 t) ((sAt1 V c (t.val - 1) (Nat.lt_of_le_of_lt (Nat.sub_le _ _) t.isLt)).1).1 ((sAt1 V c (t.val - 1) (Nat.lt_of_le_of_lt (Nat.sub_le _ _) t.isLt)).1).2.1 ((sAt1 V c (t.val - 1) (Nat.lt_of_le_of_lt (Nat.sub_le _ _) t.isLt)).1).2.2) := by
  rw [sAt1_pos V c t (by intro hz; rw [hz] at h1 h2; exact h1 (by decide))]
  unfold stepAt
  rw [dif_neg h1, dif_pos h4, dif_neg h2]

theorem sAt1_D (c : Dev nD) (t : Fin cfg1.N) (h1 : t.val % 4 = 0) (h2 : ¬ t.val % 4 = t.val / 4) (h4 : ¬ t.val % 4 = 3) :
    sAt1 V c t.val t.isLt = ((sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_1 t).mpr h1) (fun h => h2 ((hcond1_2 t).mp h)) ((hcond1_3 t).mpr h2) (fun h => h4 ((hcond1_4 t).mp h)) (iblk1 V c 0 t) (iblk1 V c 1 t) (iblk1 V c 2 t), sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_1 t).mpr h1) (fun h => h2 ((hcond1_2 t).mp h)) ((hcond1_3 t).mpr h2) (fun h => h4 ((hcond1_4 t).mp h)) (iblk1 V c 0 t) (iblk1 V c 1 t) (iblk1 V c 2 t), sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_1 t).mpr h1) (fun h => h2 ((hcond1_2 t).mp h)) ((hcond1_3 t).mpr h2) (fun h => h4 ((hcond1_4 t).mp h)) (iblk1 V c 0 t) (iblk1 V c 1 t) (iblk1 V c 2 t)), ((sAt1 V c (t.val - 1) (Nat.lt_of_le_of_lt (Nat.sub_le _ _) t.isLt)).1).1) := by
  rw [sAt1_pos V c t (by intro hz; rw [hz] at h1 h2; exact h2 (by decide))]
  unfold stepAt
  rw [dif_pos h1, dif_neg h2]

theorem sAt1_E (c : Dev nD) (t : Fin cfg1.N) (h1 : ¬ t.val % 4 = 0) (h2 : t.val % 4 = t.val / 4) (h4 : ¬ t.val % 4 = 3) :
    sAt1 V c t.val t.isLt = ((sout1_E_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) ((hcond1_2 t).mpr h2) (fun h => (hcond1_3 t).mp h h2) (fun h => h4 ((hcond1_4 t).mp h)) (iblk1 V c 0 t) (iblk1 V c 1 t) (iblk1 V c 2 t) ((sAt1 V c (t.val - 1) (Nat.lt_of_le_of_lt (Nat.sub_le _ _) t.isLt)).1).1 ((sAt1 V c (t.val - 1) (Nat.lt_of_le_of_lt (Nat.sub_le _ _) t.isLt)).1).2.1 ((sAt1 V c (t.val - 1) (Nat.lt_of_le_of_lt (Nat.sub_le _ _) t.isLt)).1).2.2, sout1_E_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) ((hcond1_2 t).mpr h2) (fun h => (hcond1_3 t).mp h h2) (fun h => h4 ((hcond1_4 t).mp h)) (iblk1 V c 0 t) (iblk1 V c 1 t) (iblk1 V c 2 t) ((sAt1 V c (t.val - 1) (Nat.lt_of_le_of_lt (Nat.sub_le _ _) t.isLt)).1).1 ((sAt1 V c (t.val - 1) (Nat.lt_of_le_of_lt (Nat.sub_le _ _) t.isLt)).1).2.1 ((sAt1 V c (t.val - 1) (Nat.lt_of_le_of_lt (Nat.sub_le _ _) t.isLt)).1).2.2, sout1_E_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) ((hcond1_2 t).mpr h2) (fun h => (hcond1_3 t).mp h h2) (fun h => h4 ((hcond1_4 t).mp h)) (iblk1 V c 0 t) (iblk1 V c 1 t) (iblk1 V c 2 t) ((sAt1 V c (t.val - 1) (Nat.lt_of_le_of_lt (Nat.sub_le _ _) t.isLt)).1).1 ((sAt1 V c (t.val - 1) (Nat.lt_of_le_of_lt (Nat.sub_le _ _) t.isLt)).1).2.1 ((sAt1 V c (t.val - 1) (Nat.lt_of_le_of_lt (Nat.sub_le _ _) t.isLt)).1).2.2), ((sAt1 V c (t.val - 1) (Nat.lt_of_le_of_lt (Nat.sub_le _ _) t.isLt)).1).1) := by
  rw [sAt1_pos V c t (by intro hz; rw [hz] at h1 h2; exact h1 (by decide))]
  unfold stepAt
  rw [dif_neg h1, dif_neg h4, dif_pos h2]

theorem sAt1_F (c : Dev nD) (t : Fin cfg1.N) (h1 : ¬ t.val % 4 = 0) (h2 : t.val % 4 = t.val / 4) (h4 : t.val % 4 = 3) :
    sAt1 V c t.val t.isLt = ((sout1_F_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) ((hcond1_2 t).mpr h2) (fun h => (hcond1_3 t).mp h h2) ((hcond1_4 t).mpr h4) (iblk1 V c 0 t) (iblk1 V c 1 t) (iblk1 V c 2 t) ((sAt1 V c (t.val - 1) (Nat.lt_of_le_of_lt (Nat.sub_le _ _) t.isLt)).1).1 ((sAt1 V c (t.val - 1) (Nat.lt_of_le_of_lt (Nat.sub_le _ _) t.isLt)).1).2.1 ((sAt1 V c (t.val - 1) (Nat.lt_of_le_of_lt (Nat.sub_le _ _) t.isLt)).1).2.2, sout1_F_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) ((hcond1_2 t).mpr h2) (fun h => (hcond1_3 t).mp h h2) ((hcond1_4 t).mpr h4) (iblk1 V c 0 t) (iblk1 V c 1 t) (iblk1 V c 2 t) ((sAt1 V c (t.val - 1) (Nat.lt_of_le_of_lt (Nat.sub_le _ _) t.isLt)).1).1 ((sAt1 V c (t.val - 1) (Nat.lt_of_le_of_lt (Nat.sub_le _ _) t.isLt)).1).2.1 ((sAt1 V c (t.val - 1) (Nat.lt_of_le_of_lt (Nat.sub_le _ _) t.isLt)).1).2.2, sout1_F_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) ((hcond1_2 t).mpr h2) (fun h => (hcond1_3 t).mp h h2) ((hcond1_4 t).mpr h4) (iblk1 V c 0 t) (iblk1 V c 1 t) (iblk1 V c 2 t) ((sAt1 V c (t.val - 1) (Nat.lt_of_le_of_lt (Nat.sub_le _ _) t.isLt)).1).1 ((sAt1 V c (t.val - 1) (Nat.lt_of_le_of_lt (Nat.sub_le _ _) t.isLt)).1).2.1 ((sAt1 V c (t.val - 1) (Nat.lt_of_le_of_lt (Nat.sub_le _ _) t.isLt)).1).2.2), out1_F_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h1 ((hcond1_1 t).mp h)) ((hcond1_2 t).mpr h2) (fun h => (hcond1_3 t).mp h h2) ((hcond1_4 t).mpr h4) (iblk1 V c 0 t) (iblk1 V c 1 t) (iblk1 V c 2 t) ((sAt1 V c (t.val - 1) (Nat.lt_of_le_of_lt (Nat.sub_le _ _) t.isLt)).1).1 ((sAt1 V c (t.val - 1) (Nat.lt_of_le_of_lt (Nat.sub_le _ _) t.isLt)).1).2.1 ((sAt1 V c (t.val - 1) (Nat.lt_of_le_of_lt (Nat.sub_le _ _) t.isLt)).1).2.2) := by
  rw [sAt1_pos V c t (by intro hz; rw [hz] at h1 h2; exact h1 (by decide))]
  unfold stepAt
  rw [dif_neg h1, dif_pos h4, dif_pos h2]

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: which of the six cases the point is in is decided by its position; the scratch columns
    enter at what the point before left (at anything at the first point, and wherever the point resets them) and
    leave at this point's contents; the loss window is handed back untouched off the last block of a row. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h1 : t.val % 4 = 0
  · have h4 : ¬ t.val % 4 = 3 := by omega
    by_cases h2 : t.val % 4 = t.val / 4
    · have hz : t.val = 0 := by omega
      rw [Dat.leavesExact_idle (dat1 V c) 3 t (idleAt1_3 t (fun h => h4 ((hcond1_4 t).mp h))) (noFlush1_3 t (fun h => h4 ((hcond1_4 t).mp h)))]
      rw [sAt1_A V c t h1 h2 h4]
      dsimp only
      unfold sout1_A_0 sout1_A_1 sout1_A_2
      rw [PhiS1_castSucc V c t, PhiS1_zero V c _ _ hz, PhiA1_eq]
      iintro ⟨⟨⟨Hr1, Hr2, Hr3, Hr4, Hr5, Hr6, Hr7, Hr8, Hr9, Hr10, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ ((hcond1_1 t).mpr h1) ((hcond1_2 t).mpr h2) (fun h => (hcond1_3 t).mp h h2) (fun h => h4 ((hcond1_4 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Hr1 Hr2 Hr3 Hr4 Hr5 Hr6 Hr7 Hr8 Hr9 Hr10 HS0 HS1 HS2 Hg]
      · isplitl [Hr1 Hr2 Hr3 Hr4 Hr5 Hr6 Hr7 Hr8 Hr9 Hr10 HS0 HS1 HS2]
        · isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          isplitl [Hr10]; · iexact Hr10
          isplitl [HS0]
          · unfold owns; iexists _; isplitr
            swap; · iexact HS0
            ipureintro; exact View.read_writes_eq_canon _ _ _ (scover1_A_0 c _ _ _ _ _ _ _ _ _ _ _ _ _ _ _ _ _ _ _ _ _ _)
          isplitl [HS1]
          · unfold owns; iexists _; isplitr
            swap; · iexact HS1
            ipureintro; exact View.read_writes_eq_canon _ _ _ (scover1_A_1 c _ _ _ _ _ _ _ _ _ _ _ _ _ _ _ _ _ _ _ _ _ _)
          unfold owns; iexists _; isplitr
          swap; · iexact HS2
          ipureintro; exact View.read_writes_eq_canon _ _ _ (scover1_A_2 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · have hz : t.val ≠ 0 := by intro hz; rw [hz] at h2; exact h2 (by decide)
      rw [Dat.leavesExact_idle (dat1 V c) 3 t (idleAt1_3 t (fun h => h4 ((hcond1_4 t).mp h))) (noFlush1_3 t (fun h => h4 ((hcond1_4 t).mp h)))]
      rw [sAt1_D V c t h1 h2 h4]
      dsimp only
      unfold sout1_D_0 sout1_D_1 sout1_D_2
      rw [PhiS1_castSucc V c t, PhiS1_pos V c _ _ hz]
      iintro ⟨⟨⟨Hr1, Hr2, Hr3, Hr4, Hr5, Hr6, Hr7, Hr8, Hr9, Hr10, HS0, HS1, HS2⟩, Hg⟩, Ho, ⟨%d0, H0⟩, ⟨%d1, H1⟩, ⟨%d2, H2⟩, ⟨%d3, H3⟩⟩
      iapply ((kernelRun1_D c (grid1.coords t) _ _ _ _ _ _ _ _ _ _ _ _ _ _ ((hcond1_1 t).mpr h1) (fun h => h2 ((hcond1_2 t).mp h)) ((hcond1_3 t).mpr h2) (fun h => h4 ((hcond1_4 t).mp h)) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [Hr1 Hr2 Hr3 Hr4 Hr5 Hr6 Hr7 Hr8 Hr9 Hr10 HS0 HS1 HS2 Hg]
      · isplitl [Hr1 Hr2 Hr3 Hr4 Hr5 Hr6 Hr7 Hr8 Hr9 Hr10 HS0 HS1 HS2]
        · isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [Hr9]; · iexact Hr9
          isplitl [Hr10]; · iexact Hr10
          isplitl [HS0]
          · unfold owns; iexists _; isplitr
            swap; · iexact HS0
            ipureintro; exact View.read_writes_eq_canon _ _ _ (scover1_D_0 c _ _ _ _ _ _ _ _ _ _ _ _ _ _ _ _ _ _ _ _ _ _)
          isplitl [HS1]
          · unfold owns; iexists _; isplitr
            swap; · iexact HS1
            ipureintro; exact View.read_writes_eq_canon _ _ _ (scover1_D_1 c _ _ _ _ _ _ _ _ _ _ _ _ _ _ _ _ _ _ _ _ _ _)
          unfold owns; iexists _; isplitr
          swap; · iexact HS2
          ipureintro; exact View.read_writes_eq_canon _ _ _ (scover1_D_2 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by intro hz; rw [hz] at h1; exact h1 (by decide)
    by_cases h4 : t.val % 4 = 3
    · by_cases h2 : t.val % 4 = t.val / 4
      ·
        rw [show (dat1 V c).leavesExact 3 t = owns (c : Thread nD τ) (ms1_3 t) fullShare ((dat1 V c).after 3 t) from by
          unfold Dat.leavesExact; rw [liveAt1_3 t ((hcond1_4 t).mpr h4)], after1_3]
        rw [sAt1_F V c t h1 h2 h4]
        dsimp only
        unfold sout1_F_0 sout1_F_1 sout1_F_2 out1_F_3
        rw [PhiS1_castSucc V c t, PhiS1_pos V c _ _ hz]
        iintro ⟨⟨⟨Hr1, Hr2, Hr3, Hr4, Hr5, Hr6, Hr7, Hr8, Hr9, Hr10, HS0, HS1, HS2⟩, Hg⟩, Ho, ⟨%d0, H0⟩, ⟨%d1, H1⟩, ⟨%d2, H2⟩, ⟨%d3, H3⟩⟩
        iapply ((kernelRun1_F c (grid1.coords t) _ _ _ _ _ _ _ _ _ _ _ _ _ _ (fun h => h1 ((hcond1_1 t).mp h)) ((hcond1_2 t).mpr h2) (fun h => (hcond1_3 t).mp h h2) ((hcond1_4 t).mpr h4) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [Hr1 Hr2 Hr3 Hr4 Hr5 Hr6 Hr7 Hr8 Hr9 Hr10 HS0 HS1 HS2 Hg]
        · isplitl [Hr1 Hr2 Hr3 Hr4 Hr5 Hr6 Hr7 Hr8 Hr9 Hr10 HS0 HS1 HS2]
          · isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            isplitl [Hr10]; · iexact Hr10
            isplitl [HS0]
            · unfold owns; iexists _; isplitr
              swap; · iexact HS0
              ipureintro; exact View.read_writes_eq_canon _ _ _ (scover1_F_0 c _ _ _ _ _ _ _ _ _ _ _ _ _ _ _ _ _ _ _ _ _ _ _ _ _)
            isplitl [HS1]
            · unfold owns; iexists _; isplitr
              swap; · iexact HS1
              ipureintro; exact View.read_writes_eq_canon _ _ _ (scover1_F_1 c _ _ _ _ _ _ _ _ _ _ _ _ _ _ _ _ _ _ _ _ _ _ _ _ _)
            unfold owns; iexists _; isplitr
            swap; · iexact HS2
            ipureintro; exact View.read_writes_eq_canon _ _ _ (scover1_F_2 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_eq_canon _ _ _ (cover1_F_3 c _ _ _ _ _ _ _ _ _ _ _ _ _ _ _ _ _ _ _ _ _ _ _ _ _)
      ·
        rw [show (dat1 V c).leavesExact 3 t = owns (c : Thread nD τ) (ms1_3 t) fullShare ((dat1 V c).after 3 t) from by
          unfold Dat.leavesExact; rw [liveAt1_3 t ((hcond1_4 t).mpr h4)], after1_3]
        rw [sAt1_C V c t h1 h2 h4]
        dsimp only
        unfold sout1_C_0 sout1_C_1 sout1_C_2 out1_C_3
        rw [PhiS1_castSucc V c t, PhiS1_pos V c _ _ hz]
        iintro ⟨⟨⟨Hr1, Hr2, Hr3, Hr4, Hr5, Hr6, Hr7, Hr8, Hr9, Hr10, HS0, HS1, HS2⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h1 ((hcond1_1 t).mp h)) (fun h => h2 ((hcond1_2 t).mp h)) ((hcond1_3 t).mpr h2) ((hcond1_4 t).mpr h4) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [Hr1 Hr2 Hr3 Hr4 Hr5 Hr6 Hr7 Hr8 Hr9 Hr10 HS0 HS1 HS2 Hg]
        · isplitl [Hr1 Hr2 Hr3 Hr4 Hr5 Hr6 Hr7 Hr8 Hr9 Hr10 HS0 HS1 HS2]
          · isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            isplitl [Hr10]; · iexact Hr10
            isplitl [HS0]
            · unfold owns; iexists _; isplitr
              swap; · iexact HS0
              ipureintro; exact View.read_writes_eq_canon _ _ _ (scover1_C_0 c _ _ _ _ _ _ _ _ _ _ _ _ _ _ _ _ _ _ _ _ _ _ _ _ _)
            isplitl [HS1]
            · unfold owns; iexists _; isplitr
              swap; · iexact HS1
              ipureintro; exact View.read_writes_eq_canon _ _ _ (scover1_C_1 c _ _ _ _ _ _ _ _ _ _ _ _ _ _ _ _ _ _ _ _ _ _ _ _ _)
            unfold owns; iexists _; isplitr
            swap; · iexact HS2
            ipureintro; exact View.read_writes_eq_canon _ _ _ (scover1_C_2 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_eq_canon _ _ _ (cover1_C_3 c _ _ _ _ _ _ _ _ _ _ _ _ _ _ _ _ _ _ _ _ _ _ _ _ _)
    · by_cases h2 : t.val % 4 = t.val / 4
      ·
        rw [Dat.leavesExact_idle (dat1 V c) 3 t (idleAt1_3 t (fun h => h4 ((hcond1_4 t).mp h))) (noFlush1_3 t (fun h => h4 ((hcond1_4 t).mp h)))]
        rw [sAt1_E V c t h1 h2 h4]
        dsimp only
        unfold sout1_E_0 sout1_E_1 sout1_E_2
        rw [PhiS1_castSucc V c t, PhiS1_pos V c _ _ hz]
        iintro ⟨⟨⟨Hr1, Hr2, Hr3, Hr4, Hr5, Hr6, Hr7, Hr8, Hr9, Hr10, HS0, HS1, HS2⟩, Hg⟩, Ho, ⟨%d0, H0⟩, ⟨%d1, H1⟩, ⟨%d2, H2⟩, ⟨%d3, H3⟩⟩
        iapply ((kernelRun1_E c (grid1.coords t) _ _ _ _ _ _ _ _ _ _ _ _ _ _ (fun h => h1 ((hcond1_1 t).mp h)) ((hcond1_2 t).mpr h2) (fun h => (hcond1_3 t).mp h h2) (fun h => h4 ((hcond1_4 t).mp h)) (iblk1 V c 0 t) (iblk1 V c 1 t) (iblk1 V c 2 t) _ _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [Hr1 Hr2 Hr3 Hr4 Hr5 Hr6 Hr7 Hr8 Hr9 Hr10 HS0 HS1 HS2 Hg]
        · isplitl [Hr1 Hr2 Hr3 Hr4 Hr5 Hr6 Hr7 Hr8 Hr9 Hr10 HS0 HS1 HS2]
          · isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            isplitl [Hr10]; · iexact Hr10
            isplitl [HS0]
            · unfold owns; iexists _; isplitr
              swap; · iexact HS0
              ipureintro; exact View.read_writes_eq_canon _ _ _ (scover1_E_0 c _ _ _ _ _ _ _ _ _ _ _ _ _ _ _ _ _ _ _ _ _ _ _ _ _)
            isplitl [HS1]
            · unfold owns; iexists _; isplitr
              swap; · iexact HS1
              ipureintro; exact View.read_writes_eq_canon _ _ _ (scover1_E_1 c _ _ _ _ _ _ _ _ _ _ _ _ _ _ _ _ _ _ _ _ _ _ _ _ _)
            unfold owns; iexists _; isplitr
            swap; · iexact HS2
            ipureintro; exact View.read_writes_eq_canon _ _ _ (scover1_E_2 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      ·
        rw [Dat.leavesExact_idle (dat1 V c) 3 t (idleAt1_3 t (fun h => h4 ((hcond1_4 t).mp h))) (noFlush1_3 t (fun h => h4 ((hcond1_4 t).mp h)))]
        rw [sAt1_B V c t h1 h2 h4]
        dsimp only
        unfold sout1_B_0 sout1_B_1 sout1_B_2
        rw [PhiS1_castSucc V c t, PhiS1_pos V c _ _ hz]
        iintro ⟨⟨⟨Hr1, Hr2, Hr3, Hr4, Hr5, Hr6, Hr7, Hr8, Hr9, Hr10, HS0, HS1, HS2⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h1 ((hcond1_1 t).mp h)) (fun h => h2 ((hcond1_2 t).mp h)) ((hcond1_3 t).mpr h2) (fun h => h4 ((hcond1_4 t).mp h)) (iblk1 V c 0 t) (iblk1 V c 1 t) (iblk1 V c 2 t) _ _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [Hr1 Hr2 Hr3 Hr4 Hr5 Hr6 Hr7 Hr8 Hr9 Hr10 HS0 HS1 HS2 Hg]
        · isplitl [Hr1 Hr2 Hr3 Hr4 Hr5 Hr6 Hr7 Hr8 Hr9 Hr10 HS0 HS1 HS2]
          · isplitl [Hr1]; · iexact Hr1
            isplitl [Hr2]; · iexact Hr2
            isplitl [Hr3]; · iexact Hr3
            isplitl [Hr4]; · iexact Hr4
            isplitl [Hr5]; · iexact Hr5
            isplitl [Hr6]; · iexact Hr6
            isplitl [Hr7]; · iexact Hr7
            isplitl [Hr8]; · iexact Hr8
            isplitl [Hr9]; · iexact Hr9
            isplitl [Hr10]; · iexact Hr10
            isplitl [HS0]
            · unfold owns; iexists _; isplitr
              swap; · iexact HS0
              ipureintro; exact View.read_writes_eq_canon _ _ _ (scover1_B_0 c _ _ _ _ _ _ _ _ _ _ _ _ _ _ _ _ _ _ _ _ _ _ _ _ _)
            isplitl [HS1]
            · unfold owns; iexists _; isplitr
              swap; · iexact HS1
              ipureintro; exact View.read_writes_eq_canon _ _ _ (scover1_B_1 c _ _ _ _ _ _ _ _ _ _ _ _ _ _ _ _ _ _ _ _ _ _ _ _ _)
            unfold owns; iexists _; isplitr
            swap; · iexact HS2
            ipureintro; exact View.read_writes_eq_canon _ _ _ (scover1_B_2 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point the invariant gives the scoped rest back: the scratch columns' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hr1, Hr2, Hr3, Hr4, Hr5, Hr6, Hr7, Hr8, Hr9, Hr10, HS0, HS1, HS2⟩, Hg⟩
  isplitl [Hr1 Hr2 Hr3 Hr4 Hr5 Hr6 Hr7 Hr8 Hr9 Hr10 HS0 HS1 HS2]
  · isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi_out1 V c _ (by rw [Fin.val_last]; have : cfg1.N = 16 := N_1; omega)

end Cert.KernelIdeal.Gen

end
-- ==== Proof.KIRegion0.lean ====
/-
  The first kernel region (a grid of four points; five windows: the two f32 inputs in blocks of 1024 rows,
  the two bf16 row-scaled outputs in the same blocks, and the f32 column of positive distances in blocks of
  1024 entries), at ANY float instance, stated at a parameter `V`: the buffer contents when the region is
  entered.

  Per window its block at a point, read off the array as the region finds it; what the body leaves in each
  output's staging buffer (the body stores each output once, through the one rectangle that is the whole
  buffer, so the buffer ends as that store's payload); the body's triple; the pipeline's proof data (inputs
  left in place, each output at the payload of the two input blocks); and the body obligation at every point.
-/
import proofs.«132504_j386547057031_2_alg».proof.Proof.Gen.KernelIdeal.Launch
import proofs.«132504_j386547057031_2_alg».proof.Proof.Gen.KernelIdeal.Skeleton
import proofs.«132504_j386547057031_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the elaborator's structural look recurses once per
-- coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's current staging buffer holds its block at every point, for any proof data whose
    array is `V`'s and whose body leaves the block in place: the window is uncut, never idle, and fetched
    at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for the second input. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_0 : Rect S1024x1024 := Rect.unit (s := S1024x1024) ![0, 0] S1024x1024.size inb_S1024x1024_S1024x1024_0_0
abbrev r0_1 : Rect S1024x1 := Rect.unit (s := S1024x1) ![0, 0] S1024x1.size inb_S1024x1_S1024x1_0_0

/-! ## What the body leaves in each output window's buffer -/

/-- The first output's staging buffer after the body: its one store, the first input's block with every
    row scaled by the reciprocal square root of its squared length, narrowed to bf16. -/
def out0_2 (x0 : Vec F S1024x1024 .f32) : Vec F S1024x1024 .bf16 :=
  View.canon [⟨r0_0, k0_pay4 (View.ld x0 r0_0)⟩]

/-- The store is the whole buffer, so it covers it. -/
theorem cover0_2 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-- The second output's staging buffer after the body: the second input's block, scaled row by row and
    narrowed likewise. -/
def out0_3 (x1 : Vec F S1024x1024 .f32) : Vec F S1024x1024 .bf16 :=
  View.canon [⟨r0_0, k0_pay5 (View.ld x1 r0_0)⟩]

theorem cover0_3 (p0 : Vec F S1024x1024 .bf16) (y : S1024x1024.Idx) :
    ∃ pc ∈ ([⟨r0_0, p0⟩] : List (View.Piece (Elt F) S1024x1024 .bf16)), y ∈ pc.1.set :=
  View.cover_of_tiled [⟨r0_0, p0⟩] S1024x1024.size (by rfl) y

/-- The third output's staging buffer after the body: the column whose entry `r` is one minus the inner
    product of the two scaled rows `r`. -/
def out0_4 (x0 x1 : Vec F S1024x1024 .f32) : Vec F S1024x1 .f32 :=
  View.canon [⟨r0_1, k0_pay3 (View.ld x0 r0_0) (View.ld x1 r0_0)⟩]

theorem cover0_4 (p0 : Vec F S1024x1 .f32) (y : S1024x1.Idx) :
    ∃ pc ∈ ([⟨r0_1, p0⟩] : List (View.Piece (Elt F) S1024x1 .f32)), y ∈ pc.1.set :=
  View.cover_of_tiled [⟨r0_1, p0⟩] S1024x1.size (by rfl) y

/-! ## The body's triple -/

set_option maxHeartbeats 1000000 in
/-- The kernel body on whole staging memrefs, the inputs' at read contents `x0`, `x1` and the outputs' at
    anything, runs to the continuation holding the inputs' as they were and each output's at its payload of
    the inputs'. -/
theorem sound_kernel0 (c : Dev nD) (E : Set ℕ) (i : grid0.Coords) (arg1 : Memref sig .tc .vmem S1024x1024 .f32) (harg1 : arg1.IsWhole) (arg2 : Memref sig .tc .vmem S1024x1024 .f32) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1024x1 .f32) (harg5 : arg5.IsWhole)
    (x0 : Vec F S1024x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (out0_2 x0) ∗ owns (c : Thread nD τ) arg4 fullShare (out0_3 x1) ∗ owns (c : Thread nD τ) arg5 fullShare (out0_4 x0 x1)) -∗ K ⟨⟩))
      ⊢ wp frame (wpE (defs₀ (F := F)) Variants.none c none) E (cc0__prologue_kernel i arg1 harg1 arg2 harg2 arg3 harg3 arg4 harg4 arg5 harg5) K := by
  simp only [cc0__prologue_kernel_eq_skeleton]; unfold cc0__prologue_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of the region's pipeline on core `c`: the arrays as the region finds them (`V`); after
    the body at point `t` each input's buffer at its block and each output's at its payload of the two input
    blocks; the invariant "the scoped rest and the generator register, untouched"; nothing owed; full
    shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
    | ⟨4, _⟩ => out0_4 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]
theorem after0_4 (c : Dev nD) (t : Fin cfg0.N) : (dat0 V c).after 4 t = out0_4 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the body's triple applies; the
    invariant and the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Gen

end
-- ==== Proof.KIRun.lean ====
import proofs.«132504_j386547057031_2_alg».proof.Proof.KIBody1
import proofs.«132504_j386547057031_2_alg».proof.Proof.KIRegion0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program

`@main` is the first region, the second region, then four host operations (the sum of the row losses and its
quotient by the number of rows). The buffers' contents at each boundary are a fold from the launch memory: a region
leaves its arrays at what its write-backs fold to and every other buffer as entered. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- The same read at the TensorCore's references (what the first region's proof data take). -/
abbrev V0 : (c : Dev nD) → (b : Ref sig .tc) → Buf (Elt F) ((c : Thread nD τ).loc b) := fun c b => W0 m ρ c b
/-- At the first region's exit. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At the second region's exit. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the four host operations. -/
abbrev W3 : Dev nD → Valuation τ sig (Elt F) := fun c => StableHlo.after hostOps2 (W2 m ρ c)

/-! ### The arguments end as launched -/

theorem hostOps2_keeps (c : Dev nD) (b : Ref sig .tc) (hb : b ≠ main_cst ∧ b ≠ main_v2 ∧ b ≠ main_cst_0 ∧ b ≠ main_v3) :
    W3 m ρ c (Proc.devRef .tc b) = W2 m ρ c (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne hb.1, StableHlo.devRef_ne_of_ne hb.2.1, StableHlo.devRef_ne_of_ne hb.2.2.1, StableHlo.devRef_ne_of_ne hb.2.2.2⟩))

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := hostOps2_keeps m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := hostOps2_keeps m ρ c main_arg1 (by decide)
    _ = W1 m ρ c (Proc.devRef .tc main_arg1) := W2_of_ne m ρ c main_arg1 (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

/-- The result: the four host operations applied to what the second region left in its output array. -/
theorem W3_main_v3 (c : Dev nD) : W3 m ρ c (Proc.devRef .tc main_v3)
    = Host.divf (Host.reduceAdd ((dat1 (V1 m ρ) c).arrAt 3 cfg1.N) (constant S_ .f32 0x00000000#32) reducesTo_S4096x1_S_d0_1 h_S_) (constant S_ .f32 0x45800000#32) := by
  rw [← W2_arr m ρ c 3]
  show StableHlo.after hostOps2 (W2 m ρ c) (Proc.devRef .tc main_v3) = _
  generalize W2 m ρ c = Wv
  after_results

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-- The second region's scoped rest and the generator register, regrouped as the region's exit takes them. -/
theorem scopedRest_back1 (c : Dev nD) : (Pipeline.ΦA spec1 c : sProp 𝕄)
    ⊢ iprop((∃ r, prngReg c r) ∗ BI.emp ∗ Pipeline.scopedRest (Ix := Unit) (Name := ℕ) (U := UR sig nD τ) (Lvl := ℕ) (Val := Elt F) spec1 c) := by
  unfold Pipeline.ΦA
  iintro ⟨Hr, Hp⟩
  isplitl [Hp]; · iexact Hp
  isplitr; · iempintro
  iexact Hr

/-- After the host operations: the buffers and the generator register on one side, nothing owed on the other. -/
theorem tail_exit (c : Dev nD) : (iprop(StableHlo.held (c : Thread nD τ) (Pipeline.ucRefs τ sig) (W3 m ρ c) ∗ R c) : sProp 𝕄)
    ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- Region 0 over the thread state: entered from every unscoped buffer at `W0`, left at `W1`. Its arrays are
    split out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`. Its arrays are
    split out of the unscoped buffers and put back at the exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (hout1 (V1 m ρ) c).trans (scopedRest_back1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh' (W2 m ρ)) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and in
    every final state each unscoped buffer holds what the fold gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => tail_exit m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m ρ c),
     (h c _ (mem_uc main_arg1 (by decide))).trans (W3_main_arg1 m ρ c)⟩) (run_all m ρ)

/-- The run with the result named: the host's mean of what the second region left in its output array. -/
theorem run_value : θ_run defs (onTc (τ := τ) (main (F := F))) ⟨m, fun _ => 0, ρ⟩ (fun r => ∀ c : Dev nD,
      r.2.mem ((c.tc : Thread nD τ).loc main_v3)
        = Host.divf (Host.reduceAdd ((dat1 (V1 m ρ) c).arrAt 3 cfg1.N) (constant S_ .f32 0x00000000#32) reducesTo_S4096x1_S_d0_1 h_S_) (constant S_ .f32 0x45800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v3 (by decide))).trans (W3_main_v3 m ρ c),
     (h c _ (mem_uc main_arg0 (by decide))).trans (W3_main_arg0 m ρ c),
     (h c _ (mem_uc main_arg1 (by decide))).trans (W3_main_arg1 m ρ c)⟩) (run_all m ρ)

end Cert.KernelIdeal.Gen

end
-- ==== Proof.Spec.lean ====
/-
  The in-batch triplet loss with semi-hard negative mining, as functions on the extended reals.

  Inputs: two arrays `x y : Fin 4096 → Fin 1024 → EReal` (anchor and positive embeddings, one per row).
  Each row is scaled to unit length, `a r = x r / ‖x r‖`, `p r = y r / ‖y r‖`.  The positive distance of
  row `r` is `pos r = 1 - ⟨a r, p r⟩`, the negative distance to column `c` is `neg r c = 1 - ⟨a r, p c⟩`.
  A column `c ≠ r` is semi-hard for row `r` when `pos r < neg r c < pos r + W` (`W` the margin).  The
  row's negative distance is the mean of `neg r c` over the semi-hard columns when there is one, and the
  least `neg r c` over `c ≠ r` otherwise; its loss is `max (pos r - that + W) 0`; the result is the mean
  of the rows' losses.

  Two spellings are stated.  The first scales by the reciprocal square root, tests the band on the
  difference `neg r c - pos r`, and accumulates sum, count and minimum over four consecutive blocks of
  1024 columns, the count as a sum of ones.  The second divides by the square root, tests the band as
  `pos r < neg r c < pos r + W`, and sums, counts (a cardinality) and minimises over the whole row at once.
-/
import Idealize.ShloMosaic.PureOps.Ideal
import Mathlib.Algebra.BigOperators.Fin
import Mathlib.Data.Finset.Lattice.Fold

noncomputable section

namespace Cert.TripletSpec

open Idealize.ShloMosaic

/-- The margin, as the float word both programs carry. -/
def W : EReal := Ideal.ofBits .f32 0x3E99999A#32

/-- The number of rows, as the float word both programs divide the total by. -/
def nRows : EReal := Ideal.ofBits .f32 0x45800000#32

/-- Column `c'` of block `j` (four blocks of 1024 consecutive columns). -/
def colOf (j : Fin 4) (c' : Fin 1024) : Fin 4096 := ⟨1024 * j.val + c'.val, by omega⟩

/-- The squared length of row `r`. -/
def sumSq (z : Fin 4096 → Fin 1024 → EReal) (r : Fin 4096) : EReal := ∑ d : Fin 1024, z r d * z r d

/-- A row scaled by the reciprocal square root of its squared length. -/
def nrmK (z : Fin 4096 → Fin 1024 → EReal) (r : Fin 4096) (d : Fin 1024) : EReal :=
  z r d * Ideal.rsqrt (sumSq z r)

/-- A row divided by its length. -/
def nrmR (z : Fin 4096 → Fin 1024 → EReal) (r : Fin 4096) (d : Fin 1024) : EReal :=
  Ideal.div (z r d) (Ideal.sqrt (sumSq z r))

section Scaled

variable (a p : Fin 4096 → Fin 1024 → EReal)

/-- The positive distance of row `r`. -/
def pos (r : Fin 4096) : EReal := 1 - ∑ d : Fin 1024, a r d * p r d

/-- The negative distance of row `r` to column `c`. -/
def neg (r c : Fin 4096) : EReal := 1 - ∑ d : Fin 1024, a r d * p c d

/-! ### Blockwise, the band tested on the difference -/

/-- Column `c` is semi-hard for row `r`, the band tested on `neg r c - pos r`. -/
def semiK (r c : Fin 4096) : Prop := r ≠ c ∧ 0 < neg a p r c - pos a p r ∧ neg a p r c - pos a p r < W

instance (r c : Fin 4096) : Decidable (semiK a p r c) := by unfold semiK; infer_instance

/-- Block `j`'s share of row `r`'s sum of semi-hard negative distances. -/
def tSum (r : Fin 4096) (j : Fin 4) : EReal :=
  ∑ c' : Fin 1024, if semiK a p r (colOf j c') then neg a p r (colOf j c') else 0

/-- Block `j`'s share of row `r`'s count of semi-hard columns, as a sum of ones. -/
def tCnt (r : Fin 4096) (j : Fin 4) : EReal :=
  ∑ c' : Fin 1024, if semiK a p r (colOf j c') then (1 : EReal) else 0

/-- Block `j`'s least negative distance of row `r` off the diagonal. -/
def tMin (r : Fin 4096) (j : Fin 4) : EReal :=
  Finset.univ.inf fun c' : Fin 1024 => if r ≠ colOf j c' then neg a p r (colOf j c') else ⊤

/-- The four blocks' shares accumulated in order from zero. -/
def accSum (r : Fin 4096) : EReal := 0 + tSum a p r 0 + tSum a p r 1 + tSum a p r 2 + tSum a p r 3
def accCnt (r : Fin 4096) : EReal := 0 + tCnt a p r 0 + tCnt a p r 1 + tCnt a p r 2 + tCnt a p r 3
/-- The four blocks' minima accumulated in order from `⊤`. -/
def accMin (r : Fin 4096) : EReal := min (min (min (min ⊤ (tMin a p r 0)) (tMin a p r 1)) (tMin a p r 2)) (tMin a p r 3)

/-- Row `r`'s loss, blockwise. -/
def outK (r : Fin 4096) : EReal :=
  max (pos a p r - (if 0 < accCnt a p r then Ideal.div (accSum a p r) (max (accCnt a p r) 1) else accMin a p r) + W) 0

/-! ### Whole rows, the band tested as two comparisons -/

/-- Column `c` is semi-hard for row `r`, the band tested as `pos r < neg r c < pos r + W`. -/
def semiR (r c : Fin 4096) : Prop := r ≠ c ∧ pos a p r < neg a p r c ∧ neg a p r c < pos a p r + W

instance (r c : Fin 4096) : Decidable (semiR a p r c) := by unfold semiR; infer_instance

/-- The number of semi-hard columns of row `r`. -/
def cntR (r : Fin 4096) : ℕ := (Finset.univ.filter fun c : Fin 4096 => semiR a p r c).card

/-- The sum of row `r`'s semi-hard negative distances. -/
def sumR (r : Fin 4096) : EReal := ∑ c : Fin 4096, if semiR a p r c then neg a p r c else 0

/-- Row `r`'s least negative distance off the diagonal. -/
def minR (r : Fin 4096) : EReal := Finset.univ.inf fun c : Fin 4096 => if r ≠ c then neg a p r c else ⊤

/-- Row `r`'s loss, over the whole row. -/
def outR (r : Fin 4096) : EReal :=
  max (pos a p r - (if 0 < cntR a p r then Ideal.div (sumR a p r) (((max (cntR a p r) 1 : ℕ) : ℝ) : EReal) else minR a p r) + W) 0

end Scaled

/-- The mean of the rows' losses. -/
def meanOf (out : Fin 4096 → EReal) : EReal := Ideal.div (∑ r : Fin 4096, out r) nRows

/-- The loss, blockwise with reciprocal-square-root scaling. -/
def lossK (x y : Fin 4096 → Fin 1024 → EReal) : EReal := meanOf (outK (nrmK x) (nrmK y))

/-- The loss, over whole rows with division by the length. -/
def lossR (x y : Fin 4096 → Fin 1024 → EReal) : EReal := meanOf (outR (nrmR x) (nrmR y))

end Cert.TripletSpec

end
-- ==== Proof.LibColumnLayout.lean ====
/-
  Column layouts and row reductions read at an index.

  A reduction along the last axis with `keepdims` leaves a column: the reduced vector `[a]` is cast to `[a, 1]` and
  broadcast back to `[a, b]`, so entry `(p, c)` of the broadcast is entry `p` of the reduced vector. The reductions
  themselves, over the last axis of a rank-2 array and read at row `p`, are the sum (resp. the fold of `max`) over that
  row's entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The two together: a reduced vector kept as a column and broadcast back along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A float sum over the last axis of an `[a, b]` array from the zero word, read at row `p` at the extended reals: the sum
    of the row's entries. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The binary32 word of `−∞` is the least extended real. -/
theorem ofBits_neg_inf_f32 : Ideal.ofBits .f32 0xFF800000#32 = ⊥ := by simp [Ideal.ofBits, Ideal.ieee]

/-- A float maximum over the last axis of an `[a, b]` array from the `−∞` word, read at row `p` at the extended reals: the
    fold of `max` over the row's entries from `⊥`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg (Finset.fold max ⊥ · Finset.univ) (funext fun k => congrArg src (funext fun ax => Fin.ext ?_))
  match ax with
  | ⟨0, _⟩ => rfl
  | ⟨1, _⟩ => rfl

/-- A row softmax read at an entry. The printed form: the row maximum (a float `max` reduction from `−∞`) kept as a
    column, subtracted, exponentiated; the row sum of the exponentials (a float `add` reduction from zero) kept as a column;
    the quotient. At `(m, n)`, over the extended reals, it is `exp (s[m, n] − max_n' s[m, n'])` over the sum of the same
    expression along row `m`. -/
theorem rowSoftmax_apply {a b : ℕ} (s : FVec Ideal ⟨2, ![a, b]⟩ .f32)
    (h : (⟨2, ![a, b]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (m : Fin a) (n : Fin b) :
    divf
        (exp (subf s (broadcastTo ⟨2, ![a, b]⟩
          (shapeCast ⟨2, ![a, 1]⟩ (multiReduction .maximumf [1] ⟨1, ![a]⟩ s 0xFF800000#32 h hφ hmax) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 h hφ hmax) hc) hb)))
              0x00000000#32 h hφ' hadd) hc) hb)
        (ix2 m n)
      = Ideal.div (Ideal.exp (s (ix2 m n) - (Finset.univ : Finset (Fin b)).fold max ⊥ (fun n' => s (ix2 m n'))))
          (∑ n' : Fin b, Ideal.exp (s (ix2 m n') - (Finset.univ : Finset (Fin b)).fold max ⊥ (fun n'' => s (ix2 m n'')))) := by
  have hnum : ∀ n' : Fin b,
      exp (subf s (broadcastTo ⟨2, ![a, b]⟩
          (shapeCast ⟨2, ![a, 1]⟩ (multiReduction .maximumf [1] ⟨1, ![a]⟩ s 0xFF800000#32 h hφ hmax) hc) hb)) (ix2 m n')
        = Ideal.exp (s (ix2 m n') - (Finset.univ : Finset (Fin b)).fold max ⊥ (fun n'' => s (ix2 m n''))) := by
    intro n'
    show Ideal.exp (s (ix2 m n') - broadcastTo ⟨2, ![a, b]⟩
          (shapeCast ⟨2, ![a, 1]⟩ (multiReduction .maximumf [1] ⟨1, ![a]⟩ s 0xFF800000#32 h hφ hmax) hc) hb (ix2 m n')) = _
    rw [keepdims_apply, rowMax_apply]
  rw [divf_apply, hnum n, keepdims_apply, rowSum_apply]
  exact congrArg (Ideal.div _) (Finset.sum_congr rfl fun n' _ => hnum n')

end Idealize.ShloMosaic.ColumnLayout

end
-- ==== Proof.LibFloatWords.lean ====
import Idealize.ShloMosaic.PureOps.Ideal

/-! # Float bit patterns as the extended reals they denote

A 32-bit pattern is read as an IEEE single: sign, eight exponent bits, twenty-three fraction bits. The pattern
`0x3F800000` has sign 0, biased exponent 127 and fraction 0, so it denotes `2 ^ 0 · 1 = 1`. The pattern is
unfolded once here so that its users cite the equation and never open the decoding themselves. -/

noncomputable section

namespace Cert.Lib.FloatWords

open Idealize.ShloMosaic

/-- The single-precision pattern of `1.0` denotes the extended real `1`. -/
theorem ofBits_one_f32 : Ideal.ofBits .f32 0x3F800000#32 = (1 : EReal) := by
  simp [Ideal.ofBits, Ideal.ieee, -EReal.coe_mul]
  norm_num

end Cert.Lib.FloatWords

end
-- ==== Proof.KIValue0.lean ====
/-
  What the first kernel region leaves in its three output arrays, over the extended reals.

  The region's four points each take 1024 consecutive rows of the two inputs; the body scales every row of
  a block by the reciprocal square root of the row's squared length and stores the two scaled blocks and
  the column of one minus the rows' inner products.  Read back through the pipeline's write-backs, the three
  output arrays are, entry by entry: the first input with every row scaled, the second likewise, and the
  positive distance of every row.
-/
import proofs.«132504_j386547057031_2_alg».proof.Proof.KIRegion0
import proofs.«132504_j386547057031_2_alg».proof.Proof.Spec
import proofs.«132504_j386547057031_2_alg».proof.Proof.LibColumnLayout
import proofs.«132504_j386547057031_2_alg».proof.Proof.LibFloatWords
import Idealize.ShloMosaic.Lib.ValueIdx
import Idealize.ShloMosaic.Lib.Pipeline.Value
import Idealize.ShloMosaic.PureOps.Ideal.Laws

set_option maxRecDepth 16384

noncomputable section

namespace Cert.KernelIdeal.Value0

open Cert.KernelIdeal Cert.KernelIdeal.Gen Idealize.ShloMosaic Idealize.ShloMosaic.TcCoe Idealize.SL.Sem
open Idealize.ShloMosaic.Pipeline (Dat)
open Idealize.ShloMosaic.ValueIdx
open Cert.TripletSpec (nrmK sumSq pos)

/-! ## The body's arithmetic at an entry -/

/-- The reciprocal square root of a vector at an index is that of the element. -/
theorem rsqrt_apply {s : Shape} {φ : FTy} (a : FVec Ideal s φ) (i : s.Idx) : rsqrt a i = Ideal.rsqrt (a i) := rfl

/-- A block with every row scaled by the reciprocal square root of its squared length, at an entry. -/
theorem pay1_apply (v0 : FVec Ideal S1024x1024 .f32) (p q : Fin 1024) :
    k0_pay1 (F := Ideal) v0 (ix2 p q) = v0 (ix2 p q) * Ideal.rsqrt (∑ d : Fin 1024, v0 (ix2 p d) * v0 (ix2 p d)) := by
  unfold k0_pay1
  dsimp only
  refine (mulf_apply _ _ _).trans ?_
  refine congrArg (v0 (ix2 p q) * ·) ?_
  refine (ColumnLayout.broadcastTo_a1_ab_apply _ _ p q).trans ?_
  refine (rsqrt_apply _ _).trans ?_
  refine congrArg Ideal.rsqrt ?_
  refine (ColumnLayout.shapeCast_a_a1_apply _ _ p 0).trans ?_
  exact ColumnLayout.rowSum_apply _ _ _ _ p

/-- The same arithmetic on the second block. -/
theorem pay2_apply (v1 : FVec Ideal S1024x1024 .f32) (p q : Fin 1024) :
    k0_pay2 (F := Ideal) v1 (ix2 p q) = v1 (ix2 p q) * Ideal.rsqrt (∑ d : Fin 1024, v1 (ix2 p d) * v1 (ix2 p d)) := by
  unfold k0_pay2
  dsimp only
  refine (mulf_apply _ _ _).trans ?_
  refine congrArg (v1 (ix2 p q) * ·) ?_
  refine (ColumnLayout.broadcastTo_a1_ab_apply _ _ p q).trans ?_
  refine (rsqrt_apply _ _).trans ?_
  refine congrArg Ideal.rsqrt ?_
  refine (ColumnLayout.shapeCast_a_a1_apply _ _ p 0).trans ?_
  exact ColumnLayout.rowSum_apply _ _ _ _ p

/-- The column of one minus the inner product of the two scaled rows, at an entry. -/
theorem pay3_apply (v0 v1 : FVec Ideal S1024x1024 .f32) (p : Fin 1024) (u : Fin 1) :
    k0_pay3 (F := Ideal) v0 v1 (ix2 p u)
      = 1 - ∑ d : Fin 1024, k0_pay1 (F := Ideal) v0 (ix2 p d) * k0_pay2 (F := Ideal) v1 (ix2 p d) := by
  unfold k0_pay3
  dsimp only
  refine (subf_apply _ _ _).trans ?_
  refine congrArg₂ (· - ·) ?_ ?_
  · exact (broadcast_apply _ _).trans Cert.Lib.FloatWords.ofBits_one_f32
  · refine (ColumnLayout.shapeCast_a_a1_apply _ _ p u).trans ?_
    refine (ColumnLayout.rowSum_apply _ _ _ _ p).trans ?_
    exact Finset.sum_congr rfl fun d _ => mulf_apply _ _ _

/-- Narrowing to bf16 changes nothing over the extended reals. -/
theorem pay4_apply (v0 : FVec Ideal S1024x1024 .f32) (p q : Fin 1024) :
    k0_pay4 (F := Ideal) v0 (ix2 p q) = k0_pay1 (F := Ideal) v0 (ix2 p q) := by
  unfold k0_pay4
  exact truncf_apply _ _ _

theorem pay5_apply (v1 : FVec Ideal S1024x1024 .f32) (p q : Fin 1024) :
    k0_pay5 (F := Ideal) v1 (ix2 p q) = k0_pay2 (F := Ideal) v1 (ix2 p q) := by
  unfold k0_pay5
  exact truncf_apply _ _ _

/-! ## A block's arithmetic in terms of the whole array's rows -/

/-- An array of 4096 rows of 1024 entries, row by row. -/
abbrev rows (X : FVec Ideal S4096x1024 .f32) : Fin 4096 → Fin 1024 → EReal := fun r d => X (ix2 r d)

/-- When row `p` of a block is row `r` of the array, the block's scaled entry is the array's scaled entry. -/
theorem nrm1_block (B : FVec Ideal S1024x1024 .f32) (X : FVec Ideal S4096x1024 .f32) (p q : Fin 1024) (r : Fin 4096)
    (e : ∀ d : Fin 1024, B (ix2 p d) = X (ix2 r d)) :
    k0_pay1 (F := Ideal) B (ix2 p q) = nrmK (rows X) r q := by
  refine (pay1_apply B p q).trans ?_
  simp only [e]
  rfl

theorem nrm2_block (B : FVec Ideal S1024x1024 .f32) (X : FVec Ideal S4096x1024 .f32) (p q : Fin 1024) (r : Fin 4096)
    (e : ∀ d : Fin 1024, B (ix2 p d) = X (ix2 r d)) :
    k0_pay2 (F := Ideal) B (ix2 p q) = nrmK (rows X) r q := by
  refine (pay2_apply B p q).trans ?_
  simp only [e]
  rfl

/-- and the block's column entry is the row's positive distance. -/
theorem pos_block (B0 B1 : FVec Ideal S1024x1024 .f32) (X Y : FVec Ideal S4096x1024 .f32) (p : Fin 1024) (u : Fin 1) (r : Fin 4096)
    (e0 : ∀ d : Fin 1024, B0 (ix2 p d) = X (ix2 r d)) (e1 : ∀ d : Fin 1024, B1 (ix2 p d) = Y (ix2 r d)) :
    k0_pay3 (F := Ideal) B0 B1 (ix2 p u) = pos (nrmK (rows X)) (nrmK (rows Y)) r := by
  refine (pay3_apply B0 B1 p u).trans ?_
  unfold Cert.TripletSpec.pos
  refine congrArg (1 - ·) (Finset.sum_congr rfl fun d _ => ?_)
  exact congrArg₂ (· * ·) (nrm1_block B0 X p d r e0) (nrm2_block B1 Y p d r e1)

/-! ## The windows' blocks in the arrays -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: at point `t` every window is on block row `t`, block
    column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 4 :=
  lt_of_lt_of_eq t.isLt (show cfg0.N = 4 from N_0)

/-- Entry `(p, q)` of window 0's block at point `t` is entry `(1024 t + p, q)` of its array. -/
theorem read_blk0 (t : Fin cfg0.N) (G : FVec Ideal S4096x1024 .f32) (p q : Fin 1024) (r : Fin 4096)
    (hr : r.val = 1024 * t.val + p.val) :
    (((cfg0.win 0).blk t).view.read (Elt Ideal) G : FVec Ideal S1024x1024 .f32) (ix2 p q) = G (ix2 r q) := by
  obtain ⟨e0, e1, -, -, -, -, -, -, -, -⟩ := idx_facts t
  rw [View.read_apply]
  show G _ = G _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 1024 + 1 * q.val = q.val; rw [e1]; omega

/-- Entry `(p, q)` of window 1's block at point `t` is entry `(1024 t + p, q)` of its array. -/
theorem read_blk1 (t : Fin cfg0.N) (G : FVec Ideal S4096x1024 .f32) (p q : Fin 1024) (r : Fin 4096)
    (hr : r.val = 1024 * t.val + p.val) :
    (((cfg0.win 1).blk t).view.read (Elt Ideal) G : FVec Ideal S1024x1024 .f32) (ix2 p q) = G (ix2 r q) := by
  obtain ⟨-, -, e0, e1, -, -, -, -, -, -⟩ := idx_facts t
  rw [View.read_apply]
  show G _ = G _
  congr 1
  funext a
  apply Fin.ext
  match a with
  | ⟨0, _⟩ => show win0_1.index t (0 : Fin 2) * 1024 + 1 * p.val = r.val; rw [e0, hr]; omega
  | ⟨1, _⟩ => show win0_1.index t (1 : Fin 2) * 1024 + 1 * q.val = q.val; rw [e1]; omega

/-- Entry `(p, q)` of window 2's block at point `t` is entry `(1024 t + p, q)` of its array. -/
theorem read_blk2 (t : Fin cfg0.N) (G : FVec Ideal S4096x1024 .bf16) (p q : Fin 1024) (r : Fin 4096)
    (hr : r.val = 1024 * t.val + p.val) :
    (((cfg0.win 2).blk t).view.read (Elt Ideal) G : FVec Ideal S1024x1024 .bf16) (ix2 p q) = G (ix2 r q) := by
  obtain ⟨-, -, -, -, e0, e1, -, -, -, -⟩ := idx_facts t
  rw [View.read_apply]
  show G _ = G _
  congr 1
  funext a
  apply Fin.ext
  match a with
  | ⟨0, _⟩ => show win0_2.index t (0 : Fin 2) * 1024 + 1 * p.val = r.val; rw [e0, hr]; omega
  | ⟨1, _⟩ => show win0_2.index t (1 : Fin 2) * 1024 + 1 * q.val = q.val; rw [e1]; omega

/-- Entry `(p, q)` of window 3's block at point `t` is entry `(1024 t + p, q)` of its array. -/
theorem read_blk3 (t : Fin cfg0.N) (G : FVec Ideal S4096x1024 .bf16) (p q : Fin 1024) (r : Fin 4096)
    (hr : r.val = 1024 * t.val + p.val) :
    (((cfg0.win 3).blk t).view.read (Elt Ideal) G : FVec Ideal S1024x1024 .bf16) (ix2 p q) = G (ix2 r q) := by
  obtain ⟨-, -, -, -, -, -, e0, e1, -, -⟩ := idx_facts t
  rw [View.read_apply]
  show G _ = G _
  congr 1
  funext a
  apply Fin.ext
  match a with
  | ⟨0, _⟩ => show win0_3.index t (0 : Fin 2) * 1024 + 1 * p.val = r.val; rw [e0, hr]; omega
  | ⟨1, _⟩ => show win0_3.index t (1 : Fin 2) * 1024 + 1 * q.val = q.val; rw [e1]; omega

/-- Entry `(p, 0)` of window 4's block at point `t` is entry `(1024 t + p, 0)` of its array. -/
theorem read_blk4 (t : Fin cfg0.N) (G : FVec Ideal S4096x1 .f32) (p : Fin 1024) (u : Fin 1) (r : Fin 4096)
    (hr : r.val = 1024 * t.val + p.val) :
    (((cfg0.win 4).blk t).view.read (Elt Ideal) G : FVec Ideal S1024x1 .f32) (ix2 p u) = G (ix2 r u) := by
  obtain ⟨-, -, -, -, -, -, -, -, e0, e1⟩ := idx_facts t
  rw [View.read_apply]
  show G _ = G _
  congr 1
  funext a
  apply Fin.ext
  match a with
  | ⟨0, _⟩ => show win0_4.index t (0 : Fin 2) * 1024 + 1 * p.val = r.val; rw [e0, hr]; omega
  | ⟨1, _⟩ => show win0_4.index t (1 : Fin 2) * 1 + 1 * u.val = u.val; rw [e1]; omega

/-- The input windows' blocks are rows of the argument arrays. -/
theorem iblk0_0_apply (c : Dev nD) (t : Fin cfg0.N) (p q : Fin 1024) (r : Fin 4096) (hr : r.val = 1024 * t.val + p.val) :
    (iblk0 V c 0 t : FVec Ideal S1024x1024 .f32) (ix2 p q) = (V c main_arg0 : FVec Ideal S4096x1024 .f32) (ix2 r q) :=
  read_blk0 t (V c main_arg0) p q r hr

theorem iblk0_1_apply (c : Dev nD) (t : Fin cfg0.N) (p q : Fin 1024) (r : Fin 4096) (hr : r.val = 1024 * t.val + p.val) :
    (iblk0 V c 1 t : FVec Ideal S1024x1024 .f32) (ix2 p q) = (V c main_arg1 : FVec Ideal S4096x1024 .f32) (ix2 r q) :=
  read_blk1 t (V c main_arg1) p q r hr

/-- An index of window 2's array is in point `t`'s block iff each coordinate is in the block's range on its axis. -/
theorem mem_blk2 (t : Fin cfg0.N) (i : S4096x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0_0).slice (win0_2.rect t)).set ↔ _
  rw [View.set_slice_whole, Rect.mem_set_unit]
  exact Iff.rfl

/-- An index of window 3's array is in point `t`'s block iff each coordinate is in the block's range on its axis. -/
theorem mem_blk3 (t : Fin cfg0.N) (i : S4096x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v0_1).slice (win0_3.rect t)).set ↔ _
  rw [View.set_slice_whole, Rect.mem_set_unit]
  exact Iff.rfl

/-- An index of window 4's array is in point `t`'s block iff each coordinate is in the block's range on its axis. -/
theorem mem_blk4 (t : Fin cfg0.N) (i : S4096x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v0_2).slice (win0_4.rect t)).set ↔ _
  rw [View.set_slice_whole, Rect.mem_set_unit]
  exact Iff.rfl

/-- Row `r` of window 2's array is in the block of point `r / 1024`, which writes it back. -/
theorem cover2 (i : S4096x1024.Idx) :
    ∃ t : Fin cfg0.N, (cfg0.win 2).flush t = true ∧ i ∈ ((cfg0.win 2).blk t).view.set := by
  have hi0 : (i 0).val < 4096 := (i 0).isLt
  have hi1 : (i 1).val < 1024 := (i 1).isLt
  obtain ⟨t, ht⟩ : ∃ t : Fin cfg0.N, t.val = (i 0).val / 1024 :=
    ⟨⟨(i 0).val / 1024, by rw [show cfg0.N = 4 from N_0]; omega⟩, rfl⟩
  obtain ⟨-, -, -, -, e0, e1, -, -, -, -⟩ := idx_facts t
  refine ⟨t, flush0_2 t, ?_⟩
  rw [mem_blk2]
  intro a
  match a with
  | ⟨0, _⟩ => show win0_2.index t (0 : Fin 2) * 1024 ≤ (i 0).val ∧ (i 0).val < win0_2.index t (0 : Fin 2) * 1024 + 1024; rw [e0, ht]; omega
  | ⟨1, _⟩ => show win0_2.index t (1 : Fin 2) * 1024 ≤ (i 1).val ∧ (i 1).val < win0_2.index t (1 : Fin 2) * 1024 + 1024; rw [e1]; omega

/-- Row `r` of window 3's array is in the block of point `r / 1024`, which writes it back. -/
theorem cover3 (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  obtain ⟨t, ht⟩ : ∃ t : Fin cfg0.N, t.val = (i 0).val / 1024 :=
    ⟨⟨(i 0).val / 1024, by rw [show cfg0.N = 4 from N_0]; omega⟩, rfl⟩
  obtain ⟨-, -, -, -, -, -, e0, e1, -, -⟩ := idx_facts t
  refine ⟨t, flush0_3 t, ?_⟩
  rw [mem_blk3]
  intro a
  match a with
  | ⟨0, _⟩ => show win0_3.index t (0 : Fin 2) * 1024 ≤ (i 0).val ∧ (i 0).val < win0_3.index t (0 : Fin 2) * 1024 + 1024; rw [e0, ht]; omega
  | ⟨1, _⟩ => show win0_3.index t (1 : Fin 2) * 1024 ≤ (i 1).val ∧ (i 1).val < win0_3.index t (1 : Fin 2) * 1024 + 1024; rw [e1]; omega

/-- Row `r` of window 4's array is in the block of point `r / 1024`, which writes it back. -/
theorem cover4 (i : S4096x1.Idx) :
    ∃ t : Fin cfg0.N, (cfg0.win 4).flush t = true ∧ i ∈ ((cfg0.win 4).blk t).view.set := by
  have hi0 : (i 0).val < 4096 := (i 0).isLt
  have hi1 : (i 1).val < 1 := (i 1).isLt
  obtain ⟨t, ht⟩ : ∃ t : Fin cfg0.N, t.val = (i 0).val / 1024 :=
    ⟨⟨(i 0).val / 1024, by rw [show cfg0.N = 4 from N_0]; omega⟩, rfl⟩
  obtain ⟨-, -, -, -, -, -, -, -, e0, e1⟩ := idx_facts t
  refine ⟨t, flush0_4 t, ?_⟩
  rw [mem_blk4]
  intro a
  match a with
  | ⟨0, _⟩ => show win0_4.index t (0 : Fin 2) * 1024 ≤ (i 0).val ∧ (i 0).val < win0_4.index t (0 : Fin 2) * 1024 + 1024; rw [e0, ht]; omega
  | ⟨1, _⟩ => show win0_4.index t (1 : Fin 2) * 1 ≤ (i 1).val ∧ (i 1).val < win0_4.index t (1 : Fin 2) * 1 + 1; rw [e1]; omega

/-! ## What each point writes back, and the arrays after the region -/

/-- The first output array after the region: the first input with every row scaled. -/
abbrev G2 (c : Dev nD) : FVec Ideal S4096x1024 .bf16 := fun i => nrmK (rows (V c main_arg0)) (i 0) (i 1)
/-- The second: the second input with every row scaled. -/
abbrev G3 (c : Dev nD) : FVec Ideal S4096x1024 .bf16 := fun i => nrmK (rows (V c main_arg1)) (i 0) (i 1)
/-- The third: every row's positive distance. -/
abbrev G4 (c : Dev nD) : FVec Ideal S4096x1 .f32 := fun i => pos (nrmK (rows (V c main_arg0))) (nrmK (rows (V c main_arg1))) (i 0)

/-- What point `t` writes back to the first output is block `t` of `G2`. -/
theorem flushed2_eq (c : Dev nD) (t : Fin cfg0.N) :
    (dat0 V c).flushed 2 t = ((cfg0.win 2).blk t).view.read (Elt Ideal) (G2 V c) := by
  show (cfg0.win 2).cut (grid0.coords t) ((dat0 V c).after 2 t) = _
  rw [after0_2]
  unfold out0_2
  rw [View.canon_unit_zero hz]
  simp only [View.ld_unit_zero (S := S1024x1024) hz]
  refine funext fun (j : S1024x1024.Idx) => ?_
  obtain ⟨p, q, rfl⟩ : ∃ (p q : Fin 1024), j = ix2 p q := ⟨j 0, j 1, eq_ix2 j⟩
  have h4 := t_lt t
  obtain ⟨r, hr⟩ : ∃ r : Fin 4096, r.val = 1024 * t.val + p.val := ⟨⟨1024 * t.val + p.val, by omega⟩, rfl⟩
  refine Eq.trans ?_ (read_blk2 t (G2 V c) p q r hr).symm
  refine (pay4_apply (iblk0 V c 0 t) p q).trans ?_
  exact nrm1_block (iblk0 V c 0 t) (V c main_arg0) p q r fun d => iblk0_0_apply V c t p d r hr

theorem flushed3_eq (c : Dev nD) (t : Fin cfg0.N) :
    (dat0 V c).flushed 3 t = ((cfg0.win 3).blk t).view.read (Elt Ideal) (G3 V c) := by
  show (cfg0.win 3).cut (grid0.coords t) ((dat0 V c).after 3 t) = _
  rw [after0_3]
  unfold out0_3
  rw [View.canon_unit_zero hz]
  simp only [View.ld_unit_zero (S := S1024x1024) hz]
  refine funext fun (j : S1024x1024.Idx) => ?_
  obtain ⟨p, q, rfl⟩ : ∃ (p q : Fin 1024), j = ix2 p q := ⟨j 0, j 1, eq_ix2 j⟩
  have h4 := t_lt t
  obtain ⟨r, hr⟩ : ∃ r : Fin 4096, r.val = 1024 * t.val + p.val := ⟨⟨1024 * t.val + p.val, by omega⟩, rfl⟩
  refine Eq.trans ?_ (read_blk3 t (G3 V c) p q r hr).symm
  refine (pay5_apply (iblk0 V c 1 t) p q).trans ?_
  exact nrm2_block (iblk0 V c 1 t) (V c main_arg1) p q r fun d => iblk0_1_apply V c t p d r hr

theorem flushed4_eq (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4]
  unfold out0_4
  rw [View.canon_unit_zero hz]
  simp only [View.ld_unit_zero (S := S1024x1024) hz]
  refine funext fun (j : S1024x1.Idx) => ?_
  obtain ⟨p, u, rfl⟩ : ∃ (p : Fin 1024) (u : Fin 1), j = ix2 p u := ⟨j 0, j 1, eq_ix2 j⟩
  have h4 := t_lt t
  obtain ⟨r, hr⟩ : ∃ r : Fin 4096, r.val = 1024 * t.val + p.val := ⟨⟨1024 * t.val + p.val, by omega⟩, rfl⟩
  refine Eq.trans ?_ (read_blk4 t (G4 V c) p u r hr).symm
  exact pos_block (iblk0 V c 0 t) (iblk0 V c 1 t) (V c main_arg0) (V c main_arg1) p u r
    (fun d => iblk0_0_apply V c t p d r hr) (fun d => iblk0_1_apply V c t p d r hr)

/-- The first output array after the region is the first input with every row scaled by the reciprocal
    square root of its squared length. -/
theorem final0_2 (c : Dev nD) :
    (dat0 V c).arrAt 2 cfg0.N = fun i => nrmK (rows (V c main_arg0)) (i 0) (i 1) :=
  (dat0 V c).arrAt_eq_of_cover 2 (G2 V c) (fun t _ => flushed2_eq V c t) fun i => cover2 i

/-- The second output array after the region is the second input scaled likewise. -/
theorem final0_3 (c : Dev nD) :
    (dat0 V c).arrAt 3 cfg0.N = fun i => nrmK (rows (V c main_arg1)) (i 0) (i 1) :=
  (dat0 V c).arrAt_eq_of_cover 3 (G3 V c) (fun t _ => flushed3_eq V c t) fun i => cover3 i

/-- The third output array after the region holds every row's positive distance. -/
theorem final0_4_fun (c : Dev nD) :
    (dat0 V c).arrAt 4 cfg0.N = fun i => pos (nrmK (rows (V c main_arg0))) (nrmK (rows (V c main_arg1))) (i 0) :=
  (dat0 V c).arrAt_eq_of_cover 4 (G4 V c) (fun t _ => flushed4_eq V c t) fun i => cover4 i

/-- The same three, entry by entry. -/
theorem final0_2_apply (c : Dev nD) (r : Fin 4096) (d : Fin 1024) :
    ((dat0 V c).arrAt 2 cfg0.N : FVec Ideal S4096x1024 .bf16) (ix2 r d) = nrmK (rows (V c main_arg0)) r d :=
  congrFun (final0_2 V c) (ix2 r d)

theorem final0_3_apply (c : Dev nD) (r : Fin 4096) (d : Fin 1024) :
    ((dat0 V c).arrAt 3 cfg0.N : FVec Ideal S4096x1024 .bf16) (ix2 r d) = nrmK (rows (V c main_arg1)) r d :=
  congrFun (final0_3 V c) (ix2 r d)

theorem final0_4 (c : Dev nD) (r : Fin 4096) :
    ((dat0 V c).arrAt 4 cfg0.N : FVec Ideal S4096x1 .f32) (ix2 r (0 : Fin 1))
      = pos (nrmK (rows (V c main_arg0))) (nrmK (rows (V c main_arg1))) r :=
  congrFun (final0_4_fun V c) (ix2 r (0 : Fin 1))

end Cert.KernelIdeal.Value0

end
-- ==== Proof.KIBlocks1.lean ====
/-
  The geometry of the second kernel region and the host operations after it, over the extended reals.

  The region's grid is 4 × 4 points, point `t = 4 i + j` taking row block `i = t / 4` of the first scaled
  array, of the column of positive distances and of the output column, and row block `j = t % 4` of the
  second scaled array (its rows are the columns of the distance matrix).  Stated here: the printed index maps
  in that closed form; each input block as rows of its array; the output column after the region from what the
  last point of every row block leaves; and the host's mean of the output column.
-/
import proofs.«132504_j386547057031_2_alg».proof.Proof.KIRegion1
import proofs.«132504_j386547057031_2_alg».proof.Proof.Spec
import Idealize.ShloMosaic.Lib.ValueIdx
import Idealize.ShloMosaic.Lib.IdealHost
import Idealize.ShloMosaic.Lib.Pipeline.Value
import Idealize.ShloMosaic.PureOps.Ideal.Laws

set_option maxRecDepth 16384

noncomputable section

namespace Cert.KernelIdeal.Value1

open Cert.KernelIdeal Cert.KernelIdeal.Gen Idealize.ShloMosaic Idealize.ShloMosaic.TcCoe Idealize.SL.Sem
open Idealize.ShloMosaic.Pipeline (Dat)
open Idealize.ShloMosaic.ValueIdx

/-! ## The index maps -/

/-- The printed index maps, decided over the grid: at point `t` windows 0, 2 and 3 are on block row `t / 4`,
    window 1 on block row `t % 4`, all on block column 0. -/
theorem idx_facts1 : ∀ t : Fin cfg1.N,
    win1_0.index t (0 : Fin 2) = t.val / 4 ∧ win1_0.index t (1 : Fin 2) = 0
    ∧ win1_1.index t (0 : Fin 2) = t.val % 4 ∧ win1_1.index t (1 : Fin 2) = 0
    ∧ win1_2.index t (0 : Fin 2) = t.val / 4 ∧ win1_2.index t (1 : Fin 2) = 0
    ∧ win1_3.index t (0 : Fin 2) = t.val / 4 ∧ win1_3.index t (1 : Fin 2) = 0 :=
  (by decide +kernel : ∀ t : Fin grid1.N, _)

theorem t_lt1 (t : Fin cfg1.N) : t.val < 16 :=
  lt_of_lt_of_eq t.isLt (show cfg1.N = 16 from N_1)

/-- Row `p` of the row block of point `t` is a row of the array, -/
theorem blk_row_lt (t : Fin cfg1.N) (p : Fin 1024) : 1024 * (t.val / 4) + p.val < 4096 := by
  have := t_lt1 t; have := p.isLt; omega
/-- and so is row `p` of its column block. -/
theorem blk_col_lt (t : Fin cfg1.N) (p : Fin 1024) : 1024 * (t.val % 4) + p.val < 4096 := by
  have := p.isLt; omega

/-! ## A block's entries in its array -/

/-- Entry `(p, q)` of window 0's block at point `t` is entry `(1024 · (t / 4) + p, q)` of its array. -/
theorem read_blk1_0 (t : Fin cfg1.N) (G : FVec Ideal S4096x1024 .bf16) (p q : Fin 1024) (r : Fin 4096)
    (hr : r.val = 1024 * (t.val / 4) + p.val) :
    (((cfg1.win 0).blk t).view.read (Elt Ideal) G : FVec Ideal S1024x1024 .bf16) (ix2 p q) = G (ix2 r q) := by
  obtain ⟨e0, e1, -, -, -, -, -, -⟩ := idx_facts1 t
  rw [View.read_apply]
  show G _ = G _
  congr 1
  funext a
  apply Fin.ext
  match a with
  | ⟨0, _⟩ => show win1_0.index t (0 : Fin 2) * 1024 + 1 * p.val = r.val; rw [e0, hr]; omega
  | ⟨1, _⟩ => show win1_0.index t (1 : Fin 2) * 1024 + 1 * q.val = q.val; rw [e1]; omega

/-- Entry `(p, q)` of window 1's block at point `t` is entry `(1024 · (t % 4) + p, q)` of its array. -/
theorem read_blk1_1 (t : Fin cfg1.N) (G : FVec Ideal S4096x1024 .bf16) (p q : Fin 1024) (r : Fin 4096)
    (hr : r.val = 1024 * (t.val % 4) + p.val) :
    (((cfg1.win 1).blk t).view.read (Elt Ideal) G : FVec Ideal S1024x1024 .bf16) (ix2 p q) = G (ix2 r q) := by
  obtain ⟨-, -, e0, e1, -, -, -, -⟩ := idx_facts1 t
  rw [View.read_apply]
  show G _ = G _
  congr 1
  funext a
  apply Fin.ext
  match a with
  | ⟨0, _⟩ => show win1_1.index t (0 : Fin 2) * 1024 + 1 * p.val = r.val; rw [e0, hr]; omega
  | ⟨1, _⟩ => show win1_1.index t (1 : Fin 2) * 1024 + 1 * q.val = q.val; rw [e1]; omega

/-- Entry `(p, 0)` of window 2's block at point `t` is entry `(1024 · (t / 4) + p, 0)` of its array. -/
theorem read_blk1_2 (t : Fin cfg1.N) (G : FVec Ideal S4096x1 .f32) (p : Fin 1024) (u : Fin 1) (r : Fin 4096)
    (hr : r.val = 1024 * (t.val / 4) + p.val) :
    (((cfg1.win 2).blk t).view.read (Elt Ideal) G : FVec Ideal S1024x1 .f32) (ix2 p u) = G (ix2 r u) := by
  obtain ⟨-, -, -, -, e0, e1, -, -⟩ := idx_facts1 t
  rw [View.read_apply]
  show G _ = G _
  congr 1
  funext a
  apply Fin.ext
  match a with
  | ⟨0, _⟩ => show win1_2.index t (0 : Fin 2) * 1024 + 1 * p.val = r.val; rw [e0, hr]; omega
  | ⟨1, _⟩ => show win1_2.index t (1 : Fin 2) * 1 + 1 * u.val = u.val; rw [e1]; omega

/-- Entry `(p, 0)` of window 3's block at point `t` is entry `(1024 · (t / 4) + p, 0)` of its array. -/
theorem read_blk1_3 (t : Fin cfg1.N) (G : FVec Ideal S4096x1 .f32) (p : Fin 1024) (u : Fin 1) (r : Fin 4096)
    (hr : r.val = 1024 * (t.val / 4) + p.val) :
    (((cfg1.win 3).blk t).view.read (Elt Ideal) G : FVec Ideal S1024x1 .f32) (ix2 p u) = G (ix2 r u) := by
  obtain ⟨-, -, -, -, -, -, e0, e1⟩ := idx_facts1 t
  rw [View.read_apply]
  show G _ = G _
  congr 1
  funext a
  apply Fin.ext
  match a with
  | ⟨0, _⟩ => show win1_3.index t (0 : Fin 2) * 1024 + 1 * p.val = r.val; rw [e0, hr]; omega
  | ⟨1, _⟩ => show win1_3.index t (1 : Fin 2) * 1 + 1 * u.val = u.val; rw [e1]; omega

variable (V : (c : Dev nD) → (b : Ref sig .tc) → Buf (Elt Ideal) ((c : Thread nD τ).loc b))

/-- The input windows' blocks are rows of the arrays the region finds: for any row `r` with the block's
    arithmetic, -/
theorem iblk1_0_apply_of (c : Dev nD) (t : Fin cfg1.N) (r' d : Fin 1024) (r : Fin 4096) (hr : r.val = 1024 * (t.val / 4) + r'.val) :
    (iblk1 V c 0 t : FVec Ideal S1024x1024 .bf16) (ix2 r' d) = (V c main_v0_0 : FVec Ideal S4096x1024 .bf16) (ix2 r d) :=
  read_blk1_0 t (V c main_v0_0) r' d r hr

theorem iblk1_1_apply_of (c : Dev nD) (t : Fin cfg1.N) (c' d : Fin 1024) (r : Fin 4096) (hr : r.val = 1024 * (t.val % 4) + c'.val) :
    (iblk1 V c 1 t : FVec Ideal S1024x1024 .bf16) (ix2 c' d) = (V c main_v0_1 : FVec Ideal S4096x1024 .bf16) (ix2 r d) :=
  read_blk1_1 t (V c main_v0_1) c' d r hr

theorem iblk1_2_apply_of (c : Dev nD) (t : Fin cfg1.N) (r' : Fin 1024) (r : Fin 4096) (hr : r.val = 1024 * (t.val / 4) + r'.val) :
    (iblk1 V c 2 t : FVec Ideal S1024x1 .f32) (ix2 r' (0 : Fin 1)) = (V c main_v0_2 : FVec Ideal S4096x1 .f32) (ix2 r (0 : Fin 1)) :=
  read_blk1_2 t (V c main_v0_2) r' 0 r hr

/-- and at the row spelt out. -/
theorem iblk1_0_apply (c : Dev nD) (t : Fin cfg1.N) (r' d : Fin 1024) :
    (iblk1 V c 0 t : FVec Ideal S1024x1024 .bf16) (ix2 r' d)
      = (V c main_v0_0 : FVec Ideal S4096x1024 .bf16) (ix2 (⟨1024 * (t.val / 4) + r'.val, blk_row_lt t r'⟩ : Fin 4096) d) :=
  iblk1_0_apply_of V c t r' d _ rfl

theorem iblk1_1_apply (c : Dev nD) (t : Fin cfg1.N) (c' d : Fin 1024) :
    (iblk1 V c 1 t : FVec Ideal S1024x1024 .bf16) (ix2 c' d)
      = (V c main_v0_1 : FVec Ideal S4096x1024 .bf16) (ix2 (⟨1024 * (t.val % 4) + c'.val, blk_col_lt t c'⟩ : Fin 4096) d) :=
  iblk1_1_apply_of V c t c' d _ rfl

theorem iblk1_2_apply (c : Dev nD) (t : Fin cfg1.N) (r' : Fin 1024) :
    (iblk1 V c 2 t : FVec Ideal S1024x1 .f32) (ix2 r' (0 : Fin 1))
      = (V c main_v0_2 : FVec Ideal S4096x1 .f32) (ix2 (⟨1024 * (t.val / 4) + r'.val, blk_row_lt t r'⟩ : Fin 4096) (0 : Fin 1)) :=
  iblk1_2_apply_of V c t r' _ rfl

/-! ## The output column after the region -/

/-- An index of the output column is in point `t`'s block iff each coordinate is in the block's range on its axis. -/
theorem mem_blk1_3 (t : Fin cfg1.N) (i : S4096x1.Idx) :
    i ∈ ((cfg1.win 3).blk t).view.set ↔ ∀ a : Fin 2, win1_3.index t a * S1024x1.size a ≤ (i a).val ∧ (i a).val < win1_3.index t a * S1024x1.size a + S1024x1.size a := by
  show i ∈ ((View.whole main_v1).slice (win1_3.rect t)).set ↔ _
  rw [View.set_slice_whole, Rect.mem_set_unit]
  exact Iff.rfl

/-- Row `r` of the output column is in the block of the last point of its row block, `4 (r / 1024) + 3`, which
    writes the block back. -/
theorem cover1_3 (i : S4096x1.Idx) :
    ∃ t : Fin cfg1.N, (cfg1.win 3).flush t = true ∧ i ∈ ((cfg1.win 3).blk t).view.set := by
  have hi0 : (i 0).val < 4096 := (i 0).isLt
  have hi1 : (i 1).val < 1 := (i 1).isLt
  obtain ⟨t, ht⟩ : ∃ t : Fin cfg1.N, t.val = 4 * ((i 0).val / 1024) + 3 :=
    ⟨⟨4 * ((i 0).val / 1024) + 3, by rw [show cfg1.N = 16 from N_1]; omega⟩, rfl⟩
  obtain ⟨-, -, -, -, -, -, e0, e1⟩ := idx_facts1 t
  refine ⟨t, (flush1_3 t).mpr (by omega), ?_⟩
  rw [mem_blk1_3]
  intro a
  match a with
  | ⟨0, _⟩ => show win1_3.index t (0 : Fin 2) * 1024 ≤ (i 0).val ∧ (i 0).val < win1_3.index t (0 : Fin 2) * 1024 + 1024; rw [e0, ht]; omega
  | ⟨1, _⟩ => show win1_3.index t (1 : Fin 2) * 1 ≤ (i 1).val ∧ (i 1).val < win1_3.index t (1 : Fin 2) * 1 + 1; rw [e1]; omega

/-- THE OUTPUT COLUMN from the per-point values: if what the last point of every row block leaves in the
    output window's buffer is `G` on that block's rows, the column after the region is `G`. -/
theorem final1_3_of (c : Dev nD) (G : Fin 4096 → EReal)
    (h : ∀ t : Fin cfg1.N, t.val % 4 = 3 → ∀ r' : Fin 1024,
      ((dat1 V c).after 3 t : FVec Ideal S1024x1 .f32) (ix2 r' (0 : Fin 1))
        = G ⟨1024 * (t.val / 4) + r'.val, blk_row_lt t r'⟩) :
    ∀ r : Fin 4096, ((dat1 V c).arrAt 3 cfg1.N : FVec Ideal S4096x1 .f32) (ix2 r (0 : Fin 1)) = G r := by
  have key : (dat1 V c).arrAt 3 cfg1.N = (fun i => G (i 0) : FVec Ideal S4096x1 .f32) := by
    refine (dat1 V c).arrAt_eq_of_cover 3 (fun i => G (i 0) : FVec Ideal S4096x1 .f32) (fun t hf => ?_) fun i => cover1_3 i
    have h3 : t.val % 4 = 3 := (flush1_3 t).mp hf
    show (cfg1.win 3).cut (grid1.coords t) ((dat1 V c).after 3 t) = _
    refine funext fun (j : S1024x1.Idx) => ?_
    obtain ⟨p, u, rfl⟩ : ∃ (p : Fin 1024) (u : Fin 1), j = ix2 p u := ⟨j 0, j 1, eq_ix2 j⟩
    obtain rfl : u = 0 := Subsingleton.elim _ _
    refine Eq.trans ?_ (read_blk1_3 t (fun i => G (i 0) : FVec Ideal S4096x1 .f32) p 0 ⟨1024 * (t.val / 4) + p.val, blk_row_lt t p⟩ rfl).symm
    exact h t h3 p
  intro r
  exact congrFun key (ix2 r (0 : Fin 1))

/-! ## The host operations after the region -/

/-- The host's sum of a column over both axes from the zero word, divided by the word of 4096, is the mean of
    the column's entries. -/
theorem tail_value (arr : FVec Ideal S4096x1 .f32) :
    Host.divf (F := Ideal)
        (Host.reduceAdd (F := Ideal) arr (constant (F := Ideal) S_ .f32 0x00000000#32) reducesTo_S4096x1_S_d0_1 h_S_)
        (constant (F := Ideal) S_ .f32 0x45800000#32)
      = fun _ => Cert.TripletSpec.meanOf (fun r => arr (ix2 r (0 : Fin 1))) := by
  funext j
  refine (hostDivf_apply _ _ j).trans ?_
  unfold Cert.TripletSpec.meanOf Cert.TripletSpec.nRows
  refine congrArg₂ Ideal.div ?_ (constant_apply _ j)
  refine (hostReduceAdd_apply arr _ reducesTo_S4096x1_S_d0_1 h_S_ j).trans ?_
  refine (Ideal.hostReduceAdd_total reducesTo_S4096x1_S_d0_1 (fun b => b.elim0) arr _ j).trans ?_
  rw [constant_apply, Ideal.ofBits_zero_f32, zero_add, sum_idx2]
  exact Finset.sum_congr rfl fun r _ => Fin.sum_univ_one _

end Cert.KernelIdeal.Value1

end
-- ==== Proof.KIPieces1.lean ====
import proofs.«132504_j386547057031_2_alg».proof.Proof.KIRegion1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case's stores leave, as the payloads of the point's blocks and of the incoming scratch columns -/

theorem hz2 : (![0, 0] : Fin 2 → ℕ) = fun _ => 0 := by funext a; match a with | ⟨0, _⟩ => rfl | ⟨1, _⟩ => rfl

theorem sout1_A_0_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : cond1_2 i) (hc3 : ¬cond1_3 i) (hc4 : ¬cond1_4 i) (x0 x1 : Vec F S1024x1024 .bf16) (x2 : Vec F S1024x1 .f32) :
    sout1_A_0 c i arg2 harg2 arg3 harg3 arg4 harg4 arg5 harg5 arg6 harg6 arg7 harg7 arg8 harg8 hc1 hc2 hc3 hc4 x0 x1 x2 = k1_pay15 (BitVec.ofNat 32 (i 0).val) (BitVec.ofNat 32 (i 1).val) (k1_pay4 x0 x1) (k1_pay6 x0 x1 x2) k1_pay1 := by
  unfold sout1_A_0
  unfold kernelRun1_A
  dsimp only
  sl_unfold_words
  simp only [View.canon_cons_unit_zero (S := S1024x1) hz2, View.canon_unit_zero (S := S1024x1) hz2, View.readCov_unit_zero (S := S1024x1) _ hz2, View.readAt_eq_ld, Memref.IsWhole.read_unread,
    View.ld_unit_zero (S := S1024x1024) hz2, View.ld_unit_zero (S := S1024x1) hz2]

theorem sout1_A_1_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : cond1_2 i) (hc3 : ¬cond1_3 i) (hc4 : ¬cond1_4 i) (x0 x1 : Vec F S1024x1024 .bf16) (x2 : Vec F S1024x1 .f32) :
    sout1_A_1 c i arg2 harg2 arg3 harg3 arg4 harg4 arg5 harg5 arg6 harg6 arg7 harg7 arg8 harg8 hc1 hc2 hc3 hc4 x0 x1 x2 = k1_pay16 (BitVec.ofNat 32 (i 0).val) (BitVec.ofNat 32 (i 1).val) (k1_pay6 x0 x1 x2) k1_pay2 := by
  unfold sout1_A_1
  unfold kernelRun1_A
  dsimp only
  sl_unfold_words
  simp only [View.canon_cons_unit_zero (S := S1024x1) hz2, View.canon_unit_zero (S := S1024x1) hz2, View.readCov_unit_zero (S := S1024x1) _ hz2, View.readAt_eq_ld, Memref.IsWhole.read_unread,
    View.ld_unit_zero (S := S1024x1024) hz2, View.ld_unit_zero (S := S1024x1) hz2]

theorem sout1_A_2_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : cond1_2 i) (hc3 : ¬cond1_3 i) (hc4 : ¬cond1_4 i) (x0 x1 : Vec F S1024x1024 .bf16) (x2 : Vec F S1024x1 .f32) :
    sout1_A_2 c i arg2 harg2 arg3 harg3 arg4 harg4 arg5 harg5 arg6 harg6 arg7 harg7 arg8 harg8 hc1 hc2 hc3 hc4 x0 x1 x2 = k1_pay7 k1_pay3 (k1_pay17 (BitVec.ofNat 32 (i 0).val) (BitVec.ofNat 32 (i 1).val) (k1_pay4 x0 x1)) := by
  unfold sout1_A_2
  unfold kernelRun1_A
  dsimp only
  sl_unfold_words
  simp only [View.canon_cons_unit_zero (S := S1024x1) hz2, View.canon_unit_zero (S := S1024x1) hz2, View.readCov_unit_zero (S := S1024x1) _ hz2, View.readAt_eq_ld, Memref.IsWhole.read_unread,
    View.ld_unit_zero (S := S1024x1024) hz2, View.ld_unit_zero (S := S1024x1) hz2]

theorem sout1_B_0_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : ¬cond1_4 i) (x0 x1 : Vec F S1024x1024 .bf16) (x2 : Vec F S1024x1 .f32) (xs0 xs1 xs2 : Vec F S1024x1 .f32) :
    sout1_B_0 c i arg2 harg2 arg3 harg3 arg4 harg4 arg5 harg5 arg6 harg6 arg7 harg7 arg8 harg8 hc1 hc2 hc3 hc4 x0 x1 x2 xs0 xs1 xs2 = k1_pay9 x0 x1 x2 xs0 := by
  unfold sout1_B_0
  unfold kernelRun1_B
  dsimp only
  sl_unfold_words
  simp only [View.canon_cons_unit_zero (S := S1024x1) hz2, View.canon_unit_zero (S := S1024x1) hz2, View.readCov_unit_zero (S := S1024x1) _ hz2, View.readAt_eq_ld, Memref.IsWhole.read_unread,
    View.ld_unit_zero (S := S1024x1024) hz2, View.ld_unit_zero (S := S1024x1) hz2]

theorem sout1_B_1_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : ¬cond1_4 i) (x0 x1 : Vec F S1024x1024 .bf16) (x2 : Vec F S1024x1 .f32) (xs0 xs1 xs2 : Vec F S1024x1 .f32) :
    sout1_B_1 c i arg2 harg2 arg3 harg3 arg4 harg4 arg5 harg5 arg6 harg6 arg7 harg7 arg8 harg8 hc1 hc2 hc3 hc4 x0 x1 x2 xs0 xs1 xs2 = k1_pay10 x0 x1 x2 xs1 := by
  unfold sout1_B_1
  unfold kernelRun1_B
  dsimp only
  sl_unfold_words
  simp only [View.canon_cons_unit_zero (S := S1024x1) hz2, View.canon_unit_zero (S := S1024x1) hz2, View.readCov_unit_zero (S := S1024x1) _ hz2, View.readAt_eq_ld, Memref.IsWhole.read_unread,
    View.ld_unit_zero (S := S1024x1024) hz2, View.ld_unit_zero (S := S1024x1) hz2]

theorem sout1_B_2_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : ¬cond1_4 i) (x0 x1 : Vec F S1024x1024 .bf16) (x2 : Vec F S1024x1 .f32) (xs0 xs1 xs2 : Vec F S1024x1 .f32) :
    sout1_B_2 c i arg2 harg2 arg3 harg3 arg4 harg4 arg5 harg5 arg6 harg6 arg7 harg7 arg8 harg8 hc1 hc2 hc3 hc4 x0 x1 x2 xs0 xs1 xs2 = k1_pay11 x0 x1 xs2 := by
  unfold sout1_B_2
  unfold kernelRun1_B
  dsimp only
  sl_unfold_words
  simp only [View.canon_cons_unit_zero (S := S1024x1) hz2, View.canon_unit_zero (S := S1024x1) hz2, View.readCov_unit_zero (S := S1024x1) _ hz2, View.readAt_eq_ld, Memref.IsWhole.read_unread,
    View.ld_unit_zero (S := S1024x1024) hz2, View.ld_unit_zero (S := S1024x1) hz2]

theorem sout1_C_0_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : cond1_4 i) (x0 x1 : Vec F S1024x1024 .bf16) (x2 : Vec F S1024x1 .f32) (xs0 xs1 xs2 : Vec F S1024x1 .f32) :
    sout1_C_0 c i arg2 harg2 arg3 harg3 arg4 harg4 arg5 harg5 arg6 harg6 arg7 harg7 arg8 harg8 hc1 hc2 hc3 hc4 x0 x1 x2 xs0 xs1 xs2 = k1_pay9 x0 x1 x2 xs0 := by
  unfold sout1_C_0
  unfold kernelRun1_C
  dsimp only
  sl_unfold_words
  simp only [View.canon_cons_unit_zero (S := S1024x1) hz2, View.canon_unit_zero (S := S1024x1) hz2, View.readCov_unit_zero (S := S1024x1) _ hz2, View.readAt_eq_ld, Memref.IsWhole.read_unread,
    View.ld_unit_zero (S := S1024x1024) hz2, View.ld_unit_zero (S := S1024x1) hz2]

theorem sout1_C_1_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : cond1_4 i) (x0 x1 : Vec F S1024x1024 .bf16) (x2 : Vec F S1024x1 .f32) (xs0 xs1 xs2 : Vec F S1024x1 .f32) :
    sout1_C_1 c i arg2 harg2 arg3 harg3 arg4 harg4 arg5 harg5 arg6 harg6 arg7 harg7 arg8 harg8 hc1 hc2 hc3 hc4 x0 x1 x2 xs0 xs1 xs2 = k1_pay10 x0 x1 x2 xs1 := by
  unfold sout1_C_1
  unfold kernelRun1_C
  dsimp only
  sl_unfold_words
  simp only [View.canon_cons_unit_zero (S := S1024x1) hz2, View.canon_unit_zero (S := S1024x1) hz2, View.readCov_unit_zero (S := S1024x1) _ hz2, View.readAt_eq_ld, Memref.IsWhole.read_unread,
    View.ld_unit_zero (S := S1024x1024) hz2, View.ld_unit_zero (S := S1024x1) hz2]

theorem sout1_C_2_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : cond1_4 i) (x0 x1 : Vec F S1024x1024 .bf16) (x2 : Vec F S1024x1 .f32) (xs0 xs1 xs2 : Vec F S1024x1 .f32) :
    sout1_C_2 c i arg2 harg2 arg3 harg3 arg4 harg4 arg5 harg5 arg6 harg6 arg7 harg7 arg8 harg8 hc1 hc2 hc3 hc4 x0 x1 x2 xs0 xs1 xs2 = k1_pay11 x0 x1 xs2 := by
  unfold sout1_C_2
  unfold kernelRun1_C
  dsimp only
  sl_unfold_words
  simp only [View.canon_cons_unit_zero (S := S1024x1) hz2, View.canon_unit_zero (S := S1024x1) hz2, View.readCov_unit_zero (S := S1024x1) _ hz2, View.readAt_eq_ld, Memref.IsWhole.read_unread,
    View.ld_unit_zero (S := S1024x1024) hz2, View.ld_unit_zero (S := S1024x1) hz2]

theorem out1_C_3_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : ¬cond1_2 i) (hc3 : cond1_3 i) (hc4 : cond1_4 i) (x0 x1 : Vec F S1024x1024 .bf16) (x2 : Vec F S1024x1 .f32) (xs0 xs1 xs2 : Vec F S1024x1 .f32) :
    out1_C_3 c i arg2 harg2 arg3 harg3 arg4 harg4 arg5 harg5 arg6 harg6 arg7 harg7 arg8 harg8 hc1 hc2 hc3 hc4 x0 x1 x2 xs0 xs1 xs2 = k1_pay12 x2 (k1_pay10 x0 x1 x2 xs1) (k1_pay9 x0 x1 x2 xs0) (k1_pay11 x0 x1 xs2) := by
  unfold out1_C_3
  unfold kernelRun1_C
  dsimp only
  sl_unfold_words
  simp only [View.canon_cons_unit_zero (S := S1024x1) hz2, View.canon_unit_zero (S := S1024x1) hz2, View.readCov_unit_zero (S := S1024x1) _ hz2, View.readAt_eq_ld, Memref.IsWhole.read_unread,
    View.ld_unit_zero (S := S1024x1024) hz2, View.ld_unit_zero (S := S1024x1) hz2]

theorem sout1_D_0_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : ¬cond1_2 i) (hc3 : cond1_3 i) (hc4 : ¬cond1_4 i) (x0 x1 : Vec F S1024x1024 .bf16) (x2 : Vec F S1024x1 .f32) :
    sout1_D_0 c i arg2 harg2 arg3 harg3 arg4 harg4 arg5 harg5 arg6 harg6 arg7 harg7 arg8 harg8 hc1 hc2 hc3 hc4 x0 x1 x2 = k1_pay9 x0 x1 x2 k1_pay1 := by
  unfold sout1_D_0
  unfold kernelRun1_D
  dsimp only
  sl_unfold_words
  simp only [View.canon_cons_unit_zero (S := S1024x1) hz2, View.canon_unit_zero (S := S1024x1) hz2, View.readCov_unit_zero (S := S1024x1) _ hz2, View.readAt_eq_ld, Memref.IsWhole.read_unread,
    View.ld_unit_zero (S := S1024x1024) hz2, View.ld_unit_zero (S := S1024x1) hz2]

theorem sout1_D_1_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : ¬cond1_2 i) (hc3 : cond1_3 i) (hc4 : ¬cond1_4 i) (x0 x1 : Vec F S1024x1024 .bf16) (x2 : Vec F S1024x1 .f32) :
    sout1_D_1 c i arg2 harg2 arg3 harg3 arg4 harg4 arg5 harg5 arg6 harg6 arg7 harg7 arg8 harg8 hc1 hc2 hc3 hc4 x0 x1 x2 = k1_pay10 x0 x1 x2 k1_pay2 := by
  unfold sout1_D_1
  unfold kernelRun1_D
  dsimp only
  sl_unfold_words
  simp only [View.canon_cons_unit_zero (S := S1024x1) hz2, View.canon_unit_zero (S := S1024x1) hz2, View.readCov_unit_zero (S := S1024x1) _ hz2, View.readAt_eq_ld, Memref.IsWhole.read_unread,
    View.ld_unit_zero (S := S1024x1024) hz2, View.ld_unit_zero (S := S1024x1) hz2]

theorem sout1_D_2_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : cond1_1 i) (hc2 : ¬cond1_2 i) (hc3 : cond1_3 i) (hc4 : ¬cond1_4 i) (x0 x1 : Vec F S1024x1024 .bf16) (x2 : Vec F S1024x1 .f32) :
    sout1_D_2 c i arg2 harg2 arg3 harg3 arg4 harg4 arg5 harg5 arg6 harg6 arg7 harg7 arg8 harg8 hc1 hc2 hc3 hc4 x0 x1 x2 = k1_pay11 x0 x1 k1_pay3 := by
  unfold sout1_D_2
  unfold kernelRun1_D
  dsimp only
  sl_unfold_words
  simp only [View.canon_cons_unit_zero (S := S1024x1) hz2, View.canon_unit_zero (S := S1024x1) hz2, View.readCov_unit_zero (S := S1024x1) _ hz2, View.readAt_eq_ld, Memref.IsWhole.read_unread,
    View.ld_unit_zero (S := S1024x1024) hz2, View.ld_unit_zero (S := S1024x1) hz2]

theorem sout1_E_0_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : ¬cond1_4 i) (x0 x1 : Vec F S1024x1024 .bf16) (x2 : Vec F S1024x1 .f32) (xs0 xs1 xs2 : Vec F S1024x1 .f32) :
    sout1_E_0 c i arg2 harg2 arg3 harg3 arg4 harg4 arg5 harg5 arg6 harg6 arg7 harg7 arg8 harg8 hc1 hc2 hc3 hc4 x0 x1 x2 xs0 xs1 xs2 = k1_pay15 (BitVec.ofNat 32 (i 0).val) (BitVec.ofNat 32 (i 1).val) (k1_pay4 x0 x1) (k1_pay6 x0 x1 x2) xs0 := by
  unfold sout1_E_0
  unfold kernelRun1_E
  dsimp only
  sl_unfold_words
  simp only [View.canon_cons_unit_zero (S := S1024x1) hz2, View.canon_unit_zero (S := S1024x1) hz2, View.readCov_unit_zero (S := S1024x1) _ hz2, View.readAt_eq_ld, Memref.IsWhole.read_unread,
    View.ld_unit_zero (S := S1024x1024) hz2, View.ld_unit_zero (S := S1024x1) hz2]

theorem sout1_E_1_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : ¬cond1_4 i) (x0 x1 : Vec F S1024x1024 .bf16) (x2 : Vec F S1024x1 .f32) (xs0 xs1 xs2 : Vec F S1024x1 .f32) :
    sout1_E_1 c i arg2 harg2 arg3 harg3 arg4 harg4 arg5 harg5 arg6 harg6 arg7 harg7 arg8 harg8 hc1 hc2 hc3 hc4 x0 x1 x2 xs0 xs1 xs2 = k1_pay16 (BitVec.ofNat 32 (i 0).val) (BitVec.ofNat 32 (i 1).val) (k1_pay6 x0 x1 x2) xs1 := by
  unfold sout1_E_1
  unfold kernelRun1_E
  dsimp only
  sl_unfold_words
  simp only [View.canon_cons_unit_zero (S := S1024x1) hz2, View.canon_unit_zero (S := S1024x1) hz2, View.readCov_unit_zero (S := S1024x1) _ hz2, View.readAt_eq_ld, Memref.IsWhole.read_unread,
    View.ld_unit_zero (S := S1024x1024) hz2, View.ld_unit_zero (S := S1024x1) hz2]

theorem sout1_E_2_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : ¬cond1_4 i) (x0 x1 : Vec F S1024x1024 .bf16) (x2 : Vec F S1024x1 .f32) (xs0 xs1 xs2 : Vec F S1024x1 .f32) :
    sout1_E_2 c i arg2 harg2 arg3 harg3 arg4 harg4 arg5 harg5 arg6 harg6 arg7 harg7 arg8 harg8 hc1 hc2 hc3 hc4 x0 x1 x2 xs0 xs1 xs2 = k1_pay7 xs2 (k1_pay17 (BitVec.ofNat 32 (i 0).val) (BitVec.ofNat 32 (i 1).val) (k1_pay4 x0 x1)) := by
  unfold sout1_E_2
  unfold kernelRun1_E
  dsimp only
  sl_unfold_words
  simp only [View.canon_cons_unit_zero (S := S1024x1) hz2, View.canon_unit_zero (S := S1024x1) hz2, View.readCov_unit_zero (S := S1024x1) _ hz2, View.readAt_eq_ld, Memref.IsWhole.read_unread,
    View.ld_unit_zero (S := S1024x1024) hz2, View.ld_unit_zero (S := S1024x1) hz2]

theorem sout1_F_0_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : cond1_4 i) (x0 x1 : Vec F S1024x1024 .bf16) (x2 : Vec F S1024x1 .f32) (xs0 xs1 xs2 : Vec F S1024x1 .f32) :
    sout1_F_0 c i arg2 harg2 arg3 harg3 arg4 harg4 arg5 harg5 arg6 harg6 arg7 harg7 arg8 harg8 hc1 hc2 hc3 hc4 x0 x1 x2 xs0 xs1 xs2 = k1_pay15 (BitVec.ofNat 32 (i 0).val) (BitVec.ofNat 32 (i 1).val) (k1_pay4 x0 x1) (k1_pay6 x0 x1 x2) xs0 := by
  unfold sout1_F_0
  unfold kernelRun1_F
  dsimp only
  sl_unfold_words
  simp only [View.canon_cons_unit_zero (S := S1024x1) hz2, View.canon_unit_zero (S := S1024x1) hz2, View.readCov_unit_zero (S := S1024x1) _ hz2, View.readAt_eq_ld, Memref.IsWhole.read_unread,
    View.ld_unit_zero (S := S1024x1024) hz2, View.ld_unit_zero (S := S1024x1) hz2]

theorem sout1_F_1_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : cond1_4 i) (x0 x1 : Vec F S1024x1024 .bf16) (x2 : Vec F S1024x1 .f32) (xs0 xs1 xs2 : Vec F S1024x1 .f32) :
    sout1_F_1 c i arg2 harg2 arg3 harg3 arg4 harg4 arg5 harg5 arg6 harg6 arg7 harg7 arg8 harg8 hc1 hc2 hc3 hc4 x0 x1 x2 xs0 xs1 xs2 = k1_pay16 (BitVec.ofNat 32 (i 0).val) (BitVec.ofNat 32 (i 1).val) (k1_pay6 x0 x1 x2) xs1 := by
  unfold sout1_F_1
  unfold kernelRun1_F
  dsimp only
  sl_unfold_words
  simp only [View.canon_cons_unit_zero (S := S1024x1) hz2, View.canon_unit_zero (S := S1024x1) hz2, View.readCov_unit_zero (S := S1024x1) _ hz2, View.readAt_eq_ld, Memref.IsWhole.read_unread,
    View.ld_unit_zero (S := S1024x1024) hz2, View.ld_unit_zero (S := S1024x1) hz2]

theorem sout1_F_2_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : cond1_4 i) (x0 x1 : Vec F S1024x1024 .bf16) (x2 : Vec F S1024x1 .f32) (xs0 xs1 xs2 : Vec F S1024x1 .f32) :
    sout1_F_2 c i arg2 harg2 arg3 harg3 arg4 harg4 arg5 harg5 arg6 harg6 arg7 harg7 arg8 harg8 hc1 hc2 hc3 hc4 x0 x1 x2 xs0 xs1 xs2 = k1_pay7 xs2 (k1_pay17 (BitVec.ofNat 32 (i 0).val) (BitVec.ofNat 32 (i 1).val) (k1_pay4 x0 x1)) := by
  unfold sout1_F_2
  unfold kernelRun1_F
  dsimp only
  sl_unfold_words
  simp only [View.canon_cons_unit_zero (S := S1024x1) hz2, View.canon_unit_zero (S := S1024x1) hz2, View.readCov_unit_zero (S := S1024x1) _ hz2, View.readAt_eq_ld, Memref.IsWhole.read_unread,
    View.ld_unit_zero (S := S1024x1024) hz2, View.ld_unit_zero (S := S1024x1) hz2]

theorem out1_F_3_eq (c : Dev nD) (i : grid1.Coords) (arg2 : Memref sig .tc .vmem S1024x1024 .bf16) (harg2 : arg2.IsWhole) (arg3 : Memref sig .tc .vmem S1024x1024 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc1 : ¬cond1_1 i) (hc2 : cond1_2 i) (hc3 : ¬cond1_3 i) (hc4 : cond1_4 i) (x0 x1 : Vec F S1024x1024 .bf16) (x2 : Vec F S1024x1 .f32) (xs0 xs1 xs2 : Vec F S1024x1 .f32) :
    out1_F_3 c i arg2 harg2 arg3 harg3 arg4 harg4 arg5 harg5 arg6 harg6 arg7 harg7 arg8 harg8 hc1 hc2 hc3 hc4 x0 x1 x2 xs0 xs1 xs2 = k1_pay12 x2 (k1_pay16 (BitVec.ofNat 32 (i 0).val) (BitVec.ofNat 32 (i 1).val) (k1_pay6 x0 x1 x2) xs1) (k1_pay15 (BitVec.ofNat 32 (i 0).val) (BitVec.ofNat 32 (i 1).val) (k1_pay4 x0 x1) (k1_pay6 x0 x1 x2) xs0) (k1_pay7 xs2 (k1_pay17 (BitVec.ofNat 32 (i 0).val) (BitVec.ofNat 32 (i 1).val) (k1_pay4 x0 x1))) := by
  unfold out1_F_3
  unfold kernelRun1_F
  dsimp only
  sl_unfold_words
  simp only [View.canon_cons_unit_zero (S := S1024x1) hz2, View.canon_unit_zero (S := S1024x1) hz2, View.readCov_unit_zero (S := S1024x1) _ hz2, View.readAt_eq_ld, Memref.IsWhole.read_unread,
    View.ld_unit_zero (S := S1024x1024) hz2, View.ld_unit_zero (S := S1024x1) hz2]

end Cert.KernelIdeal.Gen

end
-- ==== Proof.KIStep1.lean ====
import proofs.«132504_j386547057031_2_alg».proof.Proof.KIPieces1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One point's effect on the scratch columns, as payloads

At a point the scratch columns are first reset if the point is the first of its row of blocks, then updated by
the block's contribution — through the diagonal branch when the block meets the diagonal, through the plain one
otherwise — and at the last block of a row the losses are computed from them. -/

variable (V : (c : Dev nD) → (b : Ref sig .tc) → Buf (Elt F) ((c : Thread nD τ).loc b))

/-- The scratch columns after a reset: zero sum, zero count, minimum at `+∞`. -/
def resetSt : St F := (k1_pay1, k1_pay2, k1_pay3)

/-- A block on the diagonal: the sum, the count and the minimum updated under the off-diagonal mask. -/
def diagStep (i : grid1.Coords) (x0 x1 : Vec F S1024x1024 .bf16) (x2 : Vec F S1024x1 .f32) (s : St F) : St F :=
  (k1_pay15 (BitVec.ofNat 32 (i 0).val) (BitVec.ofNat 32 (i 1).val) (k1_pay4 x0 x1) (k1_pay6 x0 x1 x2) s.1,
   k1_pay16 (BitVec.ofNat 32 (i 0).val) (BitVec.ofNat 32 (i 1).val) (k1_pay6 x0 x1 x2) s.2.1,
   k1_pay7 s.2.2 (k1_pay17 (BitVec.ofNat 32 (i 0).val) (BitVec.ofNat 32 (i 1).val) (k1_pay4 x0 x1)))

/-- A block off the diagonal: no mask. -/
def offStep (x0 x1 : Vec F S1024x1024 .bf16) (x2 : Vec F S1024x1 .f32) (s : St F) : St F :=
  (k1_pay9 x0 x1 x2 s.1, k1_pay10 x0 x1 x2 s.2.1, k1_pay11 x0 x1 s.2.2)

/-- The rows' losses from the positive distances and the finished scratch columns. -/
def lossOf (x2 : Vec F S1024x1 .f32) (s : St F) : Vec F S1024x1 .f32 := k1_pay12 x2 s.2.1 s.1 s.2.2

/-- The scratch columns a point leaves. -/
def pureStep (c : Dev nD) (t : Fin cfg1.N) (s : St F) : St F :=
  if t.val % 4 = t.val / 4 then diagStep (grid1.coords t) (iblk1 V c 0 t) (iblk1 V c 1 t) (iblk1 V c 2 t) (if t.val % 4 = 0 then resetSt else s)
  else offStep (iblk1 V c 0 t) (iblk1 V c 1 t) (iblk1 V c 2 t) (if t.val % 4 = 0 then resetSt else s)

theorem stepAt_fst (c : Dev nD) (t : Fin cfg1.N) (s : St F) : (stepAt V c t s).1 = pureStep V c t s := by
  unfold stepAt pureStep
  by_cases h1 : t.val % 4 = 0
  · by_cases h2 : t.val % 4 = t.val / 4
    · rw [dif_pos h1, dif_pos h2, if_pos h2, if_pos h1]
      dsimp only
      rw [sout1_A_0_eq, sout1_A_1_eq, sout1_A_2_eq]
      rfl
    · rw [dif_pos h1, dif_neg h2, if_neg h2, if_pos h1]
      dsimp only
      rw [sout1_D_0_eq, sout1_D_1_eq, sout1_D_2_eq]
      rfl
  · by_cases h4 : t.val % 4 = 3
    · by_cases h2 : t.val % 4 = t.val / 4
      · rw [dif_neg h1, dif_pos h4, dif_pos h2, if_pos h2, if_neg h1]
        dsimp only
        rw [sout1_F_0_eq, sout1_F_1_eq, sout1_F_2_eq]
        rfl
      · rw [dif_neg h1, dif_pos h4, dif_neg h2, if_neg h2, if_neg h1]
        dsimp only
        rw [sout1_C_0_eq, sout1_C_1_eq, sout1_C_2_eq]
        rfl
    · by_cases h2 : t.val % 4 = t.val / 4
      · rw [dif_neg h1, dif_neg h4, dif_pos h2, if_pos h2, if_neg h1]
        dsimp only
        rw [sout1_E_0_eq, sout1_E_1_eq, sout1_E_2_eq]
        rfl
      · rw [dif_neg h1, dif_neg h4, dif_neg h2, if_neg h2, if_neg h1]
        dsimp only
        rw [sout1_B_0_eq, sout1_B_1_eq, sout1_B_2_eq]
        rfl

theorem stepAt_snd (c : Dev nD) (t : Fin cfg1.N) (s : St F) (h4 : t.val % 4 = 3) :
    (stepAt V c t s).2 = lossOf (iblk1 V c 2 t) (pureStep V c t s) := by
  have h1 : ¬ t.val % 4 = 0 := by omega
  unfold stepAt pureStep
  by_cases h2 : t.val % 4 = t.val / 4
  · rw [dif_neg h1, dif_pos h4, dif_pos h2, if_pos h2, if_neg h1]
    dsimp only
    rw [out1_F_3_eq]
    rfl
  · rw [dif_neg h1, dif_pos h4, dif_neg h2, if_neg h2, if_neg h1]
    dsimp only
    rw [out1_C_3_eq]
    rfl

end Cert.KernelIdeal.Gen

end
-- ==== Proof.LibGramMatmul.lean ====
/-
  The matrix product against a transposed right operand on the extended reals, read at one entry.

  A matrix unit's product of an `m × k` array by an `n × k` array contracted on the LAST axis of both (rows against
  rows: `A Bᵀ`; with `B = A` the Gram matrix of A's rows), accumulated into the zero array, holds at entry `(a, b)` the
  sum over the contracted position `c` of `A[a,c] · B[b,c]`. The contraction's index set has one axis; it is re-indexed
  by its one coordinate, and the operands' indices at output entry `(a, b)` and contraction position `c` are named by
  their coordinates, axis by axis: each operand's row reads its own output coordinate, each operand's column reads `c`.
-/
import Idealize.ShloMosaic.PureOps.Ideal.Laws
import Idealize.ShloMosaic.Lib.ValueIdx

noncomputable section

open scoped BigOperators

namespace Idealize.ShloMosaic.GramMatmul

open Idealize.ShloMosaic Idealize.ShloMosaic.ValueIdx

variable {m k n : Nat}

/-- The left operand's row coordinate is the output's row coordinate. -/
theorem lhs_row (i : (⟨2, ![m, n]⟩ : Shape).Idx) (q : (DotDims.transposedRhs m k n).contr.Idx) :
    ((DotDims.transposedRhs m k n).lhsIdx i q 0).val = (i 0).val := by
  unfold DotDims.lhsIdx
  rw [dif_neg (show ¬(0 : Fin (⟨2, ![m, k]⟩ : Shape).rank) ∈ (DotDims.transposedRhs m k n).lhsBatch from List.not_mem_nil),
    dif_pos (show (0 : Fin (⟨2, ![m, k]⟩ : Shape).rank) ∈ (DotDims.transposedRhs m k n).lhsNonContracting from List.mem_singleton.mpr rfl)]
  rfl

/-- The left operand's column coordinate is the contraction position. -/
theorem lhs_col (i : (⟨2, ![m, n]⟩ : Shape).Idx) (q : (DotDims.transposedRhs m k n).contr.Idx) :
    ((DotDims.transposedRhs m k n).lhsIdx i q 1).val = (q ⟨0, (Nat.one_pos : 0 < 1)⟩).val :=
  (DotDims.transposedRhs m k n).lhsIdx_val_of_single rfl i q

/-- The right operand's row coordinate is the output's column coordinate. -/
theorem rhs_row (i : (⟨2, ![m, n]⟩ : Shape).Idx) (q : (DotDims.transposedRhs m k n).contr.Idx) :
    ((DotDims.transposedRhs m k n).rhsIdx i q 0).val = (i 1).val := by
  unfold DotDims.rhsIdx
  rw [dif_neg (show ¬(0 : Fin (⟨2, ![n, k]⟩ : Shape).rank) ∈ (DotDims.transposedRhs m k n).rhsBatch from List.not_mem_nil),
    dif_pos (show (0 : Fin (⟨2, ![n, k]⟩ : Shape).rank) ∈ (DotDims.transposedRhs m k n).rhsNonContracting from List.mem_singleton.mpr rfl)]
  rfl

/-- The right operand's column coordinate is the contraction position. -/
theorem rhs_col (i : (⟨2, ![m, n]⟩ : Shape).Idx) (q : (DotDims.transposedRhs m k n).contr.Idx) :
    ((DotDims.transposedRhs m k n).rhsIdx i q 1).val = (q ⟨0, (Nat.one_pos : 0 < 1)⟩).val :=
  (DotDims.transposedRhs m k n).rhsIdx_val_of_single rfl i q

/-- **The product against the transposed right operand, into the zero accumulator, at an entry**:
    `∑ c, A[a,c] · B[b,c]`, at the ideal values, whatever the operands' formats and the precision key. -/
theorem matmul_zero_apply {φ₁ φ₂ : FTy} (prec : Option ContractPrecision)
    (A : FVec Ideal ⟨2, ![m, k]⟩ φ₁) (B : FVec Ideal ⟨2, ![n, k]⟩ φ₂) (a : Fin m) (b : Fin n) :
    FloatOps.matmul (DotDims.transposedRhs m k n) prec A B (constant ⟨2, ![m, n]⟩ .f32 0x00000000#32) (ix2 a b)
      = ∑ c : Fin k, A (ix2 a c) * B (ix2 b c) := by
  rw [Ideal.matmul_constant_zero_apply, ← Equiv.sum_comp (contrEquiv1 (DotDims.transposedRhs m k n) k rfl rfl).symm]
  refine Finset.sum_congr rfl fun c _ => ?_
  have hc := contrEquiv1_symm_val (DotDims.transposedRhs m k n) k rfl rfl c
  have el : (DotDims.transposedRhs m k n).lhsIdx (ix2 a b) ((contrEquiv1 (DotDims.transposedRhs m k n) k rfl rfl).symm c) = ix2 a c :=
    funext fun ax => Fin.ext (by
      match ax with
      | ⟨0, _⟩ => exact lhs_row _ _
      | ⟨1, _⟩ => exact (lhs_col _ _).trans hc)
  have er : (DotDims.transposedRhs m k n).rhsIdx (ix2 a b) ((contrEquiv1 (DotDims.transposedRhs m k n) k rfl rfl).symm c) = ix2 b c :=
    funext fun ax => Fin.ext (by
      match ax with
      | ⟨0, _⟩ => exact rhs_row _ _
      | ⟨1, _⟩ => exact (rhs_col _ _).trans hc)
  rw [el, er]

end Idealize.ShloMosaic.GramMatmul

end
-- ==== Proof.LibDiagMask.lean ====
/-
  The diagonal of an n × n matrix, as a program tests for it: row and column numbers k and l are written as 32-bit words
  and compared for equality. Below 2^32 a number is its word, so for n ≤ 2^32 the comparison answers "k = l". A select
  on the answer is the `if` on k = l, and the answer converted to a float is the identity matrix's entry.
-/
import Idealize.ShloMosaic.PureOps.Ideal

noncomputable section

namespace Idealize.ShloMosaic.DiagMask

open Idealize.ShloMosaic

variable {n : ℕ}

/-- Two numbers below 2^32 have the same 32-bit word exactly when they are equal. -/
theorem ofNat_eq_iff (hn : n ≤ 4294967296) (k l : Fin n) : BitVec.ofNat 32 k.val = BitVec.ofNat 32 l.val ↔ k = l := by
  constructor
  · intro e
    have h := congrArg BitVec.toNat e
    rw [BitVec.toNat_ofNat, BitVec.toNat_ofNat] at h
    have hk := k.isLt
    have hl := l.isLt
    exact Fin.ext (by omega)
  · rintro rfl; rfl

/-- The equality comparison of the two numbers' words is the one-bit word of "k = l". -/
theorem cmpi_eq (hn : n ≤ 4294967296) (k l : Fin n) :
    IntOp.cmpi .eq (BitVec.ofNat 32 k.val) (BitVec.ofNat 32 l.val) = if k = l then 1#1 else 0#1 := by
  show BitVec.ofBool (BitVec.ofNat 32 k.val == BitVec.ofNat 32 l.val) = _
  by_cases h : k = l
  · subst h; rw [beq_self_eq_true, if_pos rfl]; rfl
  · rw [beq_eq_false_iff_ne.mpr (fun e => h ((ofNat_eq_iff hn k l).mp e)), if_neg h]; rfl

/-- A select on that comparison is the `if` on k = l. -/
theorem select_diag {α : Type} (hn : n ≤ 4294967296) (k l : Fin n) (a b : α) :
    Scalar.select (IntOp.cmpi .eq (BitVec.ofNat 32 k.val) (BitVec.ofNat 32 l.val)) a b = if k = l then a else b := by
  rw [cmpi_eq hn]
  unfold Scalar.select
  by_cases h : k = l
  · rw [if_pos h, if_pos h]; exact if_pos (by decide)
  · rw [if_neg h, if_neg h]; exact if_neg (by decide)

/-- That comparison as an extended real: 1 on the diagonal, 0 off it. -/
theorem uitofp_diag (hn : n ≤ 4294967296) (k l : Fin n) :
    FloatOps.uitofp (F := Ideal) .f32 (IntOp.cmpi .eq (BitVec.ofNat 32 k.val) (BitVec.ofNat 32 l.val))
      = if k = l then (1 : EReal) else 0 := by
  rw [cmpi_eq hn]
  show (((if k = l then 1#1 else 0#1 : BitVec 1).toNat : ℝ) : EReal) = _
  by_cases h : k = l
  · rw [if_pos h, if_pos h]; norm_num
  · rw [if_neg h, if_neg h]; norm_num

end Idealize.ShloMosaic.DiagMask

end
-- ==== Proof.KIPayload1.lean ====
/-
  The second kernel's payloads read at an index, at the extended reals.

  Each payload is a pure function of the vectors read before it.  Read at one entry, the product of the left block with
  the transposed right block, subtracted from one, is the negative distance of a row to a column; the band test is the
  pair of comparisons of that distance less the row's positive distance with zero and with the margin; the three
  accumulators add the selected distances, add the selected ones, and take the least distance along a row; the last
  payload is the row's loss from the three accumulated columns.
-/
import proofs.«132504_j386547057031_2_alg».proof.Proof.Gen.KernelIdeal.Skeleton
import proofs.«132504_j386547057031_2_alg».proof.Proof.LibGramMatmul
import proofs.«132504_j386547057031_2_alg».proof.Proof.LibColumnLayout
import proofs.«132504_j386547057031_2_alg».proof.Proof.LibDiagMask
import proofs.«132504_j386547057031_2_alg».proof.Proof.LibFloatWords
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay1

open Cert.KernelIdeal Cert.KernelIdeal.Gen Idealize.ShloMosaic ValueIdx

/-! ## The quantities the payloads compute -/

/-- The negative distance of row `r` of the left block to row `c` of the right block. -/
def negT (v3 v5 : FVec Ideal S1024x1024 .bf16) (r c : Fin 1024) : EReal :=
  1 - ∑ d : Fin 1024, v3 (ix2 r d) * v5 (ix2 c d)

/-- That distance less the row's positive distance. -/
def dT (v3 v5 : FVec Ideal S1024x1024 .bf16) (v10 : FVec Ideal S1024x1 .f32) (r c : Fin 1024) : EReal :=
  negT v3 v5 r c - v10 (ix2 r (0 : Fin 1))

/-- The margin, as the float word the program carries. -/
def Wm : EReal := Ideal.ofBits .f32 0x3E99999A#32

/-! ## General facts -/

/-- The program's contraction (last axis of the left operand against last axis of the right) is the product against the
    transposed right operand. -/
theorem dot_eq : dot_S1024x1024_S1024x1024_S1024x1024_1_1_0_0_n_n = DotDims.transposedRhs 1024 1024 1024 := rfl

/-- A truth value made from a Boolean is the word 1 exactly when the Boolean is true. -/
theorem ofBool_eq_one_iff (b : Bool) : BitVec.ofBool b = 1#1 ↔ b = true := by cases b <;> decide

theorem cmp_ogt_eq_one (x y : EReal) : Ideal.cmp .ogt x y = 1#1 ↔ y < x := by
  simp only [Ideal.cmp, ofBool_eq_one_iff, decide_eq_true_eq]

theorem cmp_olt_eq_one (x y : EReal) : Ideal.cmp .olt x y = 1#1 ↔ x < y := by
  simp only [Ideal.cmp, ofBool_eq_one_iff, decide_eq_true_eq]

/-- The word 0x7F800000 denotes +∞. -/
theorem ofBits_inf_f32 : Ideal.ofBits .f32 0x7F800000#32 = ⊤ := by simp [Ideal.ofBits, Ideal.ieee]

/-- A select on a one-bit word that is 1 exactly when `P` holds is the `if` on `P`. -/
theorem select_of_iff {α : Type} (w : BitVec 1) (P : Prop) [Decidable P] (h : w = 1#1 ↔ P) (a b : α) :
    Scalar.select w a b = if P then a else b := by
  by_cases hP : P
  · rw [if_pos hP, h.2 hP, select_one]
  · rw [if_neg hP, eq_zero_of_ne_one (fun e => hP (h.1 e)), select_zero]

/-- A fold of `min` from ⊤ is the least value. -/
theorem fold_min_top_eq_inf {ι : Type*} (s : Finset ι) (f : ι → EReal) : s.fold min ⊤ f = s.inf f := by
  apply le_antisymm
  · exact Finset.le_inf fun i hi => ((Finset.le_fold_min (s.fold min ⊤ f)).1 le_rfl).2 i hi
  · exact (Finset.le_fold_min (s.inf f)).2 ⟨le_top, fun i hi => Finset.inf_le hi⟩

/-- A float minimum over one axis, read at the extended reals: the fold of `min` from the accumulator's value over that
    axis's coordinates. -/
theorem multiReduction_minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A float minimum over the last axis of an `[a, b]` array from the `+∞` word, read at row `p`: the least of the row's
    entries. -/
theorem rowMin_apply {a b : ℕ} (src : FVec Ideal ⟨2, ![a, b]⟩ .f32) (h : (⟨2, ![a, b]⟩ : Shape).Reduces [1] ⟨1, ![a]⟩)
    (hφ : FKind.Formats FTy.f32) (hacc : (0x7F800000#32 : BitVec FTy.f32.bits) = FKind.minimumf.neutral .f32 hφ) (p : Fin a) :
    multiReduction .minimumf [1] ⟨1, ![a]⟩ src 0x7F800000#32 h hφ hacc (ix1 p)
      = Finset.univ.inf fun k : Fin b => src (ix2 p k) := by
  refine (multiReduction_minimumf_single src 0x7F800000#32 h hφ hacc (ix1 p)).trans ?_
  show (Finset.univ : Finset (Fin b)).fold min (Ideal.ofBits .f32 0x7F800000#32) (src ∘ h.lift (ix1 p)) = _
  rw [ofBits_inf_f32]
  refine (fold_min_top_eq_inf _ _).trans ?_
  refine congrArg (Finset.univ.inf ·) (funext fun k => congrArg src (funext fun ax => Fin.ext ?_))
  match ax with
  | ⟨0, _⟩ => rfl
  | ⟨1, _⟩ => rfl

/-! ## The payloads at an index -/

theorem pay1_apply (r : Fin 1024) : k1_pay1 (F := Ideal) (ix2 r (0 : Fin 1)) = 0 := by
  unfold k1_pay1
  refine (congrFun (shapeCast_self _ _) _).trans ?_
  exact Ideal.ofBits_zero_f32

theorem pay2_apply (r : Fin 1024) : k1_pay2 (F := Ideal) (ix2 r (0 : Fin 1)) = 0 := by
  unfold k1_pay2
  refine (congrFun (shapeCast_self _ _) _).trans ?_
  exact Ideal.ofBits_zero_f32

theorem pay3_apply (r : Fin 1024) : k1_pay3 (F := Ideal) (ix2 r (0 : Fin 1)) = ⊤ := by
  unfold k1_pay3
  refine (congrFun (shapeCast_self _ _) _).trans ?_
  exact ofBits_inf_f32

theorem pay4_apply (v3 v5 : FVec Ideal S1024x1024 .bf16) (r c : Fin 1024) :
    k1_pay4 (F := Ideal) v3 v5 (ix2 r c) = negT v3 v5 r c := by
  unfold k1_pay4 negT
  rw [shapeCast_self v3, shapeCast_self v5, dot_eq]
  refine (subf_apply _ _ _).trans ?_
  refine congrArg₂ (· - ·) Cert.Lib.FloatWords.ofBits_one_f32 ?_
  exact GramMatmul.matmul_zero_apply none v3 v5 r c

theorem pay5_apply (v10 : FVec Ideal S1024x1 .f32) (r : Fin 1024) :
    k1_pay5 (F := Ideal) v10 (ix2 r (0 : Fin 1)) = v10 (ix2 r (0 : Fin 1)) := by
  unfold k1_pay5
  exact congrFun (shapeCast_self _ _) _

theorem pay6_apply (v3 v5 : FVec Ideal S1024x1024 .bf16) (v10 : FVec Ideal S1024x1 .f32) (r c : Fin 1024) :
    k1_pay6 (F := Ideal) v3 v5 v10 (ix2 r c) = dT v3 v5 v10 r c := by
  unfold k1_pay6 dT
  refine (subf_apply _ _ _).trans ?_
  refine congrArg₂ (· - ·) (pay4_apply v3 v5 r c) ?_
  exact (ColumnLayout.broadcastTo_a1_ab_apply _ _ r c).trans (pay5_apply v10 r)

theorem pay8_apply (v3 v5 : FVec Ideal S1024x1024 .bf16) (v10 : FVec Ideal S1024x1 .f32) (r c : Fin 1024) :
    k1_pay8 (F := Ideal) v3 v5 v10 (ix2 r c) = 1#1 ↔ (0 < dT v3 v5 v10 r c ∧ dT v3 v5 v10 r c < Wm) := by
  unfold k1_pay8
  show IntOp.andi (Ideal.cmp .ogt (k1_pay6 (F := Ideal) v3 v5 v10 (ix2 r c)) (Ideal.ofBits .f32 0x00000000#32))
      (Ideal.cmp .olt (k1_pay6 (F := Ideal) v3 v5 v10 (ix2 r c)) (Ideal.ofBits .f32 0x3E99999A#32)) = 1#1 ↔ _
  rw [IntOp.andi_eq_one, pay6_apply, Ideal.ofBits_zero_f32, cmp_ogt_eq_one, cmp_olt_eq_one]
  rfl

theorem pay9_apply (v3 v5 : FVec Ideal S1024x1024 .bf16) (v10 s : FVec Ideal S1024x1 .f32) (r : Fin 1024) :
    k1_pay9 (F := Ideal) v3 v5 v10 s (ix2 r (0 : Fin 1)) = s (ix2 r (0 : Fin 1))
      + ∑ c : Fin 1024, if (0 < dT v3 v5 v10 r c ∧ dT v3 v5 v10 r c < Wm) then negT v3 v5 r c else 0 := by
  unfold k1_pay9
  refine (congrFun (shapeCast_self _ _) _).trans ?_
  refine (addf_apply _ _ _).trans ?_
  refine congrArg (s (ix2 r (0 : Fin 1)) + ·) ?_
  refine (ColumnLayout.shapeCast_a_a1_apply _ _ r 0).trans ?_
  refine (ColumnLayout.rowSum_apply _ _ _ _ r).trans ?_
  refine Finset.sum_congr rfl fun c _ => ?_
  refine (select_apply _ _ _ _).trans ?_
  refine (select_of_iff _ _ (pay8_apply v3 v5 v10 r c) _ _).trans ?_
  exact congrArg₂ (fun a b => if (0 < dT v3 v5 v10 r c ∧ dT v3 v5 v10 r c < Wm) then a else b)
    (pay4_apply v3 v5 r c) Ideal.ofBits_zero_f32

theorem pay10_apply (v3 v5 : FVec Ideal S1024x1024 .bf16) (v10 s : FVec Ideal S1024x1 .f32) (r : Fin 1024) :
    k1_pay10 (F := Ideal) v3 v5 v10 s (ix2 r (0 : Fin 1)) = s (ix2 r (0 : Fin 1))
      + ∑ c : Fin 1024, if (0 < dT v3 v5 v10 r c ∧ dT v3 v5 v10 r c < Wm) then (1 : EReal) else 0 := by
  unfold k1_pay10
  refine (congrFun (shapeCast_self _ _) _).trans ?_
  refine (addf_apply _ _ _).trans ?_
  refine congrArg (s (ix2 r (0 : Fin 1)) + ·) ?_
  refine (ColumnLayout.shapeCast_a_a1_apply _ _ r 0).trans ?_
  refine (ColumnLayout.rowSum_apply _ _ _ _ r).trans ?_
  refine Finset.sum_congr rfl fun c _ => ?_
  refine (select_apply _ _ _ _).trans ?_
  refine (select_of_iff _ _ (pay8_apply v3 v5 v10 r c) _ _).trans ?_
  exact congrArg₂ (fun a b => if (0 < dT v3 v5 v10 r c ∧ dT v3 v5 v10 r c < Wm) then a else b)
    Cert.Lib.FloatWords.ofBits_one_f32 Ideal.ofBits_zero_f32

theorem pay11_apply (v3 v5 : FVec Ideal S1024x1024 .bf16) (s : FVec Ideal S1024x1 .f32) (r : Fin 1024) :
    k1_pay11 (F := Ideal) v3 v5 s (ix2 r (0 : Fin 1))
      = min (s (ix2 r (0 : Fin 1))) (Finset.univ.inf fun c : Fin 1024 => negT v3 v5 r c) := by
  unfold k1_pay11
  refine (congrFun (shapeCast_self _ _) _).trans ?_
  refine (minimumf_apply _ _ _).trans ?_
  refine congrArg (min (s (ix2 r (0 : Fin 1))) ·) ?_
  refine (ColumnLayout.shapeCast_a_a1_apply _ _ r 0).trans ?_
  refine (rowMin_apply _ _ _ _ r).trans ?_
  exact congrArg (Finset.univ.inf ·) (funext fun c => pay4_apply v3 v5 r c)

theorem pay12_apply (v10 s7 s6 s8 : FVec Ideal S1024x1 .f32) (r : Fin 1024) :
    k1_pay12 (F := Ideal) v10 s7 s6 s8 (ix2 r (0 : Fin 1))
      = max (v10 (ix2 r (0 : Fin 1)) - (if 0 < s7 (ix2 r (0 : Fin 1))
          then Ideal.div (s6 (ix2 r (0 : Fin 1))) (max (s7 (ix2 r (0 : Fin 1))) 1) else s8 (ix2 r (0 : Fin 1))) + Wm) 0 := by
  unfold k1_pay12
  show max (k1_pay5 (F := Ideal) v10 (ix2 r (0 : Fin 1))
      - Scalar.select (Ideal.cmp .ogt (s7 (ix2 r (0 : Fin 1))) (Ideal.ofBits .f32 0x00000000#32))
          (Ideal.div (s6 (ix2 r (0 : Fin 1))) (max (s7 (ix2 r (0 : Fin 1))) (Ideal.ofBits .f32 0x3F800000#32)))
          (s8 (ix2 r (0 : Fin 1)))
      + Ideal.ofBits .f32 0x3E99999A#32) (Ideal.ofBits .f32 0x00000000#32) = _
  rw [pay5_apply, Ideal.ofBits_zero_f32, Cert.Lib.FloatWords.ofBits_one_f32,
    select_of_iff _ _ (cmp_ogt_eq_one (s7 (ix2 r (0 : Fin 1))) 0)]
  rfl

/-! ## The diagonal mask and the masked accumulators -/

/-- Two numbers below 2^32 have different 32-bit words exactly when they differ. -/
theorem ofNat32_ne_iff (a b : ℕ) (ha : a < 4294967296) (hb : b < 4294967296) :
    BitVec.ofNat 32 a ≠ BitVec.ofNat 32 b ↔ a ≠ b := by
  constructor
  · intro h e; exact h (congrArg _ e)
  · intro h e
    have h2 := congrArg BitVec.toNat e
    rw [BitVec.toNat_ofNat, BitVec.toNat_ofNat] at h2
    omega

/-- The word of a block number times 1024 plus the word of a position inside the block is the word of the global
    position (nothing wraps: the position is below 4096). -/
theorem tile_word (i : Fin 4) (r : Fin 1024) :
    IntOp.addi (IntOp.muli (BitVec.ofNat 32 i.val) 1024#32) (BitVec.ofNat 32 (0 * 1024 + r.val))
      = BitVec.ofNat 32 (1024 * i.val + r.val) := by
  show BitVec.ofNat 32 i.val * BitVec.ofNat 32 1024 + BitVec.ofNat 32 (0 * 1024 + r.val) = _
  rw [← BitVec.ofNat_mul, ← BitVec.ofNat_add]
  congr 1
  omega

theorem pay13_apply (i j : Fin 4) (r c : Fin 1024) :
    k1_pay13 (BitVec.ofNat 32 i.val) (BitVec.ofNat 32 j.val) (ix2 r c) = 1#1
      ↔ 1024 * i.val + r.val ≠ 1024 * j.val + c.val := by
  unfold k1_pay13
  show IntOp.cmpi .ne (IntOp.addi (IntOp.muli (BitVec.ofNat 32 i.val) 1024#32) (BitVec.ofNat 32 (0 * 1024 + r.val)))
      (IntOp.addi (IntOp.muli (BitVec.ofNat 32 j.val) 1024#32) (BitVec.ofNat 32 (0 * 1024 + c.val))) = 1#1 ↔ _
  rw [tile_word, tile_word, IntOp.cmpi_ne]
  exact ofNat32_ne_iff _ _ (by have := i.isLt; have := r.isLt; omega) (by have := j.isLt; have := c.isLt; omega)

theorem pay14_apply (i j : Fin 4) (v13 : FVec Ideal S1024x1024 .f32) (r c : Fin 1024) :
    k1_pay14 (F := Ideal) (BitVec.ofNat 32 i.val) (BitVec.ofNat 32 j.val) v13 (ix2 r c) = 1#1
      ↔ (1024 * i.val + r.val ≠ 1024 * j.val + c.val ∧ 0 < v13 (ix2 r c) ∧ v13 (ix2 r c) < Wm) := by
  unfold k1_pay14
  show IntOp.andi (IntOp.andi (k1_pay13 (BitVec.ofNat 32 i.val) (BitVec.ofNat 32 j.val) (ix2 r c))
        (Ideal.cmp .ogt (v13 (ix2 r c)) (Ideal.ofBits .f32 0x00000000#32)))
      (Ideal.cmp .olt (v13 (ix2 r c)) (Ideal.ofBits .f32 0x3E99999A#32)) = 1#1 ↔ _
  rw [IntOp.andi_eq_one, IntOp.andi_eq_one, pay13_apply, Ideal.ofBits_zero_f32, cmp_ogt_eq_one, cmp_olt_eq_one, and_assoc]
  rfl

theorem pay15_apply (i j : Fin 4) (v9 v13 : FVec Ideal S1024x1024 .f32) (s : FVec Ideal S1024x1 .f32) (r : Fin 1024) :
    k1_pay15 (F := Ideal) (BitVec.ofNat 32 i.val) (BitVec.ofNat 32 j.val) v9 v13 s (ix2 r (0 : Fin 1))
      = s (ix2 r (0 : Fin 1)) + ∑ c : Fin 1024,
          if (1024 * i.val + r.val ≠ 1024 * j.val + c.val ∧ 0 < v13 (ix2 r c) ∧ v13 (ix2 r c) < Wm)
            then v9 (ix2 r c) else 0 := by
  unfold k1_pay15
  refine (congrFun (shapeCast_self _ _) _).trans ?_
  refine (addf_apply _ _ _).trans ?_
  refine congrArg (s (ix2 r (0 : Fin 1)) + ·) ?_
  refine (ColumnLayout.shapeCast_a_a1_apply _ _ r 0).trans ?_
  refine (ColumnLayout.rowSum_apply _ _ _ _ r).trans ?_
  refine Finset.sum_congr rfl fun c _ => ?_
  refine (select_apply _ _ _ _).trans ?_
  refine (select_of_iff _ _ (pay14_apply i j v13 r c) _ _).trans ?_
  exact congrArg (fun b => if (1024 * i.val + r.val ≠ 1024 * j.val + c.val ∧ 0 < v13 (ix2 r c) ∧ v13 (ix2 r c) < Wm)
    then v9 (ix2 r c) else b) Ideal.ofBits_zero_f32

theorem pay16_apply (i j : Fin 4) (v13 : FVec Ideal S1024x1024 .f32) (s : FVec Ideal S1024x1 .f32) (r : Fin 1024) :
    k1_pay16 (F := Ideal) (BitVec.ofNat 32 i.val) (BitVec.ofNat 32 j.val) v13 s (ix2 r (0 : Fin 1))
      = s (ix2 r (0 : Fin 1)) + ∑ c : Fin 1024,
          if (1024 * i.val + r.val ≠ 1024 * j.val + c.val ∧ 0 < v13 (ix2 r c) ∧ v13 (ix2 r c) < Wm)
            then (1 : EReal) else 0 := by
  unfold k1_pay16
  refine (congrFun (shapeCast_self _ _) _).trans ?_
  refine (addf_apply _ _ _).trans ?_
  refine congrArg (s (ix2 r (0 : Fin 1)) + ·) ?_
  refine (ColumnLayout.shapeCast_a_a1_apply _ _ r 0).trans ?_
  refine (ColumnLayout.rowSum_apply _ _ _ _ r).trans ?_
  refine Finset.sum_congr rfl fun c _ => ?_
  refine (select_apply _ _ _ _).trans ?_
  refine (select_of_iff _ _ (pay14_apply i j v13 r c) _ _).trans ?_
  exact congrArg₂ (fun a b => if (1024 * i.val + r.val ≠ 1024 * j.val + c.val ∧ 0 < v13 (ix2 r c) ∧ v13 (ix2 r c) < Wm)
    then a else b) Cert.Lib.FloatWords.ofBits_one_f32 Ideal.ofBits_zero_f32

theorem pay17_apply (i j : Fin 4) (v9 : FVec Ideal S1024x1024 .f32) (r c : Fin 1024) :
    k1_pay17 (F := Ideal) (BitVec.ofNat 32 i.val) (BitVec.ofNat 32 j.val) v9 (ix2 r c)
      = if 1024 * i.val + r.val ≠ 1024 * j.val + c.val then v9 (ix2 r c) else ⊤ := by
  unfold k1_pay17
  refine (select_apply _ _ _ _).trans ?_
  refine (select_of_iff _ _ (pay13_apply i j r c) _ _).trans ?_
  exact congrArg (fun b => if 1024 * i.val + r.val ≠ 1024 * j.val + c.val then v9 (ix2 r c) else b) ofBits_inf_f32

theorem pay7_17_apply (i j : Fin 4) (v9 : FVec Ideal S1024x1024 .f32) (s : FVec Ideal S1024x1 .f32) (r : Fin 1024) :
    k1_pay7 (F := Ideal) s (k1_pay17 (F := Ideal) (BitVec.ofNat 32 i.val) (BitVec.ofNat 32 j.val) v9) (ix2 r (0 : Fin 1))
      = min (s (ix2 r (0 : Fin 1))) (Finset.univ.inf fun c : Fin 1024 =>
          if 1024 * i.val + r.val ≠ 1024 * j.val + c.val then v9 (ix2 r c) else ⊤) := by
  unfold k1_pay7
  refine (congrFun (shapeCast_self _ _) _).trans ?_
  refine (minimumf_apply _ _ _).trans ?_
  refine congrArg (min (s (ix2 r (0 : Fin 1))) ·) ?_
  refine (ColumnLayout.shapeCast_a_a1_apply _ _ r 0).trans ?_
  refine (rowMin_apply _ _ _ _ r).trans ?_
  exact congrArg (Finset.univ.inf ·) (funext fun c => pay17_apply i j v9 r c)

end Cert.KernelIdeal.Pay1

end
-- ==== Proof.KITiles.lean ====
/-
  One tile of the second kernel in the terms of the specification.

  The kernel visits the 4 × 4 tiles of 1024 rows by 1024 columns.  On tile (i, j) the left block holds the rows
  1024·i + r of the scaled anchors, the right block the rows 1024·j + c of the scaled positives, and the column of
  positive distances holds pos at the rows 1024·i + r.  Then the distance read at (r, c) is neg at (1024·i + r, 1024·j + c),
  the band test is the specification's semi-hard test (off the diagonal tile the rows and columns never coincide; on any
  tile the mask "1024·i + r ≠ 1024·j + c" says so), and each accumulator's update adds block j's share of row 1024·i + r.
-/
import proofs.«132504_j386547057031_2_alg».proof.Proof.Spec
import proofs.«132504_j386547057031_2_alg».proof.Proof.KIPayload1

noncomputable section

namespace Cert.KernelIdeal.Pay1

open Cert.KernelIdeal Cert.KernelIdeal.Gen Idealize.ShloMosaic ValueIdx Cert.TripletSpec

/-- The margin of the payloads is the margin of the specification (the same word). -/
theorem Wm_eq_W : Wm = W := rfl

/-- Row r of block i and column c of block j coincide exactly when their global positions do. -/
theorem colOf_ne_iff (i j : Fin 4) (r c : Fin 1024) :
    colOf i r ≠ colOf j c ↔ 1024 * i.val + r.val ≠ 1024 * j.val + c.val :=
  ⟨fun h e => h (Fin.ext e), fun h e => h (congrArg Fin.val e)⟩

/-- Rows of one block and columns of another never coincide. -/
theorem colOf_ne_of_ne {i j : Fin 4} (h : i ≠ j) (r c : Fin 1024) : colOf i r ≠ colOf j c := by
  rw [colOf_ne_iff]
  have hi := i.isLt; have hj := j.isLt; have hr := r.isLt; have hc := c.isLt
  have hne : i.val ≠ j.val := fun e => h (Fin.ext e)
  omega

section Tile

variable (a p : Fin 4096 → Fin 1024 → EReal) (i j : Fin 4)
variable (v3 v5 : FVec Ideal S1024x1024 .bf16) (v10 : FVec Ideal S1024x1 .f32)
variable (hv3 : ∀ (r : Fin 1024) (d : Fin 1024), v3 (ix2 r d) = a (colOf i r) d)
variable (hv5 : ∀ (c : Fin 1024) (d : Fin 1024), v5 (ix2 c d) = p (colOf j c) d)

include hv3 hv5 in
/-- The distance read at (r, c) of tile (i, j). -/
theorem negT_eq_neg (r c : Fin 1024) : negT v3 v5 r c = neg a p (colOf i r) (colOf j c) := by
  unfold negT neg
  simp only [hv3, hv5]

variable (hv10 : ∀ r : Fin 1024, v10 (ix2 r (0 : Fin 1)) = pos a p (colOf i r))

include hv3 hv5 hv10

/-- The distance less the row's positive distance, at (r, c) of tile (i, j). -/
theorem dT_eq (r c : Fin 1024) :
    dT v3 v5 v10 r c = neg a p (colOf i r) (colOf j c) - pos a p (colOf i r) := by
  unfold dT
  rw [negT_eq_neg a p i j v3 v5 hv3 hv5, hv10]

/-- The masked band test is the specification's semi-hard test. -/
theorem band_mask_iff (r c : Fin 1024) :
    (1024 * i.val + r.val ≠ 1024 * j.val + c.val ∧ 0 < dT v3 v5 v10 r c ∧ dT v3 v5 v10 r c < Wm)
      ↔ semiK a p (colOf i r) (colOf j c) := by
  rw [dT_eq a p i j v3 v5 v10 hv3 hv5 hv10]
  exact and_congr (colOf_ne_iff i j r c).symm Iff.rfl

/-- Off the diagonal tile the band test alone is the specification's semi-hard test. -/
theorem band_iff_of_ne (h : i ≠ j) (r c : Fin 1024) :
    (0 < dT v3 v5 v10 r c ∧ dT v3 v5 v10 r c < Wm) ↔ semiK a p (colOf i r) (colOf j c) := by
  rw [dT_eq a p i j v3 v5 v10 hv3 hv5 hv10]
  exact ⟨fun hb => ⟨colOf_ne_of_ne h r c, hb⟩, fun hs => hs.2⟩

/-! ### The masked updates (any tile) -/

theorem pay15_tile (s : FVec Ideal S1024x1 .f32) (r : Fin 1024) :
    k1_pay15 (F := Ideal) (BitVec.ofNat 32 i.val) (BitVec.ofNat 32 j.val) (k1_pay4 (F := Ideal) v3 v5)
        (k1_pay6 (F := Ideal) v3 v5 v10) s (ix2 r (0 : Fin 1))
      = s (ix2 r (0 : Fin 1)) + tSum a p (colOf i r) j := by
  refine (pay15_apply i j _ _ s r).trans ?_
  refine congrArg (s (ix2 r (0 : Fin 1)) + ·) ?_
  unfold tSum
  refine Finset.sum_congr rfl fun c _ => ?_
  rw [pay4_apply, pay6_apply, negT_eq_neg a p i j v3 v5 hv3 hv5]
  exact if_congr (band_mask_iff a p i j v3 v5 v10 hv3 hv5 hv10 r c) rfl rfl

theorem pay16_tile (s : FVec Ideal S1024x1 .f32) (r : Fin 1024) :
    k1_pay16 (F := Ideal) (BitVec.ofNat 32 i.val) (BitVec.ofNat 32 j.val) (k1_pay6 (F := Ideal) v3 v5 v10) s
        (ix2 r (0 : Fin 1))
      = s (ix2 r (0 : Fin 1)) + tCnt a p (colOf i r) j := by
  refine (pay16_apply i j _ s r).trans ?_
  refine congrArg (s (ix2 r (0 : Fin 1)) + ·) ?_
  unfold tCnt
  refine Finset.sum_congr rfl fun c _ => ?_
  rw [pay6_apply]
  exact if_congr (band_mask_iff a p i j v3 v5 v10 hv3 hv5 hv10 r c) rfl rfl

omit hv10 in
theorem pay7_17_tile (s : FVec Ideal S1024x1 .f32) (r : Fin 1024) :
    k1_pay7 (F := Ideal) s (k1_pay17 (F := Ideal) (BitVec.ofNat 32 i.val) (BitVec.ofNat 32 j.val)
        (k1_pay4 (F := Ideal) v3 v5)) (ix2 r (0 : Fin 1))
      = min (s (ix2 r (0 : Fin 1))) (tMin a p (colOf i r) j) := by
  refine (pay7_17_apply i j _ s r).trans ?_
  refine congrArg (min (s (ix2 r (0 : Fin 1))) ·) ?_
  unfold tMin
  refine congrArg (Finset.univ.inf ·) (funext fun c => ?_)
  rw [pay4_apply, negT_eq_neg a p i j v3 v5 hv3 hv5]
  exact if_congr (colOf_ne_iff i j r c).symm rfl rfl

/-! ### The unmasked updates (off the diagonal tile) -/

theorem pay9_tile (h : i ≠ j) (s : FVec Ideal S1024x1 .f32) (r : Fin 1024) :
    k1_pay9 (F := Ideal) v3 v5 v10 s (ix2 r (0 : Fin 1)) = s (ix2 r (0 : Fin 1)) + tSum a p (colOf i r) j := by
  refine (pay9_apply v3 v5 v10 s r).trans ?_
  refine congrArg (s (ix2 r (0 : Fin 1)) + ·) ?_
  unfold tSum
  refine Finset.sum_congr rfl fun c _ => ?_
  rw [negT_eq_neg a p i j v3 v5 hv3 hv5]
  exact if_congr (band_iff_of_ne a p i j v3 v5 v10 hv3 hv5 hv10 h r c) rfl rfl

theorem pay10_tile (h : i ≠ j) (s : FVec Ideal S1024x1 .f32) (r : Fin 1024) :
    k1_pay10 (F := Ideal) v3 v5 v10 s (ix2 r (0 : Fin 1)) = s (ix2 r (0 : Fin 1)) + tCnt a p (colOf i r) j := by
  refine (pay10_apply v3 v5 v10 s r).trans ?_
  refine congrArg (s (ix2 r (0 : Fin 1)) + ·) ?_
  unfold tCnt
  exact Finset.sum_congr rfl fun c _ => if_congr (band_iff_of_ne a p i j v3 v5 v10 hv3 hv5 hv10 h r c) rfl rfl

omit hv10 in
theorem pay11_tile (h : i ≠ j) (s : FVec Ideal S1024x1 .f32) (r : Fin 1024) :
    k1_pay11 (F := Ideal) v3 v5 s (ix2 r (0 : Fin 1)) = min (s (ix2 r (0 : Fin 1))) (tMin a p (colOf i r) j) := by
  refine (pay11_apply v3 v5 s r).trans ?_
  refine congrArg (min (s (ix2 r (0 : Fin 1))) ·) ?_
  unfold tMin
  refine congrArg (Finset.univ.inf ·) (funext fun c => ?_)
  rw [negT_eq_neg a p i j v3 v5 hv3 hv5, if_pos (colOf_ne_of_ne h r c)]

end Tile

end Cert.KernelIdeal.Pay1

end
-- ==== Proof.KITile1.lean ====
/-
  One block's update of the three scratch columns (sum, count, minimum), the reset, and the final loss of a row, in the
  terms of the specification.

  On tile (i, j) the left block holds the rows 1024·i + r' of the scaled anchors, the right block the rows 1024·j + c' of
  the scaled positives, and the column of positive distances holds pos at the rows 1024·i + r'.  Write r for the row
  1024·i + r'.  Either update — the masked one on any tile, the unmasked one off the diagonal tile — adds block j's
  share of row r to the sum and to the count and folds block j's least distance into the minimum; the reset leaves
  zero, zero and ⊤; and from columns holding the accumulated sum, count and minimum the loss payload is the row's loss.
-/
import proofs.«132504_j386547057031_2_alg».proof.Proof.KIStep1
import proofs.«132504_j386547057031_2_alg».proof.Proof.KIPayload1
import proofs.«132504_j386547057031_2_alg».proof.Proof.KITiles
import proofs.«132504_j386547057031_2_alg».proof.Proof.Spec

noncomputable section

namespace Cert.KernelIdeal.Tile1

open Cert.KernelIdeal Cert.KernelIdeal.Gen Idealize.ShloMosaic ValueIdx Cert.TripletSpec

/-! ## The reset -/

theorem resetSt_sum (r' : Fin 1024) : (resetSt (F := Ideal)).1 (ix2 r' (0 : Fin 1)) = 0 := Pay1.pay1_apply r'

theorem resetSt_cnt (r' : Fin 1024) : (resetSt (F := Ideal)).2.1 (ix2 r' (0 : Fin 1)) = 0 := Pay1.pay2_apply r'

theorem resetSt_min (r' : Fin 1024) : (resetSt (F := Ideal)).2.2 (ix2 r' (0 : Fin 1)) = ⊤ := Pay1.pay3_apply r'

section Tile

variable (a p : Fin 4096 → Fin 1024 → EReal) (i j : Fin 4)
variable (b0 b1 : FVec Ideal S1024x1024 .bf16) (b2 : FVec Ideal S1024x1 .f32)
variable (hb0 : ∀ (r' d : Fin 1024), b0 (ix2 r' d) = a (colOf i r') d)
variable (hb1 : ∀ (c' d : Fin 1024), b1 (ix2 c' d) = p (colOf j c') d)
variable (hb2 : ∀ r' : Fin 1024, b2 (ix2 r' (0 : Fin 1)) = pos a p (colOf i r'))

include hb0 hb1 in
/-- The distance read at (r', c') of tile (i, j). -/
theorem negT_eq (r' c' : Fin 1024) : Pay1.negT b0 b1 r' c' = neg a p (colOf i r') (colOf j c') :=
  Pay1.negT_eq_neg a p i j b0 b1 hb0 hb1 r' c'

include hb0 hb1 hb2 in
/-- That distance less the row's positive distance. -/
theorem dT_eq (r' c' : Fin 1024) :
    Pay1.dT b0 b1 b2 r' c' = neg a p (colOf i r') (colOf j c') - pos a p (colOf i r') :=
  Pay1.dT_eq a p i j b0 b1 b2 hb0 hb1 hb2 r' c'

/-! ## A block off the diagonal -/

include hb0 hb1 hb2 in
theorem offStep_sum (hij : i ≠ j) (s : St Ideal) (r' : Fin 1024) :
    (offStep (F := Ideal) b0 b1 b2 s).1 (ix2 r' (0 : Fin 1))
      = s.1 (ix2 r' (0 : Fin 1)) + tSum a p (colOf i r') j :=
  Pay1.pay9_tile a p i j b0 b1 b2 hb0 hb1 hb2 hij s.1 r'

include hb0 hb1 hb2 in
theorem offStep_cnt (hij : i ≠ j) (s : St Ideal) (r' : Fin 1024) :
    (offStep (F := Ideal) b0 b1 b2 s).2.1 (ix2 r' (0 : Fin 1))
      = s.2.1 (ix2 r' (0 : Fin 1)) + tCnt a p (colOf i r') j :=
  Pay1.pay10_tile a p i j b0 b1 b2 hb0 hb1 hb2 hij s.2.1 r'

include hb0 hb1 in
theorem offStep_min (hij : i ≠ j) (s : St Ideal) (r' : Fin 1024) :
    (offStep (F := Ideal) b0 b1 b2 s).2.2 (ix2 r' (0 : Fin 1))
      = min (s.2.2 (ix2 r' (0 : Fin 1))) (tMin a p (colOf i r') j) :=
  Pay1.pay11_tile a p i j b0 b1 hb0 hb1 hij s.2.2 r'

/-! ## A block under the mask (any tile) -/

include hb0 hb1 hb2 in
theorem diagStep_sum (ic : grid1.Coords) (h0 : (ic 0).val = i.val) (h1 : (ic 1).val = j.val) (s : St Ideal)
    (r' : Fin 1024) :
    (diagStep (F := Ideal) ic b0 b1 b2 s).1 (ix2 r' (0 : Fin 1))
      = s.1 (ix2 r' (0 : Fin 1)) + tSum a p (colOf i r') j := by
  show k1_pay15 (F := Ideal) (BitVec.ofNat 32 (ic 0).val) (BitVec.ofNat 32 (ic 1).val) (k1_pay4 (F := Ideal) b0 b1)
      (k1_pay6 (F := Ideal) b0 b1 b2) s.1 (ix2 r' (0 : Fin 1)) = _
  rw [h0, h1]
  exact Pay1.pay15_tile a p i j b0 b1 b2 hb0 hb1 hb2 s.1 r'

include hb0 hb1 hb2 in
theorem diagStep_cnt (ic : grid1.Coords) (h0 : (ic 0).val = i.val) (h1 : (ic 1).val = j.val) (s : St Ideal)
    (r' : Fin 1024) :
    (diagStep (F := Ideal) ic b0 b1 b2 s).2.1 (ix2 r' (0 : Fin 1))
      = s.2.1 (ix2 r' (0 : Fin 1)) + tCnt a p (colOf i r') j := by
  show k1_pay16 (F := Ideal) (BitVec.ofNat 32 (ic 0).val) (BitVec.ofNat 32 (ic 1).val)
      (k1_pay6 (F := Ideal) b0 b1 b2) s.2.1 (ix2 r' (0 : Fin 1)) = _
  rw [h0, h1]
  exact Pay1.pay16_tile a p i j b0 b1 b2 hb0 hb1 hb2 s.2.1 r'

include hb0 hb1 in
theorem diagStep_min (ic : grid1.Coords) (h0 : (ic 0).val = i.val) (h1 : (ic 1).val = j.val) (s : St Ideal)
    (r' : Fin 1024) :
    (diagStep (F := Ideal) ic b0 b1 b2 s).2.2 (ix2 r' (0 : Fin 1))
      = min (s.2.2 (ix2 r' (0 : Fin 1))) (tMin a p (colOf i r') j) := by
  show k1_pay7 (F := Ideal) s.2.2 (k1_pay17 (F := Ideal) (BitVec.ofNat 32 (ic 0).val) (BitVec.ofNat 32 (ic 1).val)
      (k1_pay4 (F := Ideal) b0 b1)) (ix2 r' (0 : Fin 1)) = _
  rw [h0, h1]
  exact Pay1.pay7_17_tile a p i j b0 b1 hb0 hb1 s.2.2 r'

/-! ## The loss of a row from the finished columns -/

include hb2 in
theorem lossOf_apply (s : St Ideal) (r' : Fin 1024)
    (hs : s.1 (ix2 r' (0 : Fin 1)) = accSum a p (colOf i r'))
    (hc : s.2.1 (ix2 r' (0 : Fin 1)) = accCnt a p (colOf i r'))
    (hm : s.2.2 (ix2 r' (0 : Fin 1)) = accMin a p (colOf i r')) :
    lossOf (F := Ideal) b2 s (ix2 r' (0 : Fin 1)) = outK a p (colOf i r') := by
  refine (Pay1.pay12_apply b2 s.2.1 s.1 s.2.2 r').trans ?_
  rw [hb2, hs, hc, hm]
  rfl

end Tile

end Cert.KernelIdeal.Tile1

end
-- ==== Proof.KIValue1.lean ====
import proofs.«132504_j386547057031_2_alg».proof.Proof.KIBlocks1
import proofs.«132504_j386547057031_2_alg».proof.Proof.KIStep1
import proofs.«132504_j386547057031_2_alg».proof.Proof.KITile1
import proofs.«132504_j386547057031_2_alg».proof.Proof.Spec

noncomputable section

namespace Cert.KernelIdeal.Value1

open Cert.KernelIdeal Cert.KernelIdeal.Gen Idealize.ShloMosaic Idealize.ShloMosaic.TcCoe Idealize.SL.Sem ValueIdx Cert.TripletSpec
open Cert.KernelIdeal.Tile1

/-! # What the second region leaves in its output array

Row `r = 1024·i + r'` is handled at the four points `(i, 0) … (i, 3)`. After the point `(i, j)` the three scratch
columns hold, at `r'`, the sum of semi-hard negative distances, their count and the minimum of the off-diagonal
distances over the column blocks `0 … j`; after `(i, 3)` these are the whole row's, and the loss written there is
the row's blockwise loss. -/

variable (V : (c : Dev nD) → (b : Ref sig .tc) → Buf (Elt Ideal) ((c : Thread nD τ).loc b)) (c : Dev nD)
variable (a p : Fin 4096 → Fin 1024 → EReal)

/-- A point's grid coordinates: the row block, then the column block. -/
theorem coords1 : ∀ t : Fin cfg1.N, ((grid1.coords t) 0).val = t.val / 4 ∧ ((grid1.coords t) 1).val = t.val % 4 :=
  (by decide +kernel : ∀ t : Fin grid1.N, ((grid1.coords t) 0).val = t.val / 4 ∧ ((grid1.coords t) 1).val = t.val % 4)

/-- The scratch columns after point `t`. -/
def S (t : Fin cfg1.N) : St Ideal := (sAt1 V c t.val t.isLt).1

theorem S_zero (t : Fin cfg1.N) (hz : t.val = 0) : S V c t = pureStep V c t ((k1_pay1 (F := Ideal), k1_pay1 (F := Ideal), k1_pay1 (F := Ideal)) : St Ideal) := by
  unfold S; rw [sAt1_zero V c t hz, stepAt_fst]

theorem S_pos (t : Fin cfg1.N) (hz : t.val ≠ 0) :
    S V c t = pureStep V c t (S V c ⟨t.val - 1, Nat.lt_of_le_of_lt (Nat.sub_le _ _) t.isLt⟩) := by
  unfold S; rw [sAt1_pos V c t hz, stepAt_fst]

/-- Point `(i, k)`. -/
def pt (i : Fin 4) (k : ℕ) (hk : k < 4) : Fin cfg1.N := ⟨4 * i.val + k, by rw [show cfg1.N = 16 from N_1]; omega⟩

section Rows

variable (hA : ∀ (r : Fin 4096) (d : Fin 1024), (V c main_v0_0 : FVec Ideal S4096x1024 .bf16) (ix2 r d) = a r d)
variable (hP : ∀ (r : Fin 4096) (d : Fin 1024), (V c main_v0_1 : FVec Ideal S4096x1024 .bf16) (ix2 r d) = p r d)
variable (hQ : ∀ r : Fin 4096, (V c main_v0_2 : FVec Ideal S4096x1 .f32) (ix2 r (0 : Fin 1)) = pos a p r)

include hA in
theorem blk0 (t : Fin cfg1.N) (i : Fin 4) (hi : t.val / 4 = i.val) (r' d : Fin 1024) :
    (iblk1 V c 0 t : FVec Ideal S1024x1024 .bf16) (ix2 r' d) = a (colOf i r') d :=
  (iblk1_0_apply_of V c t r' d (colOf i r') (by show 1024 * i.val + r'.val = _; rw [hi])).trans (hA _ d)

include hP in
theorem blk1 (t : Fin cfg1.N) (j : Fin 4) (hj : t.val % 4 = j.val) (c' d : Fin 1024) :
    (iblk1 V c 1 t : FVec Ideal S1024x1024 .bf16) (ix2 c' d) = p (colOf j c') d :=
  (iblk1_1_apply_of V c t c' d (colOf j c') (by show 1024 * j.val + c'.val = _; rw [hj])).trans (hP _ d)

include hQ in
theorem blk2 (t : Fin cfg1.N) (i : Fin 4) (hi : t.val / 4 = i.val) (r' : Fin 1024) :
    (iblk1 V c 2 t : FVec Ideal S1024x1 .f32) (ix2 r' (0 : Fin 1)) = pos a p (colOf i r') :=
  (iblk1_2_apply_of V c t r' (colOf i r') (by show 1024 * i.val + r'.val = _; rw [hi])).trans (hQ _)

include hA hP hQ in
/-- One point's update of the scratch columns, read at an entry: block `(i, j)`'s share is added to what the columns
    held (zero, zero and `+∞` where the point resets them). -/
theorem pureStep_apply (t : Fin cfg1.N) (i j : Fin 4) (hi : t.val / 4 = i.val) (hj : t.val % 4 = j.val) (s : St Ideal) (r' : Fin 1024) :
    (pureStep V c t s).1 (ix2 r' (0 : Fin 1)) = (if t.val % 4 = 0 then resetSt else s).1 (ix2 r' (0 : Fin 1)) + tSum a p (colOf i r') j
    ∧ (pureStep V c t s).2.1 (ix2 r' (0 : Fin 1)) = (if t.val % 4 = 0 then resetSt else s).2.1 (ix2 r' (0 : Fin 1)) + tCnt a p (colOf i r') j
    ∧ (pureStep V c t s).2.2 (ix2 r' (0 : Fin 1)) = min ((if t.val % 4 = 0 then resetSt else s).2.2 (ix2 r' (0 : Fin 1))) (tMin a p (colOf i r') j) := by
  have hb0 := blk0 V c a hA t i hi
  have hb1 := blk1 V c p hP t j hj
  have hb2 := blk2 V c a p hQ t i hi
  unfold pureStep
  by_cases h : t.val % 4 = t.val / 4
  · rw [if_pos h]
    exact ⟨diagStep_sum a p i j _ _ _ hb0 hb1 hb2 (grid1.coords t) ((coords1 t).1.trans hi) ((coords1 t).2.trans hj) _ r',
      diagStep_cnt a p i j _ _ _ hb0 hb1 hb2 (grid1.coords t) ((coords1 t).1.trans hi) ((coords1 t).2.trans hj) _ r',
      diagStep_min a p i j _ _ _ hb0 hb1 (grid1.coords t) ((coords1 t).1.trans hi) ((coords1 t).2.trans hj) _ r'⟩
  · rw [if_neg h]
    have hij : i ≠ j := fun e => h (by rw [hj, hi, e])
    exact ⟨offStep_sum a p i j _ _ _ hb0 hb1 hb2 hij _ r', offStep_cnt a p i j _ _ _ hb0 hb1 hb2 hij _ r',
      offStep_min a p i j _ _ _ hb0 hb1 hij _ r'⟩

include hA hP hQ in
/-- After the first block of a row of blocks. -/
theorem chain0 (i : Fin 4) (r' : Fin 1024) :
    (S V c (pt i 0 (by omega))).1 (ix2 r' (0 : Fin 1)) = 0 + tSum a p (colOf i r') 0
    ∧ (S V c (pt i 0 (by omega))).2.1 (ix2 r' (0 : Fin 1)) = 0 + tCnt a p (colOf i r') 0
    ∧ (S V c (pt i 0 (by omega))).2.2 (ix2 r' (0 : Fin 1)) = min ⊤ (tMin a p (colOf i r') 0) := by
  have hi : (pt i 0 (by omega)).val / 4 = i.val := by show (4 * i.val + 0) / 4 = i.val; omega
  have hj : (pt i 0 (by omega)).val % 4 = (0 : Fin 4).val := by show (4 * i.val + 0) % 4 = 0; omega
  have h0 : (pt i 0 (by omega)).val % 4 = 0 := hj
  obtain ⟨s, hs⟩ : ∃ s, S V c (pt i 0 (by omega)) = pureStep V c (pt i 0 (by omega)) s := by
    by_cases hz : (pt i 0 (by omega)).val = 0
    · exact ⟨_, S_zero V c _ hz⟩
    · exact ⟨_, S_pos V c _ hz⟩
  rw [hs]
  obtain ⟨e1, e2, e3⟩ := pureStep_apply V c a p hA hP hQ (pt i 0 (by omega)) i 0 hi hj s r'
  rw [e1, e2, e3, if_pos h0, resetSt_sum, resetSt_cnt, resetSt_min]
  exact ⟨rfl, rfl, rfl⟩

include hA hP hQ in
/-- From one block of the row to the next. -/
theorem chainS (i : Fin 4) (k : ℕ) (hk : k + 1 < 4) (j : Fin 4) (hjk : j.val = k + 1) (r' : Fin 1024) :
    (S V c (pt i (k + 1) hk)).1 (ix2 r' (0 : Fin 1)) = (S V c (pt i k (by omega))).1 (ix2 r' (0 : Fin 1)) + tSum a p (colOf i r') j
    ∧ (S V c (pt i (k + 1) hk)).2.1 (ix2 r' (0 : Fin 1)) = (S V c (pt i k (by omega))).2.1 (ix2 r' (0 : Fin 1)) + tCnt a p (colOf i r') j
    ∧ (S V c (pt i (k + 1) hk)).2.2 (ix2 r' (0 : Fin 1)) = min ((S V c (pt i k (by omega))).2.2 (ix2 r' (0 : Fin 1))) (tMin a p (colOf i r') j) := by
  have hi : (pt i (k + 1) hk).val / 4 = i.val := by show (4 * i.val + (k + 1)) / 4 = i.val; omega
  have hj : (pt i (k + 1) hk).val % 4 = j.val := by show (4 * i.val + (k + 1)) % 4 = j.val; omega
  have h0 : ¬ (pt i (k + 1) hk).val % 4 = 0 := by show ¬ (4 * i.val + (k + 1)) % 4 = 0; omega
  have hz : (pt i (k + 1) hk).val ≠ 0 := by show 4 * i.val + (k + 1) ≠ 0; omega
  have hprev : (⟨(pt i (k + 1) hk).val - 1, Nat.lt_of_le_of_lt (Nat.sub_le _ _) (pt i (k + 1) hk).isLt⟩ : Fin cfg1.N) = pt i k (by omega) :=
    Fin.ext (by show 4 * i.val + (k + 1) - 1 = 4 * i.val + k; omega)
  rw [S_pos V c _ hz, hprev]
  obtain ⟨e1, e2, e3⟩ := pureStep_apply V c a p hA hP hQ (pt i (k + 1) hk) i j hi hj (S V c (pt i k (by omega))) r'
  rw [e1, e2, e3, if_neg h0]
  exact ⟨rfl, rfl, rfl⟩

include hA hP hQ in
/-- After the last block of the row the scratch columns hold the whole row's sum, count and minimum. -/
theorem chain3 (i : Fin 4) (r' : Fin 1024) :
    (S V c (pt i 3 (by omega))).1 (ix2 r' (0 : Fin 1)) = accSum a p (colOf i r')
    ∧ (S V c (pt i 3 (by omega))).2.1 (ix2 r' (0 : Fin 1)) = accCnt a p (colOf i r')
    ∧ (S V c (pt i 3 (by omega))).2.2 (ix2 r' (0 : Fin 1)) = accMin a p (colOf i r') := by
  obtain ⟨a0, b0, c0⟩ := chain0 V c a p hA hP hQ i r'
  obtain ⟨a1, b1, c1⟩ := chainS V c a p hA hP hQ i 0 (by omega) 1 rfl r'
  obtain ⟨a2, b2, c2⟩ := chainS V c a p hA hP hQ i 1 (by omega) 2 rfl r'
  obtain ⟨a3, b3, c3⟩ := chainS V c a p hA hP hQ i 2 (by omega) 3 rfl r'
  refine ⟨?_, ?_, ?_⟩
  · rw [a3, a2, a1, a0]; rfl
  · rw [b3, b2, b1, b0]; rfl
  · rw [c3, c2, c1, c0]; rfl

include hA hP hQ in
/-- What the second region leaves in its output array: row `r` holds the blockwise loss of row `r`, when the region
    finds the two scaled arrays and the column of positive distances in its three input arrays. -/
theorem value1 :
    ∀ r : Fin 4096, ((dat1 V c).arrAt 3 cfg1.N : FVec Ideal S4096x1 .f32) (ix2 r (0 : Fin 1)) = outK a p r := by
  refine final1_3_of V c (outK a p) fun t h3 r' => ?_
  have ht16 : t.val < 16 := lt_of_lt_of_eq t.isLt (show cfg1.N = 16 from N_1)
  let i : Fin 4 := ⟨t.val / 4, by omega⟩
  have hi : t.val / 4 = i.val := rfl
  have ht : t = pt i 3 (by omega) := Fin.ext (by show t.val = 4 * (t.val / 4) + 3; omega)
  have hz : t.val ≠ 0 := by omega
  obtain ⟨hs, hc, hm⟩ := chain3 V c a p hA hP hQ i r'
  rw [← ht] at hs hc hm
  rw [after1_3, sAt1_pos V c t hz, stepAt_snd V c t _ h3]
  rw [show pureStep V c t (sAt1 V c (t.val - 1) (Nat.lt_of_le_of_lt (Nat.sub_le _ _) t.isLt)).1 = S V c t from (S_pos V c t hz).symm]
  exact lossOf_apply a p i _ (blk2 V c a p hQ t i hi) (S V c t) r' hs hc hm

end Rows

end Cert.KernelIdeal.Value1

end
-- ==== Proof.KIValueAll.lean ====
/-
  The kernel program's result over the extended reals.

  The run leaves in the result buffer the host's mean of the column the second region wrote.  The first
  region leaves the two inputs with every row scaled to unit length and the column of positive distances;
  the second region, finding those three arrays, leaves every row's blockwise loss; the host's sum over the
  column divided by the number of rows is the mean of the rows' losses.  Together: the result is the blockwise
  loss of the two argument arrays.
-/
import proofs.«132504_j386547057031_2_alg».proof.Proof.KIRun
import proofs.«132504_j386547057031_2_alg».proof.Proof.KIValue0
import proofs.«132504_j386547057031_2_alg».proof.Proof.KIBlocks1
import proofs.«132504_j386547057031_2_alg».proof.Proof.KIValue1
import proofs.«132504_j386547057031_2_alg».proof.Proof.Spec

noncomputable section

namespace Cert.KernelIdeal.ValueAll

open Cert.KernelIdeal Cert.KernelIdeal.Gen Idealize.ShloMosaic Idealize.ShloMosaic.TcCoe
open Idealize.SL Idealize.SL.Sem
open Idealize.ShloMosaic.ValueIdx
open Cert.TripletSpec (nrmK pos outK meanOf lossK)

variable (m : (ℓ : Loc nD τ sig) → Buf (Elt Ideal) ℓ) (ρ : Dev nD → PrngReg)

/-- The two argument arrays at launch, row by row. -/
abbrev xrows (c : Dev nD) : Fin 4096 → Fin 1024 → EReal :=
  fun r d => (m ((c.tc : Thread nD τ).loc main_arg0) : FVec Ideal S4096x1024 .f32) (ix2 r d)
abbrev yrows (c : Dev nD) : Fin 4096 → Fin 1024 → EReal :=
  fun r d => (m ((c.tc : Thread nD τ).loc main_arg1) : FVec Ideal S4096x1024 .f32) (ix2 r d)

/-! ## What the second region finds in its three input arrays: what the first region left -/

/-- The first scaled array. -/
theorem entry1_0 (c : Dev nD) (r : Fin 4096) (d : Fin 1024) :
    (V1 m ρ c main_v0_0 : FVec Ideal S4096x1024 .bf16) (ix2 r d) = nrmK (xrows m c) r d := by
  have e : V1 m ρ c main_v0_0 = (dat0 (V0 m ρ) c).arrAt 2 cfg0.N := W1_arr m ρ c 2
  exact (congrFun e (ix2 r d)).trans (Value0.final0_2_apply (V0 m ρ) c r d)

/-- The second scaled array. -/
theorem entry1_1 (c : Dev nD) (r : Fin 4096) (d : Fin 1024) :
    (V1 m ρ c main_v0_1 : FVec Ideal S4096x1024 .bf16) (ix2 r d) = nrmK (yrows m c) r d := by
  have e : V1 m ρ c main_v0_1 = (dat0 (V0 m ρ) c).arrAt 3 cfg0.N := W1_arr m ρ c 3
  exact (congrFun e (ix2 r d)).trans (Value0.final0_3_apply (V0 m ρ) c r d)

/-- The column of positive distances. -/
theorem entry1_2 (c : Dev nD) (r : Fin 4096) :
    (V1 m ρ c main_v0_2 : FVec Ideal S4096x1 .f32) (ix2 r (0 : Fin 1)) = pos (nrmK (xrows m c)) (nrmK (yrows m c)) r := by
  have e : V1 m ρ c main_v0_2 = (dat0 (V0 m ρ) c).arrAt 4 cfg0.N := W1_arr m ρ c 4
  exact (congrFun e (ix2 r (0 : Fin 1))).trans (Value0.final0_4 (V0 m ρ) c r)

/-! ## The result -/

/-- The host's mean of the column the second region wrote is the blockwise loss of the argument arrays. -/
theorem value_eq (c : Dev nD) :
    Host.divf (F := Ideal)
        (Host.reduceAdd (F := Ideal) ((dat1 (V1 m ρ) c).arrAt 3 cfg1.N) (constant (F := Ideal) S_ .f32 0x00000000#32)
          reducesTo_S4096x1_S_d0_1 h_S_)
        (constant (F := Ideal) S_ .f32 0x45800000#32)
      = fun _ => lossK (xrows m c) (yrows m c) := by
  refine (Value1.tail_value ((dat1 (V1 m ρ) c).arrAt 3 cfg1.N)).trans ?_
  funext _
  unfold Cert.TripletSpec.lossK
  refine congrArg meanOf (funext fun r => ?_)
  exact Value1.value1 (V1 m ρ) c (nrmK (xrows m c)) (nrmK (yrows m c))
    (entry1_0 m ρ c) (entry1_1 m ρ c) (entry1_2 m ρ c) r

/-- THE KERNEL PROGRAM'S RUN: it ends with the result buffer at the blockwise loss of the two argument
    arrays, and the arguments unchanged. -/
theorem kernel_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3)
        = (fun _ => lossK
            (fun r d => (m ((c.tc : Thread nD τ).loc main_arg0) : FVec Ideal S4096x1024 .f32) (ix2 r d))
            (fun r d => (m ((c.tc : Thread nD τ).loc main_arg1) : FVec Ideal S4096x1024 .f32) (ix2 r d)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun r h c => ⟨(h c).1.trans (value_eq m ρ c), (h c).2⟩) (run_value m ρ)

end Cert.KernelIdeal.ValueAll

end
-- ==== Proof.LibERealSum.lean ====
/-
  Finite sums of reals inside the extended reals: the embedding of the reals commutes with finite sums; a row of a
  0/1 selection matrix times a vector picks one entry, whatever extended reals the vector holds (zero times anything is
  zero there); and a masked sum of an affine family splits as the masked sum of the linear parts plus the mask's count
  times the constant — the step by which summing mask · (m · W + b) over neighbours becomes (Σ mask · m) · W + (Σ mask) · b.
-/
import Idealize.ShloMosaic.PureOps.Ideal

noncomputable section

namespace Cert.Lib.ERealSum

open scoped BigOperators

variable {ι : Type*}

/-- The embedding of the reals into the extended reals commutes with finite sums. -/
theorem coe_finset_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of embedded reals is the embedded real sum of products (a contraction of finite operands). -/
theorem sum_coe_mul_coe (s : Finset ι) (f g : ι → ℝ) :
    ∑ i ∈ s, (f i : EReal) * (g i : EReal) = ((∑ i ∈ s, f i * g i : ℝ) : EReal) := by
  rw [coe_finset_sum]; exact Finset.sum_congr rfl fun i _ => (EReal.coe_mul _ _).symm

/-- A 0/1 selection row picks its entry, at any extended reals. -/
theorem sum_select [Fintype ι] [DecidableEq ι] (j : ι) (x : ι → EReal) :
    ∑ i, (if i = j then (1 : EReal) else 0) * x i = x j := by
  simp only [ite_mul, one_mul, zero_mul]
  rw [Finset.sum_ite_eq' Finset.univ j x]; simp

/-- The same with the comparison written the other way round. -/
theorem sum_select' [Fintype ι] [DecidableEq ι] (j : ι) (x : ι → EReal) :
    ∑ i, (if j = i then (1 : EReal) else 0) * x i = x j := by
  simp only [ite_mul, one_mul, zero_mul]
  rw [Finset.sum_ite_eq Finset.univ j x]; simp

/-- A masked sum of an affine family of reals: Σ mₖ (aₖ + b) = Σ mₖ aₖ + (Σ mₖ) b. -/
theorem masked_sum_affine (s : Finset ι) (m a : ι → ℝ) (b : ℝ) :
    ∑ k ∈ s, (m k : EReal) * ((a k : EReal) + (b : EReal))
      = (∑ k ∈ s, (m k : EReal) * (a k : EReal)) + (∑ k ∈ s, (m k : EReal)) * (b : EReal) := by
  have h : ∀ k, (m k : EReal) * ((a k : EReal) + (b : EReal)) = ((m k * (a k + b) : ℝ) : EReal) := fun k => by
    rw [← EReal.coe_add, ← EReal.coe_mul]
  simp only [h]
  rw [← coe_finset_sum, sum_coe_mul_coe, ← coe_finset_sum, ← EReal.coe_mul, ← EReal.coe_add]
  congr 1
  rw [Finset.sum_mul, ← Finset.sum_add_distrib]
  exact Finset.sum_congr rfl fun k _ => by ring

end Cert.Lib.ERealSum

end
-- ==== Proof.LibLayerNorm.lean ====
/-
  LayerNorm's normalisation on the extended reals.

  A LayerNorm divides a centred row by the square root of its variance plus a positive ε; a program may instead multiply
  by the reciprocal square root. On the extended reals the two agree exactly when the radicand is positive:
  for a positive real `y` both are `x · (√y)⁻¹`, and for `y = ⊤` both are `x · 0` (`√⊤ = ⊤`, `⊤⁻¹ = 0`, `rsqrt ⊤ = 0`).
  At `y = 0` they differ (the quotient by zero is an infinity of `x`'s sign or the junk value, the product is `x · ⊤`),
  and below zero both square roots are the junk value `⊥` but `x · ⊥` and `x · ⊥⁻¹ = x · 0` differ.

  The radicand of a LayerNorm is positive whatever the row holds: a square `a · a` is non-negative for every extended
  real (`⊥ · ⊥ = ⊤`), so is a finite sum of squares, so is its quotient by a positive real, and ε is positive.
-/
import Idealize.ShloMosaic.PureOps.Ideal
import Idealize.ShloMosaic.PureOps.Ideal.Laws

noncomputable section

namespace Idealize.ShloMosaic.LayerNorm

open Idealize.ShloMosaic

/-- Multiplying by the reciprocal square root of a positive extended real is dividing by its square root. For a positive
    real `r` both sides are `x · (√r)⁻¹` (`√r ≠ 0`, so the quotient is the product with the inverse); at `⊤` both are `x · 0`. -/
theorem mul_rsqrt_eq_div_sqrt (x : EReal) {y : EReal} (hy : 0 < y) :
    x * Ideal.rsqrt y = Ideal.div x (Ideal.sqrt y) := by
  induction y using EReal.rec with
  | bot => exact absurd hy (not_lt.mpr bot_le)
  | top =>
    rw [Ideal.rsqrt_top, Ideal.sqrt_top]
    unfold Ideal.div
    rw [if_neg EReal.top_ne_zero, EReal.inv_top]
  | coe r =>
    have hr : 0 < r := EReal.coe_pos.mp hy
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hs, one_div]

/-- A square is non-negative on the extended reals: both factors lie on the same side of zero (`⊥ · ⊥ = ⊤`). -/
theorem mul_self_nonneg (a : EReal) : 0 ≤ a * a :=
  EReal.mul_nonneg_iff.mpr ((le_total 0 a).imp (fun h => ⟨h, h⟩) (fun h => ⟨h, h⟩))

/-- The quotient of a non-negative extended real by a positive real is non-negative: it is the product with the
    reciprocal, a positive real. -/
theorem div_coe_nonneg {s : EReal} (hs : 0 ≤ s) {n : ℝ} (hn : 0 < n) : 0 ≤ Ideal.div s (n : EReal) := by
  rw [Ideal.div_coe hn.ne']
  exact EReal.mul_nonneg hs (EReal.coe_nonneg.mpr (one_div_pos.mpr hn).le)

/-- The mean of squares over a positive real length, plus a positive ε, is positive — whatever the row holds. -/
theorem meanSq_add_pos {D : ℕ} (d : Fin D → EReal) {n : ℝ} (hn : 0 < n) {ε : EReal} (hε : 0 < ε) :
    0 < Ideal.div (∑ j : Fin D, d j * d j) (n : EReal) + ε := by
  have h0 : 0 ≤ Ideal.div (∑ j : Fin D, d j * d j) (n : EReal) :=
    div_coe_nonneg (Finset.sum_nonneg fun j _ => mul_self_nonneg (d j)) hn
  calc (0 : EReal) < ε := hε
    _ = 0 + ε := (zero_add ε).symm
    _ ≤ Ideal.div (∑ j : Fin D, d j * d j) (n : EReal) + ε := add_le_add h0 le_rfl

/-- The LayerNorm step itself: a centred entry times the reciprocal square root of (mean of squares + ε) is that entry
    over the square root, for every row of extended reals, a positive real length and a positive ε. -/
theorem mul_rsqrt_meanSq (x : EReal) {D : ℕ} (d : Fin D → EReal) {n : ℝ} (hn : 0 < n) {ε : EReal} (hε : 0 < ε) :
    x * Ideal.rsqrt (Ideal.div (∑ j : Fin D, d j * d j) (n : EReal) + ε)
      = Ideal.div x (Ideal.sqrt (Ideal.div (∑ j : Fin D, d j * d j) (n : EReal) + ε)) :=
  mul_rsqrt_eq_div_sqrt x (meanSq_add_pos d hn hε)

/-- The binary32 word `0x44000000` denotes the real `512 = 2⁹`. -/
theorem ofBits_512_f32 : Ideal.ofBits .f32 0x44000000#32 = ((512 : ℝ) : EReal) := by
  simp [Ideal.ofBits, Ideal.ieee, -EReal.coe_mul]; norm_num

/-- The binary32 word `0x44800000` denotes the real `1024 = 2¹⁰`. -/
theorem ofBits_1024_f32 : Ideal.ofBits .f32 0x44800000#32 = ((1024 : ℝ) : EReal) := by
  simp [Ideal.ofBits, Ideal.ieee, -EReal.coe_mul]; norm_num

/-- The binary32 word `0x3727C5AC` (the float nearest `10⁻⁵`: `10995116 · 2⁻⁴⁰`) denotes a positive real. -/
theorem ofBits_eps_f32_pos : 0 < Ideal.ofBits .f32 0x3727C5AC#32 := by
  simp [Ideal.ofBits, Ideal.ieee, -EReal.coe_mul]

end Idealize.ShloMosaic.LayerNorm

end
-- ==== Proof.MathScale.lean ====
/-
  Scaling a row to unit length: multiplying by the reciprocal square root of the squared length is dividing by the
  length, as soon as the squared length is positive; and a row of reals with positive squared length scales to a row
  of reals.
-/
import proofs.«132504_j386547057031_2_alg».proof.Proof.Spec
import proofs.«132504_j386547057031_2_alg».proof.Proof.LibERealSum
import proofs.«132504_j386547057031_2_alg».proof.Proof.LibLayerNorm

noncomputable section

namespace Cert.TripletMath

open Idealize.ShloMosaic Cert.TripletSpec

/-- The two scalings agree at every row of positive squared length. -/
theorem nrm_eq_of_pos (z : Fin 4096 → Fin 1024 → EReal) (hpos : ∀ r, 0 < sumSq z r) : nrmK z = nrmR z := by
  funext r d
  exact Idealize.ShloMosaic.LayerNorm.mul_rsqrt_eq_div_sqrt (z r d) (hpos r)

/-- The same, stated for rows of reals with positive squared length. -/
theorem nrm_eq (z : Fin 4096 → Fin 1024 → EReal) (hfin : ∀ r d, ∃ t : ℝ, z r d = (t : EReal))
    (hpos : ∀ r, 0 < sumSq z r) : nrmK z = nrmR z :=
  nrm_eq_of_pos z hpos

/-- The squared length of a row of reals is a real. -/
theorem sumSq_real (z : Fin 4096 → Fin 1024 → EReal) (hfin : ∀ r d, ∃ t : ℝ, z r d = (t : EReal)) (r : Fin 4096) :
    ∃ s : ℝ, sumSq z r = (s : EReal) := by
  choose Z hZ using hfin
  refine ⟨∑ d : Fin 1024, Z r d * Z r d, ?_⟩
  unfold sumSq
  simp only [hZ]
  exact Cert.Lib.ERealSum.sum_coe_mul_coe Finset.univ (Z r) (Z r)

/-- A row of reals with positive squared length scales to a row of reals. -/
theorem nrmK_real (z : Fin 4096 → Fin 1024 → EReal) (hfin : ∀ r d, ∃ t : ℝ, z r d = (t : EReal))
    (hpos : ∀ r, 0 < sumSq z r) (r : Fin 4096) (d : Fin 1024) : ∃ t : ℝ, nrmK z r d = (t : EReal) := by
  obtain ⟨s, hs⟩ := sumSq_real z hfin r
  obtain ⟨t, ht⟩ := hfin r d
  have hs0 : 0 < s := by
    have h := hpos r
    rw [hs] at h
    exact EReal.coe_pos.mp h
  refine ⟨t * (Real.sqrt s)⁻¹, ?_⟩
  unfold nrmK
  rw [hs, ht, Ideal.rsqrt_coe, if_neg (not_lt.mpr hs0.le), if_neg hs0.ne', EReal.coe_mul]

end Cert.TripletMath

end
-- ==== Proof.MathBand.lean ====
/-
  The distances of rows of reals are reals, the margin is a real, and on reals the two spellings of the semi-hard
  band say the same: 0 < n - q and n - q < w exactly when q < n and n < q + w.
-/
import proofs.«132504_j386547057031_2_alg».proof.Proof.Spec
import proofs.«132504_j386547057031_2_alg».proof.Proof.LibERealSum

noncomputable section

namespace Cert.TripletMath

open Idealize.ShloMosaic Cert.TripletSpec

/-- The margin word denotes a real. -/
theorem W_real : ∃ w : ℝ, W = (w : EReal) := by
  unfold W
  simp [Ideal.ofBits, Ideal.ieee, -EReal.coe_mul]

/-- One minus the inner product of two rows of reals is a real. -/
theorem one_sub_dot_real (u v : Fin 1024 → EReal) (hu : ∀ d, ∃ t : ℝ, u d = (t : EReal))
    (hv : ∀ d, ∃ t : ℝ, v d = (t : EReal)) : ∃ t : ℝ, 1 - ∑ d : Fin 1024, u d * v d = (t : EReal) := by
  choose U hU using hu
  choose V hV using hv
  refine ⟨1 - ∑ d : Fin 1024, U d * V d, ?_⟩
  simp only [hU, hV]
  rw [Cert.Lib.ERealSum.sum_coe_mul_coe, EReal.coe_sub, EReal.coe_one]

section

variable (a p : Fin 4096 → Fin 1024 → EReal)
variable (ha : ∀ r d, ∃ t : ℝ, a r d = (t : EReal)) (hp : ∀ r d, ∃ t : ℝ, p r d = (t : EReal))

include ha hp

/-- The positive distance of rows of reals is a real. -/
theorem pos_real (r : Fin 4096) : ∃ t : ℝ, pos a p r = (t : EReal) :=
  one_sub_dot_real (a r) (p r) (ha r) (hp r)

/-- The negative distance of rows of reals is a real. -/
theorem neg_real (r c : Fin 4096) : ∃ t : ℝ, neg a p r c = (t : EReal) :=
  one_sub_dot_real (a r) (p c) (ha r) (hp c)

/-- On reals the band tested on the difference is the band tested as two comparisons. -/
theorem semiK_iff_semiR (r c : Fin 4096) : semiK a p r c ↔ semiR a p r c := by
  obtain ⟨q, hq⟩ := pos_real a p ha hp r
  obtain ⟨n, hn⟩ := neg_real a p ha hp r c
  obtain ⟨w, hw⟩ := W_real
  unfold semiK semiR
  rw [hq, hn, hw, ← EReal.coe_sub, ← EReal.coe_add, ← EReal.coe_zero]
  simp only [EReal.coe_lt_coe_iff]
  constructor
  · rintro ⟨h1, h2, h3⟩
    exact ⟨h1, by linarith, by linarith⟩
  · rintro ⟨h1, h2, h3⟩
    exact ⟨h1, by linarith, by linarith⟩

end

end Cert.TripletMath

end
-- ==== Proof.LibBlockSum.lean ====
/-
  A general lemma on sums: a sum over the a·b rows of a matrix may be taken block by block, a blocks of b consecutive rows.
-/
import Mathlib.Algebra.BigOperators.Fin
import Mathlib.Logic.Equiv.Fin.Basic

namespace Cert.LibBlockSum

open scoped BigOperators

/-- Row j of block i of an a-by-b blocking is a row of the whole. -/
theorem lt_blocks {a b i j : ℕ} (hi : i < a) (hj : j < b) : b * i + j < a * b :=
  calc b * i + j < b * i + b := by omega
    _ = b * (i + 1) := (Nat.mul_succ b i).symm
    _ ≤ b * a := Nat.mul_le_mul_left b hi
    _ = a * b := Nat.mul_comm b a

/-- The sum over all a·b rows is the sum over the a blocks of the sums over each block's b rows. -/
theorem sum_blocks {M : Type*} [AddCommMonoid M] (a b : ℕ) (g : Fin (a * b) → M) :
    ∑ i : Fin a, ∑ j : Fin b, g ⟨b * i.val + j.val, lt_blocks i.isLt j.isLt⟩ = ∑ r : Fin (a * b), g r := by
  rw [← Equiv.sum_comp finProdFinEquiv g, Fintype.sum_prod_type]
  refine Finset.sum_congr rfl fun i _ => Finset.sum_congr rfl fun j _ => congrArg g (Fin.ext ?_)
  simp only [finProdFinEquiv_apply_val]
  omega

end Cert.LibBlockSum
-- ==== Proof.MathBlocks.lean ====
/-
  Four blocks of 1024 consecutive columns make up the 4096 columns: every column is column c' of exactly one block j,
  so a sum over all columns is the four blocks' sums added in order from zero, and a least value over all columns is the
  four blocks' least values folded in order from ⊤.  A sum of ones over the columns that satisfy a condition is the
  number of such columns.
-/
import proofs.«132504_j386547057031_2_alg».proof.Proof.Spec
import proofs.«132504_j386547057031_2_alg».proof.Proof.LibERealSum
import proofs.«132504_j386547057031_2_alg».proof.Proof.LibBlockSum

noncomputable section

namespace Cert.TripletMath

open Idealize.ShloMosaic Cert.TripletSpec

/-- Every column is column c' of some block j. -/
theorem colOf_surj (c : Fin 4096) : ∃ (j : Fin 4) (c' : Fin 1024), colOf j c' = c :=
  ⟨⟨c.val / 1024, by omega⟩, ⟨c.val % 1024, by omega⟩, Fin.ext (by simp only [colOf]; omega)⟩

/-- A sum over all columns, taken as the four blocks' sums added in order from zero. -/
theorem sum_four_blocks (g : Fin 4096 → EReal) :
    0 + (∑ c' : Fin 1024, g (colOf 0 c')) + (∑ c' : Fin 1024, g (colOf 1 c')) + (∑ c' : Fin 1024, g (colOf 2 c'))
      + (∑ c' : Fin 1024, g (colOf 3 c')) = ∑ c : Fin 4096, g c := by
  have h := Cert.LibBlockSum.sum_blocks 4 1024 (fun c : Fin (4 * 1024) => g c)
  rw [Fin.sum_univ_four] at h
  rw [zero_add]
  exact h

/-- A least value over all columns, taken as the four blocks' least values folded in order from ⊤. -/
theorem inf_four_blocks (g : Fin 4096 → EReal) :
    min (min (min (min ⊤ (Finset.univ.inf fun c' : Fin 1024 => g (colOf 0 c')))
      (Finset.univ.inf fun c' : Fin 1024 => g (colOf 1 c'))) (Finset.univ.inf fun c' : Fin 1024 => g (colOf 2 c')))
      (Finset.univ.inf fun c' : Fin 1024 => g (colOf 3 c')) = Finset.univ.inf g := by
  apply le_antisymm
  · refine Finset.le_inf fun c _ => ?_
    obtain ⟨j, c', rfl⟩ := colOf_surj c
    have hb : ∀ j : Fin 4, (Finset.univ.inf fun c' : Fin 1024 => g (colOf j c')) ≤ g (colOf j c') := fun j =>
      Finset.inf_le (f := fun c' : Fin 1024 => g (colOf j c')) (Finset.mem_univ c')
    match j with
    | ⟨0, _⟩ => exact le_trans (le_trans (le_trans (min_le_left _ _) (min_le_left _ _)) (le_trans (min_le_left _ _) (min_le_right _ _))) (hb 0)
    | ⟨1, _⟩ => exact le_trans (le_trans (le_trans (min_le_left _ _) (min_le_left _ _)) (min_le_right _ _)) (hb 1)
    | ⟨2, _⟩ => exact le_trans (le_trans (min_le_left _ _) (min_le_right _ _)) (hb 2)
    | ⟨3, _⟩ => exact le_trans (min_le_right _ _) (hb 3)
  · have hb : ∀ j : Fin 4, Finset.univ.inf g ≤ Finset.univ.inf fun c' : Fin 1024 => g (colOf j c') := fun j =>
      Finset.le_inf fun c' _ => Finset.inf_le (Finset.mem_univ (colOf j c'))
    exact le_min (le_min (le_min (le_min le_top (hb 0)) (hb 1)) (hb 2)) (hb 3)

/-- A sum of ones over the indices that satisfy a condition is the number of such indices. -/
theorem sum_ones_eq_card {ι : Type*} [Fintype ι] (P : ι → Prop) [DecidablePred P] :
    ∑ i : ι, (if P i then (1 : EReal) else 0) = ((((Finset.univ.filter fun i : ι => P i).card : ℕ) : ℝ) : EReal) := by
  have h : ∀ i : ι, (if P i then (1 : EReal) else 0) = (((if P i then (1 : ℝ) else 0 : ℝ)) : EReal) := fun i => by
    split_ifs <;> simp
  simp only [h]
  rw [← Cert.Lib.ERealSum.coe_finset_sum, Finset.sum_boole]

end Cert.TripletMath

end
-- ==== Proof.MathLoss.lean ====
/-
  The two spellings of the triplet loss agree on rows of reals with positive squared length.

  Both scalings give the same unit rows, which are rows of reals; on such rows the two band tests agree, the four
  blocks' sums, counts and least values add up to the whole row's, the count as a sum of ones is the cardinality,
  and so each row's loss, and the mean, is the same.
-/
import proofs.«132504_j386547057031_2_alg».proof.Proof.Spec
import proofs.«132504_j386547057031_2_alg».proof.Proof.MathScale
import proofs.«132504_j386547057031_2_alg».proof.Proof.MathBand
import proofs.«132504_j386547057031_2_alg».proof.Proof.MathBlocks

noncomputable section

namespace Cert.TripletMath

open Idealize.ShloMosaic Cert.TripletSpec

/-- The blocks' least values fold to the row's least value (no finiteness needed). -/
theorem accMin_eq (a p : Fin 4096 → Fin 1024 → EReal) (r : Fin 4096) : accMin a p r = minR a p r := by
  unfold accMin tMin minR
  exact inf_four_blocks (fun c : Fin 4096 => if r ≠ c then neg a p r c else ⊤)

section

variable (a p : Fin 4096 → Fin 1024 → EReal)
variable (ha : ∀ r d, ∃ t : ℝ, a r d = (t : EReal)) (hp : ∀ r d, ∃ t : ℝ, p r d = (t : EReal))

include ha hp

/-- The blocks' sums of semi-hard negative distances add up to the row's. -/
theorem accSum_eq (r : Fin 4096) : accSum a p r = sumR a p r := by
  unfold accSum tSum sumR
  have h := sum_four_blocks (fun c : Fin 4096 => if semiK a p r c then neg a p r c else 0)
  beta_reduce at h
  refine h.trans ?_
  exact Finset.sum_congr rfl fun c _ => if_congr (semiK_iff_semiR a p ha hp r c) rfl rfl

/-- The blocks' counts, as sums of ones, add up to the number of semi-hard columns. -/
theorem accCnt_eq (r : Fin 4096) : accCnt a p r = (((cntR a p r : ℕ) : ℝ) : EReal) := by
  unfold accCnt tCnt cntR
  have h := sum_four_blocks (fun c : Fin 4096 => if semiK a p r c then (1 : EReal) else 0)
  beta_reduce at h
  refine h.trans ?_
  refine Eq.trans ?_ (sum_ones_eq_card (fun c : Fin 4096 => semiR a p r c))
  exact Finset.sum_congr rfl fun c _ => if_congr (semiK_iff_semiR a p ha hp r c) rfl rfl

/-- Each row's loss is the same in both spellings. -/
theorem outK_eq_outR (r : Fin 4096) : outK a p r = outR a p r := by
  unfold outK outR
  rw [accSum_eq a p ha hp r, accCnt_eq a p ha hp r, accMin_eq a p r]
  have h1 : (0 < (((cntR a p r : ℕ) : ℝ) : EReal)) ↔ 0 < cntR a p r := by
    rw [← EReal.coe_zero, EReal.coe_lt_coe_iff, Nat.cast_pos]
  have h2 : max ((((cntR a p r : ℕ) : ℝ) : EReal)) 1 = (((max (cntR a p r) 1 : ℕ) : ℝ) : EReal) := by
    rw [Nat.cast_max, Nat.cast_one, ← EReal.coe_one]
    exact (EReal.coe_strictMono.monotone.map_max).symm
  rw [h2, if_congr h1 rfl rfl]

end

/-- The loss computed blockwise with reciprocal-square-root scaling is the loss computed over whole rows with
    division by the length, on rows of reals with positive squared length. -/
theorem loss_eq (x y : Fin 4096 → Fin 1024 → EReal) (hx : ∀ r d, ∃ t : ℝ, x r d = (t : EReal))
    (hy : ∀ r d, ∃ t : ℝ, y r d = (t : EReal)) (hxp : ∀ r, 0 < Cert.TripletSpec.sumSq x r)
    (hyp : ∀ r, 0 < Cert.TripletSpec.sumSq y r) : Cert.TripletSpec.lossK x y = Cert.TripletSpec.lossR x y := by
  unfold lossK lossR
  rw [← nrm_eq x hx hxp, ← nrm_eq y hy hyp]
  exact congrArg meanOf (funext fun r =>
    outK_eq_outR (nrmK x) (nrmK y) (nrmK_real x hx hxp) (nrmK_real y hy hyp) r)

end Cert.TripletMath

end
-- ==== Proof.PreDecode.lean ====
/-
  What the precondition says of the two input arrays.

  The precondition is the conjunction of four tests, each an "all" over an array of truth values: every entry of the
  first array has absolute value below +∞, likewise the second; every row of the first array has a sum of squares
  above zero, likewise the second.  An entry of the extended reals whose absolute value is below ⊤ is a real; the
  row test is the positivity of the row's sum of squares as it stands.
-/
import proofs.«132504_j386547057031_2_alg».proof.Proof.Gen.Pre_finite_inputs
import Idealize.ShloMosaic.Lib.ReduceAll
import Idealize.ShloMosaic.Lib.ValueIdx
import Idealize.ShloMosaic.PureOps.Ideal.Laws

noncomputable section

namespace Cert.TripletMath

open Idealize.ShloMosaic Cert.Pre_finite_inputs Cert.Pre_finite_inputs.Gen

/-- The rank-0 shape has one index. -/
instance subsingleton_scalar_idx : Subsingleton S_.Idx := ⟨fun a b => funext fun d => d.elim0⟩

/-- A truth value made from a Boolean is the word 1 exactly when the Boolean is true. -/
theorem ofBool_eq_one_iff (b : Bool) : BitVec.ofBool b = 1#1 ↔ b = true := by cases b <;> decide

/-- The word 0x7F800000 denotes +∞. -/
theorem ofBits_inf_f32 : Ideal.ofBits .f32 0x7F800000#32 = ⊤ := by simp [Ideal.ofBits, Ideal.ieee]

/-- An extended real whose absolute value is below +∞ is a real. -/
theorem real_of_abs_lt_inf (x : EReal)
    (h : Ideal.cmp .olt (max x (-x)) (Ideal.ofBits .f32 0x7F800000#32) = 1#1) : ∃ t : ℝ, x = (t : EReal) := by
  rw [ofBits_inf_f32] at h
  simp only [Ideal.cmp, ofBool_eq_one_iff, decide_eq_true_eq] at h
  induction x using EReal.rec with
  | bot => simp at h
  | top => simp at h
  | coe t => exact ⟨t, rfl⟩

/-- The finiteness test of one array: every entry is a real. -/
theorem real_of_all_finite (Z : FVec Ideal S4096x1024 .f32)
    (h : Host.reduce IntOp.andi
        (cmpf .olt (Host.absf Z)
          (broadcastInDim S4096x1024 ![] bcast_S_S4096x1024 (constant (F := Ideal) S_ .f32 0x7F800000#32)))
        (constantI S_ 1 1#1) reducesTo_S4096x1024_S_d0_1 h_S_ ValueIdx.ix0 = 1#1)
    (r : Fin 4096) (d : Fin 1024) : ∃ t : ℝ, Z (ValueIdx.ix2 r d) = (t : EReal) :=
  real_of_abs_lt_inf _ (Host.reduce_andi_all _ _ _ _ _ h (ValueIdx.ix2 r d))

/-- The host's sum of the squares along a row, from the zero word, is the row's sum of squares. -/
theorem rowSumSq_apply (Z : FVec Ideal S4096x1024 .f32) (r : Fin 4096) :
    Host.reduceAdd (F := Ideal) (mulf Z Z) (constant (F := Ideal) S_ .f32 0x00000000#32)
        reducesTo_S4096x1024_S4096_d1 h_S_ (ValueIdx.ix1 r)
      = ∑ d : Fin 1024, Z (ValueIdx.ix2 r d) * Z (ValueIdx.ix2 r d) := by
  simp only [Host.reduceAdd, Ideal.hostReduceAdd_def]
  rw [Ideal.hostReduceAdd_single reducesTo_S4096x1024_S4096_d1 (by decide)]
  rw [ValueIdx.constant_apply, Ideal.ofBits_zero_f32, zero_add]
  refine Finset.sum_congr rfl fun k _ => ?_
  exact congrArg (mulf Z Z) (funext fun a => Fin.ext (by match a with | ⟨0, _⟩ => rfl | ⟨1, _⟩ => rfl))

/-- The row test of one array: every row's sum of squares is positive. -/
theorem pos_of_all_rows (Z : FVec Ideal S4096x1024 .f32)
    (h : Host.reduce IntOp.andi
        (cmpf .ogt
          (Host.reduceAdd (F := Ideal) (mulf Z Z) (constant (F := Ideal) S_ .f32 0x00000000#32)
            reducesTo_S4096x1024_S4096_d1 h_S_)
          (broadcastInDim S4096 ![] bcast_S_S4096 (constant (F := Ideal) S_ .f32 0x00000000#32)))
        (constantI S_ 1 1#1) reducesTo_S4096_S_d0 h_S_ ValueIdx.ix0 = 1#1)
    (r : Fin 4096) : 0 < ∑ d : Fin 1024, Z (ValueIdx.ix2 r d) * Z (ValueIdx.ix2 r d) := by
  have e : Ideal.cmp .ogt
      (Host.reduceAdd (F := Ideal) (mulf Z Z) (constant (F := Ideal) S_ .f32 0x00000000#32)
        reducesTo_S4096x1024_S4096_d1 h_S_ (ValueIdx.ix1 r))
      (Ideal.ofBits .f32 0x00000000#32) = 1#1 :=
    Host.reduce_andi_all _ _ _ _ _ h (ValueIdx.ix1 r)
  rw [rowSumSq_apply, Ideal.ofBits_zero_f32] at e
  simp only [Ideal.cmp, ofBool_eq_one_iff, decide_eq_true_eq] at e
  exact e

/-- The precondition, decoded: both arrays hold reals only, and every row of each has a positive sum of squares. -/
theorem pre_decode (X Y : FVec Ideal Cert.Pre_finite_inputs.S4096x1024 .f32)
    (h : Cert.Pre_finite_inputs.fn (F := Ideal) X Y = fun _ => 1#1) :
    (∀ (r : Fin 4096) (d : Fin 1024), ∃ t : ℝ, X (ValueIdx.ix2 r d) = (t : EReal)) ∧
    (∀ (r : Fin 4096) (d : Fin 1024), ∃ t : ℝ, Y (ValueIdx.ix2 r d) = (t : EReal)) ∧
    (∀ r : Fin 4096, 0 < ∑ d : Fin 1024, X (ValueIdx.ix2 r d) * X (ValueIdx.ix2 r d)) ∧
    (∀ r : Fin 4096, 0 < ∑ d : Fin 1024, Y (ValueIdx.ix2 r d) * Y (ValueIdx.ix2 r d)) := by
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨real_of_all_finite X h1, real_of_all_finite Y h2, pos_of_all_rows X h3, pos_of_all_rows Y h4⟩

end Cert.TripletMath

end
-- ==== Proof.MathPre.lean ====
/-
  Under the precondition the two spellings of the loss agree on the two input arrays read entry by entry.
-/
import proofs.«132504_j386547057031_2_alg».proof.Proof.MathLoss
import proofs.«132504_j386547057031_2_alg».proof.Proof.PreDecode

noncomputable section

namespace Cert.TripletMath

open Idealize.ShloMosaic Cert.TripletSpec

/-- The precondition gives the four hypotheses of the agreement of the two losses. -/
theorem loss_eq_of_pre (X Y : FVec Ideal Cert.Pre_finite_inputs.S4096x1024 .f32)
    (h : Cert.Pre_finite_inputs.fn (F := Ideal) X Y = fun _ => 1#1) :
    lossK (fun (r : Fin 4096) (d : Fin 1024) => X (ValueIdx.ix2 r d)) (fun (r : Fin 4096) (d : Fin 1024) => Y (ValueIdx.ix2 r d))
      = lossR (fun (r : Fin 4096) (d : Fin 1024) => X (ValueIdx.ix2 r d)) (fun (r : Fin 4096) (d : Fin 1024) => Y (ValueIdx.ix2 r d)) := by
  obtain ⟨hx, hy, hxp, hyp⟩ := pre_decode X Y h
  exact loss_eq _ _ hx hy hxp hyp

end Cert.TripletMath

end
-- ==== Proof.RefFold.lean ====
/-
  The reference's result as a composition of named stages.

  The reference program is a straight line of 76 host operations, and its run leaves the result buffer at the fold
  of the operations' results over the launch contents.  Twenty of the operations come from the bodies of called
  functions (the two row norms, the three selections, the final clamp at zero); they are written over typed references
  and move values between a buffer's declared type and the type the function was stated at.  At literal references that
  transport is the identity, so each of them is the plain operation over the buffers' own types: `opsPlain` is the same
  list written that way, and the two lists are equal by computation.  Over `opsPlain` the fold composes the operations'
  functions directly, and the composite is, definition by definition, the last of the stages `val_main_v46`: each stage
  is one operation applied to the stages of its operands.
-/
import proofs.«132504_j386547057031_2_alg».proof.Proof.RefRunP
import proofs.«132504_j386547057031_2_alg».proof.Proof.RefReadP

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- The 76 operations, those of the called functions' bodies written over the buffers' own types. -/
abbrev opsPlain : List (HloOp τ sig (Elt F)) :=
  [ binary main_arg0 main_arg0 main_call0_v0 (mulf : (⟨S4096x1024, .f32⟩ : BufTy).Contents (Elt F) → (⟨S4096x1024, .f32⟩ : BufTy).Contents (Elt F) → (⟨S4096x1024, .f32⟩ : BufTy).Contents (Elt F)),
    nullary main_call0_cst (constant S_ .f32 0x00000000#32),
    binary main_call0_v0 main_call0_cst main_call0_v1 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_call0_v1 main_call0_v2 ((broadcastInDim S4096x1 ![0] bcast_S4096_S4096x1_0) : (⟨S4096, .f32⟩ : BufTy).Contents (Elt F) → (⟨S4096x1, .f32⟩ : BufTy).Contents (Elt F)),
    unary main_call0_v2 main_v0 (Host.sqrt : (⟨S4096x1, .f32⟩ : BufTy).Contents (Elt F) → (⟨S4096x1, .f32⟩ : BufTy).Contents (Elt F)),
    unary main_v0 main_v1 (broadcastInDim S4096x1024 ![0, 1] bcast_S4096x1_S4096x1024_0_1 : (⟨S4096x1, .f32⟩ : BufTy).Contents (Elt F) → (⟨S4096x1024, .f32⟩ : BufTy).Contents (Elt F)),
    binary main_arg0 main_v1 main_v2 (Host.divf : (⟨S4096x1024, .f32⟩ : BufTy).Contents (Elt F) → (⟨S4096x1024, .f32⟩ : BufTy).Contents (Elt F) → (⟨S4096x1024, .f32⟩ : BufTy).Contents (Elt F)),
    binary main_arg1 main_arg1 main_call1_v0 (mulf : (⟨S4096x1024, .f32⟩ : BufTy).Contents (Elt F) → (⟨S4096x1024, .f32⟩ : BufTy).Contents (Elt F) → (⟨S4096x1024, .f32⟩ : BufTy).Contents (Elt F)),
    nullary main_call1_cst (constant S_ .f32 0x00000000#32),
    binary main_call1_v0 main_call1_cst main_call1_v1 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_call1_v1 main_call1_v2 ((broadcastInDim S4096x1 ![0] bcast_S4096_S4096x1_0) : (⟨S4096, .f32⟩ : BufTy).Contents (Elt F) → (⟨S4096x1, .f32⟩ : BufTy).Contents (Elt F)),
    unary main_call1_v2 main_v3 (Host.sqrt : (⟨S4096x1, .f32⟩ : BufTy).Contents (Elt F) → (⟨S4096x1, .f32⟩ : BufTy).Contents (Elt F)),
    unary main_v3 main_v4 (broadcastInDim S4096x1024 ![0, 1] bcast_S4096x1_S4096x1024_0_1 : (⟨S4096x1, .f32⟩ : BufTy).Contents (Elt F) → (⟨S4096x1024, .f32⟩ : BufTy).Contents (Elt F)),
    binary main_arg1 main_v4 main_v5 (Host.divf : (⟨S4096x1024, .f32⟩ : BufTy).Contents (Elt F) → (⟨S4096x1024, .f32⟩ : BufTy).Contents (Elt F) → (⟨S4096x1024, .f32⟩ : BufTy).Contents (Elt F)),
    binary main_v2 main_v5 main_v6 (mulf : (⟨S4096x1024, .f32⟩ : BufTy).Contents (Elt F) → (⟨S4096x1024, .f32⟩ : BufTy).Contents (Elt F) → (⟨S4096x1024, .f32⟩ : BufTy).Contents (Elt F)),
    nullary main_cst (constant S_ .f32 0x00000000#32),
    binary main_v6 main_cst main_v7 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    nullary main_cst_0 (constant S_ .f32 0x3F800000#32),
    unary main_cst_0 main_v8 (broadcastInDim S4096 ![] bcast_S_S4096 : (⟨S_, .f32⟩ : BufTy).Contents (Elt F) → (⟨S4096, .f32⟩ : BufTy).Contents (Elt F)),
    binary main_v8 main_v7 main_v9 (subf : (⟨S4096, .f32⟩ : BufTy).Contents (Elt F) → (⟨S4096, .f32⟩ : BufTy).Contents (Elt F) → (⟨S4096, .f32⟩ : BufTy).Contents (Elt F)),
    binary main_v2 main_v5 main_v10 ((fun l r => Host.dotGeneral dot_S4096x1024_S4096x1024_S4096x4096_1_1_0_0_n_n none l r) : (⟨S4096x1024, .f32⟩ : BufTy).Contents (Elt F) → (⟨S4096x1024, .f32⟩ : BufTy).Contents (Elt F) → (⟨S4096x4096, .f32⟩ : BufTy).Contents (Elt F)),
    nullary main_cst_1 (constant S_ .f32 0x3F800000#32),
    unary main_cst_1 main_v11 (broadcastInDim S4096x4096 ![] bcast_S_S4096x4096 : (⟨S_, .f32⟩ : BufTy).Contents (Elt F) → (⟨S4096x4096, .f32⟩ : BufTy).Contents (Elt F)),
    binary main_v11 main_v10 main_v12 (subf : (⟨S4096x4096, .f32⟩ : BufTy).Contents (Elt F) → (⟨S4096x4096, .f32⟩ : BufTy).Contents (Elt F) → (⟨S4096x4096, .f32⟩ : BufTy).Contents (Elt F)),
    nullary main_v13 (iotaInDim S4096x4096 32 0),
    nullary main_v14 (iotaInDim S4096x4096 32 1),
    nullary main_c (constantI S_ 32 0#32),
    unary main_c main_v15 (broadcastInDim S4096x4096 ![] bcast_S_S4096x4096 : (⟨S_, .i32⟩ : BufTy).Contents (Elt F) → (⟨S4096x4096, .i32⟩ : BufTy).Contents (Elt F)),
    binary main_v13 main_v15 main_v16 (addi : (⟨S4096x4096, .i32⟩ : BufTy).Contents (Elt F) → (⟨S4096x4096, .i32⟩ : BufTy).Contents (Elt F) → (⟨S4096x4096, .i32⟩ : BufTy).Contents (Elt F)),
    binary main_v16 main_v14 main_v17 (cmpi .eq : (⟨S4096x4096, .i32⟩ : BufTy).Contents (Elt F) → (⟨S4096x4096, .i32⟩ : BufTy).Contents (Elt F) → (⟨S4096x4096, .i1⟩ : BufTy).Contents (Elt F)),
    unary main_v17 main_v18 (noti : (⟨S4096x4096, .i1⟩ : BufTy).Contents (Elt F) → (⟨S4096x4096, .i1⟩ : BufTy).Contents (Elt F)),
    unary main_v9 main_v19 (broadcastInDim S4096x1 ![0] bcast_S4096_S4096x1_0 : (⟨S4096, .f32⟩ : BufTy).Contents (Elt F) → (⟨S4096x1, .f32⟩ : BufTy).Contents (Elt F)),
    unary main_v19 main_v20 (broadcastInDim S4096x4096 ![0, 1] bcast_S4096x1_S4096x4096_0_1 : (⟨S4096x1, .f32⟩ : BufTy).Contents (Elt F) → (⟨S4096x4096, .f32⟩ : BufTy).Contents (Elt F)),
    binary main_v12 main_v20 main_v21 (cmpf .ogt : (⟨S4096x4096, .f32⟩ : BufTy).Contents (Elt F) → (⟨S4096x4096, .f32⟩ : BufTy).Contents (Elt F) → (⟨S4096x4096, .i1⟩ : BufTy).Contents (Elt F)),
    binary main_v18 main_v21 main_v22 (andi : (⟨S4096x4096, .i1⟩ : BufTy).Contents (Elt F) → (⟨S4096x4096, .i1⟩ : BufTy).Contents (Elt F) → (⟨S4096x4096, .i1⟩ : BufTy).Contents (Elt F)),
    nullary main_cst_2 (constant S_ .f32 0x3E99999A#32),
    unary main_cst_2 main_v23 (broadcastInDim S4096x1 ![] bcast_S_S4096x1 : (⟨S_, .f32⟩ : BufTy).Contents (Elt F) → (⟨S4096x1, .f32⟩ : BufTy).Contents (Elt F)),
    binary main_v19 main_v23 main_v24 (addf : (⟨S4096x1, .f32⟩ : BufTy).Contents (Elt F) → (⟨S4096x1, .f32⟩ : BufTy).Contents (Elt F) → (⟨S4096x1, .f32⟩ : BufTy).Contents (Elt F)),
    unary main_v24 main_v25 (broadcastInDim S4096x4096 ![0, 1] bcast_S4096x1_S4096x4096_0_1 : (⟨S4096x1, .f32⟩ : BufTy).Contents (Elt F) → (⟨S4096x4096, .f32⟩ : BufTy).Contents (Elt F)),
    binary main_v12 main_v25 main_v26 (cmpf .olt : (⟨S4096x4096, .f32⟩ : BufTy).Contents (Elt F) → (⟨S4096x4096, .f32⟩ : BufTy).Contents (Elt F) → (⟨S4096x4096, .i1⟩ : BufTy).Contents (Elt F)),
    binary main_v22 main_v26 main_v27 (andi : (⟨S4096x4096, .i1⟩ : BufTy).Contents (Elt F) → (⟨S4096x4096, .i1⟩ : BufTy).Contents (Elt F) → (⟨S4096x4096, .i1⟩ : BufTy).Contents (Elt F)),
    unary main_v27 main_v28 ((extui 32 · natLt_1_32) : (⟨S4096x4096, .i1⟩ : BufTy).Contents (Elt F) → (⟨S4096x4096, .i32⟩ : BufTy).Contents (Elt F)),
    nullary main_c_3 (constantI S_ 32 0#32),
    binary main_v28 main_c_3 main_v29 ((fun x v => Host.reduce IntOp.addi x v reducesTo_S4096x4096_S4096_d1 h_S_) : (⟨S4096x4096, .i32⟩ : BufTy).Contents (Elt F) → (⟨S_, .i32⟩ : BufTy).Contents (Elt F) → (⟨S4096, .i32⟩ : BufTy).Contents (Elt F)),
    nullary main_cst_4 (constant S_ .f32 0x00000000#32),
    unary main_cst_4 main_call2_v0 (id : (⟨S_, .f32⟩ : BufTy).Contents (Elt F) → (⟨S_, .f32⟩ : BufTy).Contents (Elt F)),
    unary main_call2_v0 main_call2_v1 ((broadcastInDim S4096x4096 ![] bcast_S_S4096x4096) : (⟨S_, .f32⟩ : BufTy).Contents (Elt F) → (⟨S4096x4096, .f32⟩ : BufTy).Contents (Elt F)),
    ternary main_v27 main_v12 main_call2_v1 main_v30 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    nullary main_cst_5 (constant S_ .f32 0x00000000#32),
    binary main_v30 main_cst_5 main_v31 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_c_6 (constantI S_ 32 1#32),
    unary main_c_6 main_v32 (broadcastInDim S4096 ![] bcast_S_S4096 : (⟨S_, .i32⟩ : BufTy).Contents (Elt F) → (⟨S4096, .i32⟩ : BufTy).Contents (Elt F)),
    binary main_v29 main_v32 main_v33 (maxsi : (⟨S4096, .i32⟩ : BufTy).Contents (Elt F) → (⟨S4096, .i32⟩ : BufTy).Contents (Elt F) → (⟨S4096, .i32⟩ : BufTy).Contents (Elt F)),
    unary main_v33 main_v34 (sitofp .f32 : (⟨S4096, .i32⟩ : BufTy).Contents (Elt F) → (⟨S4096, .f32⟩ : BufTy).Contents (Elt F)),
    binary main_v31 main_v34 main_v35 (Host.divf : (⟨S4096, .f32⟩ : BufTy).Contents (Elt F) → (⟨S4096, .f32⟩ : BufTy).Contents (Elt F) → (⟨S4096, .f32⟩ : BufTy).Contents (Elt F)),
    nullary main_cst_7 (constant S_ .f32 0x7F800000#32),
    unary main_cst_7 main_call3_v0 (id : (⟨S_, .f32⟩ : BufTy).Contents (Elt F) → (⟨S_, .f32⟩ : BufTy).Contents (Elt F)),
    unary main_call3_v0 main_call3_v1 ((broadcastInDim S4096x4096 ![] bcast_S_S4096x4096) : (⟨S_, .f32⟩ : BufTy).Contents (Elt F) → (⟨S4096x4096, .f32⟩ : BufTy).Contents (Elt F)),
    ternary main_v18 main_v12 main_call3_v1 main_v36 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    nullary main_cst_8 (constant S_ .f32 0x7F800000#32),
    binary main_v36 main_cst_8 main_v37 ((fun x v => Host.reduce FloatOps.minimumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_c_9 (constantI S_ 32 0#32),
    unary main_c_9 main_v38 (broadcastInDim S4096 ![] bcast_S_S4096 : (⟨S_, .i32⟩ : BufTy).Contents (Elt F) → (⟨S4096, .i32⟩ : BufTy).Contents (Elt F)),
    binary main_v29 main_v38 main_v39 (cmpi .sgt : (⟨S4096, .i32⟩ : BufTy).Contents (Elt F) → (⟨S4096, .i32⟩ : BufTy).Contents (Elt F) → (⟨S4096, .i1⟩ : BufTy).Contents (Elt F)),
    ternary main_v39 main_v35 main_v37 main_v40 (select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)),
    binary main_v9 main_v40 main_v41 (subf : (⟨S4096, .f32⟩ : BufTy).Contents (Elt F) → (⟨S4096, .f32⟩ : BufTy).Contents (Elt F) → (⟨S4096, .f32⟩ : BufTy).Contents (Elt F)),
    nullary main_cst_10 (constant S_ .f32 0x3E99999A#32),
    unary main_cst_10 main_v42 (broadcastInDim S4096 ![] bcast_S_S4096 : (⟨S_, .f32⟩ : BufTy).Contents (Elt F) → (⟨S4096, .f32⟩ : BufTy).Contents (Elt F)),
    binary main_v41 main_v42 main_v43 (addf : (⟨S4096, .f32⟩ : BufTy).Contents (Elt F) → (⟨S4096, .f32⟩ : BufTy).Contents (Elt F) → (⟨S4096, .f32⟩ : BufTy).Contents (Elt F)),
    nullary main_call5_cst (constant S_ .f32 0x00000000#32),
    unary main_call5_cst main_call5_v0 ((broadcastInDim S4096 ![] bcast_S_S4096) : (⟨S_, .f32⟩ : BufTy).Contents (Elt F) → (⟨S4096, .f32⟩ : BufTy).Contents (Elt F)),
    binary main_v43 main_call5_v0 main_v44 (maximumf : (⟨S4096, .f32⟩ : BufTy).Contents (Elt F) → (⟨S4096, .f32⟩ : BufTy).Contents (Elt F) → (⟨S4096, .f32⟩ : BufTy).Contents (Elt F)),
    nullary main_cst_11 (constant S_ .f32 0x00000000#32),
    binary main_v44 main_cst_11 main_v45 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_12 (constant S_ .f32 0x45800000#32),
    binary main_v45 main_cst_12 main_v46 (Host.divf : (⟨S_, .f32⟩ : BufTy).Contents (Elt F) → (⟨S_, .f32⟩ : BufTy).Contents (Elt F) → (⟨S_, .f32⟩ : BufTy).Contents (Elt F)) ]

set_option maxRecDepth 8192 in
/-- Transport along a literal reference's type equation is the identity: the two lists are one. -/
theorem ops_eq_opsPlain : (ops : List (HloOp τ sig (Elt F))) = opsPlain := rfl

set_option maxRecDepth 65536 in
set_option maxHeartbeats 30400000 in
/-- The fold of the operations' results, read at the result buffer, is the last stage at the two arguments. -/
theorem after_ops_result (V : Valuation τ sig (Elt F)) :
    after (ops (F := F)) V (Proc.devRef .tc main_v46)
      = val_main_v46 (F := F) (V (Proc.devRef .tc main_arg0)) (V (Proc.devRef .tc main_arg1)) := by
  rw [ops_eq_opsPlain]
  after_results_simp
  rfl

/-- On every device, from any memory with zero counters: every weakly fair execution of the reference terminates with
    its result buffer at the last stage of the two arguments' launch contents, and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46)
          = val_main_v46 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (after_ops_result (launchContents m c)), (h c).2⟩)
    (ValueP.run (F := F) m ρ)

end Cert.ReferenceIdeal.RefValue

end
-- ==== Proof.RefNorm.lean ====
/-
  The reference's two normalised arrays, entry by entry.

  Each argument array is divided, entry by entry, by the square root of its row's squared length: the squared length
  is the row sum of the entrywise squares from zero, kept as a column, its root taken and stretched back along the row.
  Read at entry (r, d) this is the entry divided by the root of `∑ k, z r k * z r k`, the specification's `nrmR`.
-/
import proofs.«132504_j386547057031_2_alg».proof.Proof.RefReadP
import proofs.«132504_j386547057031_2_alg».proof.Proof.Spec
import Idealize.ShloMosaic.PureOps.Ideal.Laws

noncomputable section

namespace Cert.ReferenceIdeal.RefValue

open Cert.ReferenceIdeal Cert.ReferenceIdeal.Gen Idealize.ShloMosaic Idealize.ShloMosaic.ValueIdx
open Cert.ReferenceIdeal.ReadP Cert.TripletSpec

/-- An argument array as the function of its row and column. -/
abbrev rows (Z : FVec Ideal S4096x1024 .f32) : Fin 4096 → Fin 1024 → EReal := fun r d => Z (ix2 r d)

/-- Entry `k` of the row that entry (r, d) lies in, through the column and its stretch along the row. -/
theorem idx_row_x (r : Fin 4096) (d k : Fin 1024) :
    idx_main_call0_v1 (idx_main_call0_v2 (idx_main_v1 (ix2 r d))) k = ix2 r k :=
  funext fun a => Fin.ext (by match a with | ⟨0, _⟩ => rfl | ⟨1, _⟩ => rfl)

theorem idx_row_y (r : Fin 4096) (d k : Fin 1024) :
    idx_main_call1_v1 (idx_main_call1_v2 (idx_main_v4 (ix2 r d))) k = ix2 r k :=
  funext fun a => Fin.ext (by match a with | ⟨0, _⟩ => rfl | ⟨1, _⟩ => rfl)

/-- The first argument, normalised, at entry (r, d). -/
theorem val_main_v2_at (X : FVec Ideal S4096x1024 .f32) (r : Fin 4096) (d : Fin 1024) :
    val_main_v2 (F := Ideal) X (ix2 r d) = nrmR (rows X) r d := by
  rw [val_main_v2_apply, val_main_v1_apply, val_main_v0_apply, val_main_call0_v2_apply, val_main_call0_v1_apply]
  simp only [val_main_call0_v0_apply, val_main_call0_cst_apply, idx_row_x, Ideal.hostDivf_def, Ideal.hostUnary_sqrt_def,
    Ideal.mulf_def, Ideal.ofBits_def, Ideal.ofBits_zero_f32, zero_add]
  rfl

/-- The second argument, normalised, at entry (r, d). -/
theorem val_main_v5_at (Y : FVec Ideal S4096x1024 .f32) (r : Fin 4096) (d : Fin 1024) :
    val_main_v5 (F := Ideal) Y (ix2 r d) = nrmR (rows Y) r d := by
  rw [val_main_v5_apply, val_main_v4_apply, val_main_v3_apply, val_main_call1_v2_apply, val_main_call1_v1_apply]
  simp only [val_main_call1_v0_apply, val_main_call1_cst_apply, idx_row_y, Ideal.hostDivf_def, Ideal.hostUnary_sqrt_def,
    Ideal.mulf_def, Ideal.ofBits_def, Ideal.ofBits_zero_f32, zero_add]
  rfl

end Cert.ReferenceIdeal.RefValue

end
-- ==== Proof.RefDist.lean ====
/-
  The reference's positive and negative distances, entry by entry.

  The positive distance of row r is one minus the row sum, from zero, of the entrywise product of the two normalised
  arrays; the negative distance of row r to column c is one minus entry (r, c) of the product of the first normalised
  array with the transpose of the second, a sum over the 1024 coordinates of row r of the first against row c of the
  second.  Both are the specification's `pos` and `neg` of the two normalised arrays.
-/
import proofs.«132504_j386547057031_2_alg».proof.Proof.RefNorm
import proofs.«132504_j386547057031_2_alg».proof.Proof.LibFloatWords

noncomputable section

namespace Cert.ReferenceIdeal.RefValue

open Cert.ReferenceIdeal Cert.ReferenceIdeal.Gen Idealize.ShloMosaic Idealize.ShloMosaic.ValueIdx
open Cert.ReferenceIdeal.ReadP Cert.TripletSpec

/-- The first normalised array of the two arguments, as the function of row and column. -/
abbrev nA (X : FVec Ideal S4096x1024 .f32) : Fin 4096 → Fin 1024 → EReal := nrmR (rows X)

theorem idx_pos_row (r : Fin 4096) (k : Fin 1024) : idx_main_v7 (ix1 r) k = ix2 r k :=
  funext fun a => Fin.ext (by match a with | ⟨0, _⟩ => rfl | ⟨1, _⟩ => rfl)

theorem lidx_neg (r c : Fin 4096) (k : Fin 1024) : lidx_main_v10 (ix2 r c) k = ix2 r k :=
  funext fun a => Fin.ext (by match a with | ⟨0, _⟩ => rfl | ⟨1, _⟩ => rfl)

theorem ridx_neg (r c : Fin 4096) (k : Fin 1024) : ridx_main_v10 (ix2 r c) k = ix2 c k :=
  funext fun a => Fin.ext (by match a with | ⟨0, _⟩ => rfl | ⟨1, _⟩ => rfl)

/-- The positive distance of row r. -/
theorem val_main_v9_at (X Y : FVec Ideal S4096x1024 .f32) (r : Fin 4096) :
    val_main_v9 (F := Ideal) X Y (ix1 r) = pos (nA X) (nA Y) r := by
  rw [val_main_v9_apply, val_main_v8_apply, val_main_v7_apply]
  simp only [val_main_v6_apply, val_main_cst_apply, val_main_cst_0_apply, idx_pos_row, val_main_v2_at, val_main_v5_at,
    Ideal.subf_def, Ideal.mulf_def, Ideal.ofBits_def, Ideal.ofBits_zero_f32, Cert.Lib.FloatWords.ofBits_one_f32, zero_add]
  rfl

/-- The negative distance of row r to column c. -/
theorem val_main_v12_at (X Y : FVec Ideal S4096x1024 .f32) (r c : Fin 4096) :
    val_main_v12 (F := Ideal) X Y (ix2 r c) = neg (nA X) (nA Y) r c := by
  rw [val_main_v12_apply, val_main_v11_apply, val_main_v10_apply]
  simp only [val_main_cst_1_apply, lidx_neg, ridx_neg, val_main_v2_at, val_main_v5_at, Ideal.subf_def, Ideal.ofBits_def,
    Cert.Lib.FloatWords.ofBits_one_f32]
  rfl

end Cert.ReferenceIdeal.RefValue

end
-- ==== Proof.RefBand.lean ====
/-
  The reference's two masks, entry by entry.

  The off-diagonal mask compares the row number and the column number, written as 32-bit words, for equality and
  negates the answer; 4096 is far below 2^32, so the word comparison is the comparison of the numbers.  The band mask
  is the conjunction of the off-diagonal mask with two float comparisons of the negative distance, against the row's
  positive distance and against the positive distance plus the margin (each stretched along the row from a column).
  Its bit is set exactly on the specification's semi-hard pairs `semiR`.
-/
import proofs.«132504_j386547057031_2_alg».proof.Proof.RefDist
import proofs.«132504_j386547057031_2_alg».proof.Proof.LibDiagMask
import Idealize.ShloMosaic.Lib.Affine

noncomputable section

namespace Cert.ReferenceIdeal.RefValue

open Cert.ReferenceIdeal Cert.ReferenceIdeal.Gen Idealize.ShloMosaic Idealize.ShloMosaic.ValueIdx
open Cert.ReferenceIdeal.ReadP Cert.TripletSpec

/-- The one-bit word of a Boolean is set exactly when the Boolean is true. -/
theorem ofBool_eq_one_iff (b : Bool) : BitVec.ofBool b = 1#1 ↔ b = true := by cases b <;> decide

/-- The ordered "greater than" comparison of extended reals answers one exactly when the second is below the first. -/
theorem cmp_ogt_iff (x y : EReal) : Ideal.cmp .ogt x y = 1#1 ↔ y < x := by
  show BitVec.ofBool (decide (y < x)) = 1#1 ↔ y < x
  rw [ofBool_eq_one_iff, decide_eq_true_iff]

/-- The ordered "less than" comparison answers one exactly when the first is below the second. -/
theorem cmp_olt_iff (x y : EReal) : Ideal.cmp .olt x y = 1#1 ↔ x < y := by
  show BitVec.ofBool (decide (x < y)) = 1#1 ↔ x < y
  rw [ofBool_eq_one_iff, decide_eq_true_iff]

/-- The off-diagonal mask is set exactly off the diagonal. -/
theorem val_main_v18_iff (r c : Fin 4096) : val_main_v18 (F := Ideal) (ix2 r c) = 1#1 ↔ r ≠ c := by
  rw [val_main_v18_apply, val_main_v17_apply, val_main_v16_apply, val_main_v13_apply, val_main_v14_apply,
    val_main_v15_apply, val_main_c_apply, IntOp.not_eq_one, IntOp.cmpi_eq]
  show ¬ (IntOp.addi (BitVec.ofNat 32 r.val) 0#32 = BitVec.ofNat 32 c.val) ↔ r ≠ c
  rw [show IntOp.addi (BitVec.ofNat 32 r.val) 0#32 = BitVec.ofNat 32 r.val from BitVec.add_zero _,
    DiagMask.ofNat_eq_iff (by norm_num) r c]

theorem idx_col_pos (r c : Fin 4096) : idx_main_v19 (idx_main_v20 (ix2 r c)) = ix1 r :=
  funext fun a => Fin.ext (by match a with | ⟨0, _⟩ => rfl)

theorem idx_col_posW (r c : Fin 4096) : idx_main_v19 (idx_main_v25 (ix2 r c)) = ix1 r :=
  funext fun a => Fin.ext (by match a with | ⟨0, _⟩ => rfl)

/-- The positive distance stretched along the row. -/
theorem val_main_v20_at (X Y : FVec Ideal S4096x1024 .f32) (r c : Fin 4096) :
    val_main_v20 (F := Ideal) X Y (ix2 r c) = pos (nA X) (nA Y) r := by
  rw [val_main_v20_apply, val_main_v19_apply, idx_col_pos, val_main_v9_at]

/-- The positive distance plus the margin, stretched along the row. -/
theorem val_main_v25_at (X Y : FVec Ideal S4096x1024 .f32) (r c : Fin 4096) :
    val_main_v25 (F := Ideal) X Y (ix2 r c) = pos (nA X) (nA Y) r + W := by
  rw [val_main_v25_apply, val_main_v24_apply, val_main_v19_apply, val_main_v23_apply, val_main_cst_2_apply, idx_col_posW,
    val_main_v9_at]
  rfl

/-- The band mask is set exactly on the semi-hard pairs. -/
theorem val_main_v27_iff (X Y : FVec Ideal S4096x1024 .f32) (r c : Fin 4096) :
    val_main_v27 (F := Ideal) X Y (ix2 r c) = 1#1 ↔ semiR (nA X) (nA Y) r c := by
  rw [val_main_v27_apply, val_main_v22_apply, val_main_v21_apply, val_main_v26_apply, val_main_v12_at, val_main_v20_at,
    val_main_v25_at, IntOp.andi_eq_one, IntOp.andi_eq_one, val_main_v18_iff, Ideal.cmpf_def, Ideal.cmpf_def, cmp_ogt_iff,
    cmp_olt_iff]
  unfold semiR
  exact and_assoc

end Cert.ReferenceIdeal.RefValue

end
-- ==== Proof.LibCountWord.lean ====
/-
  Counting with 32-bit words.

  A program counts the members of a finite set by adding a word that is 1 on members and 0 elsewhere, starting from the
  zero word.  Addition of words is addition modulo 2^32, so the total is the word of the set's cardinality, whatever the
  set.  When the cardinality n is below 2^31 its word read as a signed integer is n itself; then the signed maximum of
  the word with the word 1 is the word of max n 1, the word is signed-greater than the zero word exactly when 0 < n,
  and the word converted to a float is the real number n.
-/
import Idealize.ShloMosaic.PureOps.Ideal
import Idealize.ShloMosaic.PureOps.Reduce
import Idealize.ShloMosaic.Lib.Affine
import Mathlib.Data.Finset.Card

noncomputable section

namespace Cert.Lib.CountWord

open Idealize.ShloMosaic

/-- Adding the 0/1 words of a predicate over a finite set, from zero, gives the word of the number of members. -/
theorem fold_addi_indicator {ι : Type} [DecidableEq ι] (s : Finset ι) (P : ι → Prop) [DecidablePred P] :
    s.fold IntOp.addi 0#32 (fun k => if P k then 1#32 else 0#32) = BitVec.ofNat 32 (s.filter P).card := by
  induction s using Finset.induction_on with
  | empty => rfl
  | insert a s ha ih =>
    rw [Finset.fold_insert ha, ih, Finset.filter_insert]
    by_cases hP : P a
    · rw [if_pos hP, if_pos hP, Finset.card_insert_of_notMem (fun h => ha (Finset.mem_of_mem_filter a h))]
      show 1#32 + BitVec.ofNat 32 _ = BitVec.ofNat 32 (_ + 1)
      rw [BitVec.ofNat_add, BitVec.add_comm]
    · rw [if_neg hP, if_neg hP]
      exact BitVec.zero_add _

/-- Below 2^31 a number's 32-bit word, read as a signed integer, is the number. -/
theorem toInt_ofNat {n : ℕ} (hn : n < 2147483648) : (BitVec.ofNat 32 n).toInt = (n : ℤ) := by
  rw [BitVec.toInt_eq_toNat_cond, BitVec.toNat_ofNat]
  have e : n % 2 ^ 32 = n := Nat.mod_eq_of_lt (by omega)
  rw [e, if_pos (by omega)]

/-- The signed maximum with the word 1 is the word of the maximum with 1. -/
theorem maxsi_one {n : ℕ} (hn : n < 2147483648) : IntOp.maxsi (BitVec.ofNat 32 n) 1#32 = BitVec.ofNat 32 (max n 1) := by
  unfold IntOp.maxsi
  have h1 : (1#32 : BitVec 32).toInt = 1 := by decide
  by_cases h : 1 < n
  · rw [if_pos (by rw [BitVec.slt_iff_toInt_lt, h1, toInt_ofNat hn]; exact_mod_cast h), max_eq_left (by omega)]
  · rw [if_neg (by rw [BitVec.slt_iff_toInt_lt, h1, toInt_ofNat hn]; exact_mod_cast h), max_eq_right (by omega)]

/-- The word is signed-greater than the zero word exactly when the number is positive. -/
theorem cmpi_sgt_zero_iff {n : ℕ} (hn : n < 2147483648) : IntOp.cmpi .sgt (BitVec.ofNat 32 n) 0#32 = 1#1 ↔ 0 < n := by
  have h0 : (0#32 : BitVec 32).toInt = 0 := by decide
  rw [IntOp.cmpi_sgt, h0, toInt_ofNat hn]
  exact_mod_cast Iff.rfl

/-- The word converted to a float, on the extended reals, is the number. -/
theorem sitofp_ofNat {n : ℕ} (hn : n < 2147483648) :
    FloatOps.sitofp (F := Ideal) .f32 (BitVec.ofNat 32 n) = ((n : ℝ) : EReal) := by
  show (((BitVec.ofNat 32 n).toInt : ℝ) : EReal) = _
  rw [toInt_ofNat hn, Int.cast_natCast]

end Cert.Lib.CountWord

end
-- ==== Proof.RefCount.lean ====
/-
  The reference's count of semi-hard columns, row by row.

  The band mask, widened to 32-bit words (1 on the semi-hard pairs, 0 elsewhere), is added along each row from the zero
  word: the total is the word of the number `cntR` of semi-hard columns of the row.  A row has 4096 columns, so the
  count is below 2^31 and its word behaves as the number: the signed maximum with 1 is the word of `max cntR 1`, its
  conversion to a float is that number, and the signed comparison with 0 tests `0 < cntR`.
-/
import proofs.«132504_j386547057031_2_alg».proof.Proof.RefBand
import proofs.«132504_j386547057031_2_alg».proof.Proof.LibCountWord
import Idealize.ShloMosaic.PureOps.Reduce

noncomputable section

namespace Cert.ReferenceIdeal.RefValue

open Cert.ReferenceIdeal Cert.ReferenceIdeal.Gen Idealize.ShloMosaic Idealize.ShloMosaic.ValueIdx
open Cert.ReferenceIdeal.ReadP Cert.TripletSpec

/-- The shape fact of a reduction of a 4096 × 4096 array along its rows. -/
theorem red_cols : S4096x4096.Reduces [1] S4096 := by decide

/-- Row r's index with column k inserted. -/
theorem lift_cols (r k : Fin 4096) : red_cols.lift (ix1 r) k = ix2 r k :=
  funext fun a => Fin.ext (by match a with | ⟨0, _⟩ => rfl | ⟨1, _⟩ => rfl)

/-- A row has at most 4096 semi-hard columns. -/
theorem cntR_lt (a p : Fin 4096 → Fin 1024 → EReal) (r : Fin 4096) : cntR a p r < 2147483648 :=
  (Finset.card_le_univ _).trans_lt (by rw [Fintype.card_fin]; norm_num)

/-- The band mask as a 32-bit word. -/
theorem val_main_v28_at (X Y : FVec Ideal S4096x1024 .f32) (r c : Fin 4096) :
    val_main_v28 (F := Ideal) X Y (ix2 r c) = if semiR (nA X) (nA Y) r c then 1#32 else 0#32 := by
  rw [val_main_v28_apply]
  have hb : ∀ b : BitVec 1, b.setWidth 32 = if b = 1#1 then 1#32 else 0#32 := by decide
  rw [hb]
  exact if_congr (val_main_v27_iff X Y r c) rfl rfl

/-- The row's count of semi-hard columns, as a word. -/
theorem val_main_v29_at (X Y : FVec Ideal S4096x1024 .f32) (r : Fin 4096) :
    val_main_v29 (F := Ideal) X Y (ix1 r) = BitVec.ofNat 32 (cntR (nA X) (nA Y) r) := by
  unfold val_main_v29
  rw [Host.reduce_eq_fold_single IntOp.addi _ _ reducesTo_S4096x4096_S4096_d1 red_cols h_S_ (ix1 r), val_main_c_3_apply]
  refine (Finset.fold_congr (g := fun k : Fin 4096 => if semiR (nA X) (nA Y) r k then 1#32 else 0#32) fun k _ => ?_).trans ?_
  · show val_main_v28 (F := Ideal) X Y (red_cols.lift (ix1 r) k) = _
    rw [lift_cols, val_main_v28_at]
  · exact Cert.Lib.CountWord.fold_addi_indicator Finset.univ _

/-- The count clamped below at one, as a word. -/
theorem val_main_v33_at (X Y : FVec Ideal S4096x1024 .f32) (r : Fin 4096) :
    val_main_v33 (F := Ideal) X Y (ix1 r) = BitVec.ofNat 32 (max (cntR (nA X) (nA Y) r) 1) := by
  rw [val_main_v33_apply, val_main_v29_at, val_main_v32_apply, val_main_c_6_apply]
  exact Cert.Lib.CountWord.maxsi_one (cntR_lt _ _ _)

/-- The clamped count as a float. -/
theorem val_main_v34_at (X Y : FVec Ideal S4096x1024 .f32) (r : Fin 4096) :
    val_main_v34 (F := Ideal) X Y (ix1 r) = (((max (cntR (nA X) (nA Y) r) 1 : ℕ) : ℝ) : EReal) := by
  rw [val_main_v34_apply, val_main_v33_at]
  exact Cert.Lib.CountWord.sitofp_ofNat (max_lt (cntR_lt _ _ _) (by norm_num))

/-- The test "the row has a semi-hard column". -/
theorem val_main_v39_iff (X Y : FVec Ideal S4096x1024 .f32) (r : Fin 4096) :
    val_main_v39 (F := Ideal) X Y (ix1 r) = 1#1 ↔ 0 < cntR (nA X) (nA Y) r := by
  rw [val_main_v39_apply, val_main_v29_at, val_main_v38_apply, val_main_c_9_apply]
  exact Cert.Lib.CountWord.cmpi_sgt_zero_iff (cntR_lt _ _ _)

end Cert.ReferenceIdeal.RefValue

end
-- ==== Proof.LibFoldInf.lean ====
/-
  A running minimum from +∞ is the infimum.

  A program takes the least of finitely many extended reals by folding `min` over them from +∞.  That fold is the
  infimum of the family: +∞ is the infimum of the empty family, and the infimum of a family with one more member is
  the minimum of that member and the infimum of the rest.
-/
import Idealize.ShloMosaic.PureOps.Ideal.Laws
import Mathlib.Data.Finset.Lattice.Fold

noncomputable section

namespace Cert.Lib.FoldInf

open Idealize.ShloMosaic

/-- Folding the float minimum, which on the extended reals is `min`, from `⊤` over a finite family is its infimum. -/
theorem fold_minimumf_top {ι : Type} [DecidableEq ι] (s : Finset ι) (f : ι → EReal) :
    s.fold (FloatOps.minimumf (F := Ideal) (φ := .f32)) (⊤ : EReal) f = s.inf f := by
  induction s using Finset.induction_on with
  | empty => rfl
  | insert a s ha ih =>
    rw [Finset.fold_insert ha, Finset.inf_insert, ih]
    exact le_antisymm (le_inf (min_le_left _ _) (min_le_right _ _)) (le_min inf_le_left inf_le_right)

/-- The single-precision word of +∞ denotes `⊤`. -/
theorem ofBits_inf_f32 : Ideal.ofBits .f32 0x7F800000#32 = (⊤ : EReal) := by
  simp [Ideal.ofBits, Ideal.ieee]

end Cert.Lib.FoldInf

end
-- ==== Proof.RefSumMin.lean ====
/-
  The reference's sum of semi-hard negative distances and its least off-diagonal negative distance, row by row.

  The sum selects the negative distance where the band mask is set and zero elsewhere, and adds along the row from zero:
  the specification's `sumR`.  The least distance selects the negative distance off the diagonal and +∞ on it, and folds
  the minimum along the row from +∞; a running minimum from +∞ is the infimum: the specification's `minR`.
-/
import proofs.«132504_j386547057031_2_alg».proof.Proof.RefCount
import proofs.«132504_j386547057031_2_alg».proof.Proof.LibFoldInf

noncomputable section

namespace Cert.ReferenceIdeal.RefValue

open Cert.ReferenceIdeal Cert.ReferenceIdeal.Gen Idealize.ShloMosaic Idealize.ShloMosaic.ValueIdx
open Cert.ReferenceIdeal.ReadP Cert.TripletSpec

theorem idx_sum_row (r k : Fin 4096) : idx_main_v31 (ix1 r) k = ix2 r k :=
  funext fun a => Fin.ext (by match a with | ⟨0, _⟩ => rfl | ⟨1, _⟩ => rfl)

/-- The negative distance kept on the semi-hard pairs, zero elsewhere. -/
theorem val_main_v30_at (X Y : FVec Ideal S4096x1024 .f32) (r c : Fin 4096) :
    val_main_v30 (F := Ideal) X Y (ix2 r c)
      = if semiR (nA X) (nA Y) r c then neg (nA X) (nA Y) r c else 0 := by
  rw [val_main_v30_apply, val_main_call2_v1_apply, val_main_call2_v0_apply, val_main_cst_4_apply, val_main_v12_at,
    Ideal.ofBits_def, Ideal.ofBits_zero_f32]
  exact if_congr (val_main_v27_iff X Y r c) rfl rfl

/-- The row's sum of semi-hard negative distances. -/
theorem val_main_v31_at (X Y : FVec Ideal S4096x1024 .f32) (r : Fin 4096) :
    val_main_v31 (F := Ideal) X Y (ix1 r) = sumR (nA X) (nA Y) r := by
  rw [val_main_v31_apply]
  simp only [val_main_cst_5_apply, Ideal.ofBits_def, Ideal.ofBits_zero_f32, zero_add, idx_sum_row, val_main_v30_at]
  rfl

/-- The negative distance kept off the diagonal, +∞ on it. -/
theorem val_main_v36_at (X Y : FVec Ideal S4096x1024 .f32) (r c : Fin 4096) :
    val_main_v36 (F := Ideal) X Y (ix2 r c) = if r ≠ c then neg (nA X) (nA Y) r c else ⊤ := by
  rw [val_main_v36_apply, val_main_call3_v1_apply, val_main_call3_v0_apply, val_main_cst_7_apply, val_main_v12_at,
    Ideal.ofBits_def, Cert.Lib.FoldInf.ofBits_inf_f32]
  exact if_congr (val_main_v18_iff r c) rfl rfl

/-- The row's least off-diagonal negative distance. -/
theorem val_main_v37_at (X Y : FVec Ideal S4096x1024 .f32) (r : Fin 4096) :
    val_main_v37 (F := Ideal) X Y (ix1 r) = minR (nA X) (nA Y) r := by
  unfold val_main_v37
  rw [Host.reduce_eq_fold_single FloatOps.minimumf _ _ reducesTo_S4096x4096_S4096_d1 red_cols h_S_ (ix1 r),
    val_main_cst_8_apply, Ideal.ofBits_def, Cert.Lib.FoldInf.ofBits_inf_f32]
  refine (Finset.fold_congr (g := fun k : Fin 4096 => if r ≠ k then neg (nA X) (nA Y) r k else ⊤) fun k _ => ?_).trans ?_
  · show val_main_v36 (F := Ideal) X Y (red_cols.lift (ix1 r) k) = _
    rw [lift_cols, val_main_v36_at]
  · exact Cert.Lib.FoldInf.fold_minimumf_top Finset.univ _

end Cert.ReferenceIdeal.RefValue

end
-- ==== Proof.RefLoss.lean ====
/-
  The reference's result is the specification's whole-row loss.

  Row r's loss subtracts from its positive distance either the mean of its semi-hard negative distances (their sum
  divided by the count clamped below at one, chosen when the count is positive) or its least off-diagonal negative
  distance, adds the margin and clamps at zero: the specification's `outR`.  The result is the sum of the rows' losses
  from zero divided by the number of rows: `lossR` of the two argument arrays.
-/
import proofs.«132504_j386547057031_2_alg».proof.Proof.RefSumMin

noncomputable section

namespace Cert.ReferenceIdeal.RefValue

open Cert.ReferenceIdeal Cert.ReferenceIdeal.Gen Idealize.ShloMosaic Idealize.ShloMosaic.ValueIdx
open Cert.ReferenceIdeal.ReadP Cert.TripletSpec

/-- The rows of a 4096-vector are its indices. -/
def rowEquiv : Fin 4096 ≃ S4096.Idx where
  toFun := ix1
  invFun j := j 0
  left_inv _ := rfl
  right_inv j := (eq_ix1 j).symm

/-- A sum over the indices of a 4096-vector is the sum over its rows. -/
theorem sum_rows (f : S4096.Idx → EReal) : ∑ j : S4096.Idx, f j = ∑ r : Fin 4096, f (ix1 r) :=
  (Equiv.sum_comp rowEquiv f).symm

/-- Row r's loss. -/
theorem val_main_v44_at (X Y : FVec Ideal S4096x1024 .f32) (r : Fin 4096) :
    val_main_v44 (F := Ideal) X Y (ix1 r) = outR (nA X) (nA Y) r := by
  rw [val_main_v44_apply, val_main_v43_apply, val_main_v41_apply, val_main_v40_apply, val_main_v35_apply,
    val_main_v42_apply, val_main_cst_10_apply, val_main_call5_v0_apply, val_main_call5_cst_apply,
    val_main_v9_at, val_main_v31_at, val_main_v34_at, val_main_v37_at]
  simp only [Ideal.maximumf_def, Ideal.addf_def, Ideal.subf_def, Ideal.hostDivf_def, Ideal.ofBits_def,
    Ideal.ofBits_zero_f32]
  rw [show ∀ A B : EReal, Scalar.select (val_main_v39 (F := Ideal) X Y (ix1 r)) A B
        = if 0 < cntR (nA X) (nA Y) r then A else B from
      fun A B => if_congr (val_main_v39_iff X Y r) rfl rfl]
  rfl

/-- The result, at its one index. -/
theorem val_main_v46_at (X Y : FVec Ideal S4096x1024 .f32) (i : S_.Idx) :
    val_main_v46 (F := Ideal) X Y i = lossR (rows X) (rows Y) := by
  rw [val_main_v46_apply, val_main_v45_apply, val_main_cst_11_apply, val_main_cst_12_apply, sum_rows]
  simp only [val_main_v44_at, Ideal.hostDivf_def, Ideal.ofBits_def, Ideal.ofBits_zero_f32, zero_add]
  rfl

/-- **The reference's result is the whole-row loss of the two argument arrays.** -/
theorem ref_value (X Y : FVec Ideal S4096x1024 .f32) :
    val_main_v46 (F := Ideal) X Y
      = fun _ => lossR (fun r d => X (ix2 r d)) (fun r d => Y (ix2 r d)) :=
  funext fun i => val_main_v46_at X Y i

end Cert.ReferenceIdeal.RefValue

end
-- ==== Proof.lean ====
/-
  The certificate of the in-batch triplet loss with semi-hard negative mining.

  The kernel program is two regions and a host mean. The first region scales every row of the two inputs by the
  reciprocal square root of its squared length and writes, beside the two scaled arrays, the column of positive
  distances `1 - ⟨a r, p r⟩`. The second walks the 4 × 4 blocks of the distance matrix `1 - ⟨a r, p c⟩`: for each
  row it accumulates, block by block in three scratch columns, the sum and the count of the semi-hard negative
  distances (those `c ≠ r` with `0 < neg r c - pos r < W`) and the minimum of the off-diagonal ones, and after
  the last block of the row writes `max (pos r - d + W) 0` with `d` the mean of the semi-hard distances when there
  is one and the minimum otherwise. The host then averages the rows' losses.

  The frames (both float instances of the kernel program): each region's body is run case by case of its branch
  conditions, the scratch columns' contents are named point by point, and the program's run is the two regions
  and the host operations in sequence; the argument arrays are read back through that sequence unchanged.

  The value (extended reals): what the first region leaves is the rows scaled and the positive distances; what
  the second leaves, read at a row, is the blockwise loss `outK`; the reference's result, read operation by
  operation, is the whole-row loss `outR` of the rows DIVIDED by their length. Under the precondition — every
  entry finite and every row of positive squared length — scaling by the reciprocal square root is dividing by
  the square root, the band test on the difference is the two comparisons, the four blocks' sums, counts and
  minima are the whole row's, and a sum of ones is the cardinality: `lossK = lossR`.
-/
import proofs.«132504_j386547057031_2_alg».proof.Defs
import proofs.«132504_j386547057031_2_alg».proof.Proof.Gen.Kernel
import proofs.«132504_j386547057031_2_alg».proof.Proof.Gen.KernelIdeal
import proofs.«132504_j386547057031_2_alg».proof.Proof.Gen.ReferenceIdeal
import proofs.«132504_j386547057031_2_alg».proof.Proof.Gen.Pre_finite_inputs
import proofs.«132504_j386547057031_2_alg».proof.Proof.KBRun
import proofs.«132504_j386547057031_2_alg».proof.Proof.KIRun
import proofs.«132504_j386547057031_2_alg».proof.Proof.KIValueAll
import proofs.«132504_j386547057031_2_alg».proof.Proof.MathPre
import proofs.«132504_j386547057031_2_alg».proof.Proof.RefFold
import proofs.«132504_j386547057031_2_alg».proof.Proof.RefLoss
import Idealize.ShloMosaic.Adequacy
import Idealize.ShloMosaic.Init

noncomputable section

namespace Cert.Proof

open Idealize.ShloMosaic Idealize.ShloMosaic.TcCoe Idealize.SL.Sem ValueIdx

/-- The kernel program as printed runs, faults nowhere and leaves its arguments as launched. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference is a line of host operations: its run with the result dropped. -/
theorem frame_ri : Cert.frame_ReferenceIdeal := fun m ρ _ =>
  (θ_run Cert.ReferenceIdeal.defs _ _).mono (fun _ h c => (h c).2) (Cert.ReferenceIdeal.RefValue.ref_run (F := Ideal) m ρ)

/-- The idealization rewrote nothing. -/
theorem preserves : Cert.preserves_Kernel_KernelIdeal := trivial

/-- On the extended reals the kernel program ends at the blockwise loss of its argument arrays, the reference at the
    whole-row loss of its own; the arguments agree and satisfy the precondition, under which the two losses are one. -/
theorem algebraic : Cert.algebraic_KernelIdeal_ReferenceIdeal := by
  intro m ρ m' ρ' hpre hagree
  refine ⟨_, Cert.KernelIdeal.ValueAll.kernel_value m ρ, ?_⟩
  refine (θ_run Cert.ReferenceIdeal.defs _ _).mono (fun _ h c => ⟨(h c).1.trans ?_, (h c).2⟩)
    (Cert.ReferenceIdeal.RefValue.ref_run (F := Ideal) m' ρ')
  rw [(hagree c).1, (hagree c).2, Cert.ReferenceIdeal.RefValue.ref_value]
  exact congrArg (fun v : EReal => fun _ => v) (Cert.TripletMath.loss_eq_of_pre _ _ (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
